-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128 .f32) (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg17
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S256 .f32) (main_arg14 : FVec F S256 .f32) (main_arg15 : FVec F S256x128 .f32) (main_arg16 : FVec F S128 .f32) (main_arg17 : FVec F S128x1 .f32) (main_arg18 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg15
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg16 main_arg17 main_arg18 main_v63 main_v67

def fn_part2 {F : FTy → Type} [FloatOps F] (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x128 .f32) (main_arg16 : FVec F S128 .f32) (main_arg17 : FVec F S128x1 .f32) (main_arg18 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_v48 main_v49 main_v50

def fn_part1 {F : FTy → Type} [FloatOps F] (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x128 .f32) (main_arg16 : FVec F S128 .f32) (main_arg17 : FVec F S128x1 .f32) (main_arg18 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x64 .f32) (main_arg1 : IVec S2x800000 32) (main_arg2 : IVec S50000 32) (main_arg3 : FVec F S64x256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x128 .f32) (main_arg16 : FVec F S128 .f32) (main_arg17 : FVec F S128x1 .f32) (main_arg18 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x256 .f32 := Host.absf main_arg3
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x256 : Shape := ⟨2, ![1, 256]⟩
abbrev S50000x256 : Shape := ⟨2, ![50000, 256]⟩
abbrev S2000x64 : Shape := ⟨2, ![2000, 64]⟩
abbrev S2000x256 : Shape := ⟨2, ![2000, 256]⟩
abbrev S800000x256 : Shape := ⟨2, ![800000, 256]⟩
abbrev S1x128 : Shape := ⟨2, ![1, 128]⟩
abbrev S1x1 : Shape := ⟨2, ![1, 1]⟩
abbrev S50000x1 : Shape := ⟨2, ![50000, 1]⟩
abbrev S2000x1 : Shape := ⟨2, ![2000, 1]⟩
abbrev S2000x128 : Shape := ⟨2, ![2000, 128]⟩
abbrev S64x1 : Shape := ⟨2, ![64, 1]⟩

abbrev nBuf : Space → Nat
  | .hbm => 100
  | .vmem => 68
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S_, .f32⟩
  | .hbm, ⟨33, _⟩ => ⟨S50000x64, .f32⟩
  | .hbm, ⟨34, _⟩ => ⟨S800000x1, .i32⟩
  | .hbm, ⟨35, _⟩ => ⟨S50000x64, .f32⟩
  | .hbm, ⟨36, _⟩ => ⟨S1x256, .f32⟩
  | .hbm, ⟨37, _⟩ => ⟨S50000x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S50000x256, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x256, .f32⟩
  | .hbm, ⟨72, _⟩ => ⟨S_, .f32⟩
  | .hbm, ⟨73, _⟩ => ⟨S50000x256, .f32⟩
  | .hbm, ⟨74, _⟩ => ⟨S800000x1, .i32⟩
  | .hbm, ⟨75, _⟩ => ⟨S50000x256, .f32⟩
  | .hbm, ⟨76, _⟩ => ⟨S1x256, .f32⟩
  | .hbm, ⟨77, _⟩ => ⟨S50000x256, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S1x256, .f32⟩
  | .hbm, ⟨82, _⟩ => ⟨S50000x256, .f32⟩
  | .hbm, ⟨83, _⟩ => ⟨S1x128, .f32⟩
  | .hbm, ⟨84, _⟩ => ⟨S1x1, .f32⟩
  | .hbm, ⟨85, _⟩ => ⟨S50000x1, .f32⟩
  | .hbm, ⟨86, _⟩ => ⟨S_, .f32⟩
  | .hbm, ⟨87, _⟩ => ⟨S64x1, .f32⟩
  | .hbm, ⟨88, _⟩ => ⟨S50000x1, .i32⟩
  | .hbm, ⟨89, _⟩ => ⟨S64x1, .f32⟩
  | .hbm, ⟨90, _⟩ => ⟨S_, .f32⟩
  | .hbm, ⟨91, _⟩ => ⟨S50000x1, .f32⟩
  | .hbm, ⟨92, _⟩ => ⟨S_, .f32⟩
  | .hbm, ⟨93, _⟩ => ⟨S64x1, .f32⟩
  | .hbm, ⟨94, _⟩ => ⟨S50000x1, .i32⟩
  | .hbm, ⟨95, _⟩ => ⟨S64x1, .f32⟩
  | .hbm, ⟨96, _⟩ => ⟨S_, .f32⟩
  | .hbm, ⟨97, _⟩ => ⟨S64x1, .f32⟩
  | .hbm, ⟨98, _⟩ => ⟨S64x1, .f32⟩
  | .hbm, ⟨99, _⟩ => ⟨S64x1, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S2000x256, .f32⟩
  | .local _ .vmem, ⟨33, _⟩ => ⟨S2000x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S256x256, .f32⟩
  | .local _ .vmem, ⟨45, _⟩ => ⟨S1x256, .f32⟩
  | .local _ .vmem, ⟨46, _⟩ => ⟨S2000x256, .f32⟩
  | .local _ .vmem, ⟨47, _⟩ => ⟨S2000x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S1x256, .f32⟩
  | .local _ .vmem, ⟨55, _⟩ => ⟨S1x256, .f32⟩
  | .local _ .vmem, ⟨56, _⟩ => ⟨S1x256, .f32⟩
  | .local _ .vmem, ⟨57, _⟩ => ⟨S1x256, .f32⟩
  | .local _ .vmem, ⟨58, _⟩ => ⟨S2000x256, .f32⟩
  | .local _ .vmem, ⟨59, _⟩ => ⟨S2000x256, .f32⟩
  | .local _ .vmem, ⟨60, _⟩ => ⟨S2000x256, .f32⟩
  | .local _ .vmem, ⟨61, _⟩ => ⟨S2000x256, .f32⟩
  | .local _ .vmem, ⟨62, _⟩ => ⟨S256x128, .f32⟩
  | .local _ .vmem, ⟨63, _⟩ => ⟨S1x128, .f32⟩
  | .local _ .vmem, ⟨64, _⟩ => ⟨S128x1, .f32⟩
  | .local _ .vmem, ⟨65, _⟩ => ⟨S1x1, .f32⟩
  | .local _ .vmem, ⟨66, _⟩ => ⟨S2000x1, .f32⟩
  | .local _ .vmem, ⟨67, _⟩ => ⟨S2000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15_0 : Ref sig .tc := ⟨.hbm, 37, rfl⟩
abbrev main_v15_1 : Ref sig .tc := ⟨.hbm, 38, rfl⟩
abbrev main_v15_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_1 : Ref sig .tc := ⟨.hbm, 43, rfl⟩
abbrev main_v19 : Ref sig .tc := ⟨.hbm, 44, rfl⟩
abbrev main_v20 : Ref sig .tc := ⟨.hbm, 45, rfl⟩
abbrev main_c_2 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30_0 : Ref sig .tc := ⟨.hbm, 57, rfl⟩
abbrev main_v30_1 : Ref sig .tc := ⟨.hbm, 58, rfl⟩
abbrev main_v30_2 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45_0 : Ref sig .tc := ⟨.hbm, 77, rfl⟩
abbrev main_v45_1 : Ref sig .tc := ⟨.hbm, 78, rfl⟩
abbrev main_v45_2 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_7 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_8 : Ref sig .tc := ⟨.hbm, 90, rfl⟩
abbrev main_v55 : Ref sig .tc := ⟨.hbm, 91, rfl⟩
abbrev main_cst_9 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_10 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg6_0 : Ref sig .tc := ⟨.vmem, 49, rfl⟩
abbrev cc4_scratch0 : Ref sig .tc := ⟨.vmem, 50, rfl⟩
abbrev cc4_scratch1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg5_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc4_sem5_0 : DmaSem sig := 44
abbrev cc4_sem6_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v31 : BitVec 1 := Scalar.cmpi .eq arg0 c24_i32
  let v32 : BitVec 32 := Scalar.extui v31
  let c0_i32_20 : BitVec 32 := 0#32
  let v33 : BitVec 1 := Scalar.cmpi .ne v32 c0_i32_20
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v32 : BitVec 1 := Scalar.cmpi .eq arg0 c24_i32
  let v33 : BitVec 32 := Scalar.extui v32
  let c0_i32_20 : BitVec 32 := 0#32
  let v34 : BitVec 1 := Scalar.cmpi .ne v33 c0_i32_20
  v34

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v32 : BitVec 1 := Scalar.cmpi .eq arg0 c24_i32
  let v33 : BitVec 32 := Scalar.extui v32
  let c0_i32_20 : BitVec 32 := 0#32
  let v34 : BitVec 1 := Scalar.cmpi .ne v33 c0_i32_20
  v34

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  shapeCasts_S2000x256_S2000x256 : S2000x256.ShapeCasts S2000x256
  bcast_S_S50000x256 : S_.BroadcastsInDim S50000x256 (![] : Fin 0 → Fin S50000x256.rank)
  inb_S256x256_S256x256_0_0 : ∀ a, (![0, 0] : Fin 2 → Nat) a + S256x256.size a ≤ S256x256.size a
  h_S256x256 : 0 < S256x256.numel
  shapeCasts_S128_S1x128 : S128.ShapeCasts S1x128
  shapeCasts_S1_S1x1 : S1.ShapeCasts S1x1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  bcast_S_S64x1 : S_.BroadcastsInDim S64x1 (![] : Fin 0 → Fin S64x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x256_S2000x256_1_0_0_1_n_n_wf : DotDims.WF S2000x64 S64x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  scatter_S64x1_S50000x1_S50000x1_1_0_0_1_wf : ScatterDims.WF S64x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .f32 = 32 ∨ (Rect.block (s := S50000x256) S2000x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x1.size a ≤ S50000x1.size a
  hwx6_5 : ∀ i : grid6.Coords, EltTy.bits .f32 = 32 ∨ (Rect.block (s := S50000x1) S2000x1.size (cc6_transform_5 i) (hinb6_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S1x256.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S1x256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v15_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_1) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15_2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v18) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30_0) S2000x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v30_1) S1x256.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30_2) S1x256.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v30_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30_1) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30_2) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v32) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v33) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v33) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45_0) S2000x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v45_1) S1x256.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v45_2) S1x256.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v45_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45_1) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v45_2) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v46) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v47) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v48) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v48) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v49) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg17) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v50) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v51) S2000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x256 : Shape := ⟨2, ![50000, 256]⟩
abbrev S1x256 : Shape := ⟨2, ![1, 256]⟩
abbrev S800000x256 : Shape := ⟨2, ![800000, 256]⟩
abbrev S50000x128 : Shape := ⟨2, ![50000, 128]⟩
abbrev S1x128 : Shape := ⟨2, ![1, 128]⟩
abbrev S50000x1 : Shape := ⟨2, ![50000, 1]⟩
abbrev S1x1 : Shape := ⟨2, ![1, 1]⟩
abbrev S64x1 : Shape := ⟨2, ![64, 1]⟩

abbrev nBuf : Space → Nat
  | .hbm => 248
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S256x128, .f32⟩
  | 16 => ⟨S128, .f32⟩
  | 17 => ⟨S128x1, .f32⟩
  | 18 => ⟨S1, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S_, .f32⟩
  | 33 => ⟨S50000x64, .f32⟩
  | 34 => ⟨S800000x1, .i32⟩
  | 35 => ⟨S50000x64, .f32⟩
  | 36 => ⟨S50000x64, .f32⟩
  | 37 => ⟨S50000x256, .f32⟩
  | 38 => ⟨S1x256, .f32⟩
  | 39 => ⟨S50000x256, .f32⟩
  | 40 => ⟨S50000x256, .f32⟩
  | 41 => ⟨S_, .f32⟩
  | 42 => ⟨S256, .f32⟩
  | 43 => ⟨S_, .f32⟩
  | 44 => ⟨S256, .f32⟩
  | 45 => ⟨S256, .f32⟩
  | 46 => ⟨S_, .i32⟩
  | 47 => ⟨S_, .f32⟩
  | 48 => ⟨S256, .f32⟩
  | 49 => ⟨S1x256, .f32⟩
  | 50 => ⟨S_, .f32⟩
  | 51 => ⟨S1x256, .f32⟩
  | 52 => ⟨S1x256, .f32⟩
  | 53 => ⟨S50000x256, .f32⟩
  | 54 => ⟨S50000x256, .f32⟩
  | 55 => ⟨S50000x256, .f32⟩
  | 56 => ⟨S_, .f32⟩
  | 57 => ⟨S_, .f32⟩
  | 58 => ⟨S_, .f32⟩
  | 59 => ⟨S_, .f32⟩
  | 60 => ⟨S256, .f32⟩
  | 61 => ⟨S256, .f32⟩
  | 62 => ⟨S256, .f32⟩
  | 63 => ⟨S_, .f32⟩
  | 64 => ⟨S_, .i1⟩
  | 65 => ⟨S_, .f32⟩
  | 66 => ⟨S_, .f32⟩
  | 67 => ⟨S256, .f32⟩
  | 68 => ⟨S256, .f32⟩
  | 69 => ⟨S1x256, .f32⟩
  | 70 => ⟨S50000x256, .f32⟩
  | 71 => ⟨S50000x256, .f32⟩
  | 72 => ⟨S1x256, .f32⟩
  | 73 => ⟨S50000x256, .f32⟩
  | 74 => ⟨S50000x256, .f32⟩
  | 75 => ⟨S_, .f32⟩
  | 76 => ⟨S256, .f32⟩
  | 77 => ⟨S256, .f32⟩
  | 78 => ⟨S256, .f32⟩
  | 79 => ⟨S1x256, .f32⟩
  | 80 => ⟨S50000x256, .f32⟩
  | 81 => ⟨S50000x256, .f32⟩
  | 82 => ⟨S1x256, .f32⟩
  | 83 => ⟨S50000x256, .f32⟩
  | 84 => ⟨S50000x256, .f32⟩
  | 85 => ⟨S_, .f32⟩
  | 86 => ⟨S50000x256, .f32⟩
  | 87 => ⟨S50000x256, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x256, .f32⟩
  | 97 => ⟨S_, .f32⟩
  | 98 => ⟨S50000x256, .f32⟩
  | 99 => ⟨S800000x1, .i32⟩
  | 100 => ⟨S50000x256, .f32⟩
  | 101 => ⟨S50000x256, .f32⟩
  | 102 => ⟨S50000x256, .f32⟩
  | 103 => ⟨S1x256, .f32⟩
  | 104 => ⟨S50000x256, .f32⟩
  | 105 => ⟨S50000x256, .f32⟩
  | 106 => ⟨S_, .f32⟩
  | 107 => ⟨S256, .f32⟩
  | 108 => ⟨S_, .f32⟩
  | 109 => ⟨S256, .f32⟩
  | 110 => ⟨S256, .f32⟩
  | 111 => ⟨S_, .i32⟩
  | 112 => ⟨S_, .f32⟩
  | 113 => ⟨S256, .f32⟩
  | 114 => ⟨S1x256, .f32⟩
  | 115 => ⟨S_, .f32⟩
  | 116 => ⟨S1x256, .f32⟩
  | 117 => ⟨S1x256, .f32⟩
  | 118 => ⟨S50000x256, .f32⟩
  | 119 => ⟨S50000x256, .f32⟩
  | 120 => ⟨S50000x256, .f32⟩
  | 121 => ⟨S_, .f32⟩
  | 122 => ⟨S_, .f32⟩
  | 123 => ⟨S_, .f32⟩
  | 124 => ⟨S_, .f32⟩
  | 125 => ⟨S256, .f32⟩
  | 126 => ⟨S256, .f32⟩
  | 127 => ⟨S256, .f32⟩
  | _ => ⟨S50000x64, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S256, .f32⟩
  | 5 => ⟨S256, .f32⟩
  | 6 => ⟨S1x256, .f32⟩
  | 7 => ⟨S50000x256, .f32⟩
  | 8 => ⟨S50000x256, .f32⟩
  | 9 => ⟨S1x256, .f32⟩
  | 10 => ⟨S50000x256, .f32⟩
  | 11 => ⟨S50000x256, .f32⟩
  | 12 => ⟨S_, .f32⟩
  | 13 => ⟨S256, .f32⟩
  | 14 => ⟨S256, .f32⟩
  | 15 => ⟨S256, .f32⟩
  | 16 => ⟨S1x256, .f32⟩
  | 17 => ⟨S50000x256, .f32⟩
  | 18 => ⟨S50000x256, .f32⟩
  | 19 => ⟨S1x256, .f32⟩
  | 20 => ⟨S50000x256, .f32⟩
  | 21 => ⟨S50000x256, .f32⟩
  | 22 => ⟨S_, .f32⟩
  | 23 => ⟨S50000x256, .f32⟩
  | 24 => ⟨S50000x256, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x256, .f32⟩
  | 34 => ⟨S_, .f32⟩
  | 35 => ⟨S50000x256, .f32⟩
  | 36 => ⟨S800000x1, .i32⟩
  | 37 => ⟨S50000x256, .f32⟩
  | 38 => ⟨S50000x256, .f32⟩
  | 39 => ⟨S50000x256, .f32⟩
  | 40 => ⟨S1x256, .f32⟩
  | 41 => ⟨S50000x256, .f32⟩
  | 42 => ⟨S50000x256, .f32⟩
  | 43 => ⟨S_, .f32⟩
  | 44 => ⟨S256, .f32⟩
  | 45 => ⟨S_, .f32⟩
  | 46 => ⟨S256, .f32⟩
  | 47 => ⟨S256, .f32⟩
  | 48 => ⟨S_, .i32⟩
  | 49 => ⟨S_, .f32⟩
  | 50 => ⟨S256, .f32⟩
  | 51 => ⟨S1x256, .f32⟩
  | 52 => ⟨S_, .f32⟩
  | 53 => ⟨S1x256, .f32⟩
  | 54 => ⟨S1x256, .f32⟩
  | 55 => ⟨S50000x256, .f32⟩
  | 56 => ⟨S50000x256, .f32⟩
  | 57 => ⟨S50000x256, .f32⟩
  | 58 => ⟨S_, .f32⟩
  | 59 => ⟨S_, .f32⟩
  | 60 => ⟨S_, .f32⟩
  | 61 => ⟨S_, .f32⟩
  | 62 => ⟨S256, .f32⟩
  | 63 => ⟨S256, .f32⟩
  | 64 => ⟨S256, .f32⟩
  | 65 => ⟨S_, .f32⟩
  | 66 => ⟨S_, .i1⟩
  | 67 => ⟨S_, .f32⟩
  | 68 => ⟨S_, .f32⟩
  | 69 => ⟨S256, .f32⟩
  | 70 => ⟨S256, .f32⟩
  | 71 => ⟨S1x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S256, .f32⟩
  | 79 => ⟨S256, .f32⟩
  | 80 => ⟨S256, .f32⟩
  | 81 => ⟨S1x256, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x1, .f32⟩
  | 95 => ⟨S1x1, .f32⟩
  | 96 => ⟨S50000x1, .f32⟩
  | 97 => ⟨S50000x1, .f32⟩
  | 98 => ⟨S50000x1, .f32⟩
  | 99 => ⟨S50000x1, .f32⟩
  | 100 => ⟨S_, .f32⟩
  | 101 => ⟨S50000x1, .f32⟩
  | 102 => ⟨S50000x1, .f32⟩
  | 103 => ⟨S_, .f32⟩
  | 104 => ⟨S50000x1, .f32⟩
  | 105 => ⟨S50000x1, .f32⟩
  | 106 => ⟨S_, .f32⟩
  | 107 => ⟨S64x1, .f32⟩
  | 108 => ⟨S50000x1, .i32⟩
  | 109 => ⟨S64x1, .f32⟩
  | 110 => ⟨S_, .f32⟩
  | 111 => ⟨S50000x1, .f32⟩
  | 112 => ⟨S_, .f32⟩
  | 113 => ⟨S64x1, .f32⟩
  | 114 => ⟨S50000x1, .i32⟩
  | 115 => ⟨S64x1, .f32⟩
  | 116 => ⟨S_, .f32⟩
  | 117 => ⟨S64x1, .f32⟩
  | 118 => ⟨S64x1, .f32⟩
  | 119 => ⟨S64x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_c_3 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst_4 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_call1_cst : Ref sig .tc := ⟨.hbm, 85, rfl⟩
abbrev main_call1_v0 : Ref sig .tc := ⟨.hbm, 86, rfl⟩
abbrev main_v38 : Ref sig .tc := ⟨.hbm, 87, rfl⟩
abbrev main_c_5 : Ref sig .tc := ⟨.hbm, 88, rfl⟩
abbrev main_v39 : Ref sig .tc := ⟨.hbm, 89, rfl⟩
abbrev main_v40 : Ref sig .tc := ⟨.hbm, 90, rfl⟩
abbrev main_c_6 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_cst_7 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_8 : Ref sig .tc := ⟨.hbm, 106, rfl⟩
abbrev main_v54 : Ref sig .tc := ⟨.hbm, 107, rfl⟩
abbrev main_cst_9 : Ref sig .tc := ⟨.hbm, 108, rfl⟩
abbrev main_v55 : Ref sig .tc := ⟨.hbm, 109, rfl⟩
abbrev main_v56 : Ref sig .tc := ⟨.hbm, 110, rfl⟩
abbrev main_c_10 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_cst_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_cst_1 : Ref sig .tc := ⟨.hbm, 122, rfl⟩
abbrev main_call2_v8 : Ref sig .tc := ⟨.hbm, 123, rfl⟩
abbrev main_call2_cst_2 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_cst_3 : Ref sig .tc := ⟨.hbm, 128, rfl⟩
abbrev main_call2_v12 : Ref sig .tc := ⟨.hbm, 129, rfl⟩
abbrev main_call2_cst_4 : Ref sig .tc := ⟨.hbm, 130, rfl⟩
abbrev main_call2_call0_v0 : Ref sig .tc := ⟨.hbm, 131, rfl⟩
abbrev main_call2_call0_v1 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_11 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_call3_cst : Ref sig .tc := ⟨.hbm, 150, rfl⟩
abbrev main_call3_v0 : Ref sig .tc := ⟨.hbm, 151, rfl⟩
abbrev main_v73 : Ref sig .tc := ⟨.hbm, 152, rfl⟩
abbrev main_c_12 : Ref sig .tc := ⟨.hbm, 153, rfl⟩
abbrev main_v74 : Ref sig .tc := ⟨.hbm, 154, rfl⟩
abbrev main_v75 : Ref sig .tc := ⟨.hbm, 155, rfl⟩
abbrev main_c_13 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_cst_14 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_cst_15 : Ref sig .tc := ⟨.hbm, 171, rfl⟩
abbrev main_v89 : Ref sig .tc := ⟨.hbm, 172, rfl⟩
abbrev main_cst_16 : Ref sig .tc := ⟨.hbm, 173, rfl⟩
abbrev main_v90 : Ref sig .tc := ⟨.hbm, 174, rfl⟩
abbrev main_v91 : Ref sig .tc := ⟨.hbm, 175, rfl⟩
abbrev main_c_17 : Ref sig .tc := ⟨.hbm, 176, rfl⟩
abbrev main_call4_cst : Ref sig .tc := ⟨.hbm, 177, rfl⟩
abbrev main_call4_v0 : Ref sig .tc := ⟨.hbm, 178, rfl⟩
abbrev main_call4_v1 : Ref sig .tc := ⟨.hbm, 179, rfl⟩
abbrev main_call4_cst_0 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_call4_v5 : Ref sig .tc := ⟨.hbm, 184, rfl⟩
abbrev main_call4_v6 : Ref sig .tc := ⟨.hbm, 185, rfl⟩
abbrev main_call4_v7 : Ref sig .tc := ⟨.hbm, 186, rfl⟩
abbrev main_call4_cst_1 : Ref sig .tc := ⟨.hbm, 187, rfl⟩
abbrev main_call4_v8 : Ref sig .tc := ⟨.hbm, 188, rfl⟩
abbrev main_call4_cst_2 : Ref sig .tc := ⟨.hbm, 189, rfl⟩
abbrev main_call4_v9 : Ref sig .tc := ⟨.hbm, 190, rfl⟩
abbrev main_call4_v10 : Ref sig .tc := ⟨.hbm, 191, rfl⟩
abbrev main_call4_v11 : Ref sig .tc := ⟨.hbm, 192, rfl⟩
abbrev main_call4_cst_3 : Ref sig .tc := ⟨.hbm, 193, rfl⟩
abbrev main_call4_v12 : Ref sig .tc := ⟨.hbm, 194, rfl⟩
abbrev main_call4_cst_4 : Ref sig .tc := ⟨.hbm, 195, rfl⟩
abbrev main_call4_call0_v0 : Ref sig .tc := ⟨.hbm, 196, rfl⟩
abbrev main_call4_call0_v1 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_cst_18 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_call5_cst : Ref sig .tc := ⟨.hbm, 219, rfl⟩
abbrev main_call5_v0 : Ref sig .tc := ⟨.hbm, 220, rfl⟩
abbrev main_v112 : Ref sig .tc := ⟨.hbm, 221, rfl⟩
abbrev main_v113 : Ref sig .tc := ⟨.hbm, 222, rfl⟩
abbrev main_v114 : Ref sig .tc := ⟨.hbm, 223, rfl⟩
abbrev main_v115 : Ref sig .tc := ⟨.hbm, 224, rfl⟩
abbrev main_v116 : Ref sig .tc := ⟨.hbm, 225, rfl⟩
abbrev main_v117 : Ref sig .tc := ⟨.hbm, 226, rfl⟩
abbrev main_v118 : Ref sig .tc := ⟨.hbm, 227, rfl⟩
abbrev main_cst_19 : Ref sig .tc := ⟨.hbm, 228, rfl⟩
abbrev main_v119 : Ref sig .tc := ⟨.hbm, 229, rfl⟩
abbrev main_v120 : Ref sig .tc := ⟨.hbm, 230, rfl⟩
abbrev main_cst_20 : Ref sig .tc := ⟨.hbm, 231, rfl⟩
abbrev main_v121 : Ref sig .tc := ⟨.hbm, 232, rfl⟩
abbrev main_v122 : Ref sig .tc := ⟨.hbm, 233, rfl⟩
abbrev main_cst_21 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_cst_22 : Ref sig .tc := ⟨.hbm, 238, rfl⟩
abbrev main_v126 : Ref sig .tc := ⟨.hbm, 239, rfl⟩
abbrev main_cst_23 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_cst_24 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S50000_S50000x1_0 : S50000.BroadcastsInDim S50000x1 (![0] : Fin 1 → Fin S50000x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x256_S50000x256_1_0_0_1_n_n_wf : DotDims.WF S50000x64 S64x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []
  scatter_S64x1_S50000x1_S50000x1_1_0_0_1_wf : ScatterDims.WF S64x1 S50000x1 S50000x1 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

class Facts : Prop extends Facts₀ where

variable [Facts]
-- ==== Proof.Reg0Runs.lean ====
/- Region 0 (the first linear layer with its running column statistics): the body's two conditionals over the
   grid, where its windows are idle, and the body's triple in each of the three cases of the grid point — first,
   middle, last —, every buffer's final contents a named term over the skeleton's payloads. -/
import proofs.«144698_j9466107920964_1_alg».proof.Proof.Gen.KernelIdeal.Launch
import proofs.«144698_j9466107920964_1_alg».proof.Proof.Gen.KernelIdeal.Skeleton
import proofs.«144698_j9466107920964_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl

/-! ## The body's two conditionals, over the grid -/

/-- The condition of the first conditional (the accumulators are zeroed): the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 25 = 0 :=
  (by decide +kernel : ∀ t : Fin grid0.N, cond0_0 (grid0.coords t) ↔ t.val % 25 = 0)
/-- The condition of the second conditional (the mean and the variance are stored): the grid coordinate is the last. -/
abbrev cond0_1 (i : grid0.Coords) : Prop := k0_cond2 i = 1#1
/-- It holds at the last point only. -/
theorem hcond0_1 : ∀ t : Fin cfg0.N, cond0_1 (grid0.coords t) ↔ t.val % 25 = 24 :=
  (by decide +kernel : ∀ t : Fin grid0.N, cond0_1 (grid0.coords t) ↔ t.val % 25 = 24)

/-- The inputs and the rows' window are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Before the last point the mean's and the variance's windows are idle and not written back; at the last point live. -/
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

set_option maxHeartbeats 4000000 in
/-- The body at the first point: the running sums are zeroed, then the rows are stored and added into them. -/
theorem run0_A (c : Dev nD) (i : grid0.Coords)
    (arg1 : Memref sig .tc .vmem S2000x64 .f32) (harg1 : arg1.IsWhole) (arg2 : Memref sig .tc .vmem S2000x64 .f32) (harg2 : arg2.IsWhole)
    (arg3 : Memref sig .tc .vmem S64x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : cond0_0 i) (hc1 : ¬cond0_1 i)
    (x0 : Vec F S2000x64 .f32) (x1 : Vec F S2000x64 .f32) (x2 : Vec F S64x256 .f32) (x3 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay5 x0 x1 x2 x3)
            ∗ owns (c : Thread nD τ) arg8 fullShare (k0_pay6 x0 x1 x2 x3 k0_pay3) ∗ owns (c : Thread nD τ) arg9 fullShare (k0_pay7 x0 x1 x2 x3 k0_pay4)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, View.readCov_unit_zero (S := S1x256) _ hz2]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, View.readCov_unit_zero (S := S1x256) _ hz2]

set_option maxHeartbeats 4000000 in
/-- The body at a point that is neither the first nor the last: the rows are stored and added into the two running sums. -/
theorem run0_B (c : Dev nD) (i : grid0.Coords)
    (arg1 : Memref sig .tc .vmem S2000x64 .f32) (harg1 : arg1.IsWhole) (arg2 : Memref sig .tc .vmem S2000x64 .f32) (harg2 : arg2.IsWhole)
    (arg3 : Memref sig .tc .vmem S64x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : ¬cond0_0 i) (hc1 : ¬cond0_1 i)
    (x0 : Vec F S2000x64 .f32) (x1 : Vec F S2000x64 .f32) (x2 : Vec F S64x256 .f32) (x3 : Vec F S1x256 .f32) (xs8 xs9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg8 fullShare xs8 ∗ owns (c : Thread nD τ) arg9 fullShare xs9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay5 x0 x1 x2 x3)
            ∗ owns (c : Thread nD τ) arg8 fullShare (k0_pay6 x0 x1 x2 x3 xs8) ∗ owns (c : Thread nD τ) arg9 fullShare (k0_pay7 x0 x1 x2 x3 xs9)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, harg8.read_unread]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, harg9.read_unread]

set_option maxHeartbeats 4000000 in
/-- The body at the last point: the rows are stored and added into the running sums, and the mean and the variance
    are computed from the sums and stored. -/
theorem run0_C (c : Dev nD) (i : grid0.Coords)
    (arg1 : Memref sig .tc .vmem S2000x64 .f32) (harg1 : arg1.IsWhole) (arg2 : Memref sig .tc .vmem S2000x64 .f32) (harg2 : arg2.IsWhole)
    (arg3 : Memref sig .tc .vmem S64x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : ¬cond0_0 i) (hc1 : cond0_1 i)
    (x0 : Vec F S2000x64 .f32) (x1 : Vec F S2000x64 .f32) (x2 : Vec F S64x256 .f32) (x3 : Vec F S1x256 .f32) (xs8 xs9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs8 ∗ owns (c : Thread nD τ) arg9 fullShare xs9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay5 x0 x1 x2 x3)
            ∗ owns (c : Thread nD τ) arg6 fullShare (k0_pay1 (k0_pay6 x0 x1 x2 x3 xs8)) ∗ owns (c : Thread nD τ) arg7 fullShare (k0_pay2 (k0_pay6 x0 x1 x2 x3 xs8) (k0_pay7 x0 x1 x2 x3 xs9))
            ∗ owns (c : Thread nD τ) arg8 fullShare (k0_pay6 x0 x1 x2 x3 xs8) ∗ owns (c : Thread nD τ) arg9 fullShare (k0_pay7 x0 x1 x2 x3 xs9)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2]
  isplitl [H6]
  · iexists _; isplitr
    swap; · iexact H6
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, harg8.read_unread, harg9.read_unread, View.readCov_unit_zero (S := S1x256) _ hz2]
  isplitl [H7]
  · iexists _; isplitr
    swap; · iexact H7
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, harg8.read_unread, harg9.read_unread, View.readCov_unit_zero (S := S1x256) _ hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, harg8.read_unread]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, harg9.read_unread]

end Cert.KernelIdeal.Hand

end
-- ==== Proof.Reg0.lean ====
/- Region 0 (the first linear layer with its running column statistics) at the entry contents `V`: the windows'
   blocks, the running column sum and sum of squares by recursion on the point, the invariant holding the two
   accumulators at them, the proof data, the body obligation from the three case runs, and the entailments into and
   out of the region. -/
import proofs.«144698_j9466107920964_1_alg».proof.Proof.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The running column sums -/

/-- The running column sum of the rows `h` of the points below `n`: zero, then each point's block sum added. -/
def acc0S (c : Dev nD) : ℕ → Vec F S1x256 .f32
  | 0 => k0_pay3
  | n + 1 => if h : n < cfg0.N then
      k0_pay6 (iblk0 V c 0 ⟨n, h⟩) (iblk0 V c 1 ⟨n, h⟩) (iblk0 V c 2 ⟨n, h⟩) (iblk0 V c 3 ⟨n, h⟩) (acc0S c n)
    else acc0S c n

/-- The running column sum of squares of the rows `h` of the points below `n`. -/
def acc0Q (c : Dev nD) : ℕ → Vec F S1x256 .f32
  | 0 => k0_pay4
  | n + 1 => if h : n < cfg0.N then
      k0_pay7 (iblk0 V c 0 ⟨n, h⟩) (iblk0 V c 1 ⟨n, h⟩) (iblk0 V c 2 ⟨n, h⟩) (iblk0 V c 3 ⟨n, h⟩) (acc0Q c n)
    else acc0Q c n

theorem acc0S_zero (c : Dev nD) : acc0S V c 0 = k0_pay3 := rfl
theorem acc0Q_zero (c : Dev nD) : acc0Q V c 0 = k0_pay4 := rfl
theorem acc0S_succ (c : Dev nD) (t : Fin cfg0.N) :
    acc0S V c (t.val + 1) = k0_pay6 (iblk0 V c 0 t) (iblk0 V c 1 t) (iblk0 V c 2 t) (iblk0 V c 3 t) (acc0S V c t.val) := by
  rw [acc0S, dif_pos t.isLt]
theorem acc0Q_succ (c : Dev nD) (t : Fin cfg0.N) :
    acc0Q V c (t.val + 1) = k0_pay7 (iblk0 V c 0 t) (iblk0 V c 1 t) (iblk0 V c 2 t) (iblk0 V c 3 t) (acc0Q V c t.val) := by
  rw [acc0Q, dif_pos t.isLt]

/-! ## The invariant -/

/-- The two scratch operands as memrefs. -/
abbrev scM0_0 : Memref sig .tc .vmem S1x256 .f32 := Memref.whole cc0_scratch0
abbrev scM0_1 : Memref sig .tc .vmem S1x256 .f32 := Memref.whole cc0_scratch1

/-- The scoped buffers that are neither staging buffers nor this kernel's two accumulators. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The region invariant before point `n`: before the first point the two accumulators hold anything (the body zeroes
    them before reading them); afterwards the running sums of the points below `n`. Beside them the other scoped
    buffers and the generator register, untouched. -/
def Phi0 (c : Dev nD) : ℕ → sProp 𝕄
  | 0 => iprop(((∃ d, owns (c : Thread nD τ) scM0_0 fullShare d) ∗ (∃ d, owns (c : Thread nD τ) scM0_1 fullShare d)) ∗ rest0 c ∗ (∃ r, prngReg c r))
  | n + 1 => iprop((owns (c : Thread nD τ) scM0_0 fullShare (acc0S V c (n + 1)) ∗ owns (c : Thread nD τ) scM0_1 fullShare (acc0Q V c (n + 1))) ∗ rest0 c ∗ (∃ r, prngReg c r))

theorem Phi0_zero (c : Dev nD) :
    Phi0 V c 0 = iprop(((∃ d, owns (c : Thread nD τ) scM0_0 fullShare d) ∗ (∃ d, owns (c : Thread nD τ) scM0_1 fullShare d)) ∗ rest0 c ∗ (∃ r, prngReg c r)) := rfl
theorem Phi0_succ (c : Dev nD) (n : ℕ) :
    Phi0 V c (n + 1) = iprop((owns (c : Thread nD τ) scM0_0 fullShare (acc0S V c (n + 1)) ∗ owns (c : Thread nD τ) scM0_1 fullShare (acc0Q V c (n + 1))) ∗ rest0 c ∗ (∃ r, prngReg c r)) := rfl
theorem Phi0_pos (c : Dev nD) (n : ℕ) (hn : n ≠ 0) :
    Phi0 V c n = iprop((owns (c : Thread nD τ) scM0_0 fullShare (acc0S V c n) ∗ owns (c : Thread nD τ) scM0_1 fullShare (acc0Q V c n)) ∗ rest0 c ∗ (∃ r, prngReg c r)) := by
  cases n with
  | zero => exact absurd rfl hn
  | succ n => rfl

/-! ## The proof data -/

/-- The proof data of the pipeline on core `c`: the arrays as the region finds them; after the body at point `t` each
    input's buffer at its block, the rows `h` of the point, and (stored at the last point only) the mean and the
    variance computed from the running sums through the point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay5 (iblk0 V c 0 t) (iblk0 V c 1 t) (iblk0 V c 2 t) (iblk0 V c 3 t)
    | ⟨5, _⟩ => k0_pay1 (acc0S V c (t.val + 1))
    | ⟨6, _⟩ => k0_pay2 (acc0S V c (t.val + 1)) (acc0Q V c (t.val + 1))
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay5 (iblk0 V c 0 t) (iblk0 V c 1 t) (iblk0 V c 2 t) (iblk0 V c 3 t) := by dsimp only [dat0]
theorem after0_5 (c : Dev nD) (t : Fin cfg0.N) : (dat0 V c).after 5 t = k0_pay1 (acc0S V c (t.val + 1)) := by dsimp only [dat0]
theorem after0_6 (c : Dev nD) (t : Fin cfg0.N) :
    (dat0 V c).after 6 t = k0_pay2 (acc0S V c (t.val + 1)) (acc0Q V c (t.val + 1)) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem Phi0_castSucc (c : Dev nD) (t : Fin cfg0.N) : (dat0 V c).Φ t.castSucc = Phi0 V c t.val := by
  dsimp only [dat0]; simp only [Fin.coe_castSucc]
theorem Phi0_at_succ (c : Dev nD) (t : Fin cfg0.N) : (dat0 V c).Φ t.succ = Phi0 V c (t.val + 1) := by
  dsimp only [dat0]; simp only [Fin.val_succ]

/-- What the launch hands the kernel is the invariant before the first point: the scoped rest opened at the two
    accumulators. -/
theorem phi_in0_of (c : Dev nD) (P : sProp 𝕄) :
    iprop((∃ r, prngReg c r) ∗ P ∗ Pipeline.scopedRest (Ix := Unit) (Name := ℕ) (U := UR sig nD τ) (Lvl := ℕ) (Val := Elt F) spec0 c) ⊢ (dat0 V c).Φ 0 := by
  rw [show (dat0 V c).Φ 0 = Phi0 V c 0 from rfl, Phi0_zero, scopedRest0_split]
  simp only [scM0_0, scM0_1, owns_whole]
  iintro ⟨Hp, -, ⟨H0, H1⟩, Hr⟩
  isplitl [H0 H1]
  · isplitl [H0]; · iexact H0
    iexact H1
  isplitl [Hr]; · iexact Hr
  iexact Hp

/-- The invariant after the last point gives back the generator register and the scoped rest, the accumulators'
    contents forgotten. -/
theorem phi_out0_of (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = Phi0 V c 25 from rfl, Phi0_succ, scopedRest0_split]
  simp only [scM0_0, scM0_1, owns_whole]
  iintro ⟨⟨H0, H1⟩, Hr, Hp⟩
  isplitl [Hp]; · iexact Hp
  isplitl [H0 H1]
  · isplitl [H0]; · iexists _; iexact H0
    iexists _; iexact H1
  iexact Hr

/-! ## The body obligation -/

theorem leaves0_0 (c : Dev nD) (t : Fin cfg0.N) : (dat0 V c).leavesExact 0 t = owns (c : Thread nD τ) (st0_0 t) fullShare (iblk0 V c 0 t) := by
  unfold Dat.leavesExact; rw [liveAt0_0 t, after0_0]
theorem leaves0_1 (c : Dev nD) (t : Fin cfg0.N) : (dat0 V c).leavesExact 1 t = owns (c : Thread nD τ) (st0_1 t) fullShare (iblk0 V c 1 t) := by
  unfold Dat.leavesExact; rw [liveAt0_1 t, after0_1]
theorem leaves0_2 (c : Dev nD) (t : Fin cfg0.N) : (dat0 V c).leavesExact 2 t = owns (c : Thread nD τ) (st0_2 t) fullShare (iblk0 V c 2 t) := by
  unfold Dat.leavesExact; rw [liveAt0_2 t, after0_2]
theorem leaves0_3 (c : Dev nD) (t : Fin cfg0.N) : (dat0 V c).leavesExact 3 t = owns (c : Thread nD τ) (st0_3 t) fullShare (iblk0 V c 3 t) := by
  unfold Dat.leavesExact; rw [liveAt0_3 t, after0_3]
theorem leaves0_4 (c : Dev nD) (t : Fin cfg0.N) :
    (dat0 V c).leavesExact 4 t = owns (c : Thread nD τ) (st0_4 t) fullShare (k0_pay5 (iblk0 V c 0 t) (iblk0 V c 1 t) (iblk0 V c 2 t) (iblk0 V c 3 t)) := by
  unfold Dat.leavesExact; rw [liveAt0_4 t, after0_4]
theorem leaves0_5_idle (c : Dev nD) (t : Fin cfg0.N) (h : ¬cond0_1 (grid0.coords t)) :
    (dat0 V c).leavesExact 5 t = iprop(∃ d, owns (c : Thread nD τ) (st0_5 t) fullShare ((dat0 V c).before 5 t d)) :=
  Dat.leavesExact_idle (dat0 V c) 5 t (idleAt0_5 t h) (noFlush0_5 t h)
theorem leaves0_6_idle (c : Dev nD) (t : Fin cfg0.N) (h : ¬cond0_1 (grid0.coords t)) :
    (dat0 V c).leavesExact 6 t = iprop(∃ d, owns (c : Thread nD τ) (st0_6 t) fullShare ((dat0 V c).before 6 t d)) :=
  Dat.leavesExact_idle (dat0 V c) 6 t (idleAt0_6 t h) (noFlush0_6 t h)
theorem leaves0_5_live (c : Dev nD) (t : Fin cfg0.N) (h : cond0_1 (grid0.coords t)) :
    (dat0 V c).leavesExact 5 t = owns (c : Thread nD τ) (st0_5 t) fullShare (k0_pay1 (acc0S V c (t.val + 1))) := by
  unfold Dat.leavesExact; rw [liveAt0_5 t h, after0_5]
theorem leaves0_6_live (c : Dev nD) (t : Fin cfg0.N) (h : cond0_1 (grid0.coords t)) :
    (dat0 V c).leavesExact 6 t = owns (c : Thread nD τ) (st0_6 t) fullShare (k0_pay2 (acc0S V c (t.val + 1)) (acc0Q V c (t.val + 1))) := by
  unfold Dat.leavesExact; rw [liveAt0_6 t h, after0_6]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at the first point. -/
theorem sound_body0_A (c : Dev nD) (t : Fin cfg0.N) (h0 : t.val % 25 = 0) (h1 : ¬t.val % 25 = 24) :
    bodyPre0 V c t ⊢ wp frame (wpE (defs₀ (F := F)) Variants.none c none) Set.univ (bodyAt0 t) (fun _ => bodyPost0 V c t) := by
  have hN : t.val < 25 := lt_of_lt_of_eq t.isLt (show cfg0.N = 25 from N_0)
  have hz : t.val = 0 := by omega
  unfold bodyPre0 bodyPost0 bodyAt0
  simp only [before0_0, before0_1, before0_2, before0_3]
  rw [show (dat0 V c).owesAt () t.succ = (dat0 V c).owesAt () t.castSucc from rfl]
  rw [Phi0_castSucc, Phi0_at_succ, Phi0_succ, leaves0_0, leaves0_1, leaves0_2, leaves0_3, leaves0_4]
  rw [acc0S_succ V c t, acc0Q_succ V c t]
  rw [leaves0_5_idle V c t (fun h => h1 ((hcond0_1 t).mp h)), leaves0_6_idle V c t (fun h => h1 ((hcond0_1 t).mp h))]
  rw [show Phi0 V c t.val = Phi0 V c 0 from by rw [hz], Phi0_zero]
  rw [show acc0S V c t.val = k0_pay3 from by rw [hz]; rfl, show acc0Q V c t.val = k0_pay4 from by rw [hz]; rfl]
  iintro ⟨⟨⟨HS8, HS9⟩, Hrest, Hg⟩, Ho, ⟨%d0, H0⟩, ⟨%d1, H1⟩, ⟨%d2, H2⟩, ⟨%d3, H3⟩, ⟨%d4, H4⟩, H5, H6⟩
  iapply (run0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) Set.univ _)
  isplitl [H0]; · iexact H0
  isplitl [H1]; · iexact H1
  isplitl [H2]; · iexact H2
  isplitl [H3]; · iexact H3
  isplitl [H4]; · iexists _; iexact H4
  isplitl [HS8]; · iexact HS8
  isplitl [HS9]; · iexact HS9
  iintro ⟨H0, H1, H2, H3, H4, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at a point that is neither the first nor the last. -/
theorem sound_body0_B (c : Dev nD) (t : Fin cfg0.N) (h0 : ¬t.val % 25 = 0) (h1 : ¬t.val % 25 = 24) :
    bodyPre0 V c t ⊢ wp frame (wpE (defs₀ (F := F)) Variants.none c none) Set.univ (bodyAt0 t) (fun _ => bodyPost0 V c t) := by
  have hN : t.val < 25 := lt_of_lt_of_eq t.isLt (show cfg0.N = 25 from N_0)
  have hz : t.val ≠ 0 := by omega
  unfold bodyPre0 bodyPost0 bodyAt0
  simp only [before0_0, before0_1, before0_2, before0_3]
  rw [show (dat0 V c).owesAt () t.succ = (dat0 V c).owesAt () t.castSucc from rfl]
  rw [Phi0_castSucc, Phi0_at_succ, Phi0_succ, leaves0_0, leaves0_1, leaves0_2, leaves0_3, leaves0_4]
  rw [acc0S_succ V c t, acc0Q_succ V c t]
  rw [leaves0_5_idle V c t (fun h => h1 ((hcond0_1 t).mp h)), leaves0_6_idle V c t (fun h => h1 ((hcond0_1 t).mp h))]
  rw [Phi0_pos V c t.val hz]
  iintro ⟨⟨⟨HS8, HS9⟩, Hrest, Hg⟩, Ho, ⟨%d0, H0⟩, ⟨%d1, H1⟩, ⟨%d2, H2⟩, ⟨%d3, H3⟩, ⟨%d4, H4⟩, H5, H6⟩
  iapply (run0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ Set.univ _)
  isplitl [H0]; · iexact H0
  isplitl [H1]; · iexact H1
  isplitl [H2]; · iexact H2
  isplitl [H3]; · iexact H3
  isplitl [H4]; · iexists _; iexact H4
  isplitl [HS8]; · iexact HS8
  isplitl [HS9]; · iexact HS9
  iintro ⟨H0, H1, H2, H3, H4, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at the last point. -/
theorem sound_body0_C (c : Dev nD) (t : Fin cfg0.N) (h0 : ¬t.val % 25 = 0) (h1 : t.val % 25 = 24) :
    bodyPre0 V c t ⊢ wp frame (wpE (defs₀ (F := F)) Variants.none c none) Set.univ (bodyAt0 t) (fun _ => bodyPost0 V c t) := by
  have hN : t.val < 25 := lt_of_lt_of_eq t.isLt (show cfg0.N = 25 from N_0)
  have hz : t.val ≠ 0 := by omega
  unfold bodyPre0 bodyPost0 bodyAt0
  simp only [before0_0, before0_1, before0_2, before0_3]
  rw [show (dat0 V c).owesAt () t.succ = (dat0 V c).owesAt () t.castSucc from rfl]
  rw [Phi0_castSucc, Phi0_at_succ, Phi0_succ, leaves0_0, leaves0_1, leaves0_2, leaves0_3, leaves0_4]
  rw [acc0S_succ V c t, acc0Q_succ V c t]
  rw [leaves0_5_live V c t ((hcond0_1 t).mpr h1), leaves0_6_live V c t ((hcond0_1 t).mpr h1)]
  rw [acc0S_succ V c t, acc0Q_succ V c t]
  rw [Phi0_pos V c t.val hz]
  iintro ⟨⟨⟨HS8, HS9⟩, Hrest, Hg⟩, Ho, ⟨%d0, H0⟩, ⟨%d1, H1⟩, ⟨%d2, H2⟩, ⟨%d3, H3⟩, ⟨%d4, H4⟩, ⟨%d5, H5⟩, ⟨%d6, H6⟩⟩
  iapply (run0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS8]; · iexact HS8
  isplitl [HS9]; · iexact HS9
  iintro ⟨H0, H1, H2, H3, H4, H5, H6, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point: by the point's place in the grid. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 25 := lt_of_lt_of_eq t.isLt (show cfg0.N = 25 from N_0)
  by_cases h0 : t.val % 25 = 0
  · exact sound_body0_A V c t h0 (by omega)
  · by_cases h1 : t.val % 25 = 24
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the region -/

/-- `phi_in0_of` in the shape a region record asks: the generator register, the (empty) prefetched tables and the
    scoped rest make the invariant before the first point. -/
theorem phi_in0 (c : Dev nD) :
    iprop((∃ r, prngReg c r) ∗ Pipeline.prefHeld (pcfgs (F := F) 0).pre c (fun _ => fullShare) ((cfgs 0).toPCfg_adm (Val := Elt F)).1
        ∗ Pipeline.scopedRest (Ix := Unit) (Name := ℕ) (U := UR sig nD τ) (Lvl := ℕ) (Val := Elt F) spec0 c) ⊢ (dat0 V c).Φ 0 :=
  phi_in0_of V c _

/-- `phi_out0_of` in the shape a region record asks, for a kernel with no semaphore of its own. -/
theorem phi_out0 (c : Dev nD) :
    (dat0 V c).Φ (Fin.last cfg0.N) ⊢ iprop((∃ r, prngReg c r) ∗ Pipeline.ownSems0 (fun k : PEmpty => k.elim) c
        ∗ Pipeline.scopedRest (Ix := Unit) (Name := ℕ) (U := UR sig nD τ) (Lvl := ℕ) (Val := Elt F) spec0 c) := by
  rw [Pipeline.ownSems0_none]
  refine (phi_out0_of V c).trans ?_
  iintro ⟨Hp, Hr⟩
  isplitl [Hp]; · iexact Hp
  isplitr; · iempintro
  iexact Hr

end Cert.KernelIdeal.Hand

end
-- ==== Proof.Reg1.lean ====
/- Region 1: the body of `cc1_kernel` at the contents the region is entered with. Each input window's staging
   buffer holds its block at every grid point; the one output window's buffer is read once (the value is not used)
   and then stored whole, so after the body it holds the stored value, a function of the input blocks alone. -/
import proofs.«144698_j9466107920964_1_alg».proof.Proof.Gen.KernelIdeal.Launch
import proofs.«144698_j9466107920964_1_alg».proof.Proof.Gen.KernelIdeal.Skeleton
import proofs.«144698_j9466107920964_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched
    the block index has not moved, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: where it is not fetched
    the block index has not moved, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: where it is not fetched
    the block index has not moved, and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not: where it is not fetched
    the block index has not moved, and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not: where it is not fetched
    the block index has not moved, and the body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_S2000x256 : Rect S2000x256 := Rect.unit (s := S2000x256) ![0, 0] S2000x256.size inb_S2000x256_S2000x256_0_0
abbrev r1_S1x256 : Rect S1x256 := Rect.unit (s := S1x256) ![0, 0] S1x256.size inb_S1x256_S1x256_0_0

/-! ## What the body leaves in the output window's buffer -/

/-- Window 5's staging buffer after the body, from the input windows' blocks: the one store, of the whole block. -/
def out1_5 (x0 : Vec F S2000x256 .f32) (x1 : Vec F S1x256 .f32) (x2 : Vec F S1x256 .f32) (x3 : Vec F S1x256 .f32) (x4 : Vec F S1x256 .f32) : Vec F S2000x256 .f32 :=
  View.canon [⟨r1_S2000x256, k1_pay1 (View.ld x0 r1_S2000x256) (View.ld x1 r1_S1x256) (View.ld x2 r1_S1x256) (View.ld x3 r1_S1x256) (View.ld x4 r1_S1x256)⟩]

/-- The store covers the buffer. -/
theorem cover1_5 (p0 : Vec F S2000x256 .f32) (y : S2000x256.Idx) :
    ∃ pc ∈ ([⟨r1_S2000x256, p0⟩] : List (View.Piece (Elt F) S2000x256 .f32)), y ∈ pc.1.set :=
  View.cover_of_tiled [⟨r1_S2000x256, p0⟩] S2000x256.size (by rfl) y

/-- The offsets of every access are zero. -/
theorem zeros_reg1 : (![0, 0] : Fin 2 → ℕ) = fun _ => 0 := funext fun a => by fin_cases a <;> rfl

/-- A whole-buffer load reads the buffer and the one whole-buffer store leaves its payload: the output's buffer after
    the body is the payload at the input blocks. -/
theorem out1_5_eq (x0 : Vec F S2000x256 .f32) (x1 : Vec F S1x256 .f32) (x2 : Vec F S1x256 .f32) (x3 : Vec F S1x256 .f32) (x4 : Vec F S1x256 .f32) :
    out1_5 x0 x1 x2 x3 x4 = k1_pay1 x0 x1 x2 x3 x4 := by
  unfold out1_5
  rw [View.canon_unit_zero (S := S2000x256) zeros_reg1 inb_S2000x256_S2000x256_0_0,
    View.ld_unit_zero (S := S2000x256) zeros_reg1 inb_S2000x256_S2000x256_0_0 x0,
    View.ld_unit_zero (S := S1x256) zeros_reg1 inb_S1x256_S1x256_0_0 x1,
    View.ld_unit_zero (S := S1x256) zeros_reg1 inb_S1x256_S1x256_0_0 x2,
    View.ld_unit_zero (S := S1x256) zeros_reg1 inb_S1x256_S1x256_0_0 x3,
    View.ld_unit_zero (S := S1x256) zeros_reg1 inb_S1x256_S1x256_0_0 x4]

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and the output's at `out1_5` of the input blocks; the invariant keeps the scoped rest
    and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.Reg2Runs.lean ====
/- Region 2 (the second linear layer with its running column statistics): the body's two conditionals over the
   grid, where its windows are idle, and the body's triple in each of the three cases of the grid point — first,
   middle, last —, every buffer's final contents a named term over the skeleton's payloads. -/
import proofs.«144698_j9466107920964_1_alg».proof.Proof.Gen.KernelIdeal.Launch
import proofs.«144698_j9466107920964_1_alg».proof.Proof.Gen.KernelIdeal.Skeleton
import proofs.«144698_j9466107920964_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«144698_j9466107920964_1_alg».proof.Proof.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two conditionals, over the grid -/

/-- The condition of the first conditional (the accumulators are zeroed): the grid coordinate is zero. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 25 = 0 :=
  (by decide +kernel : ∀ t : Fin grid2.N, cond2_0 (grid2.coords t) ↔ t.val % 25 = 0)
/-- The condition of the second conditional (the mean and the variance are stored): the grid coordinate is the last. -/
abbrev cond2_1 (i : grid2.Coords) : Prop := k2_cond2 i = 1#1
/-- It holds at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

/-- The inputs and the rows' window are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Before the last point the mean's and the variance's windows are idle and not written back; at the last point live. -/
theorem idleAt2_5 : ∀ t : Fin cfg2.N, ¬cond2_1 (grid2.coords t) → cfg2.idle 5 (grid2.coords t) = true := by decide +kernel
theorem idleAt2_6 : ∀ t : Fin cfg2.N, ¬cond2_1 (grid2.coords t) → cfg2.idle 6 (grid2.coords t) = true := by decide +kernel
theorem noFlush2_5 : ∀ t : Fin cfg2.N, ¬cond2_1 (grid2.coords t) → (cfg2.win 5).flush t = false := by decide +kernel
theorem noFlush2_6 : ∀ t : Fin cfg2.N, ¬cond2_1 (grid2.coords t) → (cfg2.win 6).flush t = false := by decide +kernel
theorem liveAt2_5 : ∀ t : Fin cfg2.N, cond2_1 (grid2.coords t) → cfg2.idle 5 (grid2.coords t) = false := by decide +kernel
theorem liveAt2_6 : ∀ t : Fin cfg2.N, cond2_1 (grid2.coords t) → cfg2.idle 6 (grid2.coords t) = false := by decide +kernel

set_option maxHeartbeats 4000000 in
/-- The body at the first point: the running sums are zeroed, then the rows are stored and added into them. -/
theorem run2_A (c : Dev nD) (i : grid2.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : cond2_0 i) (hc1 : ¬cond2_1 i)
    (x0 : Vec F S2000x256 .f32) (x1 : Vec F S2000x256 .f32) (x2 : Vec F S256x256 .f32) (x3 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k2_pay5 x0 x1 x2 x3)
            ∗ owns (c : Thread nD τ) arg8 fullShare (k2_pay6 x0 x1 x2 x3 k2_pay3) ∗ owns (c : Thread nD τ) arg9 fullShare (k2_pay7 x0 x1 x2 x3 k2_pay4)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, View.readCov_unit_zero (S := S1x256) _ hz2]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, View.readCov_unit_zero (S := S1x256) _ hz2]

set_option maxHeartbeats 4000000 in
/-- The body at a point that is neither the first nor the last: the rows are stored and added into the two running sums. -/
theorem run2_B (c : Dev nD) (i : grid2.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : ¬cond2_0 i) (hc1 : ¬cond2_1 i)
    (x0 : Vec F S2000x256 .f32) (x1 : Vec F S2000x256 .f32) (x2 : Vec F S256x256 .f32) (x3 : Vec F S1x256 .f32) (xs8 xs9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg8 fullShare xs8 ∗ owns (c : Thread nD τ) arg9 fullShare xs9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k2_pay5 x0 x1 x2 x3)
            ∗ owns (c : Thread nD τ) arg8 fullShare (k2_pay6 x0 x1 x2 x3 xs8) ∗ owns (c : Thread nD τ) arg9 fullShare (k2_pay7 x0 x1 x2 x3 xs9)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg9.read_unread]

set_option maxHeartbeats 4000000 in
/-- The body at the last point: the rows are stored and added into the running sums, and the mean and the variance
    are computed from the sums and stored. -/
theorem run2_C (c : Dev nD) (i : grid2.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : ¬cond2_0 i) (hc1 : cond2_1 i)
    (x0 : Vec F S2000x256 .f32) (x1 : Vec F S2000x256 .f32) (x2 : Vec F S256x256 .f32) (x3 : Vec F S1x256 .f32) (xs8 xs9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs8 ∗ owns (c : Thread nD τ) arg9 fullShare xs9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k2_pay5 x0 x1 x2 x3)
            ∗ owns (c : Thread nD τ) arg6 fullShare (k2_pay1 (k2_pay6 x0 x1 x2 x3 xs8)) ∗ owns (c : Thread nD τ) arg7 fullShare (k2_pay2 (k2_pay6 x0 x1 x2 x3 xs8) (k2_pay7 x0 x1 x2 x3 xs9))
            ∗ owns (c : Thread nD τ) arg8 fullShare (k2_pay6 x0 x1 x2 x3 xs8) ∗ owns (c : Thread nD τ) arg9 fullShare (k2_pay7 x0 x1 x2 x3 xs9)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2]
  isplitl [H6]
  · iexists _; isplitr
    swap; · iexact H6
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread, harg9.read_unread, View.readCov_unit_zero (S := S1x256) _ hz2]
  isplitl [H7]
  · iexists _; isplitr
    swap; · iexact H7
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread, harg9.read_unread, View.readCov_unit_zero (S := S1x256) _ hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg9.read_unread]

end Cert.KernelIdeal.Hand

end
-- ==== Proof.Reg2.lean ====
/- Region 2 (the second linear layer with its running column statistics) at the entry contents `V`: the windows'
   blocks, the running column sum and sum of squares by recursion on the point, the invariant holding the two
   accumulators at them, the proof data, the body obligation from the three case runs, and the entailments into and
   out of the region. -/
import proofs.«144698_j9466107920964_1_alg».proof.Proof.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The running column sums -/

/-- The running column sum of the rows `h` of the points below `n`: zero, then each point's block sum added. -/
def acc2S (c : Dev nD) : ℕ → Vec F S1x256 .f32
  | 0 => k2_pay3
  | n + 1 => if h : n < cfg2.N then
      k2_pay6 (iblk2 V c 0 ⟨n, h⟩) (iblk2 V c 1 ⟨n, h⟩) (iblk2 V c 2 ⟨n, h⟩) (iblk2 V c 3 ⟨n, h⟩) (acc2S c n)
    else acc2S c n

/-- The running column sum of squares of the rows `h` of the points below `n`. -/
def acc2Q (c : Dev nD) : ℕ → Vec F S1x256 .f32
  | 0 => k2_pay4
  | n + 1 => if h : n < cfg2.N then
      k2_pay7 (iblk2 V c 0 ⟨n, h⟩) (iblk2 V c 1 ⟨n, h⟩) (iblk2 V c 2 ⟨n, h⟩) (iblk2 V c 3 ⟨n, h⟩) (acc2Q c n)
    else acc2Q c n

theorem acc2S_zero (c : Dev nD) : acc2S V c 0 = k2_pay3 := rfl
theorem acc2Q_zero (c : Dev nD) : acc2Q V c 0 = k2_pay4 := rfl
theorem acc2S_succ (c : Dev nD) (t : Fin cfg2.N) :
    acc2S V c (t.val + 1) = k2_pay6 (iblk2 V c 0 t) (iblk2 V c 1 t) (iblk2 V c 2 t) (iblk2 V c 3 t) (acc2S V c t.val) := by
  rw [acc2S, dif_pos t.isLt]
theorem acc2Q_succ (c : Dev nD) (t : Fin cfg2.N) :
    acc2Q V c (t.val + 1) = k2_pay7 (iblk2 V c 0 t) (iblk2 V c 1 t) (iblk2 V c 2 t) (iblk2 V c 3 t) (acc2Q V c t.val) := by
  rw [acc2Q, dif_pos t.isLt]

/-! ## The invariant -/

/-- The two scratch operands as memrefs. -/
abbrev scM2_0 : Memref sig .tc .vmem S1x256 .f32 := Memref.whole cc2_scratch0
abbrev scM2_1 : Memref sig .tc .vmem S1x256 .f32 := Memref.whole cc2_scratch1

/-- The scoped buffers that are neither staging buffers nor this kernel's two accumulators. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The region invariant before point `n`: before the first point the two accumulators hold anything (the body zeroes
    them before reading them); afterwards the running sums of the points below `n`. Beside them the other scoped
    buffers and the generator register, untouched. -/
def Phi2 (c : Dev nD) : ℕ → sProp 𝕄
  | 0 => iprop(((∃ d, owns (c : Thread nD τ) scM2_0 fullShare d) ∗ (∃ d, owns (c : Thread nD τ) scM2_1 fullShare d)) ∗ rest2 c ∗ (∃ r, prngReg c r))
  | n + 1 => iprop((owns (c : Thread nD τ) scM2_0 fullShare (acc2S V c (n + 1)) ∗ owns (c : Thread nD τ) scM2_1 fullShare (acc2Q V c (n + 1))) ∗ rest2 c ∗ (∃ r, prngReg c r))

theorem Phi2_zero (c : Dev nD) :
    Phi2 V c 0 = iprop(((∃ d, owns (c : Thread nD τ) scM2_0 fullShare d) ∗ (∃ d, owns (c : Thread nD τ) scM2_1 fullShare d)) ∗ rest2 c ∗ (∃ r, prngReg c r)) := rfl
theorem Phi2_succ (c : Dev nD) (n : ℕ) :
    Phi2 V c (n + 1) = iprop((owns (c : Thread nD τ) scM2_0 fullShare (acc2S V c (n + 1)) ∗ owns (c : Thread nD τ) scM2_1 fullShare (acc2Q V c (n + 1))) ∗ rest2 c ∗ (∃ r, prngReg c r)) := rfl
theorem Phi2_pos (c : Dev nD) (n : ℕ) (hn : n ≠ 0) :
    Phi2 V c n = iprop((owns (c : Thread nD τ) scM2_0 fullShare (acc2S V c n) ∗ owns (c : Thread nD τ) scM2_1 fullShare (acc2Q V c n)) ∗ rest2 c ∗ (∃ r, prngReg c r)) := by
  cases n with
  | zero => exact absurd rfl hn
  | succ n => rfl

/-! ## The proof data -/

/-- The proof data of the pipeline on core `c`: the arrays as the region finds them; after the body at point `t` each
    input's buffer at its block, the rows `h` of the point, and (stored at the last point only) the mean and the
    variance computed from the running sums through the point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay5 (iblk2 V c 0 t) (iblk2 V c 1 t) (iblk2 V c 2 t) (iblk2 V c 3 t)
    | ⟨5, _⟩ => k2_pay1 (acc2S V c (t.val + 1))
    | ⟨6, _⟩ => k2_pay2 (acc2S V c (t.val + 1)) (acc2Q V c (t.val + 1))
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay5 (iblk2 V c 0 t) (iblk2 V c 1 t) (iblk2 V c 2 t) (iblk2 V c 3 t) := by dsimp only [dat2]
theorem after2_5 (c : Dev nD) (t : Fin cfg2.N) : (dat2 V c).after 5 t = k2_pay1 (acc2S V c (t.val + 1)) := by dsimp only [dat2]
theorem after2_6 (c : Dev nD) (t : Fin cfg2.N) :
    (dat2 V c).after 6 t = k2_pay2 (acc2S V c (t.val + 1)) (acc2Q V c (t.val + 1)) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

theorem Phi2_castSucc (c : Dev nD) (t : Fin cfg2.N) : (dat2 V c).Φ t.castSucc = Phi2 V c t.val := by
  dsimp only [dat2]; simp only [Fin.coe_castSucc]
theorem Phi2_at_succ (c : Dev nD) (t : Fin cfg2.N) : (dat2 V c).Φ t.succ = Phi2 V c (t.val + 1) := by
  dsimp only [dat2]; simp only [Fin.val_succ]

/-- What the launch hands the kernel is the invariant before the first point: the scoped rest opened at the two
    accumulators. -/
theorem phi_in2_of (c : Dev nD) (P : sProp 𝕄) :
    iprop((∃ r, prngReg c r) ∗ P ∗ Pipeline.scopedRest (Ix := Unit) (Name := ℕ) (U := UR sig nD τ) (Lvl := ℕ) (Val := Elt F) spec2 c) ⊢ (dat2 V c).Φ 0 := by
  rw [show (dat2 V c).Φ 0 = Phi2 V c 0 from rfl, Phi2_zero, scopedRest2_split]
  simp only [scM2_0, scM2_1, owns_whole]
  iintro ⟨Hp, -, ⟨H0, H1⟩, Hr⟩
  isplitl [H0 H1]
  · isplitl [H0]; · iexact H0
    iexact H1
  isplitl [Hr]; · iexact Hr
  iexact Hp

/-- The invariant after the last point gives back the generator register and the scoped rest, the accumulators'
    contents forgotten. -/
theorem phi_out2_of (c : Dev nD) :
    (dat2 V c).Φ (Fin.last cfg2.N) ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c 25 from rfl, Phi2_succ, scopedRest2_split]
  simp only [scM2_0, scM2_1, owns_whole]
  iintro ⟨⟨H0, H1⟩, Hr, Hp⟩
  isplitl [Hp]; · iexact Hp
  isplitl [H0 H1]
  · isplitl [H0]; · iexists _; iexact H0
    iexists _; iexact H1
  iexact Hr

/-! ## The body obligation -/

theorem leaves2_0 (c : Dev nD) (t : Fin cfg2.N) : (dat2 V c).leavesExact 0 t = owns (c : Thread nD τ) (st2_0 t) fullShare (iblk2 V c 0 t) := by
  unfold Dat.leavesExact; rw [liveAt2_0 t, after2_0]
theorem leaves2_1 (c : Dev nD) (t : Fin cfg2.N) : (dat2 V c).leavesExact 1 t = owns (c : Thread nD τ) (st2_1 t) fullShare (iblk2 V c 1 t) := by
  unfold Dat.leavesExact; rw [liveAt2_1 t, after2_1]
theorem leaves2_2 (c : Dev nD) (t : Fin cfg2.N) : (dat2 V c).leavesExact 2 t = owns (c : Thread nD τ) (st2_2 t) fullShare (iblk2 V c 2 t) := by
  unfold Dat.leavesExact; rw [liveAt2_2 t, after2_2]
theorem leaves2_3 (c : Dev nD) (t : Fin cfg2.N) : (dat2 V c).leavesExact 3 t = owns (c : Thread nD τ) (st2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (st2_4 t) fullShare (k2_pay5 (iblk2 V c 0 t) (iblk2 V c 1 t) (iblk2 V c 2 t) (iblk2 V c 3 t)) := by
  unfold Dat.leavesExact; rw [liveAt2_4 t, after2_4]
theorem leaves2_5_idle (c : Dev nD) (t : Fin cfg2.N) (h : ¬cond2_1 (grid2.coords t)) :
    (dat2 V c).leavesExact 5 t = iprop(∃ d, owns (c : Thread nD τ) (st2_5 t) fullShare ((dat2 V c).before 5 t d)) :=
  Dat.leavesExact_idle (dat2 V c) 5 t (idleAt2_5 t h) (noFlush2_5 t h)
theorem leaves2_6_idle (c : Dev nD) (t : Fin cfg2.N) (h : ¬cond2_1 (grid2.coords t)) :
    (dat2 V c).leavesExact 6 t = iprop(∃ d, owns (c : Thread nD τ) (st2_6 t) fullShare ((dat2 V c).before 6 t d)) :=
  Dat.leavesExact_idle (dat2 V c) 6 t (idleAt2_6 t h) (noFlush2_6 t h)
theorem leaves2_5_live (c : Dev nD) (t : Fin cfg2.N) (h : cond2_1 (grid2.coords t)) :
    (dat2 V c).leavesExact 5 t = owns (c : Thread nD τ) (st2_5 t) fullShare (k2_pay1 (acc2S V c (t.val + 1))) := by
  unfold Dat.leavesExact; rw [liveAt2_5 t h, after2_5]
theorem leaves2_6_live (c : Dev nD) (t : Fin cfg2.N) (h : cond2_1 (grid2.coords t)) :
    (dat2 V c).leavesExact 6 t = owns (c : Thread nD τ) (st2_6 t) fullShare (k2_pay2 (acc2S V c (t.val + 1)) (acc2Q V c (t.val + 1))) := by
  unfold Dat.leavesExact; rw [liveAt2_6 t h, after2_6]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
/-- The body at the first point. -/
theorem sound_body2_A (c : Dev nD) (t : Fin cfg2.N) (h0 : t.val % 25 = 0) (h1 : ¬t.val % 25 = 24) :
    bodyPre2 V c t ⊢ wp frame (wpE (defs₀ (F := F)) Variants.none c none) Set.univ (bodyAt2 t) (fun _ => bodyPost2 V c t) := by
  have hN : t.val < 25 := lt_of_lt_of_eq t.isLt (show cfg2.N = 25 from N_2)
  have hz : t.val = 0 := by omega
  unfold bodyPre2 bodyPost2 bodyAt2
  simp only [before2_0, before2_1, before2_2, before2_3]
  rw [show (dat2 V c).owesAt () t.succ = (dat2 V c).owesAt () t.castSucc from rfl]
  rw [Phi2_castSucc, Phi2_at_succ, Phi2_succ, leaves2_0, leaves2_1, leaves2_2, leaves2_3, leaves2_4]
  rw [acc2S_succ V c t, acc2Q_succ V c t]
  rw [leaves2_5_idle V c t (fun h => h1 ((hcond2_1 t).mp h)), leaves2_6_idle V c t (fun h => h1 ((hcond2_1 t).mp h))]
  rw [show Phi2 V c t.val = Phi2 V c 0 from by rw [hz], Phi2_zero]
  rw [show acc2S V c t.val = k2_pay3 from by rw [hz]; rfl, show acc2Q V c t.val = k2_pay4 from by rw [hz]; rfl]
  iintro ⟨⟨⟨HS8, HS9⟩, Hrest, Hg⟩, Ho, ⟨%d0, H0⟩, ⟨%d1, H1⟩, ⟨%d2, H2⟩, ⟨%d3, H3⟩, ⟨%d4, H4⟩, H5, H6⟩
  iapply (run2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) Set.univ _)
  isplitl [H0]; · iexact H0
  isplitl [H1]; · iexact H1
  isplitl [H2]; · iexact H2
  isplitl [H3]; · iexact H3
  isplitl [H4]; · iexists _; iexact H4
  isplitl [HS8]; · iexact HS8
  isplitl [HS9]; · iexact HS9
  iintro ⟨H0, H1, H2, H3, H4, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at a point that is neither the first nor the last. -/
theorem sound_body2_B (c : Dev nD) (t : Fin cfg2.N) (h0 : ¬t.val % 25 = 0) (h1 : ¬t.val % 25 = 24) :
    bodyPre2 V c t ⊢ wp frame (wpE (defs₀ (F := F)) Variants.none c none) Set.univ (bodyAt2 t) (fun _ => bodyPost2 V c t) := by
  have hN : t.val < 25 := lt_of_lt_of_eq t.isLt (show cfg2.N = 25 from N_2)
  have hz : t.val ≠ 0 := by omega
  unfold bodyPre2 bodyPost2 bodyAt2
  simp only [before2_0, before2_1, before2_2, before2_3]
  rw [show (dat2 V c).owesAt () t.succ = (dat2 V c).owesAt () t.castSucc from rfl]
  rw [Phi2_castSucc, Phi2_at_succ, Phi2_succ, leaves2_0, leaves2_1, leaves2_2, leaves2_3, leaves2_4]
  rw [acc2S_succ V c t, acc2Q_succ V c t]
  rw [leaves2_5_idle V c t (fun h => h1 ((hcond2_1 t).mp h)), leaves2_6_idle V c t (fun h => h1 ((hcond2_1 t).mp h))]
  rw [Phi2_pos V c t.val hz]
  iintro ⟨⟨⟨HS8, HS9⟩, Hrest, Hg⟩, Ho, ⟨%d0, H0⟩, ⟨%d1, H1⟩, ⟨%d2, H2⟩, ⟨%d3, H3⟩, ⟨%d4, H4⟩, H5, H6⟩
  iapply (run2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _ Set.univ _)
  isplitl [H0]; · iexact H0
  isplitl [H1]; · iexact H1
  isplitl [H2]; · iexact H2
  isplitl [H3]; · iexact H3
  isplitl [H4]; · iexists _; iexact H4
  isplitl [HS8]; · iexact HS8
  isplitl [HS9]; · iexact HS9
  iintro ⟨H0, H1, H2, H3, H4, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at the last point. -/
theorem sound_body2_C (c : Dev nD) (t : Fin cfg2.N) (h0 : ¬t.val % 25 = 0) (h1 : t.val % 25 = 24) :
    bodyPre2 V c t ⊢ wp frame (wpE (defs₀ (F := F)) Variants.none c none) Set.univ (bodyAt2 t) (fun _ => bodyPost2 V c t) := by
  have hN : t.val < 25 := lt_of_lt_of_eq t.isLt (show cfg2.N = 25 from N_2)
  have hz : t.val ≠ 0 := by omega
  unfold bodyPre2 bodyPost2 bodyAt2
  simp only [before2_0, before2_1, before2_2, before2_3]
  rw [show (dat2 V c).owesAt () t.succ = (dat2 V c).owesAt () t.castSucc from rfl]
  rw [Phi2_castSucc, Phi2_at_succ, Phi2_succ, leaves2_0, leaves2_1, leaves2_2, leaves2_3, leaves2_4]
  rw [acc2S_succ V c t, acc2Q_succ V c t]
  rw [leaves2_5_live V c t ((hcond2_1 t).mpr h1), leaves2_6_live V c t ((hcond2_1 t).mpr h1)]
  rw [acc2S_succ V c t, acc2Q_succ V c t]
  rw [Phi2_pos V c t.val hz]
  iintro ⟨⟨⟨HS8, HS9⟩, Hrest, Hg⟩, Ho, ⟨%d0, H0⟩, ⟨%d1, H1⟩, ⟨%d2, H2⟩, ⟨%d3, H3⟩, ⟨%d4, H4⟩, ⟨%d5, H5⟩, ⟨%d6, H6⟩⟩
  iapply (run2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS8]; · iexact HS8
  isplitl [HS9]; · iexact HS9
  iintro ⟨H0, H1, H2, H3, H4, H5, H6, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point: by the point's place in the grid. -/
theorem sound_body2 (c : Dev nD) (t : Fin cfg2.N) :
    bodyPre2 V c t ⊢ wp frame (wpE (defs₀ (F := F)) Variants.none c none) Set.univ (bodyAt2 t) (fun _ => bodyPost2 V c t) := by
  have hN : t.val < 25 := lt_of_lt_of_eq t.isLt (show cfg2.N = 25 from N_2)
  by_cases h0 : t.val % 25 = 0
  · exact sound_body2_A V c t h0 (by omega)
  · by_cases h1 : t.val % 25 = 24
    · exact sound_body2_C V c t h0 h1
    · exact sound_body2_B V c t h0 h1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into and out of the region -/

/-- `phi_in2_of` in the shape a region record asks: the generator register, the (empty) prefetched tables and the
    scoped rest make the invariant before the first point. -/
theorem phi_in2 (c : Dev nD) :
    iprop((∃ r, prngReg c r) ∗ Pipeline.prefHeld (pcfgs (F := F) 2).pre c (fun _ => fullShare) ((cfgs 2).toPCfg_adm (Val := Elt F)).1
        ∗ Pipeline.scopedRest (Ix := Unit) (Name := ℕ) (U := UR sig nD τ) (Lvl := ℕ) (Val := Elt F) spec2 c) ⊢ (dat2 V c).Φ 0 :=
  phi_in2_of V c _

/-- `phi_out2_of` in the shape a region record asks, for a kernel with no semaphore of its own. -/
theorem phi_out2 (c : Dev nD) :
    (dat2 V c).Φ (Fin.last cfg2.N) ⊢ iprop((∃ r, prngReg c r) ∗ Pipeline.ownSems0 (fun k : PEmpty => k.elim) c
        ∗ Pipeline.scopedRest (Ix := Unit) (Name := ℕ) (U := UR sig nD τ) (Lvl := ℕ) (Val := Elt F) spec2 c) := by
  rw [Pipeline.ownSems0_none]
  refine (phi_out2_of V c).trans ?_
  iintro ⟨Hp, Hr⟩
  isplitl [Hp]; · iexact Hp
  isplitr; · iempintro
  iexact Hr

end Cert.KernelIdeal.Hand

end
-- ==== Proof.Reg3.lean ====
/- Region 3: the body of `cc3_kernel` at the contents the region is entered with. Each input window's staging
   buffer holds its block at every grid point; the one output window's buffer is read once (the value is not used)
   and then stored whole, so after the body it holds the stored value, a function of the input blocks alone. -/
import proofs.«144698_j9466107920964_1_alg».proof.Proof.Gen.KernelIdeal.Launch
import proofs.«144698_j9466107920964_1_alg».proof.Proof.Gen.KernelIdeal.Skeleton
import proofs.«144698_j9466107920964_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: where it is not fetched
    the block index has not moved, and the body leaves the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, fetched there or not: where it is not fetched
    the block index has not moved, and the body leaves the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, fetched there or not: where it is not fetched
    the block index has not moved, and the body leaves the buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point, fetched there or not: where it is not fetched
    the block index has not moved, and the body leaves the buffer as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at every point, fetched there or not: where it is not fetched
    the block index has not moved, and the body leaves the buffer as it found it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take the whole buffer -/

abbrev r3_S2000x256 : Rect S2000x256 := Rect.unit (s := S2000x256) ![0, 0] S2000x256.size inb_S2000x256_S2000x256_0_0
abbrev r3_S1x256 : Rect S1x256 := Rect.unit (s := S1x256) ![0, 0] S1x256.size inb_S1x256_S1x256_0_0

/-! ## What the body leaves in the output window's buffer -/

/-- Window 5's staging buffer after the body, from the input windows' blocks: the one store, of the whole block. -/
def out3_5 (x0 : Vec F S2000x256 .f32) (x1 : Vec F S1x256 .f32) (x2 : Vec F S1x256 .f32) (x3 : Vec F S1x256 .f32) (x4 : Vec F S1x256 .f32) : Vec F S2000x256 .f32 :=
  View.canon [⟨r3_S2000x256, k3_pay1 (View.ld x0 r3_S2000x256) (View.ld x1 r3_S1x256) (View.ld x2 r3_S1x256) (View.ld x3 r3_S1x256) (View.ld x4 r3_S1x256)⟩]

/-- The store covers the buffer. -/
theorem cover3_5 (p0 : Vec F S2000x256 .f32) (y : S2000x256.Idx) :
    ∃ pc ∈ ([⟨r3_S2000x256, p0⟩] : List (View.Piece (Elt F) S2000x256 .f32)), y ∈ pc.1.set :=
  View.cover_of_tiled [⟨r3_S2000x256, p0⟩] S2000x256.size (by rfl) y

/-- The offsets of every access are zero. -/
theorem zeros_reg3 : (![0, 0] : Fin 2 → ℕ) = fun _ => 0 := funext fun a => by fin_cases a <;> rfl

/-- A whole-buffer load reads the buffer and the one whole-buffer store leaves its payload: the output's buffer after
    the body is the payload at the input blocks. -/
theorem out3_5_eq (x0 : Vec F S2000x256 .f32) (x1 : Vec F S1x256 .f32) (x2 : Vec F S1x256 .f32) (x3 : Vec F S1x256 .f32) (x4 : Vec F S1x256 .f32) :
    out3_5 x0 x1 x2 x3 x4 = k3_pay1 x0 x1 x2 x3 x4 := by
  unfold out3_5
  rw [View.canon_unit_zero (S := S2000x256) zeros_reg3 inb_S2000x256_S2000x256_0_0,
    View.ld_unit_zero (S := S2000x256) zeros_reg3 inb_S2000x256_S2000x256_0_0 x0,
    View.ld_unit_zero (S := S1x256) zeros_reg3 inb_S1x256_S1x256_0_0 x1,
    View.ld_unit_zero (S := S1x256) zeros_reg3 inb_S1x256_S1x256_0_0 x2,
    View.ld_unit_zero (S := S1x256) zeros_reg3 inb_S1x256_S1x256_0_0 x3,
    View.ld_unit_zero (S := S1x256) zeros_reg3 inb_S1x256_S1x256_0_0 x4]

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and the output's at `out3_5` of the input blocks; the invariant keeps the scoped rest
    and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.Reg4Runs.lean ====
/- Region 4 (the third linear layer with its running column statistics): the body's two conditionals over the
   grid, where its windows are idle, and the body's triple in each of the three cases of the grid point — first,
   middle, last —, every buffer's final contents a named term over the skeleton's payloads. -/
import proofs.«144698_j9466107920964_1_alg».proof.Proof.Gen.KernelIdeal.Launch
import proofs.«144698_j9466107920964_1_alg».proof.Proof.Gen.KernelIdeal.Skeleton
import proofs.«144698_j9466107920964_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«144698_j9466107920964_1_alg».proof.Proof.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two conditionals, over the grid -/

/-- The condition of the first conditional (the accumulators are zeroed): the grid coordinate is zero. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 25 = 0 :=
  (by decide +kernel : ∀ t : Fin grid4.N, cond4_0 (grid4.coords t) ↔ t.val % 25 = 0)
/-- The condition of the second conditional (the mean and the variance are stored): the grid coordinate is the last. -/
abbrev cond4_1 (i : grid4.Coords) : Prop := k4_cond2 i = 1#1
/-- It holds at the last point only. -/
theorem hcond4_1 : ∀ t : Fin cfg4.N, cond4_1 (grid4.coords t) ↔ t.val % 25 = 24 :=
  (by decide +kernel : ∀ t : Fin grid4.N, cond4_1 (grid4.coords t) ↔ t.val % 25 = 24)

/-- The inputs and the rows' window are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
/-- Before the last point the mean's and the variance's windows are idle and not written back; at the last point live. -/
theorem idleAt4_5 : ∀ t : Fin cfg4.N, ¬cond4_1 (grid4.coords t) → cfg4.idle 5 (grid4.coords t) = true := by decide +kernel
theorem idleAt4_6 : ∀ t : Fin cfg4.N, ¬cond4_1 (grid4.coords t) → cfg4.idle 6 (grid4.coords t) = true := by decide +kernel
theorem noFlush4_5 : ∀ t : Fin cfg4.N, ¬cond4_1 (grid4.coords t) → (cfg4.win 5).flush t = false := by decide +kernel
theorem noFlush4_6 : ∀ t : Fin cfg4.N, ¬cond4_1 (grid4.coords t) → (cfg4.win 6).flush t = false := by decide +kernel
theorem liveAt4_5 : ∀ t : Fin cfg4.N, cond4_1 (grid4.coords t) → cfg4.idle 5 (grid4.coords t) = false := by decide +kernel
theorem liveAt4_6 : ∀ t : Fin cfg4.N, cond4_1 (grid4.coords t) → cfg4.idle 6 (grid4.coords t) = false := by decide +kernel

set_option maxHeartbeats 4000000 in
/-- The body at the first point: the running sums are zeroed, then the rows are stored and added into them. -/
theorem run4_A (c : Dev nD) (i : grid4.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : cond4_0 i) (hc1 : ¬cond4_1 i)
    (x0 : Vec F S2000x256 .f32) (x1 : Vec F S2000x256 .f32) (x2 : Vec F S256x256 .f32) (x3 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay5 x0 x1 x2 x3)
            ∗ owns (c : Thread nD τ) arg8 fullShare (k4_pay6 x0 x1 x2 x3 k4_pay3) ∗ owns (c : Thread nD τ) arg9 fullShare (k4_pay7 x0 x1 x2 x3 k4_pay4)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, View.readCov_unit_zero (S := S1x256) _ hz2]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, View.readCov_unit_zero (S := S1x256) _ hz2]

set_option maxHeartbeats 4000000 in
/-- The body at a point that is neither the first nor the last: the rows are stored and added into the two running sums. -/
theorem run4_B (c : Dev nD) (i : grid4.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : ¬cond4_0 i) (hc1 : ¬cond4_1 i)
    (x0 : Vec F S2000x256 .f32) (x1 : Vec F S2000x256 .f32) (x2 : Vec F S256x256 .f32) (x3 : Vec F S1x256 .f32) (xs8 xs9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg8 fullShare xs8 ∗ owns (c : Thread nD τ) arg9 fullShare xs9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay5 x0 x1 x2 x3)
            ∗ owns (c : Thread nD τ) arg8 fullShare (k4_pay6 x0 x1 x2 x3 xs8) ∗ owns (c : Thread nD τ) arg9 fullShare (k4_pay7 x0 x1 x2 x3 xs9)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg9.read_unread]

set_option maxHeartbeats 4000000 in
/-- The body at the last point: the rows are stored and added into the running sums, and the mean and the variance
    are computed from the sums and stored. -/
theorem run4_C (c : Dev nD) (i : grid4.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : ¬cond4_0 i) (hc1 : cond4_1 i)
    (x0 : Vec F S2000x256 .f32) (x1 : Vec F S2000x256 .f32) (x2 : Vec F S256x256 .f32) (x3 : Vec F S1x256 .f32) (xs8 xs9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs8 ∗ owns (c : Thread nD τ) arg9 fullShare xs9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay5 x0 x1 x2 x3)
            ∗ owns (c : Thread nD τ) arg6 fullShare (k4_pay1 (k4_pay6 x0 x1 x2 x3 xs8)) ∗ owns (c : Thread nD τ) arg7 fullShare (k4_pay2 (k4_pay6 x0 x1 x2 x3 xs8) (k4_pay7 x0 x1 x2 x3 xs9))
            ∗ owns (c : Thread nD τ) arg8 fullShare (k4_pay6 x0 x1 x2 x3 xs8) ∗ owns (c : Thread nD τ) arg9 fullShare (k4_pay7 x0 x1 x2 x3 xs9)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2]
  isplitl [H6]
  · iexists _; isplitr
    swap; · iexact H6
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread, harg9.read_unread, View.readCov_unit_zero (S := S1x256) _ hz2]
  isplitl [H7]
  · iexists _; isplitr
    swap; · iexact H7
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread, harg9.read_unread, View.readCov_unit_zero (S := S1x256) _ hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg9.read_unread]

end Cert.KernelIdeal.Hand

end
-- ==== Proof.Reg4.lean ====
/- Region 4 (the third linear layer with its running column statistics) at the entry contents `V`: the windows'
   blocks, the running column sum and sum of squares by recursion on the point, the invariant holding the two
   accumulators at them, the proof data, the body obligation from the three case runs, and the entailments into and
   out of the region. -/
import proofs.«144698_j9466107920964_1_alg».proof.Proof.Reg4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The running column sums -/

/-- The running column sum of the rows `h` of the points below `n`: zero, then each point's block sum added. -/
def acc4S (c : Dev nD) : ℕ → Vec F S1x256 .f32
  | 0 => k4_pay3
  | n + 1 => if h : n < cfg4.N then
      k4_pay6 (iblk4 V c 0 ⟨n, h⟩) (iblk4 V c 1 ⟨n, h⟩) (iblk4 V c 2 ⟨n, h⟩) (iblk4 V c 3 ⟨n, h⟩) (acc4S c n)
    else acc4S c n

/-- The running column sum of squares of the rows `h` of the points below `n`. -/
def acc4Q (c : Dev nD) : ℕ → Vec F S1x256 .f32
  | 0 => k4_pay4
  | n + 1 => if h : n < cfg4.N then
      k4_pay7 (iblk4 V c 0 ⟨n, h⟩) (iblk4 V c 1 ⟨n, h⟩) (iblk4 V c 2 ⟨n, h⟩) (iblk4 V c 3 ⟨n, h⟩) (acc4Q c n)
    else acc4Q c n

theorem acc4S_zero (c : Dev nD) : acc4S V c 0 = k4_pay3 := rfl
theorem acc4Q_zero (c : Dev nD) : acc4Q V c 0 = k4_pay4 := rfl
theorem acc4S_succ (c : Dev nD) (t : Fin cfg4.N) :
    acc4S V c (t.val + 1) = k4_pay6 (iblk4 V c 0 t) (iblk4 V c 1 t) (iblk4 V c 2 t) (iblk4 V c 3 t) (acc4S V c t.val) := by
  rw [acc4S, dif_pos t.isLt]
theorem acc4Q_succ (c : Dev nD) (t : Fin cfg4.N) :
    acc4Q V c (t.val + 1) = k4_pay7 (iblk4 V c 0 t) (iblk4 V c 1 t) (iblk4 V c 2 t) (iblk4 V c 3 t) (acc4Q V c t.val) := by
  rw [acc4Q, dif_pos t.isLt]

/-! ## The invariant -/

/-- The two scratch operands as memrefs. -/
abbrev scM4_0 : Memref sig .tc .vmem S1x256 .f32 := Memref.whole cc4_scratch0
abbrev scM4_1 : Memref sig .tc .vmem S1x256 .f32 := Memref.whole cc4_scratch1

/-- The scoped buffers that are neither staging buffers nor this kernel's two accumulators. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The region invariant before point `n`: before the first point the two accumulators hold anything (the body zeroes
    them before reading them); afterwards the running sums of the points below `n`. Beside them the other scoped
    buffers and the generator register, untouched. -/
def Phi4 (c : Dev nD) : ℕ → sProp 𝕄
  | 0 => iprop(((∃ d, owns (c : Thread nD τ) scM4_0 fullShare d) ∗ (∃ d, owns (c : Thread nD τ) scM4_1 fullShare d)) ∗ rest4 c ∗ (∃ r, prngReg c r))
  | n + 1 => iprop((owns (c : Thread nD τ) scM4_0 fullShare (acc4S V c (n + 1)) ∗ owns (c : Thread nD τ) scM4_1 fullShare (acc4Q V c (n + 1))) ∗ rest4 c ∗ (∃ r, prngReg c r))

theorem Phi4_zero (c : Dev nD) :
    Phi4 V c 0 = iprop(((∃ d, owns (c : Thread nD τ) scM4_0 fullShare d) ∗ (∃ d, owns (c : Thread nD τ) scM4_1 fullShare d)) ∗ rest4 c ∗ (∃ r, prngReg c r)) := rfl
theorem Phi4_succ (c : Dev nD) (n : ℕ) :
    Phi4 V c (n + 1) = iprop((owns (c : Thread nD τ) scM4_0 fullShare (acc4S V c (n + 1)) ∗ owns (c : Thread nD τ) scM4_1 fullShare (acc4Q V c (n + 1))) ∗ rest4 c ∗ (∃ r, prngReg c r)) := rfl
theorem Phi4_pos (c : Dev nD) (n : ℕ) (hn : n ≠ 0) :
    Phi4 V c n = iprop((owns (c : Thread nD τ) scM4_0 fullShare (acc4S V c n) ∗ owns (c : Thread nD τ) scM4_1 fullShare (acc4Q V c n)) ∗ rest4 c ∗ (∃ r, prngReg c r)) := by
  cases n with
  | zero => exact absurd rfl hn
  | succ n => rfl

/-! ## The proof data -/

/-- The proof data of the pipeline on core `c`: the arrays as the region finds them; after the body at point `t` each
    input's buffer at its block, the rows `h` of the point, and (stored at the last point only) the mean and the
    variance computed from the running sums through the point. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay5 (iblk4 V c 0 t) (iblk4 V c 1 t) (iblk4 V c 2 t) (iblk4 V c 3 t)
    | ⟨5, _⟩ => k4_pay1 (acc4S V c (t.val + 1))
    | ⟨6, _⟩ => k4_pay2 (acc4S V c (t.val + 1)) (acc4Q V c (t.val + 1))
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = k4_pay5 (iblk4 V c 0 t) (iblk4 V c 1 t) (iblk4 V c 2 t) (iblk4 V c 3 t) := by dsimp only [dat4]
theorem after4_5 (c : Dev nD) (t : Fin cfg4.N) : (dat4 V c).after 5 t = k4_pay1 (acc4S V c (t.val + 1)) := by dsimp only [dat4]
theorem after4_6 (c : Dev nD) (t : Fin cfg4.N) :
    (dat4 V c).after 6 t = k4_pay2 (acc4S V c (t.val + 1)) (acc4Q V c (t.val + 1)) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

theorem Phi4_castSucc (c : Dev nD) (t : Fin cfg4.N) : (dat4 V c).Φ t.castSucc = Phi4 V c t.val := by
  dsimp only [dat4]; simp only [Fin.coe_castSucc]
theorem Phi4_at_succ (c : Dev nD) (t : Fin cfg4.N) : (dat4 V c).Φ t.succ = Phi4 V c (t.val + 1) := by
  dsimp only [dat4]; simp only [Fin.val_succ]

/-- What the launch hands the kernel is the invariant before the first point: the scoped rest opened at the two
    accumulators. -/
theorem phi_in4_of (c : Dev nD) (P : sProp 𝕄) :
    iprop((∃ r, prngReg c r) ∗ P ∗ Pipeline.scopedRest (Ix := Unit) (Name := ℕ) (U := UR sig nD τ) (Lvl := ℕ) (Val := Elt F) spec4 c) ⊢ (dat4 V c).Φ 0 := by
  rw [show (dat4 V c).Φ 0 = Phi4 V c 0 from rfl, Phi4_zero, scopedRest4_split]
  simp only [scM4_0, scM4_1, owns_whole]
  iintro ⟨Hp, -, ⟨H0, H1⟩, Hr⟩
  isplitl [H0 H1]
  · isplitl [H0]; · iexact H0
    iexact H1
  isplitl [Hr]; · iexact Hr
  iexact Hp

/-- The invariant after the last point gives back the generator register and the scoped rest, the accumulators'
    contents forgotten. -/
theorem phi_out4_of (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c 25 from rfl, Phi4_succ, scopedRest4_split]
  simp only [scM4_0, scM4_1, owns_whole]
  iintro ⟨⟨H0, H1⟩, Hr, Hp⟩
  isplitl [Hp]; · iexact Hp
  isplitl [H0 H1]
  · isplitl [H0]; · iexists _; iexact H0
    iexists _; iexact H1
  iexact Hr

/-! ## The body obligation -/

theorem leaves4_0 (c : Dev nD) (t : Fin cfg4.N) : (dat4 V c).leavesExact 0 t = owns (c : Thread nD τ) (st4_0 t) fullShare (iblk4 V c 0 t) := by
  unfold Dat.leavesExact; rw [liveAt4_0 t, after4_0]
theorem leaves4_1 (c : Dev nD) (t : Fin cfg4.N) : (dat4 V c).leavesExact 1 t = owns (c : Thread nD τ) (st4_1 t) fullShare (iblk4 V c 1 t) := by
  unfold Dat.leavesExact; rw [liveAt4_1 t, after4_1]
theorem leaves4_2 (c : Dev nD) (t : Fin cfg4.N) : (dat4 V c).leavesExact 2 t = owns (c : Thread nD τ) (st4_2 t) fullShare (iblk4 V c 2 t) := by
  unfold Dat.leavesExact; rw [liveAt4_2 t, after4_2]
theorem leaves4_3 (c : Dev nD) (t : Fin cfg4.N) : (dat4 V c).leavesExact 3 t = owns (c : Thread nD τ) (st4_3 t) fullShare (iblk4 V c 3 t) := by
  unfold Dat.leavesExact; rw [liveAt4_3 t, after4_3]
theorem leaves4_4 (c : Dev nD) (t : Fin cfg4.N) :
    (dat4 V c).leavesExact 4 t = owns (c : Thread nD τ) (st4_4 t) fullShare (k4_pay5 (iblk4 V c 0 t) (iblk4 V c 1 t) (iblk4 V c 2 t) (iblk4 V c 3 t)) := by
  unfold Dat.leavesExact; rw [liveAt4_4 t, after4_4]
theorem leaves4_5_idle (c : Dev nD) (t : Fin cfg4.N) (h : ¬cond4_1 (grid4.coords t)) :
    (dat4 V c).leavesExact 5 t = iprop(∃ d, owns (c : Thread nD τ) (st4_5 t) fullShare ((dat4 V c).before 5 t d)) :=
  Dat.leavesExact_idle (dat4 V c) 5 t (idleAt4_5 t h) (noFlush4_5 t h)
theorem leaves4_6_idle (c : Dev nD) (t : Fin cfg4.N) (h : ¬cond4_1 (grid4.coords t)) :
    (dat4 V c).leavesExact 6 t = iprop(∃ d, owns (c : Thread nD τ) (st4_6 t) fullShare ((dat4 V c).before 6 t d)) :=
  Dat.leavesExact_idle (dat4 V c) 6 t (idleAt4_6 t h) (noFlush4_6 t h)
theorem leaves4_5_live (c : Dev nD) (t : Fin cfg4.N) (h : cond4_1 (grid4.coords t)) :
    (dat4 V c).leavesExact 5 t = owns (c : Thread nD τ) (st4_5 t) fullShare (k4_pay1 (acc4S V c (t.val + 1))) := by
  unfold Dat.leavesExact; rw [liveAt4_5 t h, after4_5]
theorem leaves4_6_live (c : Dev nD) (t : Fin cfg4.N) (h : cond4_1 (grid4.coords t)) :
    (dat4 V c).leavesExact 6 t = owns (c : Thread nD τ) (st4_6 t) fullShare (k4_pay2 (acc4S V c (t.val + 1)) (acc4Q V c (t.val + 1))) := by
  unfold Dat.leavesExact; rw [liveAt4_6 t h, after4_6]

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in
/-- The body at the first point. -/
theorem sound_body4_A (c : Dev nD) (t : Fin cfg4.N) (h0 : t.val % 25 = 0) (h1 : ¬t.val % 25 = 24) :
    bodyPre4 V c t ⊢ wp frame (wpE (defs₀ (F := F)) Variants.none c none) Set.univ (bodyAt4 t) (fun _ => bodyPost4 V c t) := by
  have hN : t.val < 25 := lt_of_lt_of_eq t.isLt (show cfg4.N = 25 from N_4)
  have hz : t.val = 0 := by omega
  unfold bodyPre4 bodyPost4 bodyAt4
  simp only [before4_0, before4_1, before4_2, before4_3]
  rw [show (dat4 V c).owesAt () t.succ = (dat4 V c).owesAt () t.castSucc from rfl]
  rw [Phi4_castSucc, Phi4_at_succ, Phi4_succ, leaves4_0, leaves4_1, leaves4_2, leaves4_3, leaves4_4]
  rw [acc4S_succ V c t, acc4Q_succ V c t]
  rw [leaves4_5_idle V c t (fun h => h1 ((hcond4_1 t).mp h)), leaves4_6_idle V c t (fun h => h1 ((hcond4_1 t).mp h))]
  rw [show Phi4 V c t.val = Phi4 V c 0 from by rw [hz], Phi4_zero]
  rw [show acc4S V c t.val = k4_pay3 from by rw [hz]; rfl, show acc4Q V c t.val = k4_pay4 from by rw [hz]; rfl]
  iintro ⟨⟨⟨HS8, HS9⟩, Hrest, Hg⟩, Ho, ⟨%d0, H0⟩, ⟨%d1, H1⟩, ⟨%d2, H2⟩, ⟨%d3, H3⟩, ⟨%d4, H4⟩, H5, H6⟩
  iapply (run4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) Set.univ _)
  isplitl [H0]; · iexact H0
  isplitl [H1]; · iexact H1
  isplitl [H2]; · iexact H2
  isplitl [H3]; · iexact H3
  isplitl [H4]; · iexists _; iexact H4
  isplitl [HS8]; · iexact HS8
  isplitl [HS9]; · iexact HS9
  iintro ⟨H0, H1, H2, H3, H4, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at a point that is neither the first nor the last. -/
theorem sound_body4_B (c : Dev nD) (t : Fin cfg4.N) (h0 : ¬t.val % 25 = 0) (h1 : ¬t.val % 25 = 24) :
    bodyPre4 V c t ⊢ wp frame (wpE (defs₀ (F := F)) Variants.none c none) Set.univ (bodyAt4 t) (fun _ => bodyPost4 V c t) := by
  have hN : t.val < 25 := lt_of_lt_of_eq t.isLt (show cfg4.N = 25 from N_4)
  have hz : t.val ≠ 0 := by omega
  unfold bodyPre4 bodyPost4 bodyAt4
  simp only [before4_0, before4_1, before4_2, before4_3]
  rw [show (dat4 V c).owesAt () t.succ = (dat4 V c).owesAt () t.castSucc from rfl]
  rw [Phi4_castSucc, Phi4_at_succ, Phi4_succ, leaves4_0, leaves4_1, leaves4_2, leaves4_3, leaves4_4]
  rw [acc4S_succ V c t, acc4Q_succ V c t]
  rw [leaves4_5_idle V c t (fun h => h1 ((hcond4_1 t).mp h)), leaves4_6_idle V c t (fun h => h1 ((hcond4_1 t).mp h))]
  rw [Phi4_pos V c t.val hz]
  iintro ⟨⟨⟨HS8, HS9⟩, Hrest, Hg⟩, Ho, ⟨%d0, H0⟩, ⟨%d1, H1⟩, ⟨%d2, H2⟩, ⟨%d3, H3⟩, ⟨%d4, H4⟩, H5, H6⟩
  iapply (run4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _ Set.univ _)
  isplitl [H0]; · iexact H0
  isplitl [H1]; · iexact H1
  isplitl [H2]; · iexact H2
  isplitl [H3]; · iexact H3
  isplitl [H4]; · iexists _; iexact H4
  isplitl [HS8]; · iexact HS8
  isplitl [HS9]; · iexact HS9
  iintro ⟨H0, H1, H2, H3, H4, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at the last point. -/
theorem sound_body4_C (c : Dev nD) (t : Fin cfg4.N) (h0 : ¬t.val % 25 = 0) (h1 : t.val % 25 = 24) :
    bodyPre4 V c t ⊢ wp frame (wpE (defs₀ (F := F)) Variants.none c none) Set.univ (bodyAt4 t) (fun _ => bodyPost4 V c t) := by
  have hN : t.val < 25 := lt_of_lt_of_eq t.isLt (show cfg4.N = 25 from N_4)
  have hz : t.val ≠ 0 := by omega
  unfold bodyPre4 bodyPost4 bodyAt4
  simp only [before4_0, before4_1, before4_2, before4_3]
  rw [show (dat4 V c).owesAt () t.succ = (dat4 V c).owesAt () t.castSucc from rfl]
  rw [Phi4_castSucc, Phi4_at_succ, Phi4_succ, leaves4_0, leaves4_1, leaves4_2, leaves4_3, leaves4_4]
  rw [acc4S_succ V c t, acc4Q_succ V c t]
  rw [leaves4_5_live V c t ((hcond4_1 t).mpr h1), leaves4_6_live V c t ((hcond4_1 t).mpr h1)]
  rw [acc4S_succ V c t, acc4Q_succ V c t]
  rw [Phi4_pos V c t.val hz]
  iintro ⟨⟨⟨HS8, HS9⟩, Hrest, Hg⟩, Ho, ⟨%d0, H0⟩, ⟨%d1, H1⟩, ⟨%d2, H2⟩, ⟨%d3, H3⟩, ⟨%d4, H4⟩, ⟨%d5, H5⟩, ⟨%d6, H6⟩⟩
  iapply (run4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS8]; · iexact HS8
  isplitl [HS9]; · iexact HS9
  iintro ⟨H0, H1, H2, H3, H4, H5, H6, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point: by the point's place in the grid. -/
theorem sound_body4 (c : Dev nD) (t : Fin cfg4.N) :
    bodyPre4 V c t ⊢ wp frame (wpE (defs₀ (F := F)) Variants.none c none) Set.univ (bodyAt4 t) (fun _ => bodyPost4 V c t) := by
  have hN : t.val < 25 := lt_of_lt_of_eq t.isLt (show cfg4.N = 25 from N_4)
  by_cases h0 : t.val % 25 = 0
  · exact sound_body4_A V c t h0 (by omega)
  · by_cases h1 : t.val % 25 = 24
    · exact sound_body4_C V c t h0 h1
    · exact sound_body4_B V c t h0 h1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the region -/

/-- `phi_in4_of` in the shape a region record asks: the generator register, the (empty) prefetched tables and the
    scoped rest make the invariant before the first point. -/
theorem phi_in4 (c : Dev nD) :
    iprop((∃ r, prngReg c r) ∗ Pipeline.prefHeld (pcfgs (F := F) 4).pre c (fun _ => fullShare) ((cfgs 4).toPCfg_adm (Val := Elt F)).1
        ∗ Pipeline.scopedRest (Ix := Unit) (Name := ℕ) (U := UR sig nD τ) (Lvl := ℕ) (Val := Elt F) spec4 c) ⊢ (dat4 V c).Φ 0 :=
  phi_in4_of V c _

/-- `phi_out4_of` in the shape a region record asks, for a kernel with no semaphore of its own. -/
theorem phi_out4 (c : Dev nD) :
    (dat4 V c).Φ (Fin.last cfg4.N) ⊢ iprop((∃ r, prngReg c r) ∗ Pipeline.ownSems0 (fun k : PEmpty => k.elim) c
        ∗ Pipeline.scopedRest (Ix := Unit) (Name := ℕ) (U := UR sig nD τ) (Lvl := ℕ) (Val := Elt F) spec4 c) := by
  rw [Pipeline.ownSems0_none]
  refine (phi_out4_of V c).trans ?_
  iintro ⟨Hp, Hr⟩
  isplitl [Hp]; · iexact Hp
  isplitr; · iempintro
  iexact Hr

end Cert.KernelIdeal.Hand

end
-- ==== Proof.Reg5.lean ====
/- Region 5: the body of `cc5_kernel` at the contents the region is entered with. Each input window's staging
   buffer holds its block at every grid point; the one output window's buffer is read once (the value is not used)
   and then stored whole, so after the body it holds the stored value, a function of the input blocks alone. -/
import proofs.«144698_j9466107920964_1_alg».proof.Proof.Gen.KernelIdeal.Launch
import proofs.«144698_j9466107920964_1_alg».proof.Proof.Gen.KernelIdeal.Skeleton
import proofs.«144698_j9466107920964_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: where it is not fetched
    the block index has not moved, and the body leaves the buffer as it found it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds its block at every point, fetched there or not: where it is not fetched
    the block index has not moved, and the body leaves the buffer as it found it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's staging buffer holds its block at every point, fetched there or not: where it is not fetched
    the block index has not moved, and the body leaves the buffer as it found it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's staging buffer holds its block at every point, fetched there or not: where it is not fetched
    the block index has not moved, and the body leaves the buffer as it found it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's staging buffer holds its block at every point, fetched there or not: where it is not fetched
    the block index has not moved, and the body leaves the buffer as it found it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store take the whole buffer -/

abbrev r5_S2000x256 : Rect S2000x256 := Rect.unit (s := S2000x256) ![0, 0] S2000x256.size inb_S2000x256_S2000x256_0_0
abbrev r5_S1x256 : Rect S1x256 := Rect.unit (s := S1x256) ![0, 0] S1x256.size inb_S1x256_S1x256_0_0

/-! ## What the body leaves in the output window's buffer -/

/-- Window 5's staging buffer after the body, from the input windows' blocks: the one store, of the whole block. -/
def out5_5 (x0 : Vec F S2000x256 .f32) (x1 : Vec F S1x256 .f32) (x2 : Vec F S1x256 .f32) (x3 : Vec F S1x256 .f32) (x4 : Vec F S1x256 .f32) : Vec F S2000x256 .f32 :=
  View.canon [⟨r5_S2000x256, k5_pay1 (View.ld x0 r5_S2000x256) (View.ld x1 r5_S1x256) (View.ld x2 r5_S1x256) (View.ld x3 r5_S1x256) (View.ld x4 r5_S1x256)⟩]

/-- The store covers the buffer. -/
theorem cover5_5 (p0 : Vec F S2000x256 .f32) (y : S2000x256.Idx) :
    ∃ pc ∈ ([⟨r5_S2000x256, p0⟩] : List (View.Piece (Elt F) S2000x256 .f32)), y ∈ pc.1.set :=
  View.cover_of_tiled [⟨r5_S2000x256, p0⟩] S2000x256.size (by rfl) y

/-- The offsets of every access are zero. -/
theorem zeros_reg5 : (![0, 0] : Fin 2 → ℕ) = fun _ => 0 := funext fun a => by fin_cases a <;> rfl

/-- A whole-buffer load reads the buffer and the one whole-buffer store leaves its payload: the output's buffer after
    the body is the payload at the input blocks. -/
theorem out5_5_eq (x0 : Vec F S2000x256 .f32) (x1 : Vec F S1x256 .f32) (x2 : Vec F S1x256 .f32) (x3 : Vec F S1x256 .f32) (x4 : Vec F S1x256 .f32) :
    out5_5 x0 x1 x2 x3 x4 = k5_pay1 x0 x1 x2 x3 x4 := by
  unfold out5_5
  rw [View.canon_unit_zero (S := S2000x256) zeros_reg5 inb_S2000x256_S2000x256_0_0,
    View.ld_unit_zero (S := S2000x256) zeros_reg5 inb_S2000x256_S2000x256_0_0 x0,
    View.ld_unit_zero (S := S1x256) zeros_reg5 inb_S1x256_S1x256_0_0 x1,
    View.ld_unit_zero (S := S1x256) zeros_reg5 inb_S1x256_S1x256_0_0 x2,
    View.ld_unit_zero (S := S1x256) zeros_reg5 inb_S1x256_S1x256_0_0 x3,
    View.ld_unit_zero (S := S1x256) zeros_reg5 inb_S1x256_S1x256_0_0 x4]

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them; after the body at point `t` each
    input's buffer at its block and the output's at `out5_5` of the input blocks; the invariant keeps the scoped rest
    and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.Reg6.lean ====
/- Region 6: the body of `cc6_kernel` at the contents the region is entered with. Each input window's staging
   buffer holds its block at every grid point; the one output window's buffer is read once (the value is not used)
   and then stored whole, so after the body it holds the stored value, a function of the input blocks alone. -/
import proofs.«144698_j9466107920964_1_alg».proof.Proof.Gen.KernelIdeal.Launch
import proofs.«144698_j9466107920964_1_alg».proof.Proof.Gen.KernelIdeal.Skeleton
import proofs.«144698_j9466107920964_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not: where it is not fetched
    the block index has not moved, and the body leaves the buffer as it found it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's staging buffer holds its block at every point, fetched there or not: where it is not fetched
    the block index has not moved, and the body leaves the buffer as it found it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's staging buffer holds its block at every point, fetched there or not: where it is not fetched
    the block index has not moved, and the body leaves the buffer as it found it. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's staging buffer holds its block at every point, fetched there or not: where it is not fetched
    the block index has not moved, and the body leaves the buffer as it found it. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's staging buffer holds its block at every point, fetched there or not: where it is not fetched
    the block index has not moved, and the body leaves the buffer as it found it. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take the whole buffer -/

abbrev r6_S2000x256 : Rect S2000x256 := Rect.unit (s := S2000x256) ![0, 0] S2000x256.size inb_S2000x256_S2000x256_0_0
abbrev r6_S256x128 : Rect S256x128 := Rect.unit (s := S256x128) ![0, 0] S256x128.size inb_S256x128_S256x128_0_0
abbrev r6_S1x128 : Rect S1x128 := Rect.unit (s := S1x128) ![0, 0] S1x128.size inb_S1x128_S1x128_0_0
abbrev r6_S128x1 : Rect S128x1 := Rect.unit (s := S128x1) ![0, 0] S128x1.size inb_S128x1_S128x1_0_0
abbrev r6_S1x1 : Rect S1x1 := Rect.unit (s := S1x1) ![0, 0] S1x1.size inb_S1x1_S1x1_0_0
abbrev r6_S2000x1 : Rect S2000x1 := Rect.unit (s := S2000x1) ![0, 0] S2000x1.size inb_S2000x1_S2000x1_0_0

/-! ## What the body leaves in the output window's buffer -/

/-- Window 5's staging buffer after the body, from the input windows' blocks: the one store, of the whole block. -/
def out6_5 (x0 : Vec F S2000x256 .f32) (x1 : Vec F S256x128 .f32) (x2 : Vec F S1x128 .f32) (x3 : Vec F S128x1 .f32) (x4 : Vec F S1x1 .f32) : Vec F S2000x1 .f32 :=
  View.canon [⟨r6_S2000x1, k6_pay1 (View.ld x0 r6_S2000x256) (View.ld x1 r6_S256x128) (View.ld x2 r6_S1x128) (View.ld x3 r6_S128x1) (View.ld x4 r6_S1x1)⟩]

/-- The store covers the buffer. -/
theorem cover6_5 (p0 : Vec F S2000x1 .f32) (y : S2000x1.Idx) :
    ∃ pc ∈ ([⟨r6_S2000x1, p0⟩] : List (View.Piece (Elt F) S2000x1 .f32)), y ∈ pc.1.set :=
  View.cover_of_tiled [⟨r6_S2000x1, p0⟩] S2000x1.size (by rfl) y

/-- The offsets of every access are zero. -/
theorem zeros_reg6 : (![0, 0] : Fin 2 → ℕ) = fun _ => 0 := funext fun a => by fin_cases a <;> rfl

/-- A whole-buffer load reads the buffer and the one whole-buffer store leaves its payload: the output's buffer after
    the body is the payload at the input blocks. -/
theorem out6_5_eq (x0 : Vec F S2000x256 .f32) (x1 : Vec F S256x128 .f32) (x2 : Vec F S1x128 .f32) (x3 : Vec F S128x1 .f32) (x4 : Vec F S1x1 .f32) :
    out6_5 x0 x1 x2 x3 x4 = k6_pay1 x0 x1 x2 x3 x4 := by
  unfold out6_5
  rw [View.canon_unit_zero (S := S2000x1) zeros_reg6 inb_S2000x1_S2000x1_0_0,
    View.ld_unit_zero (S := S2000x256) zeros_reg6 inb_S2000x256_S2000x256_0_0 x0,
    View.ld_unit_zero (S := S256x128) zeros_reg6 inb_S256x128_S256x128_0_0 x1,
    View.ld_unit_zero (S := S1x128) zeros_reg6 inb_S1x128_S1x128_0_0 x2,
    View.ld_unit_zero (S := S128x1) zeros_reg6 inb_S128x1_S128x1_0_0 x3,
    View.ld_unit_zero (S := S1x1) zeros_reg6 inb_S1x1_S1x1_0_0 x4]

/-! ## The body's triple -/

set_option maxHeartbeats 1000000 in
/-- The kernel body on whole staging memrefs, the inputs' at read contents `xW` and the output's at anything, runs to
    the continuation holding the inputs' as they were and the output's at `out6_5` of the inputs'. -/
theorem sound_kernel6 (c : Dev nD) (E : Set ℕ) (i : grid6.Coords) (arg1 : Memref sig .tc .vmem S2000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S2000x1 .f32) (harg6 : arg6.IsWhole)
    (x0 : Vec F S2000x256 .f32) (x1 : Vec F S256x128 .f32) (x2 : Vec F S1x128 .f32) (x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them; after the body at point `t` each
    input's buffer at its block and the output's at `out6_5` of the input blocks; the invariant keeps the scoped rest
    and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.Fold.lean ====
import proofs.«144698_j9466107920964_1_alg».proof.Proof.Gen.KernelIdeal.Launch
import proofs.«144698_j9466107920964_1_alg».proof.Proof.Gen.KernelIdeal.Skeleton
import proofs.«144698_j9466107920964_1_alg».proof.Proof.Gen.KernelIdeal.Points
import proofs.«144698_j9466107920964_1_alg».proof.Proof.Gen.KernelIdeal.Regions
import proofs.«144698_j9466107920964_1_alg».proof.Proof.Reg0
import proofs.«144698_j9466107920964_1_alg».proof.Proof.Reg1
import proofs.«144698_j9466107920964_1_alg».proof.Proof.Reg2
import proofs.«144698_j9466107920964_1_alg».proof.Proof.Reg3
import proofs.«144698_j9466107920964_1_alg».proof.Proof.Reg4
import proofs.«144698_j9466107920964_1_alg».proof.Proof.Reg5
import proofs.«144698_j9466107920964_1_alg».proof.Proof.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The contents of every unscoped buffer at each boundary of the program — the launch memory, each stretch of host
    operations applied in turn, each kernel region's arrays replaced by what its write-backs leave — and the proof
    data of the seven pipelines, each taken at its region's entry contents. -/

/-- The buffers as a region finds them, read at the TensorCore's references. -/
abbrev atTc (W : Dev nD → Valuation τ sig (Elt F)) : (c : Dev nD) → (b : Ref sig .tc) → Buf (Elt F) ((c : Thread nD τ).loc b) :=
  fun c b => W c b

section ClassInvariant
variable (V : (c : Dev nD) → (b : Ref sig .tc) → Buf (Elt F) ((c : Thread nD τ).loc b))

/-- The class invariant of region 1 from what the launch hands the kernel, and back. -/
theorem phi_in1 (c : Dev nD) :
    iprop(iprop(∃ r, prngReg c r) ∗ Pipeline.prefHeld (pcfgs (F := F) 1).pre c (fun _ => fullShare) ((cfgs 1).toPCfg_adm).1 ∗ Pipeline.scopedRest (Ix := Unit) (Name := ℕ) (U := UR sig nD τ) (Lvl := ℕ) spec1 c)
      ⊢ ((dat1 V c).Φ 0 : sProp 𝕄) := by
  rw [show (dat1 V c).Φ 0 = Pipeline.ΦA spec1 c from rfl]; unfold Pipeline.ΦA
  iintro ⟨Hp, -, Hr⟩
  isplitl [Hr]; · iexact Hr
  iexact Hp
theorem phi_out1 (c : Dev nD) :
    ((dat1 V c).Φ (Fin.last _) : sProp 𝕄)
      ⊢ iprop(iprop(∃ r, prngReg c r) ∗ Pipeline.ownSems0 (fun k : PEmpty => k.elim) c ∗ Pipeline.scopedRest (Ix := Unit) (Name := ℕ) (U := UR sig nD τ) (Lvl := ℕ) spec1 c) := by
  rw [Pipeline.ownSems0_none, show (dat1 V c).Φ (Fin.last _) = Pipeline.ΦA spec1 c from rfl]; unfold Pipeline.ΦA
  iintro ⟨Hr, Hp⟩
  isplitl [Hp]; · iexact Hp
  isplitr; · iempintro
  iexact Hr

/-- The class invariant of region 3 from what the launch hands the kernel, and back. -/
theorem phi_in3 (c : Dev nD) :
    iprop(iprop(∃ r, prngReg c r) ∗ Pipeline.prefHeld (pcfgs (F := F) 3).pre c (fun _ => fullShare) ((cfgs 3).toPCfg_adm).1 ∗ Pipeline.scopedRest (Ix := Unit) (Name := ℕ) (U := UR sig nD τ) (Lvl := ℕ) spec3 c)
      ⊢ ((dat3 V c).Φ 0 : sProp 𝕄) := by
  rw [show (dat3 V c).Φ 0 = Pipeline.ΦA spec3 c from rfl]; unfold Pipeline.ΦA
  iintro ⟨Hp, -, Hr⟩
  isplitl [Hr]; · iexact Hr
  iexact Hp
theorem phi_out3 (c : Dev nD) :
    ((dat3 V c).Φ (Fin.last _) : sProp 𝕄)
      ⊢ iprop(iprop(∃ r, prngReg c r) ∗ Pipeline.ownSems0 (fun k : PEmpty => k.elim) c ∗ Pipeline.scopedRest (Ix := Unit) (Name := ℕ) (U := UR sig nD τ) (Lvl := ℕ) spec3 c) := by
  rw [Pipeline.ownSems0_none, show (dat3 V c).Φ (Fin.last _) = Pipeline.ΦA spec3 c from rfl]; unfold Pipeline.ΦA
  iintro ⟨Hr, Hp⟩
  isplitl [Hp]; · iexact Hp
  isplitr; · iempintro
  iexact Hr

/-- The class invariant of region 5 from what the launch hands the kernel, and back. -/
theorem phi_in5 (c : Dev nD) :
    iprop(iprop(∃ r, prngReg c r) ∗ Pipeline.prefHeld (pcfgs (F := F) 5).pre c (fun _ => fullShare) ((cfgs 5).toPCfg_adm).1 ∗ Pipeline.scopedRest (Ix := Unit) (Name := ℕ) (U := UR sig nD τ) (Lvl := ℕ) spec5 c)
      ⊢ ((dat5 V c).Φ 0 : sProp 𝕄) := by
  rw [show (dat5 V c).Φ 0 = Pipeline.ΦA spec5 c from rfl]; unfold Pipeline.ΦA
  iintro ⟨Hp, -, Hr⟩
  isplitl [Hr]; · iexact Hr
  iexact Hp
theorem phi_out5 (c : Dev nD) :
    ((dat5 V c).Φ (Fin.last _) : sProp 𝕄)
      ⊢ iprop(iprop(∃ r, prngReg c r) ∗ Pipeline.ownSems0 (fun k : PEmpty => k.elim) c ∗ Pipeline.scopedRest (Ix := Unit) (Name := ℕ) (U := UR sig nD τ) (Lvl := ℕ) spec5 c) := by
  rw [Pipeline.ownSems0_none, show (dat5 V c).Φ (Fin.last _) = Pipeline.ΦA spec5 c from rfl]; unfold Pipeline.ΦA
  iintro ⟨Hr, Hp⟩
  isplitl [Hp]; · iexact Hp
  isplitr; · iempintro
  iexact Hr

/-- The class invariant of region 6 from what the launch hands the kernel, and back. -/
theorem phi_in6 (c : Dev nD) :
    iprop(iprop(∃ r, prngReg c r) ∗ Pipeline.prefHeld (pcfgs (F := F) 6).pre c (fun _ => fullShare) ((cfgs 6).toPCfg_adm).1 ∗ Pipeline.scopedRest (Ix := Unit) (Name := ℕ) (U := UR sig nD τ) (Lvl := ℕ) spec6 c)
      ⊢ ((dat6 V c).Φ 0 : sProp 𝕄) := by
  rw [show (dat6 V c).Φ 0 = Pipeline.ΦA spec6 c from rfl]; unfold Pipeline.ΦA
  iintro ⟨Hp, -, Hr⟩
  isplitl [Hr]; · iexact Hr
  iexact Hp
theorem phi_out6 (c : Dev nD) :
    ((dat6 V c).Φ (Fin.last _) : sProp 𝕄)
      ⊢ iprop(iprop(∃ r, prngReg c r) ∗ Pipeline.ownSems0 (fun k : PEmpty => k.elim) c ∗ Pipeline.scopedRest (Ix := Unit) (Name := ℕ) (U := UR sig nD τ) (Lvl := ℕ) spec6 c) := by
  rw [Pipeline.ownSems0_none, show (dat6 V c).Φ (Fin.last _) = Pipeline.ΦA spec6 c from rfl]; unfold Pipeline.ΦA
  iintro ⟨Hr, Hp⟩
  isplitl [Hp]; · iexact Hp
  isplitr; · iempintro
  iexact Hr

end ClassInvariant

section Region0
variable (Win : Dev nD → Valuation τ sig (Elt F))

/-- What region 0 leaves: its arrays at what the write-backs leave, every other buffer as entered. -/
def exit0 (c : Dev nD) : Valuation τ sig (Elt F) :=
  Pipeline.withArrays spec0 c (Win c) fun w => (dat0 (atTc Win) c).arrAt w cfg0.N
theorem exit0_arr (c : Dev nD) (w : Fin cfg0.W) :
    exit0 Win c (Proc.devRef .tc (Pipeline.arrRef spec0 w)) = (dat0 (atTc Win) c).arrAt w cfg0.N := by
  unfold exit0; exact Pipeline.withArrays_arr spec0 launch0.win.arr_inj c _ _ w
theorem exit0_of_ne (c : Dev nD) (b : Ref sig .tc) (hb : ∀ w, Pipeline.arrRef spec0 w ≠ b) :
    exit0 Win c (Proc.devRef .tc b) = Win c (Proc.devRef .tc b) := by
  unfold exit0; exact Pipeline.withArrays_of_ne spec0 c _ _ b hb
/-- An input window's array is left as entered. -/
theorem exit0_in (c : Dev nD) (w : Fin cfg0.W) (hw : (cfg0.win w).isOut = false) :
    exit0 Win c (Proc.devRef .tc (Pipeline.arrRef spec0 w)) = Win c (Proc.devRef .tc (Pipeline.arrRef spec0 w)) :=
  (exit0_arr Win c w).trans (((dat0 (atTc Win) c).arrAt_in w hw _).trans (A_eq0 (atTc Win) c w))
end Region0

section Region1
variable (Win : Dev nD → Valuation τ sig (Elt F))

/-- What region 1 leaves: its arrays at what the write-backs leave, every other buffer as entered. -/
def exit1 (c : Dev nD) : Valuation τ sig (Elt F) :=
  Pipeline.withArrays spec1 c (Win c) fun w => (dat1 (atTc Win) c).arrAt w cfg1.N
theorem exit1_arr (c : Dev nD) (w : Fin cfg1.W) :
    exit1 Win c (Proc.devRef .tc (Pipeline.arrRef spec1 w)) = (dat1 (atTc Win) c).arrAt w cfg1.N := by
  unfold exit1; exact Pipeline.withArrays_arr spec1 launch1.win.arr_inj c _ _ w
theorem exit1_of_ne (c : Dev nD) (b : Ref sig .tc) (hb : ∀ w, Pipeline.arrRef spec1 w ≠ b) :
    exit1 Win c (Proc.devRef .tc b) = Win c (Proc.devRef .tc b) := by
  unfold exit1; exact Pipeline.withArrays_of_ne spec1 c _ _ b hb
/-- An input window's array is left as entered. -/
theorem exit1_in (c : Dev nD) (w : Fin cfg1.W) (hw : (cfg1.win w).isOut = false) :
    exit1 Win c (Proc.devRef .tc (Pipeline.arrRef spec1 w)) = Win c (Proc.devRef .tc (Pipeline.arrRef spec1 w)) :=
  (exit1_arr Win c w).trans (((dat1 (atTc Win) c).arrAt_in w hw _).trans (A_eq1 (atTc Win) c w))
end Region1

section Region2
variable (Win : Dev nD → Valuation τ sig (Elt F))

/-- What region 2 leaves: its arrays at what the write-backs leave, every other buffer as entered. -/
def exit2 (c : Dev nD) : Valuation τ sig (Elt F) :=
  Pipeline.withArrays spec2 c (Win c) fun w => (dat2 (atTc Win) c).arrAt w cfg2.N
theorem exit2_arr (c : Dev nD) (w : Fin cfg2.W) :
    exit2 Win c (Proc.devRef .tc (Pipeline.arrRef spec2 w)) = (dat2 (atTc Win) c).arrAt w cfg2.N := by
  unfold exit2; exact Pipeline.withArrays_arr spec2 launch2.win.arr_inj c _ _ w
theorem exit2_of_ne (c : Dev nD) (b : Ref sig .tc) (hb : ∀ w, Pipeline.arrRef spec2 w ≠ b) :
    exit2 Win c (Proc.devRef .tc b) = Win c (Proc.devRef .tc b) := by
  unfold exit2; exact Pipeline.withArrays_of_ne spec2 c _ _ b hb
/-- An input window's array is left as entered. -/
theorem exit2_in (c : Dev nD) (w : Fin cfg2.W) (hw : (cfg2.win w).isOut = false) :
    exit2 Win c (Proc.devRef .tc (Pipeline.arrRef spec2 w)) = Win c (Proc.devRef .tc (Pipeline.arrRef spec2 w)) :=
  (exit2_arr Win c w).trans (((dat2 (atTc Win) c).arrAt_in w hw _).trans (A_eq2 (atTc Win) c w))
end Region2

section Region3
variable (Win : Dev nD → Valuation τ sig (Elt F))

/-- What region 3 leaves: its arrays at what the write-backs leave, every other buffer as entered. -/
def exit3 (c : Dev nD) : Valuation τ sig (Elt F) :=
  Pipeline.withArrays spec3 c (Win c) fun w => (dat3 (atTc Win) c).arrAt w cfg3.N
theorem exit3_arr (c : Dev nD) (w : Fin cfg3.W) :
    exit3 Win c (Proc.devRef .tc (Pipeline.arrRef spec3 w)) = (dat3 (atTc Win) c).arrAt w cfg3.N := by
  unfold exit3; exact Pipeline.withArrays_arr spec3 launch3.win.arr_inj c _ _ w
theorem exit3_of_ne (c : Dev nD) (b : Ref sig .tc) (hb : ∀ w, Pipeline.arrRef spec3 w ≠ b) :
    exit3 Win c (Proc.devRef .tc b) = Win c (Proc.devRef .tc b) := by
  unfold exit3; exact Pipeline.withArrays_of_ne spec3 c _ _ b hb
/-- An input window's array is left as entered. -/
theorem exit3_in (c : Dev nD) (w : Fin cfg3.W) (hw : (cfg3.win w).isOut = false) :
    exit3 Win c (Proc.devRef .tc (Pipeline.arrRef spec3 w)) = Win c (Proc.devRef .tc (Pipeline.arrRef spec3 w)) :=
  (exit3_arr Win c w).trans (((dat3 (atTc Win) c).arrAt_in w hw _).trans (A_eq3 (atTc Win) c w))
end Region3

section Region4
variable (Win : Dev nD → Valuation τ sig (Elt F))

/-- What region 4 leaves: its arrays at what the write-backs leave, every other buffer as entered. -/
def exit4 (c : Dev nD) : Valuation τ sig (Elt F) :=
  Pipeline.withArrays spec4 c (Win c) fun w => (dat4 (atTc Win) c).arrAt w cfg4.N
theorem exit4_arr (c : Dev nD) (w : Fin cfg4.W) :
    exit4 Win c (Proc.devRef .tc (Pipeline.arrRef spec4 w)) = (dat4 (atTc Win) c).arrAt w cfg4.N := by
  unfold exit4; exact Pipeline.withArrays_arr spec4 launch4.win.arr_inj c _ _ w
theorem exit4_of_ne (c : Dev nD) (b : Ref sig .tc) (hb : ∀ w, Pipeline.arrRef spec4 w ≠ b) :
    exit4 Win c (Proc.devRef .tc b) = Win c (Proc.devRef .tc b) := by
  unfold exit4; exact Pipeline.withArrays_of_ne spec4 c _ _ b hb
/-- An input window's array is left as entered. -/
theorem exit4_in (c : Dev nD) (w : Fin cfg4.W) (hw : (cfg4.win w).isOut = false) :
    exit4 Win c (Proc.devRef .tc (Pipeline.arrRef spec4 w)) = Win c (Proc.devRef .tc (Pipeline.arrRef spec4 w)) :=
  (exit4_arr Win c w).trans (((dat4 (atTc Win) c).arrAt_in w hw _).trans (A_eq4 (atTc Win) c w))
end Region4

section Region5
variable (Win : Dev nD → Valuation τ sig (Elt F))

/-- What region 5 leaves: its arrays at what the write-backs leave, every other buffer as entered. -/
def exit5 (c : Dev nD) : Valuation τ sig (Elt F) :=
  Pipeline.withArrays spec5 c (Win c) fun w => (dat5 (atTc Win) c).arrAt w cfg5.N
theorem exit5_arr (c : Dev nD) (w : Fin cfg5.W) :
    exit5 Win c (Proc.devRef .tc (Pipeline.arrRef spec5 w)) = (dat5 (atTc Win) c).arrAt w cfg5.N := by
  unfold exit5; exact Pipeline.withArrays_arr spec5 launch5.win.arr_inj c _ _ w
theorem exit5_of_ne (c : Dev nD) (b : Ref sig .tc) (hb : ∀ w, Pipeline.arrRef spec5 w ≠ b) :
    exit5 Win c (Proc.devRef .tc b) = Win c (Proc.devRef .tc b) := by
  unfold exit5; exact Pipeline.withArrays_of_ne spec5 c _ _ b hb
/-- An input window's array is left as entered. -/
theorem exit5_in (c : Dev nD) (w : Fin cfg5.W) (hw : (cfg5.win w).isOut = false) :
    exit5 Win c (Proc.devRef .tc (Pipeline.arrRef spec5 w)) = Win c (Proc.devRef .tc (Pipeline.arrRef spec5 w)) :=
  (exit5_arr Win c w).trans (((dat5 (atTc Win) c).arrAt_in w hw _).trans (A_eq5 (atTc Win) c w))
end Region5

section Region6
variable (Win : Dev nD → Valuation τ sig (Elt F))

/-- What region 6 leaves: its arrays at what the write-backs leave, every other buffer as entered. -/
def exit6 (c : Dev nD) : Valuation τ sig (Elt F) :=
  Pipeline.withArrays spec6 c (Win c) fun w => (dat6 (atTc Win) c).arrAt w cfg6.N
theorem exit6_arr (c : Dev nD) (w : Fin cfg6.W) :
    exit6 Win c (Proc.devRef .tc (Pipeline.arrRef spec6 w)) = (dat6 (atTc Win) c).arrAt w cfg6.N := by
  unfold exit6; exact Pipeline.withArrays_arr spec6 launch6.win.arr_inj c _ _ w
theorem exit6_of_ne (c : Dev nD) (b : Ref sig .tc) (hb : ∀ w, Pipeline.arrRef spec6 w ≠ b) :
    exit6 Win c (Proc.devRef .tc b) = Win c (Proc.devRef .tc b) := by
  unfold exit6; exact Pipeline.withArrays_of_ne spec6 c _ _ b hb
/-- An input window's array is left as entered. -/
theorem exit6_in (c : Dev nD) (w : Fin cfg6.W) (hw : (cfg6.win w).isOut = false) :
    exit6 Win c (Proc.devRef .tc (Pipeline.arrRef spec6 w)) = Win c (Proc.devRef .tc (Pipeline.arrRef spec6 w)) :=
  (exit6_arr Win c w).trans (((dat6 (atTc Win) c).arrAt_in w hw _).trans (A_eq6 (atTc Win) c w))
end Region6

variable (m : (ℓ : Loc nD τ sig) → Buf (Elt F) ℓ)

/-! ## The buffers' contents at each boundary of @main: the launch memory, then each host stretch applied, then each
    region's arrays at what its write-backs leave -/

abbrev Wk0 : Dev nD → Valuation τ sig (Elt F) := fun c b => m (c, b)
abbrev Wk1 : Dev nD → Valuation τ sig (Elt F) := fun c => StableHlo.after hostOps0 (Wk0 m c)
abbrev Wk2 : Dev nD → Valuation τ sig (Elt F) := exit0 (Wk1 m)
abbrev Wk3 : Dev nD → Valuation τ sig (Elt F) := fun c => StableHlo.after hostOps1 (Wk2 m c)
abbrev Wk4 : Dev nD → Valuation τ sig (Elt F) := exit1 (Wk3 m)
abbrev Wk5 : Dev nD → Valuation τ sig (Elt F) := fun c => StableHlo.after hostOps2 (Wk4 m c)
abbrev Wk6 : Dev nD → Valuation τ sig (Elt F) := exit2 (Wk5 m)
abbrev Wk7 : Dev nD → Valuation τ sig (Elt F) := fun c => StableHlo.after hostOps3 (Wk6 m c)
abbrev Wk8 : Dev nD → Valuation τ sig (Elt F) := exit3 (Wk7 m)
abbrev Wk9 : Dev nD → Valuation τ sig (Elt F) := fun c => StableHlo.after hostOps4 (Wk8 m c)
abbrev Wk10 : Dev nD → Valuation τ sig (Elt F) := exit4 (Wk9 m)
abbrev Wk11 : Dev nD → Valuation τ sig (Elt F) := fun c => StableHlo.after hostOps5 (Wk10 m c)
abbrev Wk12 : Dev nD → Valuation τ sig (Elt F) := exit5 (Wk11 m)
abbrev Wk13 : Dev nD → Valuation τ sig (Elt F) := fun c => StableHlo.after hostOps6 (Wk12 m c)
abbrev Wk14 : Dev nD → Valuation τ sig (Elt F) := exit6 (Wk13 m)
abbrev Wk15 : Dev nD → Valuation τ sig (Elt F) := fun c => StableHlo.after hostOps7 (Wk14 m c)

/-! ## The proof data family and the thread state -/

abbrev padm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) padm p) c
  | ⟨0, _⟩ => fun c => dat0 (atTc (Wk1 m)) c
  | ⟨1, _⟩ => fun c => dat1 (atTc (Wk3 m)) c
  | ⟨2, _⟩ => fun c => dat2 (atTc (Wk5 m)) c
  | ⟨3, _⟩ => fun c => dat3 (atTc (Wk7 m)) c
  | ⟨4, _⟩ => fun c => dat4 (atTc (Wk9 m)) c
  | ⟨5, _⟩ => fun c => dat5 (atTc (Wk11 m)) c
  | ⟨6, _⟩ => fun c => dat6 (atTc (Wk13 m)) c
abbrev 𝒱h : Variants := Variants.none
abbrev Lh : GSem nD τ sig → Finset Unit := fun _ => ∅
abbrev lvh : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
abbrev Tlast (c : Dev nD) : sProp 𝕄 := iprop(StableHlo.held (c : Thread nD τ) (Pipeline.ucRefs τ sig) (Wk14 m c) ∗ ∃ r, prngReg c r)

end Cert.KernelIdeal.Hand
end
-- ==== Proof.Segs.lean ====
import proofs.«144698_j9466107920964_1_alg».proof.Proof.Gen.KernelIdeal.Launch
import proofs.«144698_j9466107920964_1_alg».proof.Proof.Gen.KernelIdeal.Skeleton
import proofs.«144698_j9466107920964_1_alg».proof.Proof.Gen.KernelIdeal.Points
import proofs.«144698_j9466107920964_1_alg».proof.Proof.Gen.KernelIdeal.Regions
import proofs.«144698_j9466107920964_1_alg».proof.Proof.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The program as fifteen segments — eight stretches of host operations and seven kernel regions — and its run: from
    any launch memory every weakly fair execution terminates with every unscoped buffer at the last boundary's contents. -/

variable (m : (ℓ : Loc nD τ sig) → Buf (Elt F) ℓ)

set_option backward.isDefEq.respectTransparency.types false in
/-- Region 0 over the thread state: entered from every unscoped buffer at `Wk1`, left at `Wk2`. Its arrays are split
    out of the unscoped buffers and put back at the exit contents; the generator register goes into the invariant and
    comes back; nothing is owed; the kernel has no semaphore of its own. -/
def reg0 : Pipeline.RegionSeg (pcfgs (F := F)) padm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (atTc (Wk1 m)) c).loose
  hwaits := Pipeline.hwaits_of_owed_zero _ _ _ _ Lh lvh 0 fun _ _ => rfl
  pre c := iprop(StableHlo.held (c : Thread nD τ) (Pipeline.ucRefs τ sig) (Wk1 m c) ∗ Rst c)
  post c := iprop(StableHlo.held (c : Thread nD τ) (Pipeline.ucRefs τ sig) (Wk2 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (Wk1 m) c)
  hentry c := by
    rw [Pipeline.ownSems0_none]
    have hsplit := Pipeline.arrays_of_unscopedBufs (p := 0) (pcfgs (F := F)) padm (pdats m) launch0.win launch0.arr_whole c
      ((pdats m 0 c).share_full fun _ => rfl) (atTc (Wk1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in0 (atTc (Wk1 m)) c
  hout c := phi_out0 (atTc (Wk1 m)) c
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (atTc (Wk1 m) c) (atTc (Wk2 m) c) ((pdats m 0 c).arrAt · cfg0.N)
      (fun w => (exit0_arr (Wk1 m) c w).symm)
      (fun b hb => exit0_of_ne (Wk1 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Wk3`, left at `Wk4`. Its arrays are split
    out of the unscoped buffers and put back at the exit contents; the generator register goes into the invariant and
    comes back; nothing is owed; the kernel has no semaphore of its own. -/
def reg1 : Pipeline.RegionSeg (pcfgs (F := F)) padm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (atTc (Wk3 m)) c).loose
  hwaits := Pipeline.hwaits_of_owed_zero _ _ _ _ Lh lvh 1 fun _ _ => rfl
  pre c := iprop(StableHlo.held (c : Thread nD τ) (Pipeline.ucRefs τ sig) (Wk3 m c) ∗ Rst c)
  post c := iprop(StableHlo.held (c : Thread nD τ) (Pipeline.ucRefs τ sig) (Wk4 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (Wk3 m) c)
  hentry c := by
    rw [Pipeline.ownSems0_none]
    have hsplit := Pipeline.arrays_of_unscopedBufs (p := 1) (pcfgs (F := F)) padm (pdats m) launch1.win launch1.arr_whole c
      ((pdats m 1 c).share_full fun _ => rfl) (atTc (Wk3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in1 (atTc (Wk3 m)) c
  hout c := phi_out1 (atTc (Wk3 m)) c
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (atTc (Wk3 m) c) (atTc (Wk4 m) c) ((pdats m 1 c).arrAt · cfg1.N)
      (fun w => (exit1_arr (Wk3 m) c w).symm)
      (fun b hb => exit1_of_ne (Wk3 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Wk5`, left at `Wk6`. Its arrays are split
    out of the unscoped buffers and put back at the exit contents; the generator register goes into the invariant and
    comes back; nothing is owed; the kernel has no semaphore of its own. -/
def reg2 : Pipeline.RegionSeg (pcfgs (F := F)) padm (pdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (atTc (Wk5 m)) c).loose
  hwaits := Pipeline.hwaits_of_owed_zero _ _ _ _ Lh lvh 2 fun _ _ => rfl
  pre c := iprop(StableHlo.held (c : Thread nD τ) (Pipeline.ucRefs τ sig) (Wk5 m c) ∗ Rst c)
  post c := iprop(StableHlo.held (c : Thread nD τ) (Pipeline.ucRefs τ sig) (Wk6 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (Wk5 m) c)
  hentry c := by
    rw [Pipeline.ownSems0_none]
    have hsplit := Pipeline.arrays_of_unscopedBufs (p := 2) (pcfgs (F := F)) padm (pdats m) launch2.win launch2.arr_whole c
      ((pdats m 2 c).share_full fun _ => rfl) (atTc (Wk5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in2 (atTc (Wk5 m)) c
  hout c := phi_out2 (atTc (Wk5 m)) c
  hexit c := by
    have hjoin := Pipeline.unscopedBufs_of_arrays (p := 2) (pcfgs (F := F)) padm (Ix := Unit) (Name := ℕ) (U := UR sig nD τ) (Lvl := ℕ)
      launch2.win launch2.arr_whole c (pdats m) ((pdats m 2 c).share_full fun _ => rfl)
      (atTc (Wk5 m) c) (atTc (Wk6 m) c) ((pdats m 2 c).arrAt · cfg2.N)
      (fun w => (exit2_arr (Wk5 m) c w).symm)
      (fun b hb => exit2_of_ne (Wk5 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `Wk7`, left at `Wk8`. Its arrays are split
    out of the unscoped buffers and put back at the exit contents; the generator register goes into the invariant and
    comes back; nothing is owed; the kernel has no semaphore of its own. -/
def reg3 : Pipeline.RegionSeg (pcfgs (F := F)) padm (pdats m) () defs₀ 𝒱h Lh lvh 3 where
  win := launch3.win.to₀
  block_pos := launch3.block_pos
  stage_whole := launch3.stage_whole
  K := PEmpty
  osem k := k.elim
  ho := Pipeline.OwnSemFacts.none _
  hbody c := (body_obligation3 (atTc (Wk7 m)) c).loose
  hwaits := Pipeline.hwaits_of_owed_zero _ _ _ _ Lh lvh 3 fun _ _ => rfl
  pre c := iprop(StableHlo.held (c : Thread nD τ) (Pipeline.ucRefs τ sig) (Wk7 m c) ∗ Rst c)
  post c := iprop(StableHlo.held (c : Thread nD τ) (Pipeline.ucRefs τ sig) (Wk8 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (Wk7 m) c)
  hentry c := by
    rw [Pipeline.ownSems0_none]
    have hsplit := Pipeline.arrays_of_unscopedBufs (p := 3) (pcfgs (F := F)) padm (pdats m) launch3.win launch3.arr_whole c
      ((pdats m 3 c).share_full fun _ => rfl) (atTc (Wk7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in3 (atTc (Wk7 m)) c
  hout c := phi_out3 (atTc (Wk7 m)) c
  hexit c := by
    have hjoin := Pipeline.unscopedBufs_of_arrays (p := 3) (pcfgs (F := F)) padm (Ix := Unit) (Name := ℕ) (U := UR sig nD τ) (Lvl := ℕ)
      launch3.win launch3.arr_whole c (pdats m) ((pdats m 3 c).share_full fun _ => rfl)
      (atTc (Wk7 m) c) (atTc (Wk8 m) c) ((pdats m 3 c).arrAt · cfg3.N)
      (fun w => (exit3_arr (Wk7 m) c w).symm)
      (fun b hb => exit3_of_ne (Wk7 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `Wk9`, left at `Wk10`. Its arrays are split
    out of the unscoped buffers and put back at the exit contents; the generator register goes into the invariant and
    comes back; nothing is owed; the kernel has no semaphore of its own. -/
def reg4 : Pipeline.RegionSeg (pcfgs (F := F)) padm (pdats m) () defs₀ 𝒱h Lh lvh 4 where
  win := launch4.win.to₀
  block_pos := launch4.block_pos
  stage_whole := launch4.stage_whole
  K := PEmpty
  osem k := k.elim
  ho := Pipeline.OwnSemFacts.none _
  hbody c := (body_obligation4 (atTc (Wk9 m)) c).loose
  hwaits := Pipeline.hwaits_of_owed_zero _ _ _ _ Lh lvh 4 fun _ _ => rfl
  pre c := iprop(StableHlo.held (c : Thread nD τ) (Pipeline.ucRefs τ sig) (Wk9 m c) ∗ Rst c)
  post c := iprop(StableHlo.held (c : Thread nD τ) (Pipeline.ucRefs τ sig) (Wk10 m c) ∗ Rst c)
  X c := iprop(∃ r, prngReg c r)
  Y c := iprop(∃ r, prngReg c r)
  Z c := Pipeline.unscopedRest (Ix := Unit) (Name := ℕ) (U := UR sig nD τ) (Lvl := ℕ) spec4 c (atTc (Wk9 m) c)
  hentry c := by
    rw [Pipeline.ownSems0_none]
    have hsplit := Pipeline.arrays_of_unscopedBufs (p := 4) (pcfgs (F := F)) padm (pdats m) launch4.win launch4.arr_whole c
      ((pdats m 4 c).share_full fun _ => rfl) (atTc (Wk9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in4 (atTc (Wk9 m)) c
  hout c := phi_out4 (atTc (Wk9 m)) c
  hexit c := by
    have hjoin := Pipeline.unscopedBufs_of_arrays (p := 4) (pcfgs (F := F)) padm (Ix := Unit) (Name := ℕ) (U := UR sig nD τ) (Lvl := ℕ)
      launch4.win launch4.arr_whole c (pdats m) ((pdats m 4 c).share_full fun _ => rfl)
      (atTc (Wk9 m) c) (atTc (Wk10 m) c) ((pdats m 4 c).arrAt · cfg4.N)
      (fun w => (exit4_arr (Wk9 m) c w).symm)
      (fun b hb => exit4_of_ne (Wk9 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `Wk11`, left at `Wk12`. Its arrays are split
    out of the unscoped buffers and put back at the exit contents; the generator register goes into the invariant and
    comes back; nothing is owed; the kernel has no semaphore of its own. -/
def reg5 : Pipeline.RegionSeg (pcfgs (F := F)) padm (pdats m) () defs₀ 𝒱h Lh lvh 5 where
  win := launch5.win.to₀
  block_pos := launch5.block_pos
  stage_whole := launch5.stage_whole
  K := PEmpty
  osem k := k.elim
  ho := Pipeline.OwnSemFacts.none _
  hbody c := (body_obligation5 (atTc (Wk11 m)) c).loose
  hwaits := Pipeline.hwaits_of_owed_zero _ _ _ _ Lh lvh 5 fun _ _ => rfl
  pre c := iprop(StableHlo.held (c : Thread nD τ) (Pipeline.ucRefs τ sig) (Wk11 m c) ∗ Rst c)
  post c := iprop(StableHlo.held (c : Thread nD τ) (Pipeline.ucRefs τ sig) (Wk12 m c) ∗ Rst c)
  X c := iprop(∃ r, prngReg c r)
  Y c := iprop(∃ r, prngReg c r)
  Z c := Pipeline.unscopedRest (Ix := Unit) (Name := ℕ) (U := UR sig nD τ) (Lvl := ℕ) spec5 c (atTc (Wk11 m) c)
  hentry c := by
    rw [Pipeline.ownSems0_none]
    have hsplit := Pipeline.arrays_of_unscopedBufs (p := 5) (pcfgs (F := F)) padm (pdats m) launch5.win launch5.arr_whole c
      ((pdats m 5 c).share_full fun _ => rfl) (atTc (Wk11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in5 (atTc (Wk11 m)) c
  hout c := phi_out5 (atTc (Wk11 m)) c
  hexit c := by
    have hjoin := Pipeline.unscopedBufs_of_arrays (p := 5) (pcfgs (F := F)) padm (Ix := Unit) (Name := ℕ) (U := UR sig nD τ) (Lvl := ℕ)
      launch5.win launch5.arr_whole c (pdats m) ((pdats m 5 c).share_full fun _ => rfl)
      (atTc (Wk11 m) c) (atTc (Wk12 m) c) ((pdats m 5 c).arrAt · cfg5.N)
      (fun w => (exit5_arr (Wk11 m) c w).symm)
      (fun b hb => exit5_of_ne (Wk11 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `Wk13`, left at `Wk14`. Its arrays are split
    out of the unscoped buffers and put back at the exit contents; the generator register goes into the invariant and
    comes back; nothing is owed; the kernel has no semaphore of its own. -/
def reg6 : Pipeline.RegionSeg (pcfgs (F := F)) padm (pdats m) () defs₀ 𝒱h Lh lvh 6 where
  win := launch6.win.to₀
  block_pos := launch6.block_pos
  stage_whole := launch6.stage_whole
  K := PEmpty
  osem k := k.elim
  ho := Pipeline.OwnSemFacts.none _
  hbody c := (body_obligation6 (atTc (Wk13 m)) c).loose
  hwaits := Pipeline.hwaits_of_owed_zero _ _ _ _ Lh lvh 6 fun _ _ => rfl
  pre c := iprop(StableHlo.held (c : Thread nD τ) (Pipeline.ucRefs τ sig) (Wk13 m c) ∗ Rst c)
  post c := iprop(StableHlo.held (c : Thread nD τ) (Pipeline.ucRefs τ sig) (Wk14 m c) ∗ Rst c)
  X c := iprop(∃ r, prngReg c r)
  Y c := iprop(∃ r, prngReg c r)
  Z c := Pipeline.unscopedRest (Ix := Unit) (Name := ℕ) (U := UR sig nD τ) (Lvl := ℕ) spec6 c (atTc (Wk13 m) c)
  hentry c := by
    rw [Pipeline.ownSems0_none]
    have hsplit := Pipeline.arrays_of_unscopedBufs (p := 6) (pcfgs (F := F)) padm (pdats m) launch6.win launch6.arr_whole c
      ((pdats m 6 c).share_full fun _ => rfl) (atTc (Wk13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in6 (atTc (Wk13 m)) c
  hout c := phi_out6 (atTc (Wk13 m)) c
  hexit c := by
    have hjoin := Pipeline.unscopedBufs_of_arrays (p := 6) (pcfgs (F := F)) padm (Ix := Unit) (Name := ℕ) (U := UR sig nD τ) (Lvl := ℕ)
      launch6.win launch6.arr_whole c (pdats m) ((pdats m 6 c).share_full fun _ => rfl)
      (atTc (Wk13 m) c) (atTc (Wk14 m) c) ((pdats m 6 c).arrAt · cfg6.N)
      (fun w => (exit6_arr (Wk13 m) c w).symm)
      (fun b hb => exit6_of_ne (Wk13 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev rsegs : List (Pipeline.Seg (pcfgs (F := F)) padm (pdats m) () defs₀ 𝒱h Lh lvh) :=
  [ .host (hseg hostOps0 hostOps0_sub hostOps0_fresh (Wk0 m)),
    .region (reg0 m),
    .host (hseg hostOps1 hostOps1_sub hostOps1_fresh (Wk2 m)),
    .region (reg1 m),
    .host (hseg hostOps2 hostOps2_sub hostOps2_fresh (Wk4 m)),
    .region (reg2 m),
    .host (hseg hostOps3 hostOps3_sub hostOps3_fresh (Wk6 m)),
    .region (reg3 m),
    .host (hseg hostOps4 hostOps4_sub hostOps4_fresh (Wk8 m)),
    .region (reg4 m),
    .host (hseg hostOps5 hostOps5_sub hostOps5_fresh (Wk10 m)),
    .region (reg5 m),
    .host (hseg hostOps6 hostOps6_sub hostOps6_fresh (Wk12 m)),
    .region (reg6 m),
    .host (hseg hostOps7 hostOps7_sub hostOps7_fresh (Wk14 m)) ]

set_option backward.isDefEq.respectTransparency.types false in
/-- THE RUN: from any launch memory with zero counters every weakly fair execution of @main terminates, nothing
    faulting, and every unscoped buffer of every core ends at the last boundary's contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wk15 m c b) :=
  Pipeline.θ_run_regions_kit (pcfgs (F := F)) padm (pdats m) () cellOf_inj emb₁ defs₀ 𝒱h Lh lvh m ρ main (rsegs m)
    (fun c Q => by
      rewrite [main_chain c, Pipeline.Seg.run_eq_chain]
      exact .rfl)
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m c) ∗ Rst c))
    (Tₙ := fun c => iprop(StableHlo.held (c : Thread nD τ) (Pipeline.ucRefs τ sig) (Wk15 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (Wk15 m c) ∗ Rst c) ⊢ _
        iintro ⟨Hh, Hp, HO⟩
        isplitl [Hh Hp]
        · isplitl [Hh]; · iexact Hh
          iexact Hp
        iexact HO⟩)
    (hinit := by
      refine Pipeline.initEach Lh lvh fun c => ?_
      rw [show unscopedBufs c (fun b => m ((c : Thread nD τ).loc b)) = StableHlo.held (c : Thread nD τ) (Pipeline.ucRefs τ sig) (Wk0 m c)
        from Pipeline.unscopedBufs_held c (Wk0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk15 m c b)
    (hfin := fun c s' => by
      iintro ⟨⟨Hh, -⟩, HSI⟩
      unfold StableHlo.held
      imodintro
      iapply (pointsTo_read_all (Pipeline.ucRefs τ sig) (fun b => (((c : Thread nD τ)).1, b)) (Wk15 m c) s')
      isplitl [Hh] <;> iassumption)
    (hQ := fun s h => h)

end Cert.KernelIdeal.Hand
end
-- ==== Proof.Kept.lean ====
import proofs.«144698_j9466107920964_1_alg».proof.Proof.Gen.KernelIdeal.Launch
import proofs.«144698_j9466107920964_1_alg».proof.Proof.Gen.KernelIdeal.Skeleton
import proofs.«144698_j9466107920964_1_alg».proof.Proof.Gen.KernelIdeal.Points
import proofs.«144698_j9466107920964_1_alg».proof.Proof.Gen.KernelIdeal.Regions
import proofs.«144698_j9466107920964_1_alg».proof.Proof.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! No stretch of host operations writes an argument array and no kernel region has one as an output window: each
    argument's buffer holds its launch contents at the last boundary. -/

/-- Region 0 changes no buffer besides its output windows' arrays. -/
theorem exit0_keep (Win : Dev nD → Valuation τ sig (Elt F)) (c : Dev nD) (r : Ref sig .tc)
    (h : r ∉ ([main_v15_0, main_v15_1, main_v15_2] : List (Ref sig .tc))) :
    exit0 Win c (Proc.devRef .tc r) = Win c (Proc.devRef .tc r) := by
  by_cases hr : ∃ w, Pipeline.arrRef spec0 w = r
  · obtain ⟨w, rfl⟩ := hr
    fin_cases w <;> first | exact exit0_in Win c _ rfl | exact absurd (by decide) h
  · exact exit0_of_ne Win c r fun w e => hr ⟨w, e⟩

/-- Region 1 changes no buffer besides its output windows' arrays. -/
theorem exit1_keep (Win : Dev nD → Valuation τ sig (Elt F)) (c : Dev nD) (r : Ref sig .tc)
    (h : r ∉ ([main_v18] : List (Ref sig .tc))) :
    exit1 Win c (Proc.devRef .tc r) = Win c (Proc.devRef .tc r) := by
  by_cases hr : ∃ w, Pipeline.arrRef spec1 w = r
  · obtain ⟨w, rfl⟩ := hr
    fin_cases w <;> first | exact exit1_in Win c _ rfl | exact absurd (by decide) h
  · exact exit1_of_ne Win c r fun w e => hr ⟨w, e⟩

/-- Region 2 changes no buffer besides its output windows' arrays. -/
theorem exit2_keep (Win : Dev nD → Valuation τ sig (Elt F)) (c : Dev nD) (r : Ref sig .tc)
    (h : r ∉ ([main_v30_0, main_v30_1, main_v30_2] : List (Ref sig .tc))) :
    exit2 Win c (Proc.devRef .tc r) = Win c (Proc.devRef .tc r) := by
  by_cases hr : ∃ w, Pipeline.arrRef spec2 w = r
  · obtain ⟨w, rfl⟩ := hr
    fin_cases w <;> first | exact exit2_in Win c _ rfl | exact absurd (by decide) h
  · exact exit2_of_ne Win c r fun w e => hr ⟨w, e⟩

/-- Region 3 changes no buffer besides its output windows' arrays. -/
theorem exit3_keep (Win : Dev nD → Valuation τ sig (Elt F)) (c : Dev nD) (r : Ref sig .tc)
    (h : r ∉ ([main_v33] : List (Ref sig .tc))) :
    exit3 Win c (Proc.devRef .tc r) = Win c (Proc.devRef .tc r) := by
  by_cases hr : ∃ w, Pipeline.arrRef spec3 w = r
  · obtain ⟨w, rfl⟩ := hr
    fin_cases w <;> first | exact exit3_in Win c _ rfl | exact absurd (by decide) h
  · exact exit3_of_ne Win c r fun w e => hr ⟨w, e⟩

/-- Region 4 changes no buffer besides its output windows' arrays. -/
theorem exit4_keep (Win : Dev nD → Valuation τ sig (Elt F)) (c : Dev nD) (r : Ref sig .tc)
    (h : r ∉ ([main_v45_0, main_v45_1, main_v45_2] : List (Ref sig .tc))) :
    exit4 Win c (Proc.devRef .tc r) = Win c (Proc.devRef .tc r) := by
  by_cases hr : ∃ w, Pipeline.arrRef spec4 w = r
  · obtain ⟨w, rfl⟩ := hr
    fin_cases w <;> first | exact exit4_in Win c _ rfl | exact absurd (by decide) h
  · exact exit4_of_ne Win c r fun w e => hr ⟨w, e⟩

/-- Region 5 changes no buffer besides its output windows' arrays. -/
theorem exit5_keep (Win : Dev nD → Valuation τ sig (Elt F)) (c : Dev nD) (r : Ref sig .tc)
    (h : r ∉ ([main_v48] : List (Ref sig .tc))) :
    exit5 Win c (Proc.devRef .tc r) = Win c (Proc.devRef .tc r) := by
  by_cases hr : ∃ w, Pipeline.arrRef spec5 w = r
  · obtain ⟨w, rfl⟩ := hr
    fin_cases w <;> first | exact exit5_in Win c _ rfl | exact absurd (by decide) h
  · exact exit5_of_ne Win c r fun w e => hr ⟨w, e⟩

/-- Region 6 changes no buffer besides its output windows' arrays. -/
theorem exit6_keep (Win : Dev nD → Valuation τ sig (Elt F)) (c : Dev nD) (r : Ref sig .tc)
    (h : r ∉ ([main_v51] : List (Ref sig .tc))) :
    exit6 Win c (Proc.devRef .tc r) = Win c (Proc.devRef .tc r) := by
  by_cases hr : ∃ w, Pipeline.arrRef spec6 w = r
  · obtain ⟨w, rfl⟩ := hr
    fin_cases w <;> first | exact exit6_in Win c _ rfl | exact absurd (by decide) h
  · exact exit6_of_ne Win c r fun w e => hr ⟨w, e⟩

variable (m : (ℓ : Loc nD τ sig) → Buf (Elt F) ℓ)

/-- A buffer that no host operation writes and that is no region's output holds its launch contents at the end. -/
theorem Wk15_keep (c : Dev nD) (r : Ref sig .tc)
    (h0 : r ∉ hostOps0_W) (h1 : r ∉ hostOps1_W) (h2 : r ∉ hostOps2_W) (h3 : r ∉ hostOps3_W)
    (h4 : r ∉ hostOps4_W) (h5 : r ∉ hostOps5_W) (h6 : r ∉ hostOps6_W) (h7 : r ∉ hostOps7_W)
    (k0 : r ∉ ([main_v15_0, main_v15_1, main_v15_2] : List (Ref sig .tc))) (k1 : r ∉ ([main_v18] : List (Ref sig .tc)))
    (k2 : r ∉ ([main_v30_0, main_v30_1, main_v30_2] : List (Ref sig .tc))) (k3 : r ∉ ([main_v33] : List (Ref sig .tc)))
    (k4 : r ∉ ([main_v45_0, main_v45_1, main_v45_2] : List (Ref sig .tc))) (k5 : r ∉ ([main_v48] : List (Ref sig .tc)))
    (k6 : r ∉ ([main_v51] : List (Ref sig .tc))) :
    Wk15 m c (Proc.devRef .tc r) = m ((c : Thread nD τ).loc r) :=
  calc Wk15 m c (Proc.devRef .tc r)
    _ = Wk14 m c (Proc.devRef .tc r) := StableHlo.after_of_writes_sub hostOps7 _ hostOps7_writes h7
    _ = Wk13 m c (Proc.devRef .tc r) := exit6_keep (Wk13 m) c r k6
    _ = Wk12 m c (Proc.devRef .tc r) := StableHlo.after_of_writes_sub hostOps6 _ hostOps6_writes h6
    _ = Wk11 m c (Proc.devRef .tc r) := exit5_keep (Wk11 m) c r k5
    _ = Wk10 m c (Proc.devRef .tc r) := StableHlo.after_of_writes_sub hostOps5 _ hostOps5_writes h5
    _ = Wk9 m c (Proc.devRef .tc r) := exit4_keep (Wk9 m) c r k4
    _ = Wk8 m c (Proc.devRef .tc r) := StableHlo.after_of_writes_sub hostOps4 _ hostOps4_writes h4
    _ = Wk7 m c (Proc.devRef .tc r) := exit3_keep (Wk7 m) c r k3
    _ = Wk6 m c (Proc.devRef .tc r) := StableHlo.after_of_writes_sub hostOps3 _ hostOps3_writes h3
    _ = Wk5 m c (Proc.devRef .tc r) := exit2_keep (Wk5 m) c r k2
    _ = Wk4 m c (Proc.devRef .tc r) := StableHlo.after_of_writes_sub hostOps2 _ hostOps2_writes h2
    _ = Wk3 m c (Proc.devRef .tc r) := exit1_keep (Wk3 m) c r k1
    _ = Wk2 m c (Proc.devRef .tc r) := StableHlo.after_of_writes_sub hostOps1 _ hostOps1_writes h1
    _ = Wk1 m c (Proc.devRef .tc r) := exit0_keep (Wk1 m) c r k0
    _ = Wk0 m c (Proc.devRef .tc r) := StableHlo.after_of_writes_sub hostOps0 _ hostOps0_writes h0
    _ = m ((c : Thread nD τ).loc r) := rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem Wk15_main_arg0 (c : Dev nD) : Wk15 m c (Proc.devRef .tc main_arg0) = m ((c : Thread nD τ).loc main_arg0) :=
  Wk15_keep m c main_arg0 (by decide) (by decide) (by decide) (by decide) (by decide) (by decide) (by decide) (by decide)
    (by decide) (by decide) (by decide) (by decide) (by decide) (by decide) (by decide)
theorem Wk15_main_arg1 (c : Dev nD) : Wk15 m c (Proc.devRef .tc main_arg1) = m ((c : Thread nD τ).loc main_arg1) :=
  Wk15_keep m c main_arg1 (by decide) (by decide) (by decide) (by decide) (by decide) (by decide) (by decide) (by decide)
    (by decide) (by decide) (by decide) (by decide) (by decide) (by decide) (by decide)
theorem Wk15_main_arg2 (c : Dev nD) : Wk15 m c (Proc.devRef .tc main_arg2) = m ((c : Thread nD τ).loc main_arg2) :=
  Wk15_keep m c main_arg2 (by decide) (by decide) (by decide) (by decide) (by decide) (by decide) (by decide) (by decide)
    (by decide) (by decide) (by decide) (by decide) (by decide) (by decide) (by decide)
theorem Wk15_main_arg3 (c : Dev nD) : Wk15 m c (Proc.devRef .tc main_arg3) = m ((c : Thread nD τ).loc main_arg3) :=
  Wk15_keep m c main_arg3 (by decide) (by decide) (by decide) (by decide) (by decide) (by decide) (by decide) (by decide)
    (by decide) (by decide) (by decide) (by decide) (by decide) (by decide) (by decide)
theorem Wk15_main_arg4 (c : Dev nD) : Wk15 m c (Proc.devRef .tc main_arg4) = m ((c : Thread nD τ).loc main_arg4) :=
  Wk15_keep m c main_arg4 (by decide) (by decide) (by decide) (by decide) (by decide) (by decide) (by decide) (by decide)
    (by decide) (by decide) (by decide) (by decide) (by decide) (by decide) (by decide)
theorem Wk15_main_arg5 (c : Dev nD) : Wk15 m c (Proc.devRef .tc main_arg5) = m ((c : Thread nD τ).loc main_arg5) :=
  Wk15_keep m c main_arg5 (by decide) (by decide) (by decide) (by decide) (by decide) (by decide) (by decide) (by decide)
    (by decide) (by decide) (by decide) (by decide) (by decide) (by decide) (by decide)
theorem Wk15_main_arg6 (c : Dev nD) : Wk15 m c (Proc.devRef .tc main_arg6) = m ((c : Thread nD τ).loc main_arg6) :=
  Wk15_keep m c main_arg6 (by decide) (by decide) (by decide) (by decide) (by decide) (by decide) (by decide) (by decide)
    (by decide) (by decide) (by decide) (by decide) (by decide) (by decide) (by decide)
theorem Wk15_main_arg7 (c : Dev nD) : Wk15 m c (Proc.devRef .tc main_arg7) = m ((c : Thread nD τ).loc main_arg7) :=
  Wk15_keep m c main_arg7 (by decide) (by decide) (by decide) (by decide) (by decide) (by decide) (by decide) (by decide)
    (by decide) (by decide) (by decide) (by decide) (by decide) (by decide) (by decide)
theorem Wk15_main_arg8 (c : Dev nD) : Wk15 m c (Proc.devRef .tc main_arg8) = m ((c : Thread nD τ).loc main_arg8) :=
  Wk15_keep m c main_arg8 (by decide) (by decide) (by decide) (by decide) (by decide) (by decide) (by decide) (by decide)
    (by decide) (by decide) (by decide) (by decide) (by decide) (by decide) (by decide)
theorem Wk15_main_arg9 (c : Dev nD) : Wk15 m c (Proc.devRef .tc main_arg9) = m ((c : Thread nD τ).loc main_arg9) :=
  Wk15_keep m c main_arg9 (by decide) (by decide) (by decide) (by decide) (by decide) (by decide) (by decide) (by decide)
    (by decide) (by decide) (by decide) (by decide) (by decide) (by decide) (by decide)
theorem Wk15_main_arg10 (c : Dev nD) : Wk15 m c (Proc.devRef .tc main_arg10) = m ((c : Thread nD τ).loc main_arg10) :=
  Wk15_keep m c main_arg10 (by decide) (by decide) (by decide) (by decide) (by decide) (by decide) (by decide) (by decide)
    (by decide) (by decide) (by decide) (by decide) (by decide) (by decide) (by decide)
theorem Wk15_main_arg11 (c : Dev nD) : Wk15 m c (Proc.devRef .tc main_arg11) = m ((c : Thread nD τ).loc main_arg11) :=
  Wk15_keep m c main_arg11 (by decide) (by decide) (by decide) (by decide) (by decide) (by decide) (by decide) (by decide)
    (by decide) (by decide) (by decide) (by decide) (by decide) (by decide) (by decide)
theorem Wk15_main_arg12 (c : Dev nD) : Wk15 m c (Proc.devRef .tc main_arg12) = m ((c : Thread nD τ).loc main_arg12) :=
  Wk15_keep m c main_arg12 (by decide) (by decide) (by decide) (by decide) (by decide) (by decide) (by decide) (by decide)
    (by decide) (by decide) (by decide) (by decide) (by decide) (by decide) (by decide)
theorem Wk15_main_arg13 (c : Dev nD) : Wk15 m c (Proc.devRef .tc main_arg13) = m ((c : Thread nD τ).loc main_arg13) :=
  Wk15_keep m c main_arg13 (by decide) (by decide) (by decide) (by decide) (by decide) (by decide) (by decide) (by decide)
    (by decide) (by decide) (by decide) (by decide) (by decide) (by decide) (by decide)
theorem Wk15_main_arg14 (c : Dev nD) : Wk15 m c (Proc.devRef .tc main_arg14) = m ((c : Thread nD τ).loc main_arg14) :=
  Wk15_keep m c main_arg14 (by decide) (by decide) (by decide) (by decide) (by decide) (by decide) (by decide) (by decide)
    (by decide) (by decide) (by decide) (by decide) (by decide) (by decide) (by decide)
theorem Wk15_main_arg15 (c : Dev nD) : Wk15 m c (Proc.devRef .tc main_arg15) = m ((c : Thread nD τ).loc main_arg15) :=
  Wk15_keep m c main_arg15 (by decide) (by decide) (by decide) (by decide) (by decide) (by decide) (by decide) (by decide)
    (by decide) (by decide) (by decide) (by decide) (by decide) (by decide) (by decide)
theorem Wk15_main_arg16 (c : Dev nD) : Wk15 m c (Proc.devRef .tc main_arg16) = m ((c : Thread nD τ).loc main_arg16) :=
  Wk15_keep m c main_arg16 (by decide) (by decide) (by decide) (by decide) (by decide) (by decide) (by decide) (by decide)
    (by decide) (by decide) (by decide) (by decide) (by decide) (by decide) (by decide)
theorem Wk15_main_arg17 (c : Dev nD) : Wk15 m c (Proc.devRef .tc main_arg17) = m ((c : Thread nD τ).loc main_arg17) :=
  Wk15_keep m c main_arg17 (by decide) (by decide) (by decide) (by decide) (by decide) (by decide) (by decide) (by decide)
    (by decide) (by decide) (by decide) (by decide) (by decide) (by decide) (by decide)
theorem Wk15_main_arg18 (c : Dev nD) : Wk15 m c (Proc.devRef .tc main_arg18) = m ((c : Thread nD τ).loc main_arg18) :=
  Wk15_keep m c main_arg18 (by decide) (by decide) (by decide) (by decide) (by decide) (by decide) (by decide) (by decide)
    (by decide) (by decide) (by decide) (by decide) (by decide) (by decide) (by decide)

end Cert.KernelIdeal.Hand
end
-- ==== Proof.Frames.lean ====
import proofs.«144698_j9466107920964_1_alg».proof.Defs
import proofs.«144698_j9466107920964_1_alg».proof.Proof.Gen.KernelIdeal
import proofs.«144698_j9466107920964_1_alg».proof.Proof.Segs
import proofs.«144698_j9466107920964_1_alg».proof.Proof.Kept

/-! The idealized kernel's frame: its run ends with every unscoped buffer at the last boundary's contents, and each
    argument's buffer there holds its launch contents. -/

noncomputable section

namespace Cert.KernelIdeal.Hand

open Cert.KernelIdeal Cert.KernelIdeal.Gen
open Idealize.ShloMosaic Idealize.ShloMosaic.TcCoe Idealize.SL.Sem

variable {F : FTy → Type} [FloatOps F] [Named F]

/-- Every weakly fair execution terminates, nothing faults, and the nineteen argument arrays end as launched. -/
theorem frame_run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_arg0 (by decide))).trans (Wk15_main_arg0 m c),
    (h c _ (mem_uc main_arg1 (by decide))).trans (Wk15_main_arg1 m c),
    (h c _ (mem_uc main_arg2 (by decide))).trans (Wk15_main_arg2 m c),
    (h c _ (mem_uc main_arg3 (by decide))).trans (Wk15_main_arg3 m c),
    (h c _ (mem_uc main_arg4 (by decide))).trans (Wk15_main_arg4 m c),
    (h c _ (mem_uc main_arg5 (by decide))).trans (Wk15_main_arg5 m c),
    (h c _ (mem_uc main_arg6 (by decide))).trans (Wk15_main_arg6 m c),
    (h c _ (mem_uc main_arg7 (by decide))).trans (Wk15_main_arg7 m c),
    (h c _ (mem_uc main_arg8 (by decide))).trans (Wk15_main_arg8 m c),
    (h c _ (mem_uc main_arg9 (by decide))).trans (Wk15_main_arg9 m c),
    (h c _ (mem_uc main_arg10 (by decide))).trans (Wk15_main_arg10 m c),
    (h c _ (mem_uc main_arg11 (by decide))).trans (Wk15_main_arg11 m c),
    (h c _ (mem_uc main_arg12 (by decide))).trans (Wk15_main_arg12 m c),
    (h c _ (mem_uc main_arg13 (by decide))).trans (Wk15_main_arg13 m c),
    (h c _ (mem_uc main_arg14 (by decide))).trans (Wk15_main_arg14 m c),
    (h c _ (mem_uc main_arg15 (by decide))).trans (Wk15_main_arg15 m c),
    (h c _ (mem_uc main_arg16 (by decide))).trans (Wk15_main_arg16 m c),
    (h c _ (mem_uc main_arg17 (by decide))).trans (Wk15_main_arg17 m c),
    (h c _ (mem_uc main_arg18 (by decide))).trans (Wk15_main_arg18 m c)⟩)
    (run_main m ρ)

end Cert.KernelIdeal.Hand

end
-- ==== Proof.KReg0Runs.lean ====
/- Region 0 (the first linear layer with its running column statistics): the body's two conditionals over the
   grid, where its windows are idle, and the body's triple in each of the three cases of the grid point — first,
   middle, last —, every buffer's final contents a named term over the skeleton's payloads. -/
import proofs.«144698_j9466107920964_1_alg».proof.Proof.Gen.Kernel.Launch
import proofs.«144698_j9466107920964_1_alg».proof.Proof.Gen.Kernel.Skeleton
import proofs.«144698_j9466107920964_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## The body's two conditionals, over the grid -/

/-- The condition of the first conditional (the accumulators are zeroed): the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 25 = 0 :=
  (by decide +kernel : ∀ t : Fin grid0.N, cond0_0 (grid0.coords t) ↔ t.val % 25 = 0)
/-- The condition of the second conditional (the mean and the variance are stored): the grid coordinate is the last. -/
abbrev cond0_1 (i : grid0.Coords) : Prop := k0_cond2 i = 1#1
/-- It holds at the last point only. -/
theorem hcond0_1 : ∀ t : Fin cfg0.N, cond0_1 (grid0.coords t) ↔ t.val % 25 = 24 :=
  (by decide +kernel : ∀ t : Fin grid0.N, cond0_1 (grid0.coords t) ↔ t.val % 25 = 24)

/-- The inputs and the rows' window are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Before the last point the mean's and the variance's windows are idle and not written back; at the last point live. -/
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

set_option maxHeartbeats 4000000 in
/-- The body at the first point: the running sums are zeroed, then the rows are stored and added into them. -/
theorem run0_A (c : Dev nD) (i : grid0.Coords)
    (arg1 : Memref sig .tc .vmem S2000x64 .f32) (harg1 : arg1.IsWhole) (arg2 : Memref sig .tc .vmem S2000x64 .f32) (harg2 : arg2.IsWhole)
    (arg3 : Memref sig .tc .vmem S64x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : cond0_0 i) (hc1 : ¬cond0_1 i)
    (x0 : Vec F S2000x64 .f32) (x1 : Vec F S2000x64 .f32) (x2 : Vec F S64x256 .f32) (x3 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay5 x0 x1 x2 x3)
            ∗ owns (c : Thread nD τ) arg8 fullShare (k0_pay6 x0 x1 x2 x3 k0_pay3) ∗ owns (c : Thread nD τ) arg9 fullShare (k0_pay7 x0 x1 x2 x3 k0_pay4)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, View.readCov_unit_zero (S := S1x256) _ hz2]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, View.readCov_unit_zero (S := S1x256) _ hz2]

set_option maxHeartbeats 4000000 in
/-- The body at a point that is neither the first nor the last: the rows are stored and added into the two running sums. -/
theorem run0_B (c : Dev nD) (i : grid0.Coords)
    (arg1 : Memref sig .tc .vmem S2000x64 .f32) (harg1 : arg1.IsWhole) (arg2 : Memref sig .tc .vmem S2000x64 .f32) (harg2 : arg2.IsWhole)
    (arg3 : Memref sig .tc .vmem S64x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : ¬cond0_0 i) (hc1 : ¬cond0_1 i)
    (x0 : Vec F S2000x64 .f32) (x1 : Vec F S2000x64 .f32) (x2 : Vec F S64x256 .f32) (x3 : Vec F S1x256 .f32) (xs8 xs9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg8 fullShare xs8 ∗ owns (c : Thread nD τ) arg9 fullShare xs9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay5 x0 x1 x2 x3)
            ∗ owns (c : Thread nD τ) arg8 fullShare (k0_pay6 x0 x1 x2 x3 xs8) ∗ owns (c : Thread nD τ) arg9 fullShare (k0_pay7 x0 x1 x2 x3 xs9)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, harg8.read_unread]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, harg9.read_unread]

set_option maxHeartbeats 4000000 in
/-- The body at the last point: the rows are stored and added into the running sums, and the mean and the variance
    are computed from the sums and stored. -/
theorem run0_C (c : Dev nD) (i : grid0.Coords)
    (arg1 : Memref sig .tc .vmem S2000x64 .f32) (harg1 : arg1.IsWhole) (arg2 : Memref sig .tc .vmem S2000x64 .f32) (harg2 : arg2.IsWhole)
    (arg3 : Memref sig .tc .vmem S64x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : ¬cond0_0 i) (hc1 : cond0_1 i)
    (x0 : Vec F S2000x64 .f32) (x1 : Vec F S2000x64 .f32) (x2 : Vec F S64x256 .f32) (x3 : Vec F S1x256 .f32) (xs8 xs9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs8 ∗ owns (c : Thread nD τ) arg9 fullShare xs9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay5 x0 x1 x2 x3)
            ∗ owns (c : Thread nD τ) arg6 fullShare (k0_pay1 (k0_pay6 x0 x1 x2 x3 xs8)) ∗ owns (c : Thread nD τ) arg7 fullShare (k0_pay2 (k0_pay6 x0 x1 x2 x3 xs8) (k0_pay7 x0 x1 x2 x3 xs9))
            ∗ owns (c : Thread nD τ) arg8 fullShare (k0_pay6 x0 x1 x2 x3 xs8) ∗ owns (c : Thread nD τ) arg9 fullShare (k0_pay7 x0 x1 x2 x3 xs9)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2]
  isplitl [H6]
  · iexists _; isplitr
    swap; · iexact H6
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, harg8.read_unread, harg9.read_unread, View.readCov_unit_zero (S := S1x256) _ hz2]
  isplitl [H7]
  · iexists _; isplitr
    swap; · iexact H7
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, harg8.read_unread, harg9.read_unread, View.readCov_unit_zero (S := S1x256) _ hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, harg8.read_unread]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x64) hz2, View.ld_unit_zero (S := S64x256) hz2, View.ld_unit_zero (S := S1x256) hz2, harg9.read_unread]

end Cert.Kernel.Hand

end
-- ==== Proof.KReg0.lean ====
/- Region 0 (the first linear layer with its running column statistics) at the entry contents `V`: the windows'
   blocks, the running column sum and sum of squares by recursion on the point, the invariant holding the two
   accumulators at them, the proof data, the body obligation from the three case runs, and the entailments into and
   out of the region. -/
import proofs.«144698_j9466107920964_1_alg».proof.Proof.KReg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The running column sums -/

/-- The running column sum of the rows `h` of the points below `n`: zero, then each point's block sum added. -/
def acc0S (c : Dev nD) : ℕ → Vec F S1x256 .f32
  | 0 => k0_pay3
  | n + 1 => if h : n < cfg0.N then
      k0_pay6 (iblk0 V c 0 ⟨n, h⟩) (iblk0 V c 1 ⟨n, h⟩) (iblk0 V c 2 ⟨n, h⟩) (iblk0 V c 3 ⟨n, h⟩) (acc0S c n)
    else acc0S c n

/-- The running column sum of squares of the rows `h` of the points below `n`. -/
def acc0Q (c : Dev nD) : ℕ → Vec F S1x256 .f32
  | 0 => k0_pay4
  | n + 1 => if h : n < cfg0.N then
      k0_pay7 (iblk0 V c 0 ⟨n, h⟩) (iblk0 V c 1 ⟨n, h⟩) (iblk0 V c 2 ⟨n, h⟩) (iblk0 V c 3 ⟨n, h⟩) (acc0Q c n)
    else acc0Q c n

theorem acc0S_zero (c : Dev nD) : acc0S V c 0 = k0_pay3 := rfl
theorem acc0Q_zero (c : Dev nD) : acc0Q V c 0 = k0_pay4 := rfl
theorem acc0S_succ (c : Dev nD) (t : Fin cfg0.N) :
    acc0S V c (t.val + 1) = k0_pay6 (iblk0 V c 0 t) (iblk0 V c 1 t) (iblk0 V c 2 t) (iblk0 V c 3 t) (acc0S V c t.val) := by
  rw [acc0S, dif_pos t.isLt]
theorem acc0Q_succ (c : Dev nD) (t : Fin cfg0.N) :
    acc0Q V c (t.val + 1) = k0_pay7 (iblk0 V c 0 t) (iblk0 V c 1 t) (iblk0 V c 2 t) (iblk0 V c 3 t) (acc0Q V c t.val) := by
  rw [acc0Q, dif_pos t.isLt]

/-! ## The invariant -/

/-- The two scratch operands as memrefs. -/
abbrev scM0_0 : Memref sig .tc .vmem S1x256 .f32 := Memref.whole cc0_scratch0
abbrev scM0_1 : Memref sig .tc .vmem S1x256 .f32 := Memref.whole cc0_scratch1

/-- The scoped buffers that are neither staging buffers nor this kernel's two accumulators. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The region invariant before point `n`: before the first point the two accumulators hold anything (the body zeroes
    them before reading them); afterwards the running sums of the points below `n`. Beside them the other scoped
    buffers and the generator register, untouched. -/
def Phi0 (c : Dev nD) : ℕ → sProp 𝕄
  | 0 => iprop(((∃ d, owns (c : Thread nD τ) scM0_0 fullShare d) ∗ (∃ d, owns (c : Thread nD τ) scM0_1 fullShare d)) ∗ rest0 c ∗ (∃ r, prngReg c r))
  | n + 1 => iprop((owns (c : Thread nD τ) scM0_0 fullShare (acc0S V c (n + 1)) ∗ owns (c : Thread nD τ) scM0_1 fullShare (acc0Q V c (n + 1))) ∗ rest0 c ∗ (∃ r, prngReg c r))

theorem Phi0_zero (c : Dev nD) :
    Phi0 V c 0 = iprop(((∃ d, owns (c : Thread nD τ) scM0_0 fullShare d) ∗ (∃ d, owns (c : Thread nD τ) scM0_1 fullShare d)) ∗ rest0 c ∗ (∃ r, prngReg c r)) := rfl
theorem Phi0_succ (c : Dev nD) (n : ℕ) :
    Phi0 V c (n + 1) = iprop((owns (c : Thread nD τ) scM0_0 fullShare (acc0S V c (n + 1)) ∗ owns (c : Thread nD τ) scM0_1 fullShare (acc0Q V c (n + 1))) ∗ rest0 c ∗ (∃ r, prngReg c r)) := rfl
theorem Phi0_pos (c : Dev nD) (n : ℕ) (hn : n ≠ 0) :
    Phi0 V c n = iprop((owns (c : Thread nD τ) scM0_0 fullShare (acc0S V c n) ∗ owns (c : Thread nD τ) scM0_1 fullShare (acc0Q V c n)) ∗ rest0 c ∗ (∃ r, prngReg c r)) := by
  cases n with
  | zero => exact absurd rfl hn
  | succ n => rfl

/-! ## The proof data -/

/-- The proof data of the pipeline on core `c`: the arrays as the region finds them; after the body at point `t` each
    input's buffer at its block, the rows `h` of the point, and (stored at the last point only) the mean and the
    variance computed from the running sums through the point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay5 (iblk0 V c 0 t) (iblk0 V c 1 t) (iblk0 V c 2 t) (iblk0 V c 3 t)
    | ⟨5, _⟩ => k0_pay1 (acc0S V c (t.val + 1))
    | ⟨6, _⟩ => k0_pay2 (acc0S V c (t.val + 1)) (acc0Q V c (t.val + 1))
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay5 (iblk0 V c 0 t) (iblk0 V c 1 t) (iblk0 V c 2 t) (iblk0 V c 3 t) := by dsimp only [dat0]
theorem after0_5 (c : Dev nD) (t : Fin cfg0.N) : (dat0 V c).after 5 t = k0_pay1 (acc0S V c (t.val + 1)) := by dsimp only [dat0]
theorem after0_6 (c : Dev nD) (t : Fin cfg0.N) :
    (dat0 V c).after 6 t = k0_pay2 (acc0S V c (t.val + 1)) (acc0Q V c (t.val + 1)) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem Phi0_castSucc (c : Dev nD) (t : Fin cfg0.N) : (dat0 V c).Φ t.castSucc = Phi0 V c t.val := by
  dsimp only [dat0]; simp only [Fin.coe_castSucc]
theorem Phi0_at_succ (c : Dev nD) (t : Fin cfg0.N) : (dat0 V c).Φ t.succ = Phi0 V c (t.val + 1) := by
  dsimp only [dat0]; simp only [Fin.val_succ]

/-- What the launch hands the kernel is the invariant before the first point: the scoped rest opened at the two
    accumulators. -/
theorem phi_in0_of (c : Dev nD) (P : sProp 𝕄) :
    iprop((∃ r, prngReg c r) ∗ P ∗ Pipeline.scopedRest (Ix := Unit) (Name := ℕ) (U := UR sig nD τ) (Lvl := ℕ) (Val := Elt F) spec0 c) ⊢ (dat0 V c).Φ 0 := by
  rw [show (dat0 V c).Φ 0 = Phi0 V c 0 from rfl, Phi0_zero, scopedRest0_split]
  simp only [scM0_0, scM0_1, owns_whole]
  iintro ⟨Hp, -, ⟨H0, H1⟩, Hr⟩
  isplitl [H0 H1]
  · isplitl [H0]; · iexact H0
    iexact H1
  isplitl [Hr]; · iexact Hr
  iexact Hp

/-- The invariant after the last point gives back the generator register and the scoped rest, the accumulators'
    contents forgotten. -/
theorem phi_out0_of (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = Phi0 V c 25 from rfl, Phi0_succ, scopedRest0_split]
  simp only [scM0_0, scM0_1, owns_whole]
  iintro ⟨⟨H0, H1⟩, Hr, Hp⟩
  isplitl [Hp]; · iexact Hp
  isplitl [H0 H1]
  · isplitl [H0]; · iexists _; iexact H0
    iexists _; iexact H1
  iexact Hr

/-! ## The body obligation -/

theorem leaves0_0 (c : Dev nD) (t : Fin cfg0.N) : (dat0 V c).leavesExact 0 t = owns (c : Thread nD τ) (st0_0 t) fullShare (iblk0 V c 0 t) := by
  unfold Dat.leavesExact; rw [liveAt0_0 t, after0_0]
theorem leaves0_1 (c : Dev nD) (t : Fin cfg0.N) : (dat0 V c).leavesExact 1 t = owns (c : Thread nD τ) (st0_1 t) fullShare (iblk0 V c 1 t) := by
  unfold Dat.leavesExact; rw [liveAt0_1 t, after0_1]
theorem leaves0_2 (c : Dev nD) (t : Fin cfg0.N) : (dat0 V c).leavesExact 2 t = owns (c : Thread nD τ) (st0_2 t) fullShare (iblk0 V c 2 t) := by
  unfold Dat.leavesExact; rw [liveAt0_2 t, after0_2]
theorem leaves0_3 (c : Dev nD) (t : Fin cfg0.N) : (dat0 V c).leavesExact 3 t = owns (c : Thread nD τ) (st0_3 t) fullShare (iblk0 V c 3 t) := by
  unfold Dat.leavesExact; rw [liveAt0_3 t, after0_3]
theorem leaves0_4 (c : Dev nD) (t : Fin cfg0.N) :
    (dat0 V c).leavesExact 4 t = owns (c : Thread nD τ) (st0_4 t) fullShare (k0_pay5 (iblk0 V c 0 t) (iblk0 V c 1 t) (iblk0 V c 2 t) (iblk0 V c 3 t)) := by
  unfold Dat.leavesExact; rw [liveAt0_4 t, after0_4]
theorem leaves0_5_idle (c : Dev nD) (t : Fin cfg0.N) (h : ¬cond0_1 (grid0.coords t)) :
    (dat0 V c).leavesExact 5 t = iprop(∃ d, owns (c : Thread nD τ) (st0_5 t) fullShare ((dat0 V c).before 5 t d)) :=
  Dat.leavesExact_idle (dat0 V c) 5 t (idleAt0_5 t h) (noFlush0_5 t h)
theorem leaves0_6_idle (c : Dev nD) (t : Fin cfg0.N) (h : ¬cond0_1 (grid0.coords t)) :
    (dat0 V c).leavesExact 6 t = iprop(∃ d, owns (c : Thread nD τ) (st0_6 t) fullShare ((dat0 V c).before 6 t d)) :=
  Dat.leavesExact_idle (dat0 V c) 6 t (idleAt0_6 t h) (noFlush0_6 t h)
theorem leaves0_5_live (c : Dev nD) (t : Fin cfg0.N) (h : cond0_1 (grid0.coords t)) :
    (dat0 V c).leavesExact 5 t = owns (c : Thread nD τ) (st0_5 t) fullShare (k0_pay1 (acc0S V c (t.val + 1))) := by
  unfold Dat.leavesExact; rw [liveAt0_5 t h, after0_5]
theorem leaves0_6_live (c : Dev nD) (t : Fin cfg0.N) (h : cond0_1 (grid0.coords t)) :
    (dat0 V c).leavesExact 6 t = owns (c : Thread nD τ) (st0_6 t) fullShare (k0_pay2 (acc0S V c (t.val + 1)) (acc0Q V c (t.val + 1))) := by
  unfold Dat.leavesExact; rw [liveAt0_6 t h, after0_6]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at the first point. -/
theorem sound_body0_A (c : Dev nD) (t : Fin cfg0.N) (h0 : t.val % 25 = 0) (h1 : ¬t.val % 25 = 24) :
    bodyPre0 V c t ⊢ wp frame (wpE (defs₀ (F := F)) Variants.none c none) Set.univ (bodyAt0 t) (fun _ => bodyPost0 V c t) := by
  have hN : t.val < 25 := lt_of_lt_of_eq t.isLt (show cfg0.N = 25 from N_0)
  have hz : t.val = 0 := by omega
  unfold bodyPre0 bodyPost0 bodyAt0
  simp only [before0_0, before0_1, before0_2, before0_3]
  rw [show (dat0 V c).owesAt () t.succ = (dat0 V c).owesAt () t.castSucc from rfl]
  rw [Phi0_castSucc, Phi0_at_succ, Phi0_succ, leaves0_0, leaves0_1, leaves0_2, leaves0_3, leaves0_4]
  rw [acc0S_succ V c t, acc0Q_succ V c t]
  rw [leaves0_5_idle V c t (fun h => h1 ((hcond0_1 t).mp h)), leaves0_6_idle V c t (fun h => h1 ((hcond0_1 t).mp h))]
  rw [show Phi0 V c t.val = Phi0 V c 0 from by rw [hz], Phi0_zero]
  rw [show acc0S V c t.val = k0_pay3 from by rw [hz]; rfl, show acc0Q V c t.val = k0_pay4 from by rw [hz]; rfl]
  iintro ⟨⟨⟨HS8, HS9⟩, Hrest, Hg⟩, Ho, ⟨%d0, H0⟩, ⟨%d1, H1⟩, ⟨%d2, H2⟩, ⟨%d3, H3⟩, ⟨%d4, H4⟩, H5, H6⟩
  iapply (run0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) Set.univ _)
  isplitl [H0]; · iexact H0
  isplitl [H1]; · iexact H1
  isplitl [H2]; · iexact H2
  isplitl [H3]; · iexact H3
  isplitl [H4]; · iexists _; iexact H4
  isplitl [HS8]; · iexact HS8
  isplitl [HS9]; · iexact HS9
  iintro ⟨H0, H1, H2, H3, H4, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at a point that is neither the first nor the last. -/
theorem sound_body0_B (c : Dev nD) (t : Fin cfg0.N) (h0 : ¬t.val % 25 = 0) (h1 : ¬t.val % 25 = 24) :
    bodyPre0 V c t ⊢ wp frame (wpE (defs₀ (F := F)) Variants.none c none) Set.univ (bodyAt0 t) (fun _ => bodyPost0 V c t) := by
  have hN : t.val < 25 := lt_of_lt_of_eq t.isLt (show cfg0.N = 25 from N_0)
  have hz : t.val ≠ 0 := by omega
  unfold bodyPre0 bodyPost0 bodyAt0
  simp only [before0_0, before0_1, before0_2, before0_3]
  rw [show (dat0 V c).owesAt () t.succ = (dat0 V c).owesAt () t.castSucc from rfl]
  rw [Phi0_castSucc, Phi0_at_succ, Phi0_succ, leaves0_0, leaves0_1, leaves0_2, leaves0_3, leaves0_4]
  rw [acc0S_succ V c t, acc0Q_succ V c t]
  rw [leaves0_5_idle V c t (fun h => h1 ((hcond0_1 t).mp h)), leaves0_6_idle V c t (fun h => h1 ((hcond0_1 t).mp h))]
  rw [Phi0_pos V c t.val hz]
  iintro ⟨⟨⟨HS8, HS9⟩, Hrest, Hg⟩, Ho, ⟨%d0, H0⟩, ⟨%d1, H1⟩, ⟨%d2, H2⟩, ⟨%d3, H3⟩, ⟨%d4, H4⟩, H5, H6⟩
  iapply (run0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ Set.univ _)
  isplitl [H0]; · iexact H0
  isplitl [H1]; · iexact H1
  isplitl [H2]; · iexact H2
  isplitl [H3]; · iexact H3
  isplitl [H4]; · iexists _; iexact H4
  isplitl [HS8]; · iexact HS8
  isplitl [HS9]; · iexact HS9
  iintro ⟨H0, H1, H2, H3, H4, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at the last point. -/
theorem sound_body0_C (c : Dev nD) (t : Fin cfg0.N) (h0 : ¬t.val % 25 = 0) (h1 : t.val % 25 = 24) :
    bodyPre0 V c t ⊢ wp frame (wpE (defs₀ (F := F)) Variants.none c none) Set.univ (bodyAt0 t) (fun _ => bodyPost0 V c t) := by
  have hN : t.val < 25 := lt_of_lt_of_eq t.isLt (show cfg0.N = 25 from N_0)
  have hz : t.val ≠ 0 := by omega
  unfold bodyPre0 bodyPost0 bodyAt0
  simp only [before0_0, before0_1, before0_2, before0_3]
  rw [show (dat0 V c).owesAt () t.succ = (dat0 V c).owesAt () t.castSucc from rfl]
  rw [Phi0_castSucc, Phi0_at_succ, Phi0_succ, leaves0_0, leaves0_1, leaves0_2, leaves0_3, leaves0_4]
  rw [acc0S_succ V c t, acc0Q_succ V c t]
  rw [leaves0_5_live V c t ((hcond0_1 t).mpr h1), leaves0_6_live V c t ((hcond0_1 t).mpr h1)]
  rw [acc0S_succ V c t, acc0Q_succ V c t]
  rw [Phi0_pos V c t.val hz]
  iintro ⟨⟨⟨HS8, HS9⟩, Hrest, Hg⟩, Ho, ⟨%d0, H0⟩, ⟨%d1, H1⟩, ⟨%d2, H2⟩, ⟨%d3, H3⟩, ⟨%d4, H4⟩, ⟨%d5, H5⟩, ⟨%d6, H6⟩⟩
  iapply (run0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS8]; · iexact HS8
  isplitl [HS9]; · iexact HS9
  iintro ⟨H0, H1, H2, H3, H4, H5, H6, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point: by the point's place in the grid. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 25 := lt_of_lt_of_eq t.isLt (show cfg0.N = 25 from N_0)
  by_cases h0 : t.val % 25 = 0
  · exact sound_body0_A V c t h0 (by omega)
  · by_cases h1 : t.val % 25 = 24
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the region -/

/-- `phi_in0_of` in the shape a region record asks: the generator register, the (empty) prefetched tables and the
    scoped rest make the invariant before the first point. -/
theorem phi_in0 (c : Dev nD) :
    iprop((∃ r, prngReg c r) ∗ Pipeline.prefHeld (pcfgs (F := F) 0).pre c (fun _ => fullShare) ((cfgs 0).toPCfg_adm (Val := Elt F)).1
        ∗ Pipeline.scopedRest (Ix := Unit) (Name := ℕ) (U := UR sig nD τ) (Lvl := ℕ) (Val := Elt F) spec0 c) ⊢ (dat0 V c).Φ 0 :=
  phi_in0_of V c _

/-- `phi_out0_of` in the shape a region record asks, for a kernel with no semaphore of its own. -/
theorem phi_out0 (c : Dev nD) :
    (dat0 V c).Φ (Fin.last cfg0.N) ⊢ iprop((∃ r, prngReg c r) ∗ Pipeline.ownSems0 (fun k : PEmpty => k.elim) c
        ∗ Pipeline.scopedRest (Ix := Unit) (Name := ℕ) (U := UR sig nD τ) (Lvl := ℕ) (Val := Elt F) spec0 c) := by
  rw [Pipeline.ownSems0_none]
  refine (phi_out0_of V c).trans ?_
  iintro ⟨Hp, Hr⟩
  isplitl [Hp]; · iexact Hp
  isplitr; · iempintro
  iexact Hr

end Cert.Kernel.Hand

end
-- ==== Proof.KReg1.lean ====
/- Region 1: the body of `cc1_kernel` at the contents the region is entered with. Each input window's staging
   buffer holds its block at every grid point; the one output window's buffer is read once (the value is not used)
   and then stored whole, so after the body it holds the stored value, a function of the input blocks alone. -/
import proofs.«144698_j9466107920964_1_alg».proof.Proof.Gen.Kernel.Launch
import proofs.«144698_j9466107920964_1_alg».proof.Proof.Gen.Kernel.Skeleton
import proofs.«144698_j9466107920964_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched
    the block index has not moved, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: where it is not fetched
    the block index has not moved, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: where it is not fetched
    the block index has not moved, and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not: where it is not fetched
    the block index has not moved, and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not: where it is not fetched
    the block index has not moved, and the body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_S2000x256 : Rect S2000x256 := Rect.unit (s := S2000x256) ![0, 0] S2000x256.size inb_S2000x256_S2000x256_0_0
abbrev r1_S1x256 : Rect S1x256 := Rect.unit (s := S1x256) ![0, 0] S1x256.size inb_S1x256_S1x256_0_0

/-! ## What the body leaves in the output window's buffer -/

/-- Window 5's staging buffer after the body, from the input windows' blocks: the one store, of the whole block. -/
def out1_5 (x0 : Vec F S2000x256 .f32) (x1 : Vec F S1x256 .f32) (x2 : Vec F S1x256 .f32) (x3 : Vec F S1x256 .f32) (x4 : Vec F S1x256 .f32) : Vec F S2000x256 .f32 :=
  View.canon [⟨r1_S2000x256, k1_pay1 (View.ld x0 r1_S2000x256) (View.ld x1 r1_S1x256) (View.ld x2 r1_S1x256) (View.ld x3 r1_S1x256) (View.ld x4 r1_S1x256)⟩]

/-- The store covers the buffer. -/
theorem cover1_5 (p0 : Vec F S2000x256 .f32) (y : S2000x256.Idx) :
    ∃ pc ∈ ([⟨r1_S2000x256, p0⟩] : List (View.Piece (Elt F) S2000x256 .f32)), y ∈ pc.1.set :=
  View.cover_of_tiled [⟨r1_S2000x256, p0⟩] S2000x256.size (by rfl) y

/-- The offsets of every access are zero. -/
theorem zeros_reg1 : (![0, 0] : Fin 2 → ℕ) = fun _ => 0 := funext fun a => by fin_cases a <;> rfl

/-- A whole-buffer load reads the buffer and the one whole-buffer store leaves its payload: the output's buffer after
    the body is the payload at the input blocks. -/
theorem out1_5_eq (x0 : Vec F S2000x256 .f32) (x1 : Vec F S1x256 .f32) (x2 : Vec F S1x256 .f32) (x3 : Vec F S1x256 .f32) (x4 : Vec F S1x256 .f32) :
    out1_5 x0 x1 x2 x3 x4 = k1_pay1 x0 x1 x2 x3 x4 := by
  unfold out1_5
  rw [View.canon_unit_zero (S := S2000x256) zeros_reg1 inb_S2000x256_S2000x256_0_0,
    View.ld_unit_zero (S := S2000x256) zeros_reg1 inb_S2000x256_S2000x256_0_0 x0,
    View.ld_unit_zero (S := S1x256) zeros_reg1 inb_S1x256_S1x256_0_0 x1,
    View.ld_unit_zero (S := S1x256) zeros_reg1 inb_S1x256_S1x256_0_0 x2,
    View.ld_unit_zero (S := S1x256) zeros_reg1 inb_S1x256_S1x256_0_0 x3,
    View.ld_unit_zero (S := S1x256) zeros_reg1 inb_S1x256_S1x256_0_0 x4]

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and the output's at `out1_5` of the input blocks; the invariant keeps the scoped rest
    and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.KReg2Runs.lean ====
/- Region 2 (the second linear layer with its running column statistics): the body's two conditionals over the
   grid, where its windows are idle, and the body's triple in each of the three cases of the grid point — first,
   middle, last —, every buffer's final contents a named term over the skeleton's payloads. -/
import proofs.«144698_j9466107920964_1_alg».proof.Proof.Gen.Kernel.Launch
import proofs.«144698_j9466107920964_1_alg».proof.Proof.Gen.Kernel.Skeleton
import proofs.«144698_j9466107920964_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«144698_j9466107920964_1_alg».proof.Proof.KReg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, over the grid -/

/-- The condition of the first conditional (the accumulators are zeroed): the grid coordinate is zero. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 25 = 0 :=
  (by decide +kernel : ∀ t : Fin grid2.N, cond2_0 (grid2.coords t) ↔ t.val % 25 = 0)
/-- The condition of the second conditional (the mean and the variance are stored): the grid coordinate is the last. -/
abbrev cond2_1 (i : grid2.Coords) : Prop := k2_cond2 i = 1#1
/-- It holds at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

/-- The inputs and the rows' window are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Before the last point the mean's and the variance's windows are idle and not written back; at the last point live. -/
theorem idleAt2_5 : ∀ t : Fin cfg2.N, ¬cond2_1 (grid2.coords t) → cfg2.idle 5 (grid2.coords t) = true := by decide +kernel
theorem idleAt2_6 : ∀ t : Fin cfg2.N, ¬cond2_1 (grid2.coords t) → cfg2.idle 6 (grid2.coords t) = true := by decide +kernel
theorem noFlush2_5 : ∀ t : Fin cfg2.N, ¬cond2_1 (grid2.coords t) → (cfg2.win 5).flush t = false := by decide +kernel
theorem noFlush2_6 : ∀ t : Fin cfg2.N, ¬cond2_1 (grid2.coords t) → (cfg2.win 6).flush t = false := by decide +kernel
theorem liveAt2_5 : ∀ t : Fin cfg2.N, cond2_1 (grid2.coords t) → cfg2.idle 5 (grid2.coords t) = false := by decide +kernel
theorem liveAt2_6 : ∀ t : Fin cfg2.N, cond2_1 (grid2.coords t) → cfg2.idle 6 (grid2.coords t) = false := by decide +kernel

set_option maxHeartbeats 4000000 in
/-- The body at the first point: the running sums are zeroed, then the rows are stored and added into them. -/
theorem run2_A (c : Dev nD) (i : grid2.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : cond2_0 i) (hc1 : ¬cond2_1 i)
    (x0 : Vec F S2000x256 .f32) (x1 : Vec F S2000x256 .f32) (x2 : Vec F S256x256 .f32) (x3 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k2_pay5 x0 x1 x2 x3)
            ∗ owns (c : Thread nD τ) arg8 fullShare (k2_pay6 x0 x1 x2 x3 k2_pay3) ∗ owns (c : Thread nD τ) arg9 fullShare (k2_pay7 x0 x1 x2 x3 k2_pay4)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, View.readCov_unit_zero (S := S1x256) _ hz2]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, View.readCov_unit_zero (S := S1x256) _ hz2]

set_option maxHeartbeats 4000000 in
/-- The body at a point that is neither the first nor the last: the rows are stored and added into the two running sums. -/
theorem run2_B (c : Dev nD) (i : grid2.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : ¬cond2_0 i) (hc1 : ¬cond2_1 i)
    (x0 : Vec F S2000x256 .f32) (x1 : Vec F S2000x256 .f32) (x2 : Vec F S256x256 .f32) (x3 : Vec F S1x256 .f32) (xs8 xs9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg8 fullShare xs8 ∗ owns (c : Thread nD τ) arg9 fullShare xs9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k2_pay5 x0 x1 x2 x3)
            ∗ owns (c : Thread nD τ) arg8 fullShare (k2_pay6 x0 x1 x2 x3 xs8) ∗ owns (c : Thread nD τ) arg9 fullShare (k2_pay7 x0 x1 x2 x3 xs9)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg9.read_unread]

set_option maxHeartbeats 4000000 in
/-- The body at the last point: the rows are stored and added into the running sums, and the mean and the variance
    are computed from the sums and stored. -/
theorem run2_C (c : Dev nD) (i : grid2.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : ¬cond2_0 i) (hc1 : cond2_1 i)
    (x0 : Vec F S2000x256 .f32) (x1 : Vec F S2000x256 .f32) (x2 : Vec F S256x256 .f32) (x3 : Vec F S1x256 .f32) (xs8 xs9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs8 ∗ owns (c : Thread nD τ) arg9 fullShare xs9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k2_pay5 x0 x1 x2 x3)
            ∗ owns (c : Thread nD τ) arg6 fullShare (k2_pay1 (k2_pay6 x0 x1 x2 x3 xs8)) ∗ owns (c : Thread nD τ) arg7 fullShare (k2_pay2 (k2_pay6 x0 x1 x2 x3 xs8) (k2_pay7 x0 x1 x2 x3 xs9))
            ∗ owns (c : Thread nD τ) arg8 fullShare (k2_pay6 x0 x1 x2 x3 xs8) ∗ owns (c : Thread nD τ) arg9 fullShare (k2_pay7 x0 x1 x2 x3 xs9)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2]
  isplitl [H6]
  · iexists _; isplitr
    swap; · iexact H6
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread, harg9.read_unread, View.readCov_unit_zero (S := S1x256) _ hz2]
  isplitl [H7]
  · iexists _; isplitr
    swap; · iexact H7
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread, harg9.read_unread, View.readCov_unit_zero (S := S1x256) _ hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg9.read_unread]

end Cert.Kernel.Hand

end
-- ==== Proof.KReg2.lean ====
/- Region 2 (the second linear layer with its running column statistics) at the entry contents `V`: the windows'
   blocks, the running column sum and sum of squares by recursion on the point, the invariant holding the two
   accumulators at them, the proof data, the body obligation from the three case runs, and the entailments into and
   out of the region. -/
import proofs.«144698_j9466107920964_1_alg».proof.Proof.KReg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The running column sums -/

/-- The running column sum of the rows `h` of the points below `n`: zero, then each point's block sum added. -/
def acc2S (c : Dev nD) : ℕ → Vec F S1x256 .f32
  | 0 => k2_pay3
  | n + 1 => if h : n < cfg2.N then
      k2_pay6 (iblk2 V c 0 ⟨n, h⟩) (iblk2 V c 1 ⟨n, h⟩) (iblk2 V c 2 ⟨n, h⟩) (iblk2 V c 3 ⟨n, h⟩) (acc2S c n)
    else acc2S c n

/-- The running column sum of squares of the rows `h` of the points below `n`. -/
def acc2Q (c : Dev nD) : ℕ → Vec F S1x256 .f32
  | 0 => k2_pay4
  | n + 1 => if h : n < cfg2.N then
      k2_pay7 (iblk2 V c 0 ⟨n, h⟩) (iblk2 V c 1 ⟨n, h⟩) (iblk2 V c 2 ⟨n, h⟩) (iblk2 V c 3 ⟨n, h⟩) (acc2Q c n)
    else acc2Q c n

theorem acc2S_zero (c : Dev nD) : acc2S V c 0 = k2_pay3 := rfl
theorem acc2Q_zero (c : Dev nD) : acc2Q V c 0 = k2_pay4 := rfl
theorem acc2S_succ (c : Dev nD) (t : Fin cfg2.N) :
    acc2S V c (t.val + 1) = k2_pay6 (iblk2 V c 0 t) (iblk2 V c 1 t) (iblk2 V c 2 t) (iblk2 V c 3 t) (acc2S V c t.val) := by
  rw [acc2S, dif_pos t.isLt]
theorem acc2Q_succ (c : Dev nD) (t : Fin cfg2.N) :
    acc2Q V c (t.val + 1) = k2_pay7 (iblk2 V c 0 t) (iblk2 V c 1 t) (iblk2 V c 2 t) (iblk2 V c 3 t) (acc2Q V c t.val) := by
  rw [acc2Q, dif_pos t.isLt]

/-! ## The invariant -/

/-- The two scratch operands as memrefs. -/
abbrev scM2_0 : Memref sig .tc .vmem S1x256 .f32 := Memref.whole cc2_scratch0
abbrev scM2_1 : Memref sig .tc .vmem S1x256 .f32 := Memref.whole cc2_scratch1

/-- The scoped buffers that are neither staging buffers nor this kernel's two accumulators. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The region invariant before point `n`: before the first point the two accumulators hold anything (the body zeroes
    them before reading them); afterwards the running sums of the points below `n`. Beside them the other scoped
    buffers and the generator register, untouched. -/
def Phi2 (c : Dev nD) : ℕ → sProp 𝕄
  | 0 => iprop(((∃ d, owns (c : Thread nD τ) scM2_0 fullShare d) ∗ (∃ d, owns (c : Thread nD τ) scM2_1 fullShare d)) ∗ rest2 c ∗ (∃ r, prngReg c r))
  | n + 1 => iprop((owns (c : Thread nD τ) scM2_0 fullShare (acc2S V c (n + 1)) ∗ owns (c : Thread nD τ) scM2_1 fullShare (acc2Q V c (n + 1))) ∗ rest2 c ∗ (∃ r, prngReg c r))

theorem Phi2_zero (c : Dev nD) :
    Phi2 V c 0 = iprop(((∃ d, owns (c : Thread nD τ) scM2_0 fullShare d) ∗ (∃ d, owns (c : Thread nD τ) scM2_1 fullShare d)) ∗ rest2 c ∗ (∃ r, prngReg c r)) := rfl
theorem Phi2_succ (c : Dev nD) (n : ℕ) :
    Phi2 V c (n + 1) = iprop((owns (c : Thread nD τ) scM2_0 fullShare (acc2S V c (n + 1)) ∗ owns (c : Thread nD τ) scM2_1 fullShare (acc2Q V c (n + 1))) ∗ rest2 c ∗ (∃ r, prngReg c r)) := rfl
theorem Phi2_pos (c : Dev nD) (n : ℕ) (hn : n ≠ 0) :
    Phi2 V c n = iprop((owns (c : Thread nD τ) scM2_0 fullShare (acc2S V c n) ∗ owns (c : Thread nD τ) scM2_1 fullShare (acc2Q V c n)) ∗ rest2 c ∗ (∃ r, prngReg c r)) := by
  cases n with
  | zero => exact absurd rfl hn
  | succ n => rfl

/-! ## The proof data -/

/-- The proof data of the pipeline on core `c`: the arrays as the region finds them; after the body at point `t` each
    input's buffer at its block, the rows `h` of the point, and (stored at the last point only) the mean and the
    variance computed from the running sums through the point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay5 (iblk2 V c 0 t) (iblk2 V c 1 t) (iblk2 V c 2 t) (iblk2 V c 3 t)
    | ⟨5, _⟩ => k2_pay1 (acc2S V c (t.val + 1))
    | ⟨6, _⟩ => k2_pay2 (acc2S V c (t.val + 1)) (acc2Q V c (t.val + 1))
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay5 (iblk2 V c 0 t) (iblk2 V c 1 t) (iblk2 V c 2 t) (iblk2 V c 3 t) := by dsimp only [dat2]
theorem after2_5 (c : Dev nD) (t : Fin cfg2.N) : (dat2 V c).after 5 t = k2_pay1 (acc2S V c (t.val + 1)) := by dsimp only [dat2]
theorem after2_6 (c : Dev nD) (t : Fin cfg2.N) :
    (dat2 V c).after 6 t = k2_pay2 (acc2S V c (t.val + 1)) (acc2Q V c (t.val + 1)) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

theorem Phi2_castSucc (c : Dev nD) (t : Fin cfg2.N) : (dat2 V c).Φ t.castSucc = Phi2 V c t.val := by
  dsimp only [dat2]; simp only [Fin.coe_castSucc]
theorem Phi2_at_succ (c : Dev nD) (t : Fin cfg2.N) : (dat2 V c).Φ t.succ = Phi2 V c (t.val + 1) := by
  dsimp only [dat2]; simp only [Fin.val_succ]

/-- What the launch hands the kernel is the invariant before the first point: the scoped rest opened at the two
    accumulators. -/
theorem phi_in2_of (c : Dev nD) (P : sProp 𝕄) :
    iprop((∃ r, prngReg c r) ∗ P ∗ Pipeline.scopedRest (Ix := Unit) (Name := ℕ) (U := UR sig nD τ) (Lvl := ℕ) (Val := Elt F) spec2 c) ⊢ (dat2 V c).Φ 0 := by
  rw [show (dat2 V c).Φ 0 = Phi2 V c 0 from rfl, Phi2_zero, scopedRest2_split]
  simp only [scM2_0, scM2_1, owns_whole]
  iintro ⟨Hp, -, ⟨H0, H1⟩, Hr⟩
  isplitl [H0 H1]
  · isplitl [H0]; · iexact H0
    iexact H1
  isplitl [Hr]; · iexact Hr
  iexact Hp

/-- The invariant after the last point gives back the generator register and the scoped rest, the accumulators'
    contents forgotten. -/
theorem phi_out2_of (c : Dev nD) :
    (dat2 V c).Φ (Fin.last cfg2.N) ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c 25 from rfl, Phi2_succ, scopedRest2_split]
  simp only [scM2_0, scM2_1, owns_whole]
  iintro ⟨⟨H0, H1⟩, Hr, Hp⟩
  isplitl [Hp]; · iexact Hp
  isplitl [H0 H1]
  · isplitl [H0]; · iexists _; iexact H0
    iexists _; iexact H1
  iexact Hr

/-! ## The body obligation -/

theorem leaves2_0 (c : Dev nD) (t : Fin cfg2.N) : (dat2 V c).leavesExact 0 t = owns (c : Thread nD τ) (st2_0 t) fullShare (iblk2 V c 0 t) := by
  unfold Dat.leavesExact; rw [liveAt2_0 t, after2_0]
theorem leaves2_1 (c : Dev nD) (t : Fin cfg2.N) : (dat2 V c).leavesExact 1 t = owns (c : Thread nD τ) (st2_1 t) fullShare (iblk2 V c 1 t) := by
  unfold Dat.leavesExact; rw [liveAt2_1 t, after2_1]
theorem leaves2_2 (c : Dev nD) (t : Fin cfg2.N) : (dat2 V c).leavesExact 2 t = owns (c : Thread nD τ) (st2_2 t) fullShare (iblk2 V c 2 t) := by
  unfold Dat.leavesExact; rw [liveAt2_2 t, after2_2]
theorem leaves2_3 (c : Dev nD) (t : Fin cfg2.N) : (dat2 V c).leavesExact 3 t = owns (c : Thread nD τ) (st2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (st2_4 t) fullShare (k2_pay5 (iblk2 V c 0 t) (iblk2 V c 1 t) (iblk2 V c 2 t) (iblk2 V c 3 t)) := by
  unfold Dat.leavesExact; rw [liveAt2_4 t, after2_4]
theorem leaves2_5_idle (c : Dev nD) (t : Fin cfg2.N) (h : ¬cond2_1 (grid2.coords t)) :
    (dat2 V c).leavesExact 5 t = iprop(∃ d, owns (c : Thread nD τ) (st2_5 t) fullShare ((dat2 V c).before 5 t d)) :=
  Dat.leavesExact_idle (dat2 V c) 5 t (idleAt2_5 t h) (noFlush2_5 t h)
theorem leaves2_6_idle (c : Dev nD) (t : Fin cfg2.N) (h : ¬cond2_1 (grid2.coords t)) :
    (dat2 V c).leavesExact 6 t = iprop(∃ d, owns (c : Thread nD τ) (st2_6 t) fullShare ((dat2 V c).before 6 t d)) :=
  Dat.leavesExact_idle (dat2 V c) 6 t (idleAt2_6 t h) (noFlush2_6 t h)
theorem leaves2_5_live (c : Dev nD) (t : Fin cfg2.N) (h : cond2_1 (grid2.coords t)) :
    (dat2 V c).leavesExact 5 t = owns (c : Thread nD τ) (st2_5 t) fullShare (k2_pay1 (acc2S V c (t.val + 1))) := by
  unfold Dat.leavesExact; rw [liveAt2_5 t h, after2_5]
theorem leaves2_6_live (c : Dev nD) (t : Fin cfg2.N) (h : cond2_1 (grid2.coords t)) :
    (dat2 V c).leavesExact 6 t = owns (c : Thread nD τ) (st2_6 t) fullShare (k2_pay2 (acc2S V c (t.val + 1)) (acc2Q V c (t.val + 1))) := by
  unfold Dat.leavesExact; rw [liveAt2_6 t h, after2_6]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
/-- The body at the first point. -/
theorem sound_body2_A (c : Dev nD) (t : Fin cfg2.N) (h0 : t.val % 25 = 0) (h1 : ¬t.val % 25 = 24) :
    bodyPre2 V c t ⊢ wp frame (wpE (defs₀ (F := F)) Variants.none c none) Set.univ (bodyAt2 t) (fun _ => bodyPost2 V c t) := by
  have hN : t.val < 25 := lt_of_lt_of_eq t.isLt (show cfg2.N = 25 from N_2)
  have hz : t.val = 0 := by omega
  unfold bodyPre2 bodyPost2 bodyAt2
  simp only [before2_0, before2_1, before2_2, before2_3]
  rw [show (dat2 V c).owesAt () t.succ = (dat2 V c).owesAt () t.castSucc from rfl]
  rw [Phi2_castSucc, Phi2_at_succ, Phi2_succ, leaves2_0, leaves2_1, leaves2_2, leaves2_3, leaves2_4]
  rw [acc2S_succ V c t, acc2Q_succ V c t]
  rw [leaves2_5_idle V c t (fun h => h1 ((hcond2_1 t).mp h)), leaves2_6_idle V c t (fun h => h1 ((hcond2_1 t).mp h))]
  rw [show Phi2 V c t.val = Phi2 V c 0 from by rw [hz], Phi2_zero]
  rw [show acc2S V c t.val = k2_pay3 from by rw [hz]; rfl, show acc2Q V c t.val = k2_pay4 from by rw [hz]; rfl]
  iintro ⟨⟨⟨HS8, HS9⟩, Hrest, Hg⟩, Ho, ⟨%d0, H0⟩, ⟨%d1, H1⟩, ⟨%d2, H2⟩, ⟨%d3, H3⟩, ⟨%d4, H4⟩, H5, H6⟩
  iapply (run2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) Set.univ _)
  isplitl [H0]; · iexact H0
  isplitl [H1]; · iexact H1
  isplitl [H2]; · iexact H2
  isplitl [H3]; · iexact H3
  isplitl [H4]; · iexists _; iexact H4
  isplitl [HS8]; · iexact HS8
  isplitl [HS9]; · iexact HS9
  iintro ⟨H0, H1, H2, H3, H4, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at a point that is neither the first nor the last. -/
theorem sound_body2_B (c : Dev nD) (t : Fin cfg2.N) (h0 : ¬t.val % 25 = 0) (h1 : ¬t.val % 25 = 24) :
    bodyPre2 V c t ⊢ wp frame (wpE (defs₀ (F := F)) Variants.none c none) Set.univ (bodyAt2 t) (fun _ => bodyPost2 V c t) := by
  have hN : t.val < 25 := lt_of_lt_of_eq t.isLt (show cfg2.N = 25 from N_2)
  have hz : t.val ≠ 0 := by omega
  unfold bodyPre2 bodyPost2 bodyAt2
  simp only [before2_0, before2_1, before2_2, before2_3]
  rw [show (dat2 V c).owesAt () t.succ = (dat2 V c).owesAt () t.castSucc from rfl]
  rw [Phi2_castSucc, Phi2_at_succ, Phi2_succ, leaves2_0, leaves2_1, leaves2_2, leaves2_3, leaves2_4]
  rw [acc2S_succ V c t, acc2Q_succ V c t]
  rw [leaves2_5_idle V c t (fun h => h1 ((hcond2_1 t).mp h)), leaves2_6_idle V c t (fun h => h1 ((hcond2_1 t).mp h))]
  rw [Phi2_pos V c t.val hz]
  iintro ⟨⟨⟨HS8, HS9⟩, Hrest, Hg⟩, Ho, ⟨%d0, H0⟩, ⟨%d1, H1⟩, ⟨%d2, H2⟩, ⟨%d3, H3⟩, ⟨%d4, H4⟩, H5, H6⟩
  iapply (run2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _ Set.univ _)
  isplitl [H0]; · iexact H0
  isplitl [H1]; · iexact H1
  isplitl [H2]; · iexact H2
  isplitl [H3]; · iexact H3
  isplitl [H4]; · iexists _; iexact H4
  isplitl [HS8]; · iexact HS8
  isplitl [HS9]; · iexact HS9
  iintro ⟨H0, H1, H2, H3, H4, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at the last point. -/
theorem sound_body2_C (c : Dev nD) (t : Fin cfg2.N) (h0 : ¬t.val % 25 = 0) (h1 : t.val % 25 = 24) :
    bodyPre2 V c t ⊢ wp frame (wpE (defs₀ (F := F)) Variants.none c none) Set.univ (bodyAt2 t) (fun _ => bodyPost2 V c t) := by
  have hN : t.val < 25 := lt_of_lt_of_eq t.isLt (show cfg2.N = 25 from N_2)
  have hz : t.val ≠ 0 := by omega
  unfold bodyPre2 bodyPost2 bodyAt2
  simp only [before2_0, before2_1, before2_2, before2_3]
  rw [show (dat2 V c).owesAt () t.succ = (dat2 V c).owesAt () t.castSucc from rfl]
  rw [Phi2_castSucc, Phi2_at_succ, Phi2_succ, leaves2_0, leaves2_1, leaves2_2, leaves2_3, leaves2_4]
  rw [acc2S_succ V c t, acc2Q_succ V c t]
  rw [leaves2_5_live V c t ((hcond2_1 t).mpr h1), leaves2_6_live V c t ((hcond2_1 t).mpr h1)]
  rw [acc2S_succ V c t, acc2Q_succ V c t]
  rw [Phi2_pos V c t.val hz]
  iintro ⟨⟨⟨HS8, HS9⟩, Hrest, Hg⟩, Ho, ⟨%d0, H0⟩, ⟨%d1, H1⟩, ⟨%d2, H2⟩, ⟨%d3, H3⟩, ⟨%d4, H4⟩, ⟨%d5, H5⟩, ⟨%d6, H6⟩⟩
  iapply (run2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS8]; · iexact HS8
  isplitl [HS9]; · iexact HS9
  iintro ⟨H0, H1, H2, H3, H4, H5, H6, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point: by the point's place in the grid. -/
theorem sound_body2 (c : Dev nD) (t : Fin cfg2.N) :
    bodyPre2 V c t ⊢ wp frame (wpE (defs₀ (F := F)) Variants.none c none) Set.univ (bodyAt2 t) (fun _ => bodyPost2 V c t) := by
  have hN : t.val < 25 := lt_of_lt_of_eq t.isLt (show cfg2.N = 25 from N_2)
  by_cases h0 : t.val % 25 = 0
  · exact sound_body2_A V c t h0 (by omega)
  · by_cases h1 : t.val % 25 = 24
    · exact sound_body2_C V c t h0 h1
    · exact sound_body2_B V c t h0 h1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into and out of the region -/

/-- `phi_in2_of` in the shape a region record asks: the generator register, the (empty) prefetched tables and the
    scoped rest make the invariant before the first point. -/
theorem phi_in2 (c : Dev nD) :
    iprop((∃ r, prngReg c r) ∗ Pipeline.prefHeld (pcfgs (F := F) 2).pre c (fun _ => fullShare) ((cfgs 2).toPCfg_adm (Val := Elt F)).1
        ∗ Pipeline.scopedRest (Ix := Unit) (Name := ℕ) (U := UR sig nD τ) (Lvl := ℕ) (Val := Elt F) spec2 c) ⊢ (dat2 V c).Φ 0 :=
  phi_in2_of V c _

/-- `phi_out2_of` in the shape a region record asks, for a kernel with no semaphore of its own. -/
theorem phi_out2 (c : Dev nD) :
    (dat2 V c).Φ (Fin.last cfg2.N) ⊢ iprop((∃ r, prngReg c r) ∗ Pipeline.ownSems0 (fun k : PEmpty => k.elim) c
        ∗ Pipeline.scopedRest (Ix := Unit) (Name := ℕ) (U := UR sig nD τ) (Lvl := ℕ) (Val := Elt F) spec2 c) := by
  rw [Pipeline.ownSems0_none]
  refine (phi_out2_of V c).trans ?_
  iintro ⟨Hp, Hr⟩
  isplitl [Hp]; · iexact Hp
  isplitr; · iempintro
  iexact Hr

end Cert.Kernel.Hand

end
-- ==== Proof.KReg3.lean ====
/- Region 3: the body of `cc3_kernel` at the contents the region is entered with. Each input window's staging
   buffer holds its block at every grid point; the one output window's buffer is read once (the value is not used)
   and then stored whole, so after the body it holds the stored value, a function of the input blocks alone. -/
import proofs.«144698_j9466107920964_1_alg».proof.Proof.Gen.Kernel.Launch
import proofs.«144698_j9466107920964_1_alg».proof.Proof.Gen.Kernel.Skeleton
import proofs.«144698_j9466107920964_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: where it is not fetched
    the block index has not moved, and the body leaves the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, fetched there or not: where it is not fetched
    the block index has not moved, and the body leaves the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, fetched there or not: where it is not fetched
    the block index has not moved, and the body leaves the buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point, fetched there or not: where it is not fetched
    the block index has not moved, and the body leaves the buffer as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at every point, fetched there or not: where it is not fetched
    the block index has not moved, and the body leaves the buffer as it found it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take the whole buffer -/

abbrev r3_S2000x256 : Rect S2000x256 := Rect.unit (s := S2000x256) ![0, 0] S2000x256.size inb_S2000x256_S2000x256_0_0
abbrev r3_S1x256 : Rect S1x256 := Rect.unit (s := S1x256) ![0, 0] S1x256.size inb_S1x256_S1x256_0_0

/-! ## What the body leaves in the output window's buffer -/

/-- Window 5's staging buffer after the body, from the input windows' blocks: the one store, of the whole block. -/
def out3_5 (x0 : Vec F S2000x256 .f32) (x1 : Vec F S1x256 .f32) (x2 : Vec F S1x256 .f32) (x3 : Vec F S1x256 .f32) (x4 : Vec F S1x256 .f32) : Vec F S2000x256 .f32 :=
  View.canon [⟨r3_S2000x256, k3_pay1 (View.ld x0 r3_S2000x256) (View.ld x1 r3_S1x256) (View.ld x2 r3_S1x256) (View.ld x3 r3_S1x256) (View.ld x4 r3_S1x256)⟩]

/-- The store covers the buffer. -/
theorem cover3_5 (p0 : Vec F S2000x256 .f32) (y : S2000x256.Idx) :
    ∃ pc ∈ ([⟨r3_S2000x256, p0⟩] : List (View.Piece (Elt F) S2000x256 .f32)), y ∈ pc.1.set :=
  View.cover_of_tiled [⟨r3_S2000x256, p0⟩] S2000x256.size (by rfl) y

/-- The offsets of every access are zero. -/
theorem zeros_reg3 : (![0, 0] : Fin 2 → ℕ) = fun _ => 0 := funext fun a => by fin_cases a <;> rfl

/-- A whole-buffer load reads the buffer and the one whole-buffer store leaves its payload: the output's buffer after
    the body is the payload at the input blocks. -/
theorem out3_5_eq (x0 : Vec F S2000x256 .f32) (x1 : Vec F S1x256 .f32) (x2 : Vec F S1x256 .f32) (x3 : Vec F S1x256 .f32) (x4 : Vec F S1x256 .f32) :
    out3_5 x0 x1 x2 x3 x4 = k3_pay1 x0 x1 x2 x3 x4 := by
  unfold out3_5
  rw [View.canon_unit_zero (S := S2000x256) zeros_reg3 inb_S2000x256_S2000x256_0_0,
    View.ld_unit_zero (S := S2000x256) zeros_reg3 inb_S2000x256_S2000x256_0_0 x0,
    View.ld_unit_zero (S := S1x256) zeros_reg3 inb_S1x256_S1x256_0_0 x1,
    View.ld_unit_zero (S := S1x256) zeros_reg3 inb_S1x256_S1x256_0_0 x2,
    View.ld_unit_zero (S := S1x256) zeros_reg3 inb_S1x256_S1x256_0_0 x3,
    View.ld_unit_zero (S := S1x256) zeros_reg3 inb_S1x256_S1x256_0_0 x4]

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and the output's at `out3_5` of the input blocks; the invariant keeps the scoped rest
    and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.KReg4Runs.lean ====
/- Region 4 (the third linear layer with its running column statistics): the body's two conditionals over the
   grid, where its windows are idle, and the body's triple in each of the three cases of the grid point — first,
   middle, last —, every buffer's final contents a named term over the skeleton's payloads. -/
import proofs.«144698_j9466107920964_1_alg».proof.Proof.Gen.Kernel.Launch
import proofs.«144698_j9466107920964_1_alg».proof.Proof.Gen.Kernel.Skeleton
import proofs.«144698_j9466107920964_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«144698_j9466107920964_1_alg».proof.Proof.KReg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, over the grid -/

/-- The condition of the first conditional (the accumulators are zeroed): the grid coordinate is zero. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 25 = 0 :=
  (by decide +kernel : ∀ t : Fin grid4.N, cond4_0 (grid4.coords t) ↔ t.val % 25 = 0)
/-- The condition of the second conditional (the mean and the variance are stored): the grid coordinate is the last. -/
abbrev cond4_1 (i : grid4.Coords) : Prop := k4_cond2 i = 1#1
/-- It holds at the last point only. -/
theorem hcond4_1 : ∀ t : Fin cfg4.N, cond4_1 (grid4.coords t) ↔ t.val % 25 = 24 :=
  (by decide +kernel : ∀ t : Fin grid4.N, cond4_1 (grid4.coords t) ↔ t.val % 25 = 24)

/-- The inputs and the rows' window are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
/-- Before the last point the mean's and the variance's windows are idle and not written back; at the last point live. -/
theorem idleAt4_5 : ∀ t : Fin cfg4.N, ¬cond4_1 (grid4.coords t) → cfg4.idle 5 (grid4.coords t) = true := by decide +kernel
theorem idleAt4_6 : ∀ t : Fin cfg4.N, ¬cond4_1 (grid4.coords t) → cfg4.idle 6 (grid4.coords t) = true := by decide +kernel
theorem noFlush4_5 : ∀ t : Fin cfg4.N, ¬cond4_1 (grid4.coords t) → (cfg4.win 5).flush t = false := by decide +kernel
theorem noFlush4_6 : ∀ t : Fin cfg4.N, ¬cond4_1 (grid4.coords t) → (cfg4.win 6).flush t = false := by decide +kernel
theorem liveAt4_5 : ∀ t : Fin cfg4.N, cond4_1 (grid4.coords t) → cfg4.idle 5 (grid4.coords t) = false := by decide +kernel
theorem liveAt4_6 : ∀ t : Fin cfg4.N, cond4_1 (grid4.coords t) → cfg4.idle 6 (grid4.coords t) = false := by decide +kernel

set_option maxHeartbeats 4000000 in
/-- The body at the first point: the running sums are zeroed, then the rows are stored and added into them. -/
theorem run4_A (c : Dev nD) (i : grid4.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : cond4_0 i) (hc1 : ¬cond4_1 i)
    (x0 : Vec F S2000x256 .f32) (x1 : Vec F S2000x256 .f32) (x2 : Vec F S256x256 .f32) (x3 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay5 x0 x1 x2 x3)
            ∗ owns (c : Thread nD τ) arg8 fullShare (k4_pay6 x0 x1 x2 x3 k4_pay3) ∗ owns (c : Thread nD τ) arg9 fullShare (k4_pay7 x0 x1 x2 x3 k4_pay4)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, View.readCov_unit_zero (S := S1x256) _ hz2]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, View.readCov_unit_zero (S := S1x256) _ hz2]

set_option maxHeartbeats 4000000 in
/-- The body at a point that is neither the first nor the last: the rows are stored and added into the two running sums. -/
theorem run4_B (c : Dev nD) (i : grid4.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : ¬cond4_0 i) (hc1 : ¬cond4_1 i)
    (x0 : Vec F S2000x256 .f32) (x1 : Vec F S2000x256 .f32) (x2 : Vec F S256x256 .f32) (x3 : Vec F S1x256 .f32) (xs8 xs9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg8 fullShare xs8 ∗ owns (c : Thread nD τ) arg9 fullShare xs9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay5 x0 x1 x2 x3)
            ∗ owns (c : Thread nD τ) arg8 fullShare (k4_pay6 x0 x1 x2 x3 xs8) ∗ owns (c : Thread nD τ) arg9 fullShare (k4_pay7 x0 x1 x2 x3 xs9)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg9.read_unread]

set_option maxHeartbeats 4000000 in
/-- The body at the last point: the rows are stored and added into the running sums, and the mean and the variance
    are computed from the sums and stored. -/
theorem run4_C (c : Dev nD) (i : grid4.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S2000x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S1x256 .f32) (harg8 : arg8.IsWhole)
    (arg9 : Memref sig .tc .vmem S1x256 .f32) (harg9 : arg9.IsWhole) (hc0 : ¬cond4_0 i) (hc1 : cond4_1 i)
    (x0 : Vec F S2000x256 .f32) (x1 : Vec F S2000x256 .f32) (x2 : Vec F S256x256 .f32) (x3 : Vec F S1x256 .f32) (xs8 xs9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs8 ∗ owns (c : Thread nD τ) arg9 fullShare xs9
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay5 x0 x1 x2 x3)
            ∗ owns (c : Thread nD τ) arg6 fullShare (k4_pay1 (k4_pay6 x0 x1 x2 x3 xs8)) ∗ owns (c : Thread nD τ) arg7 fullShare (k4_pay2 (k4_pay6 x0 x1 x2 x3 xs8) (k4_pay7 x0 x1 x2 x3 xs9))
            ∗ owns (c : Thread nD τ) arg8 fullShare (k4_pay6 x0 x1 x2 x3 xs8) ∗ owns (c : Thread nD τ) arg9 fullShare (k4_pay7 x0 x1 x2 x3 xs9)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_cons_self, View.mem_set_unit_zero hz2 inb_S2000x256_S2000x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2]
  isplitl [H6]
  · iexists _; isplitr
    swap; · iexact H6
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread, harg9.read_unread, View.readCov_unit_zero (S := S1x256) _ hz2]
  isplitl [H7]
  · iexists _; isplitr
    swap; · iexact H7
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread, harg9.read_unread, View.readCov_unit_zero (S := S1x256) _ hz2]
  isplitl [H8]
  · iexists _; isplitr
    swap; · iexact H8
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg8.read_unread]
  · iexists _; isplitr
    swap; · iexact H9
    ipureintro
    sl_unfold_run_names
    rw [View.read_writes_eq_canon _ _ _ (fun y => ⟨_, List.mem_cons_self, View.mem_set_unit_zero hz2 inb_S1x256_S1x256_0_0 y⟩), View.canon_cons_unit_zero hz2]
    simp only [View.readAt_eq_ld, harg1.read_unread, harg2.read_unread, harg3.read_unread, harg4.read_unread, View.ld_unit_zero (S := S2000x256) hz2, View.ld_unit_zero (S := S256x256) hz2, View.ld_unit_zero (S := S1x256) hz2, harg9.read_unread]

end Cert.Kernel.Hand

end
-- ==== Proof.KReg4.lean ====
/- Region 4 (the third linear layer with its running column statistics) at the entry contents `V`: the windows'
   blocks, the running column sum and sum of squares by recursion on the point, the invariant holding the two
   accumulators at them, the proof data, the body obligation from the three case runs, and the entailments into and
   out of the region. -/
import proofs.«144698_j9466107920964_1_alg».proof.Proof.KReg4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The running column sums -/

/-- The running column sum of the rows `h` of the points below `n`: zero, then each point's block sum added. -/
def acc4S (c : Dev nD) : ℕ → Vec F S1x256 .f32
  | 0 => k4_pay3
  | n + 1 => if h : n < cfg4.N then
      k4_pay6 (iblk4 V c 0 ⟨n, h⟩) (iblk4 V c 1 ⟨n, h⟩) (iblk4 V c 2 ⟨n, h⟩) (iblk4 V c 3 ⟨n, h⟩) (acc4S c n)
    else acc4S c n

/-- The running column sum of squares of the rows `h` of the points below `n`. -/
def acc4Q (c : Dev nD) : ℕ → Vec F S1x256 .f32
  | 0 => k4_pay4
  | n + 1 => if h : n < cfg4.N then
      k4_pay7 (iblk4 V c 0 ⟨n, h⟩) (iblk4 V c 1 ⟨n, h⟩) (iblk4 V c 2 ⟨n, h⟩) (iblk4 V c 3 ⟨n, h⟩) (acc4Q c n)
    else acc4Q c n

theorem acc4S_zero (c : Dev nD) : acc4S V c 0 = k4_pay3 := rfl
theorem acc4Q_zero (c : Dev nD) : acc4Q V c 0 = k4_pay4 := rfl
theorem acc4S_succ (c : Dev nD) (t : Fin cfg4.N) :
    acc4S V c (t.val + 1) = k4_pay6 (iblk4 V c 0 t) (iblk4 V c 1 t) (iblk4 V c 2 t) (iblk4 V c 3 t) (acc4S V c t.val) := by
  rw [acc4S, dif_pos t.isLt]
theorem acc4Q_succ (c : Dev nD) (t : Fin cfg4.N) :
    acc4Q V c (t.val + 1) = k4_pay7 (iblk4 V c 0 t) (iblk4 V c 1 t) (iblk4 V c 2 t) (iblk4 V c 3 t) (acc4Q V c t.val) := by
  rw [acc4Q, dif_pos t.isLt]

/-! ## The invariant -/

/-- The two scratch operands as memrefs. -/
abbrev scM4_0 : Memref sig .tc .vmem S1x256 .f32 := Memref.whole cc4_scratch0
abbrev scM4_1 : Memref sig .tc .vmem S1x256 .f32 := Memref.whole cc4_scratch1

/-- The scoped buffers that are neither staging buffers nor this kernel's two accumulators. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The region invariant before point `n`: before the first point the two accumulators hold anything (the body zeroes
    them before reading them); afterwards the running sums of the points below `n`. Beside them the other scoped
    buffers and the generator register, untouched. -/
def Phi4 (c : Dev nD) : ℕ → sProp 𝕄
  | 0 => iprop(((∃ d, owns (c : Thread nD τ) scM4_0 fullShare d) ∗ (∃ d, owns (c : Thread nD τ) scM4_1 fullShare d)) ∗ rest4 c ∗ (∃ r, prngReg c r))
  | n + 1 => iprop((owns (c : Thread nD τ) scM4_0 fullShare (acc4S V c (n + 1)) ∗ owns (c : Thread nD τ) scM4_1 fullShare (acc4Q V c (n + 1))) ∗ rest4 c ∗ (∃ r, prngReg c r))

theorem Phi4_zero (c : Dev nD) :
    Phi4 V c 0 = iprop(((∃ d, owns (c : Thread nD τ) scM4_0 fullShare d) ∗ (∃ d, owns (c : Thread nD τ) scM4_1 fullShare d)) ∗ rest4 c ∗ (∃ r, prngReg c r)) := rfl
theorem Phi4_succ (c : Dev nD) (n : ℕ) :
    Phi4 V c (n + 1) = iprop((owns (c : Thread nD τ) scM4_0 fullShare (acc4S V c (n + 1)) ∗ owns (c : Thread nD τ) scM4_1 fullShare (acc4Q V c (n + 1))) ∗ rest4 c ∗ (∃ r, prngReg c r)) := rfl
theorem Phi4_pos (c : Dev nD) (n : ℕ) (hn : n ≠ 0) :
    Phi4 V c n = iprop((owns (c : Thread nD τ) scM4_0 fullShare (acc4S V c n) ∗ owns (c : Thread nD τ) scM4_1 fullShare (acc4Q V c n)) ∗ rest4 c ∗ (∃ r, prngReg c r)) := by
  cases n with
  | zero => exact absurd rfl hn
  | succ n => rfl

/-! ## The proof data -/

/-- The proof data of the pipeline on core `c`: the arrays as the region finds them; after the body at point `t` each
    input's buffer at its block, the rows `h` of the point, and (stored at the last point only) the mean and the
    variance computed from the running sums through the point. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay5 (iblk4 V c 0 t) (iblk4 V c 1 t) (iblk4 V c 2 t) (iblk4 V c 3 t)
    | ⟨5, _⟩ => k4_pay1 (acc4S V c (t.val + 1))
    | ⟨6, _⟩ => k4_pay2 (acc4S V c (t.val + 1)) (acc4Q V c (t.val + 1))
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = k4_pay5 (iblk4 V c 0 t) (iblk4 V c 1 t) (iblk4 V c 2 t) (iblk4 V c 3 t) := by dsimp only [dat4]
theorem after4_5 (c : Dev nD) (t : Fin cfg4.N) : (dat4 V c).after 5 t = k4_pay1 (acc4S V c (t.val + 1)) := by dsimp only [dat4]
theorem after4_6 (c : Dev nD) (t : Fin cfg4.N) :
    (dat4 V c).after 6 t = k4_pay2 (acc4S V c (t.val + 1)) (acc4Q V c (t.val + 1)) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

theorem Phi4_castSucc (c : Dev nD) (t : Fin cfg4.N) : (dat4 V c).Φ t.castSucc = Phi4 V c t.val := by
  dsimp only [dat4]; simp only [Fin.coe_castSucc]
theorem Phi4_at_succ (c : Dev nD) (t : Fin cfg4.N) : (dat4 V c).Φ t.succ = Phi4 V c (t.val + 1) := by
  dsimp only [dat4]; simp only [Fin.val_succ]

/-- What the launch hands the kernel is the invariant before the first point: the scoped rest opened at the two
    accumulators. -/
theorem phi_in4_of (c : Dev nD) (P : sProp 𝕄) :
    iprop((∃ r, prngReg c r) ∗ P ∗ Pipeline.scopedRest (Ix := Unit) (Name := ℕ) (U := UR sig nD τ) (Lvl := ℕ) (Val := Elt F) spec4 c) ⊢ (dat4 V c).Φ 0 := by
  rw [show (dat4 V c).Φ 0 = Phi4 V c 0 from rfl, Phi4_zero, scopedRest4_split]
  simp only [scM4_0, scM4_1, owns_whole]
  iintro ⟨Hp, -, ⟨H0, H1⟩, Hr⟩
  isplitl [H0 H1]
  · isplitl [H0]; · iexact H0
    iexact H1
  isplitl [Hr]; · iexact Hr
  iexact Hp

/-- The invariant after the last point gives back the generator register and the scoped rest, the accumulators'
    contents forgotten. -/
theorem phi_out4_of (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c 25 from rfl, Phi4_succ, scopedRest4_split]
  simp only [scM4_0, scM4_1, owns_whole]
  iintro ⟨⟨H0, H1⟩, Hr, Hp⟩
  isplitl [Hp]; · iexact Hp
  isplitl [H0 H1]
  · isplitl [H0]; · iexists _; iexact H0
    iexists _; iexact H1
  iexact Hr

/-! ## The body obligation -/

theorem leaves4_0 (c : Dev nD) (t : Fin cfg4.N) : (dat4 V c).leavesExact 0 t = owns (c : Thread nD τ) (st4_0 t) fullShare (iblk4 V c 0 t) := by
  unfold Dat.leavesExact; rw [liveAt4_0 t, after4_0]
theorem leaves4_1 (c : Dev nD) (t : Fin cfg4.N) : (dat4 V c).leavesExact 1 t = owns (c : Thread nD τ) (st4_1 t) fullShare (iblk4 V c 1 t) := by
  unfold Dat.leavesExact; rw [liveAt4_1 t, after4_1]
theorem leaves4_2 (c : Dev nD) (t : Fin cfg4.N) : (dat4 V c).leavesExact 2 t = owns (c : Thread nD τ) (st4_2 t) fullShare (iblk4 V c 2 t) := by
  unfold Dat.leavesExact; rw [liveAt4_2 t, after4_2]
theorem leaves4_3 (c : Dev nD) (t : Fin cfg4.N) : (dat4 V c).leavesExact 3 t = owns (c : Thread nD τ) (st4_3 t) fullShare (iblk4 V c 3 t) := by
  unfold Dat.leavesExact; rw [liveAt4_3 t, after4_3]
theorem leaves4_4 (c : Dev nD) (t : Fin cfg4.N) :
    (dat4 V c).leavesExact 4 t = owns (c : Thread nD τ) (st4_4 t) fullShare (k4_pay5 (iblk4 V c 0 t) (iblk4 V c 1 t) (iblk4 V c 2 t) (iblk4 V c 3 t)) := by
  unfold Dat.leavesExact; rw [liveAt4_4 t, after4_4]
theorem leaves4_5_idle (c : Dev nD) (t : Fin cfg4.N) (h : ¬cond4_1 (grid4.coords t)) :
    (dat4 V c).leavesExact 5 t = iprop(∃ d, owns (c : Thread nD τ) (st4_5 t) fullShare ((dat4 V c).before 5 t d)) :=
  Dat.leavesExact_idle (dat4 V c) 5 t (idleAt4_5 t h) (noFlush4_5 t h)
theorem leaves4_6_idle (c : Dev nD) (t : Fin cfg4.N) (h : ¬cond4_1 (grid4.coords t)) :
    (dat4 V c).leavesExact 6 t = iprop(∃ d, owns (c : Thread nD τ) (st4_6 t) fullShare ((dat4 V c).before 6 t d)) :=
  Dat.leavesExact_idle (dat4 V c) 6 t (idleAt4_6 t h) (noFlush4_6 t h)
theorem leaves4_5_live (c : Dev nD) (t : Fin cfg4.N) (h : cond4_1 (grid4.coords t)) :
    (dat4 V c).leavesExact 5 t = owns (c : Thread nD τ) (st4_5 t) fullShare (k4_pay1 (acc4S V c (t.val + 1))) := by
  unfold Dat.leavesExact; rw [liveAt4_5 t h, after4_5]
theorem leaves4_6_live (c : Dev nD) (t : Fin cfg4.N) (h : cond4_1 (grid4.coords t)) :
    (dat4 V c).leavesExact 6 t = owns (c : Thread nD τ) (st4_6 t) fullShare (k4_pay2 (acc4S V c (t.val + 1)) (acc4Q V c (t.val + 1))) := by
  unfold Dat.leavesExact; rw [liveAt4_6 t h, after4_6]

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in
/-- The body at the first point. -/
theorem sound_body4_A (c : Dev nD) (t : Fin cfg4.N) (h0 : t.val % 25 = 0) (h1 : ¬t.val % 25 = 24) :
    bodyPre4 V c t ⊢ wp frame (wpE (defs₀ (F := F)) Variants.none c none) Set.univ (bodyAt4 t) (fun _ => bodyPost4 V c t) := by
  have hN : t.val < 25 := lt_of_lt_of_eq t.isLt (show cfg4.N = 25 from N_4)
  have hz : t.val = 0 := by omega
  unfold bodyPre4 bodyPost4 bodyAt4
  simp only [before4_0, before4_1, before4_2, before4_3]
  rw [show (dat4 V c).owesAt () t.succ = (dat4 V c).owesAt () t.castSucc from rfl]
  rw [Phi4_castSucc, Phi4_at_succ, Phi4_succ, leaves4_0, leaves4_1, leaves4_2, leaves4_3, leaves4_4]
  rw [acc4S_succ V c t, acc4Q_succ V c t]
  rw [leaves4_5_idle V c t (fun h => h1 ((hcond4_1 t).mp h)), leaves4_6_idle V c t (fun h => h1 ((hcond4_1 t).mp h))]
  rw [show Phi4 V c t.val = Phi4 V c 0 from by rw [hz], Phi4_zero]
  rw [show acc4S V c t.val = k4_pay3 from by rw [hz]; rfl, show acc4Q V c t.val = k4_pay4 from by rw [hz]; rfl]
  iintro ⟨⟨⟨HS8, HS9⟩, Hrest, Hg⟩, Ho, ⟨%d0, H0⟩, ⟨%d1, H1⟩, ⟨%d2, H2⟩, ⟨%d3, H3⟩, ⟨%d4, H4⟩, H5, H6⟩
  iapply (run4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) Set.univ _)
  isplitl [H0]; · iexact H0
  isplitl [H1]; · iexact H1
  isplitl [H2]; · iexact H2
  isplitl [H3]; · iexact H3
  isplitl [H4]; · iexists _; iexact H4
  isplitl [HS8]; · iexact HS8
  isplitl [HS9]; · iexact HS9
  iintro ⟨H0, H1, H2, H3, H4, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at a point that is neither the first nor the last. -/
theorem sound_body4_B (c : Dev nD) (t : Fin cfg4.N) (h0 : ¬t.val % 25 = 0) (h1 : ¬t.val % 25 = 24) :
    bodyPre4 V c t ⊢ wp frame (wpE (defs₀ (F := F)) Variants.none c none) Set.univ (bodyAt4 t) (fun _ => bodyPost4 V c t) := by
  have hN : t.val < 25 := lt_of_lt_of_eq t.isLt (show cfg4.N = 25 from N_4)
  have hz : t.val ≠ 0 := by omega
  unfold bodyPre4 bodyPost4 bodyAt4
  simp only [before4_0, before4_1, before4_2, before4_3]
  rw [show (dat4 V c).owesAt () t.succ = (dat4 V c).owesAt () t.castSucc from rfl]
  rw [Phi4_castSucc, Phi4_at_succ, Phi4_succ, leaves4_0, leaves4_1, leaves4_2, leaves4_3, leaves4_4]
  rw [acc4S_succ V c t, acc4Q_succ V c t]
  rw [leaves4_5_idle V c t (fun h => h1 ((hcond4_1 t).mp h)), leaves4_6_idle V c t (fun h => h1 ((hcond4_1 t).mp h))]
  rw [Phi4_pos V c t.val hz]
  iintro ⟨⟨⟨HS8, HS9⟩, Hrest, Hg⟩, Ho, ⟨%d0, H0⟩, ⟨%d1, H1⟩, ⟨%d2, H2⟩, ⟨%d3, H3⟩, ⟨%d4, H4⟩, H5, H6⟩
  iapply (run4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _ Set.univ _)
  isplitl [H0]; · iexact H0
  isplitl [H1]; · iexact H1
  isplitl [H2]; · iexact H2
  isplitl [H3]; · iexact H3
  isplitl [H4]; · iexists _; iexact H4
  isplitl [HS8]; · iexact HS8
  isplitl [HS9]; · iexact HS9
  iintro ⟨H0, H1, H2, H3, H4, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- The body at the last point. -/
theorem sound_body4_C (c : Dev nD) (t : Fin cfg4.N) (h0 : ¬t.val % 25 = 0) (h1 : t.val % 25 = 24) :
    bodyPre4 V c t ⊢ wp frame (wpE (defs₀ (F := F)) Variants.none c none) Set.univ (bodyAt4 t) (fun _ => bodyPost4 V c t) := by
  have hN : t.val < 25 := lt_of_lt_of_eq t.isLt (show cfg4.N = 25 from N_4)
  have hz : t.val ≠ 0 := by omega
  unfold bodyPre4 bodyPost4 bodyAt4
  simp only [before4_0, before4_1, before4_2, before4_3]
  rw [show (dat4 V c).owesAt () t.succ = (dat4 V c).owesAt () t.castSucc from rfl]
  rw [Phi4_castSucc, Phi4_at_succ, Phi4_succ, leaves4_0, leaves4_1, leaves4_2, leaves4_3, leaves4_4]
  rw [acc4S_succ V c t, acc4Q_succ V c t]
  rw [leaves4_5_live V c t ((hcond4_1 t).mpr h1), leaves4_6_live V c t ((hcond4_1 t).mpr h1)]
  rw [acc4S_succ V c t, acc4Q_succ V c t]
  rw [Phi4_pos V c t.val hz]
  iintro ⟨⟨⟨HS8, HS9⟩, Hrest, Hg⟩, Ho, ⟨%d0, H0⟩, ⟨%d1, H1⟩, ⟨%d2, H2⟩, ⟨%d3, H3⟩, ⟨%d4, H4⟩, ⟨%d5, H5⟩, ⟨%d6, H6⟩⟩
  iapply (run4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS8]; · iexact HS8
  isplitl [HS9]; · iexact HS9
  iintro ⟨H0, H1, H2, H3, H4, H5, H6, HS8, HS9⟩
  isplitl [HS8 HS9 Hrest Hg]
  · isplitl [HS8 HS9]
    · isplitl [HS8]; · iexact HS8
      iexact HS9
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point: by the point's place in the grid. -/
theorem sound_body4 (c : Dev nD) (t : Fin cfg4.N) :
    bodyPre4 V c t ⊢ wp frame (wpE (defs₀ (F := F)) Variants.none c none) Set.univ (bodyAt4 t) (fun _ => bodyPost4 V c t) := by
  have hN : t.val < 25 := lt_of_lt_of_eq t.isLt (show cfg4.N = 25 from N_4)
  by_cases h0 : t.val % 25 = 0
  · exact sound_body4_A V c t h0 (by omega)
  · by_cases h1 : t.val % 25 = 24
    · exact sound_body4_C V c t h0 h1
    · exact sound_body4_B V c t h0 h1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the region -/

/-- `phi_in4_of` in the shape a region record asks: the generator register, the (empty) prefetched tables and the
    scoped rest make the invariant before the first point. -/
theorem phi_in4 (c : Dev nD) :
    iprop((∃ r, prngReg c r) ∗ Pipeline.prefHeld (pcfgs (F := F) 4).pre c (fun _ => fullShare) ((cfgs 4).toPCfg_adm (Val := Elt F)).1
        ∗ Pipeline.scopedRest (Ix := Unit) (Name := ℕ) (U := UR sig nD τ) (Lvl := ℕ) (Val := Elt F) spec4 c) ⊢ (dat4 V c).Φ 0 :=
  phi_in4_of V c _

/-- `phi_out4_of` in the shape a region record asks, for a kernel with no semaphore of its own. -/
theorem phi_out4 (c : Dev nD) :
    (dat4 V c).Φ (Fin.last cfg4.N) ⊢ iprop((∃ r, prngReg c r) ∗ Pipeline.ownSems0 (fun k : PEmpty => k.elim) c
        ∗ Pipeline.scopedRest (Ix := Unit) (Name := ℕ) (U := UR sig nD τ) (Lvl := ℕ) (Val := Elt F) spec4 c) := by
  rw [Pipeline.ownSems0_none]
  refine (phi_out4_of V c).trans ?_
  iintro ⟨Hp, Hr⟩
  isplitl [Hp]; · iexact Hp
  isplitr; · iempintro
  iexact Hr

end Cert.Kernel.Hand

end
-- ==== Proof.KReg5.lean ====
/- Region 5: the body of `cc5_kernel` at the contents the region is entered with. Each input window's staging
   buffer holds its block at every grid point; the one output window's buffer is read once (the value is not used)
   and then stored whole, so after the body it holds the stored value, a function of the input blocks alone. -/
import proofs.«144698_j9466107920964_1_alg».proof.Proof.Gen.Kernel.Launch
import proofs.«144698_j9466107920964_1_alg».proof.Proof.Gen.Kernel.Skeleton
import proofs.«144698_j9466107920964_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: where it is not fetched
    the block index has not moved, and the body leaves the buffer as it found it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds its block at every point, fetched there or not: where it is not fetched
    the block index has not moved, and the body leaves the buffer as it found it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's staging buffer holds its block at every point, fetched there or not: where it is not fetched
    the block index has not moved, and the body leaves the buffer as it found it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's staging buffer holds its block at every point, fetched there or not: where it is not fetched
    the block index has not moved, and the body leaves the buffer as it found it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's staging buffer holds its block at every point, fetched there or not: where it is not fetched
    the block index has not moved, and the body leaves the buffer as it found it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store take the whole buffer -/

abbrev r5_S2000x256 : Rect S2000x256 := Rect.unit (s := S2000x256) ![0, 0] S2000x256.size inb_S2000x256_S2000x256_0_0
abbrev r5_S1x256 : Rect S1x256 := Rect.unit (s := S1x256) ![0, 0] S1x256.size inb_S1x256_S1x256_0_0

/-! ## What the body leaves in the output window's buffer -/

/-- Window 5's staging buffer after the body, from the input windows' blocks: the one store, of the whole block. -/
def out5_5 (x0 : Vec F S2000x256 .f32) (x1 : Vec F S1x256 .f32) (x2 : Vec F S1x256 .f32) (x3 : Vec F S1x256 .f32) (x4 : Vec F S1x256 .f32) : Vec F S2000x256 .f32 :=
  View.canon [⟨r5_S2000x256, k5_pay1 (View.ld x0 r5_S2000x256) (View.ld x1 r5_S1x256) (View.ld x2 r5_S1x256) (View.ld x3 r5_S1x256) (View.ld x4 r5_S1x256)⟩]

/-- The store covers the buffer. -/
theorem cover5_5 (p0 : Vec F S2000x256 .f32) (y : S2000x256.Idx) :
    ∃ pc ∈ ([⟨r5_S2000x256, p0⟩] : List (View.Piece (Elt F) S2000x256 .f32)), y ∈ pc.1.set :=
  View.cover_of_tiled [⟨r5_S2000x256, p0⟩] S2000x256.size (by rfl) y

/-- The offsets of every access are zero. -/
theorem zeros_reg5 : (![0, 0] : Fin 2 → ℕ) = fun _ => 0 := funext fun a => by fin_cases a <;> rfl

/-- A whole-buffer load reads the buffer and the one whole-buffer store leaves its payload: the output's buffer after
    the body is the payload at the input blocks. -/
theorem out5_5_eq (x0 : Vec F S2000x256 .f32) (x1 : Vec F S1x256 .f32) (x2 : Vec F S1x256 .f32) (x3 : Vec F S1x256 .f32) (x4 : Vec F S1x256 .f32) :
    out5_5 x0 x1 x2 x3 x4 = k5_pay1 x0 x1 x2 x3 x4 := by
  unfold out5_5
  rw [View.canon_unit_zero (S := S2000x256) zeros_reg5 inb_S2000x256_S2000x256_0_0,
    View.ld_unit_zero (S := S2000x256) zeros_reg5 inb_S2000x256_S2000x256_0_0 x0,
    View.ld_unit_zero (S := S1x256) zeros_reg5 inb_S1x256_S1x256_0_0 x1,
    View.ld_unit_zero (S := S1x256) zeros_reg5 inb_S1x256_S1x256_0_0 x2,
    View.ld_unit_zero (S := S1x256) zeros_reg5 inb_S1x256_S1x256_0_0 x3,
    View.ld_unit_zero (S := S1x256) zeros_reg5 inb_S1x256_S1x256_0_0 x4]

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them; after the body at point `t` each
    input's buffer at its block and the output's at `out5_5` of the input blocks; the invariant keeps the scoped rest
    and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.KReg6.lean ====
/- Region 6: the body of `cc6_kernel` at the contents the region is entered with. Each input window's staging
   buffer holds its block at every grid point; the one output window's buffer is read once (the value is not used)
   and then stored whole, so after the body it holds the stored value, a function of the input blocks alone. -/
import proofs.«144698_j9466107920964_1_alg».proof.Proof.Gen.Kernel.Launch
import proofs.«144698_j9466107920964_1_alg».proof.Proof.Gen.Kernel.Skeleton
import proofs.«144698_j9466107920964_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not: where it is not fetched
    the block index has not moved, and the body leaves the buffer as it found it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's staging buffer holds its block at every point, fetched there or not: where it is not fetched
    the block index has not moved, and the body leaves the buffer as it found it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's staging buffer holds its block at every point, fetched there or not: where it is not fetched
    the block index has not moved, and the body leaves the buffer as it found it. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's staging buffer holds its block at every point, fetched there or not: where it is not fetched
    the block index has not moved, and the body leaves the buffer as it found it. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's staging buffer holds its block at every point, fetched there or not: where it is not fetched
    the block index has not moved, and the body leaves the buffer as it found it. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take the whole buffer -/

abbrev r6_S2000x256 : Rect S2000x256 := Rect.unit (s := S2000x256) ![0, 0] S2000x256.size inb_S2000x256_S2000x256_0_0
abbrev r6_S256x128 : Rect S256x128 := Rect.unit (s := S256x128) ![0, 0] S256x128.size inb_S256x128_S256x128_0_0
abbrev r6_S1x128 : Rect S1x128 := Rect.unit (s := S1x128) ![0, 0] S1x128.size inb_S1x128_S1x128_0_0
abbrev r6_S128x1 : Rect S128x1 := Rect.unit (s := S128x1) ![0, 0] S128x1.size inb_S128x1_S128x1_0_0
abbrev r6_S1x1 : Rect S1x1 := Rect.unit (s := S1x1) ![0, 0] S1x1.size inb_S1x1_S1x1_0_0
abbrev r6_S2000x1 : Rect S2000x1 := Rect.unit (s := S2000x1) ![0, 0] S2000x1.size inb_S2000x1_S2000x1_0_0

/-! ## What the body leaves in the output window's buffer -/

/-- Window 5's staging buffer after the body, from the input windows' blocks: the one store, of the whole block. -/
def out6_5 (x0 : Vec F S2000x256 .f32) (x1 : Vec F S256x128 .f32) (x2 : Vec F S1x128 .f32) (x3 : Vec F S128x1 .f32) (x4 : Vec F S1x1 .f32) : Vec F S2000x1 .f32 :=
  View.canon [⟨r6_S2000x1, k6_pay1 (View.ld x0 r6_S2000x256) (View.ld x1 r6_S256x128) (View.ld x2 r6_S1x128) (View.ld x3 r6_S128x1) (View.ld x4 r6_S1x1)⟩]

/-- The store covers the buffer. -/
theorem cover6_5 (p0 : Vec F S2000x1 .f32) (y : S2000x1.Idx) :
    ∃ pc ∈ ([⟨r6_S2000x1, p0⟩] : List (View.Piece (Elt F) S2000x1 .f32)), y ∈ pc.1.set :=
  View.cover_of_tiled [⟨r6_S2000x1, p0⟩] S2000x1.size (by rfl) y

/-- The offsets of every access are zero. -/
theorem zeros_reg6 : (![0, 0] : Fin 2 → ℕ) = fun _ => 0 := funext fun a => by fin_cases a <;> rfl

/-- A whole-buffer load reads the buffer and the one whole-buffer store leaves its payload: the output's buffer after
    the body is the payload at the input blocks. -/
theorem out6_5_eq (x0 : Vec F S2000x256 .f32) (x1 : Vec F S256x128 .f32) (x2 : Vec F S1x128 .f32) (x3 : Vec F S128x1 .f32) (x4 : Vec F S1x1 .f32) :
    out6_5 x0 x1 x2 x3 x4 = k6_pay1 x0 x1 x2 x3 x4 := by
  unfold out6_5
  rw [View.canon_unit_zero (S := S2000x1) zeros_reg6 inb_S2000x1_S2000x1_0_0,
    View.ld_unit_zero (S := S2000x256) zeros_reg6 inb_S2000x256_S2000x256_0_0 x0,
    View.ld_unit_zero (S := S256x128) zeros_reg6 inb_S256x128_S256x128_0_0 x1,
    View.ld_unit_zero (S := S1x128) zeros_reg6 inb_S1x128_S1x128_0_0 x2,
    View.ld_unit_zero (S := S128x1) zeros_reg6 inb_S128x1_S128x1_0_0 x3,
    View.ld_unit_zero (S := S1x1) zeros_reg6 inb_S1x1_S1x1_0_0 x4]

/-! ## The body's triple -/

set_option maxHeartbeats 1000000 in
/-- The kernel body on whole staging memrefs, the inputs' at read contents `xW` and the output's at anything, runs to
    the continuation holding the inputs' as they were and the output's at `out6_5` of the inputs'. -/
theorem sound_kernel6 (c : Dev nD) (E : Set ℕ) (i : grid6.Coords) (arg1 : Memref sig .tc .vmem S2000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S2000x1 .f32) (harg6 : arg6.IsWhole)
    (x0 : Vec F S2000x256 .f32) (x1 : Vec F S256x128 .f32) (x2 : Vec F S1x128 .f32) (x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them; after the body at point `t` each
    input's buffer at its block and the output's at `out6_5` of the input blocks; the invariant keeps the scoped rest
    and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.KFold.lean ====
import proofs.«144698_j9466107920964_1_alg».proof.Proof.Gen.Kernel.Launch
import proofs.«144698_j9466107920964_1_alg».proof.Proof.Gen.Kernel.Skeleton
import proofs.«144698_j9466107920964_1_alg».proof.Proof.Gen.Kernel.Points
import proofs.«144698_j9466107920964_1_alg».proof.Proof.Gen.Kernel.Regions
import proofs.«144698_j9466107920964_1_alg».proof.Proof.KReg0
import proofs.«144698_j9466107920964_1_alg».proof.Proof.KReg1
import proofs.«144698_j9466107920964_1_alg».proof.Proof.KReg2
import proofs.«144698_j9466107920964_1_alg».proof.Proof.KReg3
import proofs.«144698_j9466107920964_1_alg».proof.Proof.KReg4
import proofs.«144698_j9466107920964_1_alg».proof.Proof.KReg5
import proofs.«144698_j9466107920964_1_alg».proof.Proof.KReg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The contents of every unscoped buffer at each boundary of the program — the launch memory, each stretch of host
    operations applied in turn, each kernel region's arrays replaced by what its write-backs leave — and the proof
    data of the seven pipelines, each taken at its region's entry contents. -/

/-- The buffers as a region finds them, read at the TensorCore's references. -/
abbrev atTc (W : Dev nD → Valuation τ sig (Elt F)) : (c : Dev nD) → (b : Ref sig .tc) → Buf (Elt F) ((c : Thread nD τ).loc b) :=
  fun c b => W c b

section ClassInvariant
variable (V : (c : Dev nD) → (b : Ref sig .tc) → Buf (Elt F) ((c : Thread nD τ).loc b))

/-- The class invariant of region 1 from what the launch hands the kernel, and back. -/
theorem phi_in1 (c : Dev nD) :
    iprop(iprop(∃ r, prngReg c r) ∗ Pipeline.prefHeld (pcfgs (F := F) 1).pre c (fun _ => fullShare) ((cfgs 1).toPCfg_adm).1 ∗ Pipeline.scopedRest (Ix := Unit) (Name := ℕ) (U := UR sig nD τ) (Lvl := ℕ) spec1 c)
      ⊢ ((dat1 V c).Φ 0 : sProp 𝕄) := by
  rw [show (dat1 V c).Φ 0 = Pipeline.ΦA spec1 c from rfl]; unfold Pipeline.ΦA
  iintro ⟨Hp, -, Hr⟩
  isplitl [Hr]; · iexact Hr
  iexact Hp
theorem phi_out1 (c : Dev nD) :
    ((dat1 V c).Φ (Fin.last _) : sProp 𝕄)
      ⊢ iprop(iprop(∃ r, prngReg c r) ∗ Pipeline.ownSems0 (fun k : PEmpty => k.elim) c ∗ Pipeline.scopedRest (Ix := Unit) (Name := ℕ) (U := UR sig nD τ) (Lvl := ℕ) spec1 c) := by
  rw [Pipeline.ownSems0_none, show (dat1 V c).Φ (Fin.last _) = Pipeline.ΦA spec1 c from rfl]; unfold Pipeline.ΦA
  iintro ⟨Hr, Hp⟩
  isplitl [Hp]; · iexact Hp
  isplitr; · iempintro
  iexact Hr

/-- The class invariant of region 3 from what the launch hands the kernel, and back. -/
theorem phi_in3 (c : Dev nD) :
    iprop(iprop(∃ r, prngReg c r) ∗ Pipeline.prefHeld (pcfgs (F := F) 3).pre c (fun _ => fullShare) ((cfgs 3).toPCfg_adm).1 ∗ Pipeline.scopedRest (Ix := Unit) (Name := ℕ) (U := UR sig nD τ) (Lvl := ℕ) spec3 c)
      ⊢ ((dat3 V c).Φ 0 : sProp 𝕄) := by
  rw [show (dat3 V c).Φ 0 = Pipeline.ΦA spec3 c from rfl]; unfold Pipeline.ΦA
  iintro ⟨Hp, -, Hr⟩
  isplitl [Hr]; · iexact Hr
  iexact Hp
theorem phi_out3 (c : Dev nD) :
    ((dat3 V c).Φ (Fin.last _) : sProp 𝕄)
      ⊢ iprop(iprop(∃ r, prngReg c r) ∗ Pipeline.ownSems0 (fun k : PEmpty => k.elim) c ∗ Pipeline.scopedRest (Ix := Unit) (Name := ℕ) (U := UR sig nD τ) (Lvl := ℕ) spec3 c) := by
  rw [Pipeline.ownSems0_none, show (dat3 V c).Φ (Fin.last _) = Pipeline.ΦA spec3 c from rfl]; unfold Pipeline.ΦA
  iintro ⟨Hr, Hp⟩
  isplitl [Hp]; · iexact Hp
  isplitr; · iempintro
  iexact Hr

/-- The class invariant of region 5 from what the launch hands the kernel, and back. -/
theorem phi_in5 (c : Dev nD) :
    iprop(iprop(∃ r, prngReg c r) ∗ Pipeline.prefHeld (pcfgs (F := F) 5).pre c (fun _ => fullShare) ((cfgs 5).toPCfg_adm).1 ∗ Pipeline.scopedRest (Ix := Unit) (Name := ℕ) (U := UR sig nD τ) (Lvl := ℕ) spec5 c)
      ⊢ ((dat5 V c).Φ 0 : sProp 𝕄) := by
  rw [show (dat5 V c).Φ 0 = Pipeline.ΦA spec5 c from rfl]; unfold Pipeline.ΦA
  iintro ⟨Hp, -, Hr⟩
  isplitl [Hr]; · iexact Hr
  iexact Hp
theorem phi_out5 (c : Dev nD) :
    ((dat5 V c).Φ (Fin.last _) : sProp 𝕄)
      ⊢ iprop(iprop(∃ r, prngReg c r) ∗ Pipeline.ownSems0 (fun k : PEmpty => k.elim) c ∗ Pipeline.scopedRest (Ix := Unit) (Name := ℕ) (U := UR sig nD τ) (Lvl := ℕ) spec5 c) := by
  rw [Pipeline.ownSems0_none, show (dat5 V c).Φ (Fin.last _) = Pipeline.ΦA spec5 c from rfl]; unfold Pipeline.ΦA
  iintro ⟨Hr, Hp⟩
  isplitl [Hp]; · iexact Hp
  isplitr; · iempintro
  iexact Hr

/-- The class invariant of region 6 from what the launch hands the kernel, and back. -/
theorem phi_in6 (c : Dev nD) :
    iprop(iprop(∃ r, prngReg c r) ∗ Pipeline.prefHeld (pcfgs (F := F) 6).pre c (fun _ => fullShare) ((cfgs 6).toPCfg_adm).1 ∗ Pipeline.scopedRest (Ix := Unit) (Name := ℕ) (U := UR sig nD τ) (Lvl := ℕ) spec6 c)
      ⊢ ((dat6 V c).Φ 0 : sProp 𝕄) := by
  rw [show (dat6 V c).Φ 0 = Pipeline.ΦA spec6 c from rfl]; unfold Pipeline.ΦA
  iintro ⟨Hp, -, Hr⟩
  isplitl [Hr]; · iexact Hr
  iexact Hp
theorem phi_out6 (c : Dev nD) :
    ((dat6 V c).Φ (Fin.last _) : sProp 𝕄)
      ⊢ iprop(iprop(∃ r, prngReg c r) ∗ Pipeline.ownSems0 (fun k : PEmpty => k.elim) c ∗ Pipeline.scopedRest (Ix := Unit) (Name := ℕ) (U := UR sig nD τ) (Lvl := ℕ) spec6 c) := by
  rw [Pipeline.ownSems0_none, show (dat6 V c).Φ (Fin.last _) = Pipeline.ΦA spec6 c from rfl]; unfold Pipeline.ΦA
  iintro ⟨Hr, Hp⟩
  isplitl [Hp]; · iexact Hp
  isplitr; · iempintro
  iexact Hr

end ClassInvariant

section Region0
variable (Win : Dev nD → Valuation τ sig (Elt F))

/-- What region 0 leaves: its arrays at what the write-backs leave, every other buffer as entered. -/
def exit0 (c : Dev nD) : Valuation τ sig (Elt F) :=
  Pipeline.withArrays spec0 c (Win c) fun w => (dat0 (atTc Win) c).arrAt w cfg0.N
theorem exit0_arr (c : Dev nD) (w : Fin cfg0.W) :
    exit0 Win c (Proc.devRef .tc (Pipeline.arrRef spec0 w)) = (dat0 (atTc Win) c).arrAt w cfg0.N := by
  unfold exit0; exact Pipeline.withArrays_arr spec0 launch0.win.arr_inj c _ _ w
theorem exit0_of_ne (c : Dev nD) (b : Ref sig .tc) (hb : ∀ w, Pipeline.arrRef spec0 w ≠ b) :
    exit0 Win c (Proc.devRef .tc b) = Win c (Proc.devRef .tc b) := by
  unfold exit0; exact Pipeline.withArrays_of_ne spec0 c _ _ b hb
/-- An input window's array is left as entered. -/
theorem exit0_in (c : Dev nD) (w : Fin cfg0.W) (hw : (cfg0.win w).isOut = false) :
    exit0 Win c (Proc.devRef .tc (Pipeline.arrRef spec0 w)) = Win c (Proc.devRef .tc (Pipeline.arrRef spec0 w)) :=
  (exit0_arr Win c w).trans (((dat0 (atTc Win) c).arrAt_in w hw _).trans (A_eq0 (atTc Win) c w))
end Region0

section Region1
variable (Win : Dev nD → Valuation τ sig (Elt F))

/-- What region 1 leaves: its arrays at what the write-backs leave, every other buffer as entered. -/
def exit1 (c : Dev nD) : Valuation τ sig (Elt F) :=
  Pipeline.withArrays spec1 c (Win c) fun w => (dat1 (atTc Win) c).arrAt w cfg1.N
theorem exit1_arr (c : Dev nD) (w : Fin cfg1.W) :
    exit1 Win c (Proc.devRef .tc (Pipeline.arrRef spec1 w)) = (dat1 (atTc Win) c).arrAt w cfg1.N := by
  unfold exit1; exact Pipeline.withArrays_arr spec1 launch1.win.arr_inj c _ _ w
theorem exit1_of_ne (c : Dev nD) (b : Ref sig .tc) (hb : ∀ w, Pipeline.arrRef spec1 w ≠ b) :
    exit1 Win c (Proc.devRef .tc b) = Win c (Proc.devRef .tc b) := by
  unfold exit1; exact Pipeline.withArrays_of_ne spec1 c _ _ b hb
/-- An input window's array is left as entered. -/
theorem exit1_in (c : Dev nD) (w : Fin cfg1.W) (hw : (cfg1.win w).isOut = false) :
    exit1 Win c (Proc.devRef .tc (Pipeline.arrRef spec1 w)) = Win c (Proc.devRef .tc (Pipeline.arrRef spec1 w)) :=
  (exit1_arr Win c w).trans (((dat1 (atTc Win) c).arrAt_in w hw _).trans (A_eq1 (atTc Win) c w))
end Region1

section Region2
variable (Win : Dev nD → Valuation τ sig (Elt F))

/-- What region 2 leaves: its arrays at what the write-backs leave, every other buffer as entered. -/
def exit2 (c : Dev nD) : Valuation τ sig (Elt F) :=
  Pipeline.withArrays spec2 c (Win c) fun w => (dat2 (atTc Win) c).arrAt w cfg2.N
theorem exit2_arr (c : Dev nD) (w : Fin cfg2.W) :
    exit2 Win c (Proc.devRef .tc (Pipeline.arrRef spec2 w)) = (dat2 (atTc Win) c).arrAt w cfg2.N := by
  unfold exit2; exact Pipeline.withArrays_arr spec2 launch2.win.arr_inj c _ _ w
theorem exit2_of_ne (c : Dev nD) (b : Ref sig .tc) (hb : ∀ w, Pipeline.arrRef spec2 w ≠ b) :
    exit2 Win c (Proc.devRef .tc b) = Win c (Proc.devRef .tc b) := by
  unfold exit2; exact Pipeline.withArrays_of_ne spec2 c _ _ b hb
/-- An input window's array is left as entered. -/
theorem exit2_in (c : Dev nD) (w : Fin cfg2.W) (hw : (cfg2.win w).isOut = false) :
    exit2 Win c (Proc.devRef .tc (Pipeline.arrRef spec2 w)) = Win c (Proc.devRef .tc (Pipeline.arrRef spec2 w)) :=
  (exit2_arr Win c w).trans (((dat2 (atTc Win) c).arrAt_in w hw _).trans (A_eq2 (atTc Win) c w))
end Region2

section Region3
variable (Win : Dev nD → Valuation τ sig (Elt F))

/-- What region 3 leaves: its arrays at what the write-backs leave, every other buffer as entered. -/
def exit3 (c : Dev nD) : Valuation τ sig (Elt F) :=
  Pipeline.withArrays spec3 c (Win c) fun w => (dat3 (atTc Win) c).arrAt w cfg3.N
theorem exit3_arr (c : Dev nD) (w : Fin cfg3.W) :
    exit3 Win c (Proc.devRef .tc (Pipeline.arrRef spec3 w)) = (dat3 (atTc Win) c).arrAt w cfg3.N := by
  unfold exit3; exact Pipeline.withArrays_arr spec3 launch3.win.arr_inj c _ _ w
theorem exit3_of_ne (c : Dev nD) (b : Ref sig .tc) (hb : ∀ w, Pipeline.arrRef spec3 w ≠ b) :
    exit3 Win c (Proc.devRef .tc b) = Win c (Proc.devRef .tc b) := by
  unfold exit3; exact Pipeline.withArrays_of_ne spec3 c _ _ b hb
/-- An input window's array is left as entered. -/
theorem exit3_in (c : Dev nD) (w : Fin cfg3.W) (hw : (cfg3.win w).isOut = false) :
    exit3 Win c (Proc.devRef .tc (Pipeline.arrRef spec3 w)) = Win c (Proc.devRef .tc (Pipeline.arrRef spec3 w)) :=
  (exit3_arr Win c w).trans (((dat3 (atTc Win) c).arrAt_in w hw _).trans (A_eq3 (atTc Win) c w))
end Region3

section Region4
variable (Win : Dev nD → Valuation τ sig (Elt F))

/-- What region 4 leaves: its arrays at what the write-backs leave, every other buffer as entered. -/
def exit4 (c : Dev nD) : Valuation τ sig (Elt F) :=
  Pipeline.withArrays spec4 c (Win c) fun w => (dat4 (atTc Win) c).arrAt w cfg4.N
theorem exit4_arr (c : Dev nD) (w : Fin cfg4.W) :
    exit4 Win c (Proc.devRef .tc (Pipeline.arrRef spec4 w)) = (dat4 (atTc Win) c).arrAt w cfg4.N := by
  unfold exit4; exact Pipeline.withArrays_arr spec4 launch4.win.arr_inj c _ _ w
theorem exit4_of_ne (c : Dev nD) (b : Ref sig .tc) (hb : ∀ w, Pipeline.arrRef spec4 w ≠ b) :
    exit4 Win c (Proc.devRef .tc b) = Win c (Proc.devRef .tc b) := by
  unfold exit4; exact Pipeline.withArrays_of_ne spec4 c _ _ b hb
/-- An input window's array is left as entered. -/
theorem exit4_in (c : Dev nD) (w : Fin cfg4.W) (hw : (cfg4.win w).isOut = false) :
    exit4 Win c (Proc.devRef .tc (Pipeline.arrRef spec4 w)) = Win c (Proc.devRef .tc (Pipeline.arrRef spec4 w)) :=
  (exit4_arr Win c w).trans (((dat4 (atTc Win) c).arrAt_in w hw _).trans (A_eq4 (atTc Win) c w))
end Region4

section Region5
variable (Win : Dev nD → Valuation τ sig (Elt F))

/-- What region 5 leaves: its arrays at what the write-backs leave, every other buffer as entered. -/
def exit5 (c : Dev nD) : Valuation τ sig (Elt F) :=
  Pipeline.withArrays spec5 c (Win c) fun w => (dat5 (atTc Win) c).arrAt w cfg5.N
theorem exit5_arr (c : Dev nD) (w : Fin cfg5.W) :
    exit5 Win c (Proc.devRef .tc (Pipeline.arrRef spec5 w)) = (dat5 (atTc Win) c).arrAt w cfg5.N := by
  unfold exit5; exact Pipeline.withArrays_arr spec5 launch5.win.arr_inj c _ _ w
theorem exit5_of_ne (c : Dev nD) (b : Ref sig .tc) (hb : ∀ w, Pipeline.arrRef spec5 w ≠ b) :
    exit5 Win c (Proc.devRef .tc b) = Win c (Proc.devRef .tc b) := by
  unfold exit5; exact Pipeline.withArrays_of_ne spec5 c _ _ b hb
/-- An input window's array is left as entered. -/
theorem exit5_in (c : Dev nD) (w : Fin cfg5.W) (hw : (cfg5.win w).isOut = false) :
    exit5 Win c (Proc.devRef .tc (Pipeline.arrRef spec5 w)) = Win c (Proc.devRef .tc (Pipeline.arrRef spec5 w)) :=
  (exit5_arr Win c w).trans (((dat5 (atTc Win) c).arrAt_in w hw _).trans (A_eq5 (atTc Win) c w))
end Region5

section Region6
variable (Win : Dev nD → Valuation τ sig (Elt F))

/-- What region 6 leaves: its arrays at what the write-backs leave, every other buffer as entered. -/
def exit6 (c : Dev nD) : Valuation τ sig (Elt F) :=
  Pipeline.withArrays spec6 c (Win c) fun w => (dat6 (atTc Win) c).arrAt w cfg6.N
theorem exit6_arr (c : Dev nD) (w : Fin cfg6.W) :
    exit6 Win c (Proc.devRef .tc (Pipeline.arrRef spec6 w)) = (dat6 (atTc Win) c).arrAt w cfg6.N := by
  unfold exit6; exact Pipeline.withArrays_arr spec6 launch6.win.arr_inj c _ _ w
theorem exit6_of_ne (c : Dev nD) (b : Ref sig .tc) (hb : ∀ w, Pipeline.arrRef spec6 w ≠ b) :
    exit6 Win c (Proc.devRef .tc b) = Win c (Proc.devRef .tc b) := by
  unfold exit6; exact Pipeline.withArrays_of_ne spec6 c _ _ b hb
/-- An input window's array is left as entered. -/
theorem exit6_in (c : Dev nD) (w : Fin cfg6.W) (hw : (cfg6.win w).isOut = false) :
    exit6 Win c (Proc.devRef .tc (Pipeline.arrRef spec6 w)) = Win c (Proc.devRef .tc (Pipeline.arrRef spec6 w)) :=
  (exit6_arr Win c w).trans (((dat6 (atTc Win) c).arrAt_in w hw _).trans (A_eq6 (atTc Win) c w))
end Region6

variable (m : (ℓ : Loc nD τ sig) → Buf (Elt F) ℓ)

/-! ## The buffers' contents at each boundary of @main: the launch memory, then each host stretch applied, then each
    region's arrays at what its write-backs leave -/

abbrev Wk0 : Dev nD → Valuation τ sig (Elt F) := fun c b => m (c, b)
abbrev Wk1 : Dev nD → Valuation τ sig (Elt F) := fun c => StableHlo.after hostOps0 (Wk0 m c)
abbrev Wk2 : Dev nD → Valuation τ sig (Elt F) := exit0 (Wk1 m)
abbrev Wk3 : Dev nD → Valuation τ sig (Elt F) := fun c => StableHlo.after hostOps1 (Wk2 m c)
abbrev Wk4 : Dev nD → Valuation τ sig (Elt F) := exit1 (Wk3 m)
abbrev Wk5 : Dev nD → Valuation τ sig (Elt F) := fun c => StableHlo.after hostOps2 (Wk4 m c)
abbrev Wk6 : Dev nD → Valuation τ sig (Elt F) := exit2 (Wk5 m)
abbrev Wk7 : Dev nD → Valuation τ sig (Elt F) := fun c => StableHlo.after hostOps3 (Wk6 m c)
abbrev Wk8 : Dev nD → Valuation τ sig (Elt F) := exit3 (Wk7 m)
abbrev Wk9 : Dev nD → Valuation τ sig (Elt F) := fun c => StableHlo.after hostOps4 (Wk8 m c)
abbrev Wk10 : Dev nD → Valuation τ sig (Elt F) := exit4 (Wk9 m)
abbrev Wk11 : Dev nD → Valuation τ sig (Elt F) := fun c => StableHlo.after hostOps5 (Wk10 m c)
abbrev Wk12 : Dev nD → Valuation τ sig (Elt F) := exit5 (Wk11 m)
abbrev Wk13 : Dev nD → Valuation τ sig (Elt F) := fun c => StableHlo.after hostOps6 (Wk12 m c)
abbrev Wk14 : Dev nD → Valuation τ sig (Elt F) := exit6 (Wk13 m)
abbrev Wk15 : Dev nD → Valuation τ sig (Elt F) := fun c => StableHlo.after hostOps7 (Wk14 m c)

/-! ## The proof data family and the thread state -/

abbrev padm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) padm p) c
  | ⟨0, _⟩ => fun c => dat0 (atTc (Wk1 m)) c
  | ⟨1, _⟩ => fun c => dat1 (atTc (Wk3 m)) c
  | ⟨2, _⟩ => fun c => dat2 (atTc (Wk5 m)) c
  | ⟨3, _⟩ => fun c => dat3 (atTc (Wk7 m)) c
  | ⟨4, _⟩ => fun c => dat4 (atTc (Wk9 m)) c
  | ⟨5, _⟩ => fun c => dat5 (atTc (Wk11 m)) c
  | ⟨6, _⟩ => fun c => dat6 (atTc (Wk13 m)) c
abbrev 𝒱h : Variants := Variants.none
abbrev Lh : GSem nD τ sig → Finset Unit := fun _ => ∅
abbrev lvh : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
abbrev Tlast (c : Dev nD) : sProp 𝕄 := iprop(StableHlo.held (c : Thread nD τ) (Pipeline.ucRefs τ sig) (Wk14 m c) ∗ ∃ r, prngReg c r)

end Cert.Kernel.Hand
end
-- ==== Proof.KSegs.lean ====
import proofs.«144698_j9466107920964_1_alg».proof.Proof.Gen.Kernel.Launch
import proofs.«144698_j9466107920964_1_alg».proof.Proof.Gen.Kernel.Skeleton
import proofs.«144698_j9466107920964_1_alg».proof.Proof.Gen.Kernel.Points
import proofs.«144698_j9466107920964_1_alg».proof.Proof.Gen.Kernel.Regions
import proofs.«144698_j9466107920964_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The program as fifteen segments — eight stretches of host operations and seven kernel regions — and its run: from
    any launch memory every weakly fair execution terminates with every unscoped buffer at the last boundary's contents. -/

variable (m : (ℓ : Loc nD τ sig) → Buf (Elt F) ℓ)

set_option backward.isDefEq.respectTransparency.types false in
/-- Region 0 over the thread state: entered from every unscoped buffer at `Wk1`, left at `Wk2`. Its arrays are split
    out of the unscoped buffers and put back at the exit contents; the generator register goes into the invariant and
    comes back; nothing is owed; the kernel has no semaphore of its own. -/
def reg0 : Pipeline.RegionSeg (pcfgs (F := F)) padm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (atTc (Wk1 m)) c).loose
  hwaits := Pipeline.hwaits_of_owed_zero _ _ _ _ Lh lvh 0 fun _ _ => rfl
  pre c := iprop(StableHlo.held (c : Thread nD τ) (Pipeline.ucRefs τ sig) (Wk1 m c) ∗ Rst c)
  post c := iprop(StableHlo.held (c : Thread nD τ) (Pipeline.ucRefs τ sig) (Wk2 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (Wk1 m) c)
  hentry c := by
    rw [Pipeline.ownSems0_none]
    have hsplit := Pipeline.arrays_of_unscopedBufs (p := 0) (pcfgs (F := F)) padm (pdats m) launch0.win launch0.arr_whole c
      ((pdats m 0 c).share_full fun _ => rfl) (atTc (Wk1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in0 (atTc (Wk1 m)) c
  hout c := phi_out0 (atTc (Wk1 m)) c
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (atTc (Wk1 m) c) (atTc (Wk2 m) c) ((pdats m 0 c).arrAt · cfg0.N)
      (fun w => (exit0_arr (Wk1 m) c w).symm)
      (fun b hb => exit0_of_ne (Wk1 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Wk3`, left at `Wk4`. Its arrays are split
    out of the unscoped buffers and put back at the exit contents; the generator register goes into the invariant and
    comes back; nothing is owed; the kernel has no semaphore of its own. -/
def reg1 : Pipeline.RegionSeg (pcfgs (F := F)) padm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (atTc (Wk3 m)) c).loose
  hwaits := Pipeline.hwaits_of_owed_zero _ _ _ _ Lh lvh 1 fun _ _ => rfl
  pre c := iprop(StableHlo.held (c : Thread nD τ) (Pipeline.ucRefs τ sig) (Wk3 m c) ∗ Rst c)
  post c := iprop(StableHlo.held (c : Thread nD τ) (Pipeline.ucRefs τ sig) (Wk4 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (Wk3 m) c)
  hentry c := by
    rw [Pipeline.ownSems0_none]
    have hsplit := Pipeline.arrays_of_unscopedBufs (p := 1) (pcfgs (F := F)) padm (pdats m) launch1.win launch1.arr_whole c
      ((pdats m 1 c).share_full fun _ => rfl) (atTc (Wk3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in1 (atTc (Wk3 m)) c
  hout c := phi_out1 (atTc (Wk3 m)) c
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (atTc (Wk3 m) c) (atTc (Wk4 m) c) ((pdats m 1 c).arrAt · cfg1.N)
      (fun w => (exit1_arr (Wk3 m) c w).symm)
      (fun b hb => exit1_of_ne (Wk3 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Wk5`, left at `Wk6`. Its arrays are split
    out of the unscoped buffers and put back at the exit contents; the generator register goes into the invariant and
    comes back; nothing is owed; the kernel has no semaphore of its own. -/
def reg2 : Pipeline.RegionSeg (pcfgs (F := F)) padm (pdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (atTc (Wk5 m)) c).loose
  hwaits := Pipeline.hwaits_of_owed_zero _ _ _ _ Lh lvh 2 fun _ _ => rfl
  pre c := iprop(StableHlo.held (c : Thread nD τ) (Pipeline.ucRefs τ sig) (Wk5 m c) ∗ Rst c)
  post c := iprop(StableHlo.held (c : Thread nD τ) (Pipeline.ucRefs τ sig) (Wk6 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (Wk5 m) c)
  hentry c := by
    rw [Pipeline.ownSems0_none]
    have hsplit := Pipeline.arrays_of_unscopedBufs (p := 2) (pcfgs (F := F)) padm (pdats m) launch2.win launch2.arr_whole c
      ((pdats m 2 c).share_full fun _ => rfl) (atTc (Wk5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in2 (atTc (Wk5 m)) c
  hout c := phi_out2 (atTc (Wk5 m)) c
  hexit c := by
    have hjoin := Pipeline.unscopedBufs_of_arrays (p := 2) (pcfgs (F := F)) padm (Ix := Unit) (Name := ℕ) (U := UR sig nD τ) (Lvl := ℕ)
      launch2.win launch2.arr_whole c (pdats m) ((pdats m 2 c).share_full fun _ => rfl)
      (atTc (Wk5 m) c) (atTc (Wk6 m) c) ((pdats m 2 c).arrAt · cfg2.N)
      (fun w => (exit2_arr (Wk5 m) c w).symm)
      (fun b hb => exit2_of_ne (Wk5 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `Wk7`, left at `Wk8`. Its arrays are split
    out of the unscoped buffers and put back at the exit contents; the generator register goes into the invariant and
    comes back; nothing is owed; the kernel has no semaphore of its own. -/
def reg3 : Pipeline.RegionSeg (pcfgs (F := F)) padm (pdats m) () defs₀ 𝒱h Lh lvh 3 where
  win := launch3.win.to₀
  block_pos := launch3.block_pos
  stage_whole := launch3.stage_whole
  K := PEmpty
  osem k := k.elim
  ho := Pipeline.OwnSemFacts.none _
  hbody c := (body_obligation3 (atTc (Wk7 m)) c).loose
  hwaits := Pipeline.hwaits_of_owed_zero _ _ _ _ Lh lvh 3 fun _ _ => rfl
  pre c := iprop(StableHlo.held (c : Thread nD τ) (Pipeline.ucRefs τ sig) (Wk7 m c) ∗ Rst c)
  post c := iprop(StableHlo.held (c : Thread nD τ) (Pipeline.ucRefs τ sig) (Wk8 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (Wk7 m) c)
  hentry c := by
    rw [Pipeline.ownSems0_none]
    have hsplit := Pipeline.arrays_of_unscopedBufs (p := 3) (pcfgs (F := F)) padm (pdats m) launch3.win launch3.arr_whole c
      ((pdats m 3 c).share_full fun _ => rfl) (atTc (Wk7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in3 (atTc (Wk7 m)) c
  hout c := phi_out3 (atTc (Wk7 m)) c
  hexit c := by
    have hjoin := Pipeline.unscopedBufs_of_arrays (p := 3) (pcfgs (F := F)) padm (Ix := Unit) (Name := ℕ) (U := UR sig nD τ) (Lvl := ℕ)
      launch3.win launch3.arr_whole c (pdats m) ((pdats m 3 c).share_full fun _ => rfl)
      (atTc (Wk7 m) c) (atTc (Wk8 m) c) ((pdats m 3 c).arrAt · cfg3.N)
      (fun w => (exit3_arr (Wk7 m) c w).symm)
      (fun b hb => exit3_of_ne (Wk7 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `Wk9`, left at `Wk10`. Its arrays are split
    out of the unscoped buffers and put back at the exit contents; the generator register goes into the invariant and
    comes back; nothing is owed; the kernel has no semaphore of its own. -/
def reg4 : Pipeline.RegionSeg (pcfgs (F := F)) padm (pdats m) () defs₀ 𝒱h Lh lvh 4 where
  win := launch4.win.to₀
  block_pos := launch4.block_pos
  stage_whole := launch4.stage_whole
  K := PEmpty
  osem k := k.elim
  ho := Pipeline.OwnSemFacts.none _
  hbody c := (body_obligation4 (atTc (Wk9 m)) c).loose
  hwaits := Pipeline.hwaits_of_owed_zero _ _ _ _ Lh lvh 4 fun _ _ => rfl
  pre c := iprop(StableHlo.held (c : Thread nD τ) (Pipeline.ucRefs τ sig) (Wk9 m c) ∗ Rst c)
  post c := iprop(StableHlo.held (c : Thread nD τ) (Pipeline.ucRefs τ sig) (Wk10 m c) ∗ Rst c)
  X c := iprop(∃ r, prngReg c r)
  Y c := iprop(∃ r, prngReg c r)
  Z c := Pipeline.unscopedRest (Ix := Unit) (Name := ℕ) (U := UR sig nD τ) (Lvl := ℕ) spec4 c (atTc (Wk9 m) c)
  hentry c := by
    rw [Pipeline.ownSems0_none]
    have hsplit := Pipeline.arrays_of_unscopedBufs (p := 4) (pcfgs (F := F)) padm (pdats m) launch4.win launch4.arr_whole c
      ((pdats m 4 c).share_full fun _ => rfl) (atTc (Wk9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in4 (atTc (Wk9 m)) c
  hout c := phi_out4 (atTc (Wk9 m)) c
  hexit c := by
    have hjoin := Pipeline.unscopedBufs_of_arrays (p := 4) (pcfgs (F := F)) padm (Ix := Unit) (Name := ℕ) (U := UR sig nD τ) (Lvl := ℕ)
      launch4.win launch4.arr_whole c (pdats m) ((pdats m 4 c).share_full fun _ => rfl)
      (atTc (Wk9 m) c) (atTc (Wk10 m) c) ((pdats m 4 c).arrAt · cfg4.N)
      (fun w => (exit4_arr (Wk9 m) c w).symm)
      (fun b hb => exit4_of_ne (Wk9 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `Wk11`, left at `Wk12`. Its arrays are split
    out of the unscoped buffers and put back at the exit contents; the generator register goes into the invariant and
    comes back; nothing is owed; the kernel has no semaphore of its own. -/
def reg5 : Pipeline.RegionSeg (pcfgs (F := F)) padm (pdats m) () defs₀ 𝒱h Lh lvh 5 where
  win := launch5.win.to₀
  block_pos := launch5.block_pos
  stage_whole := launch5.stage_whole
  K := PEmpty
  osem k := k.elim
  ho := Pipeline.OwnSemFacts.none _
  hbody c := (body_obligation5 (atTc (Wk11 m)) c).loose
  hwaits := Pipeline.hwaits_of_owed_zero _ _ _ _ Lh lvh 5 fun _ _ => rfl
  pre c := iprop(StableHlo.held (c : Thread nD τ) (Pipeline.ucRefs τ sig) (Wk11 m c) ∗ Rst c)
  post c := iprop(StableHlo.held (c : Thread nD τ) (Pipeline.ucRefs τ sig) (Wk12 m c) ∗ Rst c)
  X c := iprop(∃ r, prngReg c r)
  Y c := iprop(∃ r, prngReg c r)
  Z c := Pipeline.unscopedRest (Ix := Unit) (Name := ℕ) (U := UR sig nD τ) (Lvl := ℕ) spec5 c (atTc (Wk11 m) c)
  hentry c := by
    rw [Pipeline.ownSems0_none]
    have hsplit := Pipeline.arrays_of_unscopedBufs (p := 5) (pcfgs (F := F)) padm (pdats m) launch5.win launch5.arr_whole c
      ((pdats m 5 c).share_full fun _ => rfl) (atTc (Wk11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in5 (atTc (Wk11 m)) c
  hout c := phi_out5 (atTc (Wk11 m)) c
  hexit c := by
    have hjoin := Pipeline.unscopedBufs_of_arrays (p := 5) (pcfgs (F := F)) padm (Ix := Unit) (Name := ℕ) (U := UR sig nD τ) (Lvl := ℕ)
      launch5.win launch5.arr_whole c (pdats m) ((pdats m 5 c).share_full fun _ => rfl)
      (atTc (Wk11 m) c) (atTc (Wk12 m) c) ((pdats m 5 c).arrAt · cfg5.N)
      (fun w => (exit5_arr (Wk11 m) c w).symm)
      (fun b hb => exit5_of_ne (Wk11 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `Wk13`, left at `Wk14`. Its arrays are split
    out of the unscoped buffers and put back at the exit contents; the generator register goes into the invariant and
    comes back; nothing is owed; the kernel has no semaphore of its own. -/
def reg6 : Pipeline.RegionSeg (pcfgs (F := F)) padm (pdats m) () defs₀ 𝒱h Lh lvh 6 where
  win := launch6.win.to₀
  block_pos := launch6.block_pos
  stage_whole := launch6.stage_whole
  K := PEmpty
  osem k := k.elim
  ho := Pipeline.OwnSemFacts.none _
  hbody c := (body_obligation6 (atTc (Wk13 m)) c).loose
  hwaits := Pipeline.hwaits_of_owed_zero _ _ _ _ Lh lvh 6 fun _ _ => rfl
  pre c := iprop(StableHlo.held (c : Thread nD τ) (Pipeline.ucRefs τ sig) (Wk13 m c) ∗ Rst c)
  post c := iprop(StableHlo.held (c : Thread nD τ) (Pipeline.ucRefs τ sig) (Wk14 m c) ∗ Rst c)
  X c := iprop(∃ r, prngReg c r)
  Y c := iprop(∃ r, prngReg c r)
  Z c := Pipeline.unscopedRest (Ix := Unit) (Name := ℕ) (U := UR sig nD τ) (Lvl := ℕ) spec6 c (atTc (Wk13 m) c)
  hentry c := by
    rw [Pipeline.ownSems0_none]
    have hsplit := Pipeline.arrays_of_unscopedBufs (p := 6) (pcfgs (F := F)) padm (pdats m) launch6.win launch6.arr_whole c
      ((pdats m 6 c).share_full fun _ => rfl) (atTc (Wk13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in6 (atTc (Wk13 m)) c
  hout c := phi_out6 (atTc (Wk13 m)) c
  hexit c := by
    have hjoin := Pipeline.unscopedBufs_of_arrays (p := 6) (pcfgs (F := F)) padm (Ix := Unit) (Name := ℕ) (U := UR sig nD τ) (Lvl := ℕ)
      launch6.win launch6.arr_whole c (pdats m) ((pdats m 6 c).share_full fun _ => rfl)
      (atTc (Wk13 m) c) (atTc (Wk14 m) c) ((pdats m 6 c).arrAt · cfg6.N)
      (fun w => (exit6_arr (Wk13 m) c w).symm)
      (fun b hb => exit6_of_ne (Wk13 m) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev rsegs : List (Pipeline.Seg (pcfgs (F := F)) padm (pdats m) () defs₀ 𝒱h Lh lvh) :=
  [ .host (hseg hostOps0 hostOps0_sub hostOps0_fresh (Wk0 m)),
    .region (reg0 m),
    .host (hseg hostOps1 hostOps1_sub hostOps1_fresh (Wk2 m)),
    .region (reg1 m),
    .host (hseg hostOps2 hostOps2_sub hostOps2_fresh (Wk4 m)),
    .region (reg2 m),
    .host (hseg hostOps3 hostOps3_sub hostOps3_fresh (Wk6 m)),
    .region (reg3 m),
    .host (hseg hostOps4 hostOps4_sub hostOps4_fresh (Wk8 m)),
    .region (reg4 m),
    .host (hseg hostOps5 hostOps5_sub hostOps5_fresh (Wk10 m)),
    .region (reg5 m),
    .host (hseg hostOps6 hostOps6_sub hostOps6_fresh (Wk12 m)),
    .region (reg6 m),
    .host (hseg hostOps7 hostOps7_sub hostOps7_fresh (Wk14 m)) ]

set_option backward.isDefEq.respectTransparency.types false in
/-- THE RUN: from any launch memory with zero counters every weakly fair execution of @main terminates, nothing
    faulting, and every unscoped buffer of every core ends at the last boundary's contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wk15 m c b) :=
  Pipeline.θ_run_regions_kit (pcfgs (F := F)) padm (pdats m) () cellOf_inj emb₁ defs₀ 𝒱h Lh lvh m ρ main (rsegs m)
    (fun c Q => by
      rewrite [main_chain c, Pipeline.Seg.run_eq_chain]
      exact .rfl)
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m c) ∗ Rst c))
    (Tₙ := fun c => iprop(StableHlo.held (c : Thread nD τ) (Pipeline.ucRefs τ sig) (Wk15 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (Wk15 m c) ∗ Rst c) ⊢ _
        iintro ⟨Hh, Hp, HO⟩
        isplitl [Hh Hp]
        · isplitl [Hh]; · iexact Hh
          iexact Hp
        iexact HO⟩)
    (hinit := by
      refine Pipeline.initEach Lh lvh fun c => ?_
      rw [show unscopedBufs c (fun b => m ((c : Thread nD τ).loc b)) = StableHlo.held (c : Thread nD τ) (Pipeline.ucRefs τ sig) (Wk0 m c)
        from Pipeline.unscopedBufs_held c (Wk0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk15 m c b)
    (hfin := fun c s' => by
      iintro ⟨⟨Hh, -⟩, HSI⟩
      unfold StableHlo.held
      imodintro
      iapply (pointsTo_read_all (Pipeline.ucRefs τ sig) (fun b => (((c : Thread nD τ)).1, b)) (Wk15 m c) s')
      isplitl [Hh] <;> iassumption)
    (hQ := fun s h => h)

end Cert.Kernel.Hand
end
-- ==== Proof.KKept.lean ====
import proofs.«144698_j9466107920964_1_alg».proof.Proof.Gen.Kernel.Launch
import proofs.«144698_j9466107920964_1_alg».proof.Proof.Gen.Kernel.Skeleton
import proofs.«144698_j9466107920964_1_alg».proof.Proof.Gen.Kernel.Points
import proofs.«144698_j9466107920964_1_alg».proof.Proof.Gen.Kernel.Regions
import proofs.«144698_j9466107920964_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! No stretch of host operations writes an argument array and no kernel region has one as an output window: each
    argument's buffer holds its launch contents at the last boundary. -/

/-- Region 0 changes no buffer besides its output windows' arrays. -/
theorem exit0_keep (Win : Dev nD → Valuation τ sig (Elt F)) (c : Dev nD) (r : Ref sig .tc)
    (h : r ∉ ([main_v15_0, main_v15_1, main_v15_2] : List (Ref sig .tc))) :
    exit0 Win c (Proc.devRef .tc r) = Win c (Proc.devRef .tc r) := by
  by_cases hr : ∃ w, Pipeline.arrRef spec0 w = r
  · obtain ⟨w, rfl⟩ := hr
    fin_cases w <;> first | exact exit0_in Win c _ rfl | exact absurd (by decide) h
  · exact exit0_of_ne Win c r fun w e => hr ⟨w, e⟩

/-- Region 1 changes no buffer besides its output windows' arrays. -/
theorem exit1_keep (Win : Dev nD → Valuation τ sig (Elt F)) (c : Dev nD) (r : Ref sig .tc)
    (h : r ∉ ([main_v18] : List (Ref sig .tc))) :
    exit1 Win c (Proc.devRef .tc r) = Win c (Proc.devRef .tc r) := by
  by_cases hr : ∃ w, Pipeline.arrRef spec1 w = r
  · obtain ⟨w, rfl⟩ := hr
    fin_cases w <;> first | exact exit1_in Win c _ rfl | exact absurd (by decide) h
  · exact exit1_of_ne Win c r fun w e => hr ⟨w, e⟩

/-- Region 2 changes no buffer besides its output windows' arrays. -/
theorem exit2_keep (Win : Dev nD → Valuation τ sig (Elt F)) (c : Dev nD) (r : Ref sig .tc)
    (h : r ∉ ([main_v30_0, main_v30_1, main_v30_2] : List (Ref sig .tc))) :
    exit2 Win c (Proc.devRef .tc r) = Win c (Proc.devRef .tc r) := by
  by_cases hr : ∃ w, Pipeline.arrRef spec2 w = r
  · obtain ⟨w, rfl⟩ := hr
    fin_cases w <;> first | exact exit2_in Win c _ rfl | exact absurd (by decide) h
  · exact exit2_of_ne Win c r fun w e => hr ⟨w, e⟩

/-- Region 3 changes no buffer besides its output windows' arrays. -/
theorem exit3_keep (Win : Dev nD → Valuation τ sig (Elt F)) (c : Dev nD) (r : Ref sig .tc)
    (h : r ∉ ([main_v33] : List (Ref sig .tc))) :
    exit3 Win c (Proc.devRef .tc r) = Win c (Proc.devRef .tc r) := by
  by_cases hr : ∃ w, Pipeline.arrRef spec3 w = r
  · obtain ⟨w, rfl⟩ := hr
    fin_cases w <;> first | exact exit3_in Win c _ rfl | exact absurd (by decide) h
  · exact exit3_of_ne Win c r fun w e => hr ⟨w, e⟩

/-- Region 4 changes no buffer besides its output windows' arrays. -/
theorem exit4_keep (Win : Dev nD → Valuation τ sig (Elt F)) (c : Dev nD) (r : Ref sig .tc)
    (h : r ∉ ([main_v45_0, main_v45_1, main_v45_2] : List (Ref sig .tc))) :
    exit4 Win c (Proc.devRef .tc r) = Win c (Proc.devRef .tc r) := by
  by_cases hr : ∃ w, Pipeline.arrRef spec4 w = r
  · obtain ⟨w, rfl⟩ := hr
    fin_cases w <;> first | exact exit4_in Win c _ rfl | exact absurd (by decide) h
  · exact exit4_of_ne Win c r fun w e => hr ⟨w, e⟩

/-- Region 5 changes no buffer besides its output windows' arrays. -/
theorem exit5_keep (Win : Dev nD → Valuation τ sig (Elt F)) (c : Dev nD) (r : Ref sig .tc)
    (h : r ∉ ([main_v48] : List (Ref sig .tc))) :
    exit5 Win c (Proc.devRef .tc r) = Win c (Proc.devRef .tc r) := by
  by_cases hr : ∃ w, Pipeline.arrRef spec5 w = r
  · obtain ⟨w, rfl⟩ := hr
    fin_cases w <;> first | exact exit5_in Win c _ rfl | exact absurd (by decide) h
  · exact exit5_of_ne Win c r fun w e => hr ⟨w, e⟩

/-- Region 6 changes no buffer besides its output windows' arrays. -/
theorem exit6_keep (Win : Dev nD → Valuation τ sig (Elt F)) (c : Dev nD) (r : Ref sig .tc)
    (h : r ∉ ([main_v51] : List (Ref sig .tc))) :
    exit6 Win c (Proc.devRef .tc r) = Win c (Proc.devRef .tc r) := by
  by_cases hr : ∃ w, Pipeline.arrRef spec6 w = r
  · obtain ⟨w, rfl⟩ := hr
    fin_cases w <;> first | exact exit6_in Win c _ rfl | exact absurd (by decide) h
  · exact exit6_of_ne Win c r fun w e => hr ⟨w, e⟩

variable (m : (ℓ : Loc nD τ sig) → Buf (Elt F) ℓ)

/-- A buffer that no host operation writes and that is no region's output holds its launch contents at the end. -/
theorem Wk15_keep (c : Dev nD) (r : Ref sig .tc)
    (h0 : r ∉ hostOps0_W) (h1 : r ∉ hostOps1_W) (h2 : r ∉ hostOps2_W) (h3 : r ∉ hostOps3_W)
    (h4 : r ∉ hostOps4_W) (h5 : r ∉ hostOps5_W) (h6 : r ∉ hostOps6_W) (h7 : r ∉ hostOps7_W)
    (k0 : r ∉ ([main_v15_0, main_v15_1, main_v15_2] : List (Ref sig .tc))) (k1 : r ∉ ([main_v18] : List (Ref sig .tc)))
    (k2 : r ∉ ([main_v30_0, main_v30_1, main_v30_2] : List (Ref sig .tc))) (k3 : r ∉ ([main_v33] : List (Ref sig .tc)))
    (k4 : r ∉ ([main_v45_0, main_v45_1, main_v45_2] : List (Ref sig .tc))) (k5 : r ∉ ([main_v48] : List (Ref sig .tc)))
    (k6 : r ∉ ([main_v51] : List (Ref sig .tc))) :
    Wk15 m c (Proc.devRef .tc r) = m ((c : Thread nD τ).loc r) :=
  calc Wk15 m c (Proc.devRef .tc r)
    _ = Wk14 m c (Proc.devRef .tc r) := StableHlo.after_of_writes_sub hostOps7 _ hostOps7_writes h7
    _ = Wk13 m c (Proc.devRef .tc r) := exit6_keep (Wk13 m) c r k6
    _ = Wk12 m c (Proc.devRef .tc r) := StableHlo.after_of_writes_sub hostOps6 _ hostOps6_writes h6
    _ = Wk11 m c (Proc.devRef .tc r) := exit5_keep (Wk11 m) c r k5
    _ = Wk10 m c (Proc.devRef .tc r) := StableHlo.after_of_writes_sub hostOps5 _ hostOps5_writes h5
    _ = Wk9 m c (Proc.devRef .tc r) := exit4_keep (Wk9 m) c r k4
    _ = Wk8 m c (Proc.devRef .tc r) := StableHlo.after_of_writes_sub hostOps4 _ hostOps4_writes h4
    _ = Wk7 m c (Proc.devRef .tc r) := exit3_keep (Wk7 m) c r k3
    _ = Wk6 m c (Proc.devRef .tc r) := StableHlo.after_of_writes_sub hostOps3 _ hostOps3_writes h3
    _ = Wk5 m c (Proc.devRef .tc r) := exit2_keep (Wk5 m) c r k2
    _ = Wk4 m c (Proc.devRef .tc r) := StableHlo.after_of_writes_sub hostOps2 _ hostOps2_writes h2
    _ = Wk3 m c (Proc.devRef .tc r) := exit1_keep (Wk3 m) c r k1
    _ = Wk2 m c (Proc.devRef .tc r) := StableHlo.after_of_writes_sub hostOps1 _ hostOps1_writes h1
    _ = Wk1 m c (Proc.devRef .tc r) := exit0_keep (Wk1 m) c r k0
    _ = Wk0 m c (Proc.devRef .tc r) := StableHlo.after_of_writes_sub hostOps0 _ hostOps0_writes h0
    _ = m ((c : Thread nD τ).loc r) := rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem Wk15_main_arg0 (c : Dev nD) : Wk15 m c (Proc.devRef .tc main_arg0) = m ((c : Thread nD τ).loc main_arg0) :=
  Wk15_keep m c main_arg0 (by decide) (by decide) (by decide) (by decide) (by decide) (by decide) (by decide) (by decide)
    (by decide) (by decide) (by decide) (by decide) (by decide) (by decide) (by decide)
theorem Wk15_main_arg1 (c : Dev nD) : Wk15 m c (Proc.devRef .tc main_arg1) = m ((c : Thread nD τ).loc main_arg1) :=
  Wk15_keep m c main_arg1 (by decide) (by decide) (by decide) (by decide) (by decide) (by decide) (by decide) (by decide)
    (by decide) (by decide) (by decide) (by decide) (by decide) (by decide) (by decide)
theorem Wk15_main_arg2 (c : Dev nD) : Wk15 m c (Proc.devRef .tc main_arg2) = m ((c : Thread nD τ).loc main_arg2) :=
  Wk15_keep m c main_arg2 (by decide) (by decide) (by decide) (by decide) (by decide) (by decide) (by decide) (by decide)
    (by decide) (by decide) (by decide) (by decide) (by decide) (by decide) (by decide)
theorem Wk15_main_arg3 (c : Dev nD) : Wk15 m c (Proc.devRef .tc main_arg3) = m ((c : Thread nD τ).loc main_arg3) :=
  Wk15_keep m c main_arg3 (by decide) (by decide) (by decide) (by decide) (by decide) (by decide) (by decide) (by decide)
    (by decide) (by decide) (by decide) (by decide) (by decide) (by decide) (by decide)
theorem Wk15_main_arg4 (c : Dev nD) : Wk15 m c (Proc.devRef .tc main_arg4) = m ((c : Thread nD τ).loc main_arg4) :=
  Wk15_keep m c main_arg4 (by decide) (by decide) (by decide) (by decide) (by decide) (by decide) (by decide) (by decide)
    (by decide) (by decide) (by decide) (by decide) (by decide) (by decide) (by decide)
theorem Wk15_main_arg5 (c : Dev nD) : Wk15 m c (Proc.devRef .tc main_arg5) = m ((c : Thread nD τ).loc main_arg5) :=
  Wk15_keep m c main_arg5 (by decide) (by decide) (by decide) (by decide) (by decide) (by decide) (by decide) (by decide)
    (by decide) (by decide) (by decide) (by decide) (by decide) (by decide) (by decide)
theorem Wk15_main_arg6 (c : Dev nD) : Wk15 m c (Proc.devRef .tc main_arg6) = m ((c : Thread nD τ).loc main_arg6) :=
  Wk15_keep m c main_arg6 (by decide) (by decide) (by decide) (by decide) (by decide) (by decide) (by decide) (by decide)
    (by decide) (by decide) (by decide) (by decide) (by decide) (by decide) (by decide)
theorem Wk15_main_arg7 (c : Dev nD) : Wk15 m c (Proc.devRef .tc main_arg7) = m ((c : Thread nD τ).loc main_arg7) :=
  Wk15_keep m c main_arg7 (by decide) (by decide) (by decide) (by decide) (by decide) (by decide) (by decide) (by decide)
    (by decide) (by decide) (by decide) (by decide) (by decide) (by decide) (by decide)
theorem Wk15_main_arg8 (c : Dev nD) : Wk15 m c (Proc.devRef .tc main_arg8) = m ((c : Thread nD τ).loc main_arg8) :=
  Wk15_keep m c main_arg8 (by decide) (by decide) (by decide) (by decide) (by decide) (by decide) (by decide) (by decide)
    (by decide) (by decide) (by decide) (by decide) (by decide) (by decide) (by decide)
theorem Wk15_main_arg9 (c : Dev nD) : Wk15 m c (Proc.devRef .tc main_arg9) = m ((c : Thread nD τ).loc main_arg9) :=
  Wk15_keep m c main_arg9 (by decide) (by decide) (by decide) (by decide) (by decide) (by decide) (by decide) (by decide)
    (by decide) (by decide) (by decide) (by decide) (by decide) (by decide) (by decide)
theorem Wk15_main_arg10 (c : Dev nD) : Wk15 m c (Proc.devRef .tc main_arg10) = m ((c : Thread nD τ).loc main_arg10) :=
  Wk15_keep m c main_arg10 (by decide) (by decide) (by decide) (by decide) (by decide) (by decide) (by decide) (by decide)
    (by decide) (by decide) (by decide) (by decide) (by decide) (by decide) (by decide)
theorem Wk15_main_arg11 (c : Dev nD) : Wk15 m c (Proc.devRef .tc main_arg11) = m ((c : Thread nD τ).loc main_arg11) :=
  Wk15_keep m c main_arg11 (by decide) (by decide) (by decide) (by decide) (by decide) (by decide) (by decide) (by decide)
    (by decide) (by decide) (by decide) (by decide) (by decide) (by decide) (by decide)
theorem Wk15_main_arg12 (c : Dev nD) : Wk15 m c (Proc.devRef .tc main_arg12) = m ((c : Thread nD τ).loc main_arg12) :=
  Wk15_keep m c main_arg12 (by decide) (by decide) (by decide) (by decide) (by decide) (by decide) (by decide) (by decide)
    (by decide) (by decide) (by decide) (by decide) (by decide) (by decide) (by decide)
theorem Wk15_main_arg13 (c : Dev nD) : Wk15 m c (Proc.devRef .tc main_arg13) = m ((c : Thread nD τ).loc main_arg13) :=
  Wk15_keep m c main_arg13 (by decide) (by decide) (by decide) (by decide) (by decide) (by decide) (by decide) (by decide)
    (by decide) (by decide) (by decide) (by decide) (by decide) (by decide) (by decide)
theorem Wk15_main_arg14 (c : Dev nD) : Wk15 m c (Proc.devRef .tc main_arg14) = m ((c : Thread nD τ).loc main_arg14) :=
  Wk15_keep m c main_arg14 (by decide) (by decide) (by decide) (by decide) (by decide) (by decide) (by decide) (by decide)
    (by decide) (by decide) (by decide) (by decide) (by decide) (by decide) (by decide)
theorem Wk15_main_arg15 (c : Dev nD) : Wk15 m c (Proc.devRef .tc main_arg15) = m ((c : Thread nD τ).loc main_arg15) :=
  Wk15_keep m c main_arg15 (by decide) (by decide) (by decide) (by decide) (by decide) (by decide) (by decide) (by decide)
    (by decide) (by decide) (by decide) (by decide) (by decide) (by decide) (by decide)
theorem Wk15_main_arg16 (c : Dev nD) : Wk15 m c (Proc.devRef .tc main_arg16) = m ((c : Thread nD τ).loc main_arg16) :=
  Wk15_keep m c main_arg16 (by decide) (by decide) (by decide) (by decide) (by decide) (by decide) (by decide) (by decide)
    (by decide) (by decide) (by decide) (by decide) (by decide) (by decide) (by decide)
theorem Wk15_main_arg17 (c : Dev nD) : Wk15 m c (Proc.devRef .tc main_arg17) = m ((c : Thread nD τ).loc main_arg17) :=
  Wk15_keep m c main_arg17 (by decide) (by decide) (by decide) (by decide) (by decide) (by decide) (by decide) (by decide)
    (by decide) (by decide) (by decide) (by decide) (by decide) (by decide) (by decide)
theorem Wk15_main_arg18 (c : Dev nD) : Wk15 m c (Proc.devRef .tc main_arg18) = m ((c : Thread nD τ).loc main_arg18) :=
  Wk15_keep m c main_arg18 (by decide) (by decide) (by decide) (by decide) (by decide) (by decide) (by decide) (by decide)
    (by decide) (by decide) (by decide) (by decide) (by decide) (by decide) (by decide)

end Cert.Kernel.Hand
end
-- ==== Proof.KFrames.lean ====
import proofs.«144698_j9466107920964_1_alg».proof.Defs
import proofs.«144698_j9466107920964_1_alg».proof.Proof.Gen.Kernel
import proofs.«144698_j9466107920964_1_alg».proof.Proof.KSegs
import proofs.«144698_j9466107920964_1_alg».proof.Proof.KKept

/-! The kernel's frame: its run ends with every unscoped buffer at the last boundary's contents, and each
    argument's buffer there holds its launch contents. -/

noncomputable section

namespace Cert.Kernel.Hand

open Cert.Kernel Cert.Kernel.Gen
open Idealize.ShloMosaic Idealize.ShloMosaic.TcCoe Idealize.SL.Sem

variable {F : FTy → Type} [FloatOps F]

/-- Every weakly fair execution terminates, nothing faults, and the nineteen argument arrays end as launched. -/
theorem frame_run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_arg0 (by decide))).trans (Wk15_main_arg0 m c),
    (h c _ (mem_uc main_arg1 (by decide))).trans (Wk15_main_arg1 m c),
    (h c _ (mem_uc main_arg2 (by decide))).trans (Wk15_main_arg2 m c),
    (h c _ (mem_uc main_arg3 (by decide))).trans (Wk15_main_arg3 m c),
    (h c _ (mem_uc main_arg4 (by decide))).trans (Wk15_main_arg4 m c),
    (h c _ (mem_uc main_arg5 (by decide))).trans (Wk15_main_arg5 m c),
    (h c _ (mem_uc main_arg6 (by decide))).trans (Wk15_main_arg6 m c),
    (h c _ (mem_uc main_arg7 (by decide))).trans (Wk15_main_arg7 m c),
    (h c _ (mem_uc main_arg8 (by decide))).trans (Wk15_main_arg8 m c),
    (h c _ (mem_uc main_arg9 (by decide))).trans (Wk15_main_arg9 m c),
    (h c _ (mem_uc main_arg10 (by decide))).trans (Wk15_main_arg10 m c),
    (h c _ (mem_uc main_arg11 (by decide))).trans (Wk15_main_arg11 m c),
    (h c _ (mem_uc main_arg12 (by decide))).trans (Wk15_main_arg12 m c),
    (h c _ (mem_uc main_arg13 (by decide))).trans (Wk15_main_arg13 m c),
    (h c _ (mem_uc main_arg14 (by decide))).trans (Wk15_main_arg14 m c),
    (h c _ (mem_uc main_arg15 (by decide))).trans (Wk15_main_arg15 m c),
    (h c _ (mem_uc main_arg16 (by decide))).trans (Wk15_main_arg16 m c),
    (h c _ (mem_uc main_arg17 (by decide))).trans (Wk15_main_arg17 m c),
    (h c _ (mem_uc main_arg18 (by decide))).trans (Wk15_main_arg18 m c)⟩)
    (run_main m ρ)

end Cert.Kernel.Hand

end
-- ==== Proof.RefRun.lean ====
import proofs.«144698_j9466107920964_1_alg».proof.Proof.Gen.ReferenceIdeal
import Idealize.ShloMosaic.Lib.StableHlo.Run
import Idealize.ShloMosaic.Lib.Pipeline.Frame

/-!
# The reference program's run

The reference @main is a straight line of host operations once its outlined functions (the variance, its
select, the two rectifiers) are unfolded at their calls. This module lists those operations in order, shows
@main equal to their sequence, and reads the run back: every execution terminates with the result buffer at a
closed term of the nineteen argument arrays, the arguments unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 229 operations in order, each call's body listed at the call over that call's buffers
    (the variance's select inside the variance). -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst (constant S_ .f32 0x00000000#32),
    StableHlo.unary main_cst main_v11 (broadcastInDim S50000x64 ![] bcast_S_S50000x64 : (⟨S_, .f32⟩ : BufTy).Contents (Elt F) → (⟨S50000x64, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_arg0 main_v13 main_v14 (addf : (⟨S50000x64, .f32⟩ : BufTy).Contents (Elt F) → (⟨S50000x64, .f32⟩ : BufTy).Contents (Elt F) → (⟨S50000x64, .f32⟩ : BufTy).Contents (Elt F)),
    StableHlo.binary main_v14 main_arg3 main_v15 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    StableHlo.unary main_arg4 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S50000x256 ![0, 1] bcast_S1x256_S50000x256_0_1 : (⟨S1x256, .f32⟩ : BufTy).Contents (Elt F) → (⟨S50000x256, .f32⟩ : BufTy).Contents (Elt F)),
    StableHlo.binary main_v15 main_v17 main_v18 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x00000000#32),
    StableHlo.binary main_v18 main_cst_1 main_v19 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v20 (broadcastInDim S256 ![] bcast_S_S256 : (⟨S_, .f32⟩ : BufTy).Contents (Elt F) → (⟨S256, .f32⟩ : BufTy).Contents (Elt F)),
    StableHlo.binary main_v19 main_v20 main_v21 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call0.cst (constant S_ .f32 0x00000000#32),
    StableHlo.TRef.binary (.of main_v18 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v18 : StableHlo.TRef sig ⟨S50000x256, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v21 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S50000x256 ![0, 1] bcast_S1x256_S50000x256_0_1 : (⟨S1x256, .f32⟩ : BufTy).Contents (Elt F) → (⟨S50000x256, .f32⟩ : BufTy).Contents (Elt F)),
    StableHlo.binary main_v18 main_v24 main_v25 (subf : (⟨S50000x256, .f32⟩ : BufTy).Contents (Elt F) → (⟨S50000x256, .f32⟩ : BufTy).Contents (Elt F) → (⟨S50000x256, .f32⟩ : BufTy).Contents (Elt F)),
    StableHlo.unary main_arg5 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S50000x256 ![0, 1] bcast_S1x256_S50000x256_0_1 : (⟨S1x256, .f32⟩ : BufTy).Contents (Elt F) → (⟨S50000x256, .f32⟩ : BufTy).Contents (Elt F)),
    StableHlo.binary main_v27 main_v25 main_v28 (mulf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x3727C5AC#32),
    StableHlo.unary main_cst_4 main_v29 (broadcastInDim S256 ![] bcast_S_S256 : (⟨S_, .f32⟩ : BufTy).Contents (Elt F) → (⟨S256, .f32⟩ : BufTy).Contents (Elt F)),
    StableHlo.binary main_v22 main_v29 main_v30 (addf : (⟨S256, .f32⟩ : BufTy).Contents (Elt F) → (⟨S256, .f32⟩ : BufTy).Contents (Elt F) → (⟨S256, .f32⟩ : BufTy).Contents (Elt F)),
    StableHlo.unary main_v30 main_v31 (Host.rsqrt : (⟨S256, .f32⟩ : BufTy).Contents (Elt F) → (⟨S256, .f32⟩ : BufTy).Contents (Elt F)),
    StableHlo.unary main_v31 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S50000x256 ![0, 1] bcast_S1x256_S50000x256_0_1 : (⟨S1x256, .f32⟩ : BufTy).Contents (Elt F) → (⟨S50000x256, .f32⟩ : BufTy).Contents (Elt F)),
    StableHlo.binary main_v28 main_v33 main_v34 (mulf : (⟨S50000x256, .f32⟩ : BufTy).Contents (Elt F) → (⟨S50000x256, .f32⟩ : BufTy).Contents (Elt F) → (⟨S50000x256, .f32⟩ : BufTy).Contents (Elt F)),
    StableHlo.unary main_arg6 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S50000x256 ![0, 1] bcast_S1x256_S50000x256_0_1 : (⟨S1x256, .f32⟩ : BufTy).Contents (Elt F) → (⟨S50000x256, .f32⟩ : BufTy).Contents (Elt F)),
    StableHlo.binary main_v34 main_v36 main_v37 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v37 : StableHlo.TRef sig ⟨S50000x256, .f32⟩) main_call1.v0 main_call1.v1 maximumf,
    StableHlo.nullary main_c_5 (constantI S_ 32 0#32),
    StableHlo.unary main_c_5 main_v39 (broadcastInDim S800000 ![] bcast_S_S800000 : (⟨S_, .i32⟩ : BufTy).Contents (Elt F) → (⟨S800000, .i32⟩ : BufTy).Contents (Elt F)),
    StableHlo.binary main_v1 main_v39 main_v40 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v41 (broadcastInDim S800000 ![] bcast_S_S800000 : (⟨S_, .i32⟩ : BufTy).Contents (Elt F) → (⟨S800000, .i32⟩ : BufTy).Contents (Elt F)),
    StableHlo.binary main_v1 main_v41 main_v42 (addi : (⟨S800000, .i32⟩ : BufTy).Contents (Elt F) → (⟨S800000, .i32⟩ : BufTy).Contents (Elt F) → (⟨S800000, .i32⟩ : BufTy).Contents (Elt F)),
    StableHlo.ternary main_v40 main_v42 main_v1 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v43 main_v44 (broadcastInDim S800000x1 ![0] bcast_S800000_S800000x1_0 : (⟨S800000, .i32⟩ : BufTy).Contents (Elt F) → (⟨S800000x1, .i32⟩ : BufTy).Contents (Elt F)),
    StableHlo.binary main_v38 main_v44 main_v45 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_7 (constant S_ .f32 0x00000000#32),
    StableHlo.unary main_cst_7 main_v46 (broadcastInDim S50000x256 ![] bcast_S_S50000x256 : (⟨S_, .f32⟩ : BufTy).Contents (Elt F) → (⟨S50000x256, .f32⟩ : BufTy).Contents (Elt F)),
    StableHlo.unary main_v3 main_v47 (broadcastInDim S800000x1 ![0] bcast_S800000_S800000x1_0 : (⟨S800000, .i32⟩ : BufTy).Contents (Elt F) → (⟨S800000x1, .i32⟩ : BufTy).Contents (Elt F)),
    StableHlo.ternary main_v46 main_v47 main_v45 main_v48 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v38 main_v48 main_v49 (addf : (⟨S50000x256, .f32⟩ : BufTy).Contents (Elt F) → (⟨S50000x256, .f32⟩ : BufTy).Contents (Elt F) → (⟨S50000x256, .f32⟩ : BufTy).Contents (Elt F)),
    StableHlo.binary main_v49 main_arg7 main_v50 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v51 (broadcastInDim S1x256 ![1] bcast_S256_S1x256_1 : (⟨S256, .f32⟩ : BufTy).Contents (Elt F) → (⟨S1x256, .f32⟩ : BufTy).Contents (Elt F)),
    StableHlo.unary main_v51 main_v52 (broadcastInDim S50000x256 ![0, 1] bcast_S1x256_S50000x256_0_1 : (⟨S1x256, .f32⟩ : BufTy).Contents (Elt F) → (⟨S50000x256, .f32⟩ : BufTy).Contents (Elt F)),
    StableHlo.binary main_v50 main_v52 main_v53 (addf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x00000000#32),
    StableHlo.binary main_v53 main_cst_8 main_v54 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_9 (constant S_ .f32 0x47435000#32),
    StableHlo.unary main_cst_9 main_v55 (broadcastInDim S256 ![] bcast_S_S256 : (⟨S_, .f32⟩ : BufTy).Contents (Elt F) → (⟨S256, .f32⟩ : BufTy).Contents (Elt F)),
    StableHlo.binary main_v54 main_v55 main_v56 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32),
    StableHlo.TRef.nullary main_call2.cst (constant S_ .f32 0x00000000#32),
    StableHlo.TRef.binary (.of main_v53 : StableHlo.TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v53 : StableHlo.TRef sig ⟨S50000x256, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v56 main_v58 (broadcastInDim S1x256 ![1] bcast_S256_S1x256_1 : (⟨S256, .f32⟩ : BufTy).Contents (Elt F) → (⟨S1x256, .f32⟩ : BufTy).Contents (Elt F)),
    StableHlo.unary main_v58 main_v59 (broadcastInDim S50000x256 ![0, 1] bcast_S1x256_S50000x256_0_1 : (⟨S1x256, .f32⟩ : BufTy).Contents (Elt F) → (⟨S50000x256, .f32⟩ : BufTy).Contents (Elt F)),
    StableHlo.binary main_v53 main_v59 main_v60 (subf : (⟨S50000x256, .f32⟩ : BufTy).Contents (Elt F) → (⟨S50000x256, .f32⟩ : BufTy).Contents (Elt F) → (⟨S50000x256, .f32⟩ : BufTy).Contents (Elt F)),
    StableHlo.unary main_arg9 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S50000x256 ![0, 1] bcast_S1x256_S50000x256_0_1 : (⟨S1x256, .f32⟩ : BufTy).Contents (Elt F) → (⟨S50000x256, .f32⟩ : BufTy).Contents (Elt F)),
    StableHlo.binary main_v62 main_v60 main_v63 (mulf : (⟨S50000x256, .f32⟩ : BufTy).Contents (Elt F) → (⟨S50000x256, .f32⟩ : BufTy).Contents (Elt F) → (⟨S50000x256, .f32⟩ : BufTy).Contents (Elt F)),
    StableHlo.nullary main_cst_11 (constant S_ .f32 0x3727C5AC#32),
    StableHlo.unary main_cst_11 main_v64 (broadcastInDim S256 ![] bcast_S_S256 : (⟨S_, .f32⟩ : BufTy).Contents (Elt F) → (⟨S256, .f32⟩ : BufTy).Contents (Elt F)),
    StableHlo.binary main_v57 main_v64 main_v65 (addf : (⟨S256, .f32⟩ : BufTy).Contents (Elt F) → (⟨S256, .f32⟩ : BufTy).Contents (Elt F) → (⟨S256, .f32⟩ : BufTy).Contents (Elt F)),
    StableHlo.unary main_v65 main_v66 (Host.rsqrt : (⟨S256, .f32⟩ : BufTy).Contents (Elt F) → (⟨S256, .f32⟩ : BufTy).Contents (Elt F)),
    StableHlo.unary main_v66 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S50000x256 ![0, 1] bcast_S1x256_S50000x256_0_1 : (⟨S1x256, .f32⟩ : BufTy).Contents (Elt F) → (⟨S50000x256, .f32⟩ : BufTy).Contents (Elt F)),
    StableHlo.binary main_v63 main_v68 main_v69 (mulf : (⟨S50000x256, .f32⟩ : BufTy).Contents (Elt F) → (⟨S50000x256, .f32⟩ : BufTy).Contents (Elt F) → (⟨S50000x256, .f32⟩ : BufTy).Contents (Elt F)),
    StableHlo.unary main_arg10 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S50000x256 ![0, 1] bcast_S1x256_S50000x256_0_1 : (⟨S1x256, .f32⟩ : BufTy).Contents (Elt F) → (⟨S50000x256, .f32⟩ : BufTy).Contents (Elt F)),
    StableHlo.binary main_v69 main_v71 main_v72 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v72 : StableHlo.TRef sig ⟨S50000x256, .f32⟩) main_call3.v0 main_call3.v1 maximumf,
    StableHlo.nullary main_c_12 (constantI S_ 32 0#32),
    StableHlo.unary main_c_12 main_v74 (broadcastInDim S800000 ![] bcast_S_S800000 : (⟨S_, .i32⟩ : BufTy).Contents (Elt F) → (⟨S800000, .i32⟩ : BufTy).Contents (Elt F)),
    StableHlo.binary main_v1 main_v74 main_v75 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v76 (broadcastInDim S800000 ![] bcast_S_S800000 : (⟨S_, .i32⟩ : BufTy).Contents (Elt F) → (⟨S800000, .i32⟩ : BufTy).Contents (Elt F)),
    StableHlo.binary main_v1 main_v76 main_v77 (addi : (⟨S800000, .i32⟩ : BufTy).Contents (Elt F) → (⟨S800000, .i32⟩ : BufTy).Contents (Elt F) → (⟨S800000, .i32⟩ : BufTy).Contents (Elt F)),
    StableHlo.ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v78 main_v79 (broadcastInDim S800000x1 ![0] bcast_S800000_S800000x1_0 : (⟨S800000, .i32⟩ : BufTy).Contents (Elt F) → (⟨S800000x1, .i32⟩ : BufTy).Contents (Elt F)),
    StableHlo.binary main_v73 main_v79 main_v80 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_14 (constant S_ .f32 0x00000000#32),
    StableHlo.unary main_cst_14 main_v81 (broadcastInDim S50000x256 ![] bcast_S_S50000x256 : (⟨S_, .f32⟩ : BufTy).Contents (Elt F) → (⟨S50000x256, .f32⟩ : BufTy).Contents (Elt F)),
    StableHlo.unary main_v3 main_v82 (broadcastInDim S800000x1 ![0] bcast_S800000_S800000x1_0 : (⟨S800000, .i32⟩ : BufTy).Contents (Elt F) → (⟨S800000x1, .i32⟩ : BufTy).Contents (Elt F)),
    StableHlo.ternary main_v81 main_v82 main_v80 main_v83 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v73 main_v83 main_v84 (addf : (⟨S50000x256, .f32⟩ : BufTy).Contents (Elt F) → (⟨S50000x256, .f32⟩ : BufTy).Contents (Elt F) → (⟨S50000x256, .f32⟩ : BufTy).Contents (Elt F)),
    StableHlo.binary main_v84 main_arg11 main_v85 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg12 main_v86 (broadcastInDim S1x256 ![1] bcast_S256_S1x256_1 : (⟨S256, .f32⟩ : BufTy).Contents (Elt F) → (⟨S1x256, .f32⟩ : BufTy).Contents (Elt F)),
    StableHlo.unary main_v86 main_v87 (broadcastInDim S50000x256 ![0, 1] bcast_S1x256_S50000x256_0_1 : (⟨S1x256, .f32⟩ : BufTy).Contents (Elt F) → (⟨S50000x256, .f32⟩ : BufTy).Contents (Elt F)),
    StableHlo.binary main_v85 main_v87 main_v88 (addf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x00000000#32),
    StableHlo.binary main_v88 main_cst_15 main_v89 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_16 (constant S_ .f32 0x47435000#32),
    StableHlo.unary main_cst_16 main_v90 (broadcastInDim S256 ![] bcast_S_S256 : (⟨S_, .f32⟩ : BufTy).Contents (Elt F) → (⟨S256, .f32⟩ : BufTy).Contents (Elt F)),
    StableHlo.binary main_v89 main_v90 main_v91 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32),
    StableHlo.TRef.nullary main_call4.cst (constant S_ .f32 0x00000000#32),
    StableHlo.TRef.binary (.of main_v88 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v88 : StableHlo.TRef sig ⟨S50000x256, .f32⟩) main_call4.v4 main_call4.v5 subf,
    StableHlo.TRef.binary main_call4.v5 main_call4.v5 main_call4.v6 mulf,
    StableHlo.TRef.unary (.of main_c_17 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v91 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S50000x256 ![0, 1] bcast_S1x256_S50000x256_0_1 : (⟨S1x256, .f32⟩ : BufTy).Contents (Elt F) → (⟨S50000x256, .f32⟩ : BufTy).Contents (Elt F)),
    StableHlo.binary main_v88 main_v94 main_v95 (subf : (⟨S50000x256, .f32⟩ : BufTy).Contents (Elt F) → (⟨S50000x256, .f32⟩ : BufTy).Contents (Elt F) → (⟨S50000x256, .f32⟩ : BufTy).Contents (Elt F)),
    StableHlo.unary main_arg13 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S50000x256 ![0, 1] bcast_S1x256_S50000x256_0_1 : (⟨S1x256, .f32⟩ : BufTy).Contents (Elt F) → (⟨S50000x256, .f32⟩ : BufTy).Contents (Elt F)),
    StableHlo.binary main_v97 main_v95 main_v98 (mulf : (⟨S50000x256, .f32⟩ : BufTy).Contents (Elt F) → (⟨S50000x256, .f32⟩ : BufTy).Contents (Elt F) → (⟨S50000x256, .f32⟩ : BufTy).Contents (Elt F)),
    StableHlo.nullary main_cst_18 (constant S_ .f32 0x3727C5AC#32),
    StableHlo.unary main_cst_18 main_v99 (broadcastInDim S256 ![] bcast_S_S256 : (⟨S_, .f32⟩ : BufTy).Contents (Elt F) → (⟨S256, .f32⟩ : BufTy).Contents (Elt F)),
    StableHlo.binary main_v92 main_v99 main_v100 (addf : (⟨S256, .f32⟩ : BufTy).Contents (Elt F) → (⟨S256, .f32⟩ : BufTy).Contents (Elt F) → (⟨S256, .f32⟩ : BufTy).Contents (Elt F)),
    StableHlo.unary main_v100 main_v101 (Host.rsqrt : (⟨S256, .f32⟩ : BufTy).Contents (Elt F) → (⟨S256, .f32⟩ : BufTy).Contents (Elt F)),
    StableHlo.unary main_v101 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S50000x256 ![0, 1] bcast_S1x256_S50000x256_0_1 : (⟨S1x256, .f32⟩ : BufTy).Contents (Elt F) → (⟨S50000x256, .f32⟩ : BufTy).Contents (Elt F)),
    StableHlo.binary main_v98 main_v103 main_v104 (mulf : (⟨S50000x256, .f32⟩ : BufTy).Contents (Elt F) → (⟨S50000x256, .f32⟩ : BufTy).Contents (Elt F) → (⟨S50000x256, .f32⟩ : BufTy).Contents (Elt F)),
    StableHlo.unary main_arg14 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S50000x256 ![0, 1] bcast_S1x256_S50000x256_0_1 : (⟨S1x256, .f32⟩ : BufTy).Contents (Elt F) → (⟨S50000x256, .f32⟩ : BufTy).Contents (Elt F)),
    StableHlo.binary main_v104 main_v106 main_v107 (addf : (⟨S50000x256, .f32⟩ : BufTy).Contents (Elt F) → (⟨S50000x256, .f32⟩ : BufTy).Contents (Elt F) → (⟨S50000x256, .f32⟩ : BufTy).Contents (Elt F)),
    StableHlo.binary main_v107 main_arg15 main_v108 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg16 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v108 main_v110 main_v111 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v111 : StableHlo.TRef sig ⟨S50000x128, .f32⟩) main_call5.v0 main_call5.v1 maximumf,
    StableHlo.binary main_v112 main_arg17 main_v113 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg18 main_v114 (broadcastInDim S1x1 ![1] bcast_S1_S1x1_1 : (⟨S1, .f32⟩ : BufTy).Contents (Elt F) → (⟨S1x1, .f32⟩ : BufTy).Contents (Elt F)),
    StableHlo.unary main_v114 main_v115 (broadcastInDim S50000x1 ![0, 1] bcast_S1x1_S50000x1_0_1 : (⟨S1x1, .f32⟩ : BufTy).Contents (Elt F) → (⟨S50000x1, .f32⟩ : BufTy).Contents (Elt F)),
    StableHlo.binary main_v113 main_v115 main_v116 (addf : (⟨S50000x1, .f32⟩ : BufTy).Contents (Elt F) → (⟨S50000x1, .f32⟩ : BufTy).Contents (Elt F) → (⟨S50000x1, .f32⟩ : BufTy).Contents (Elt F)),
    StableHlo.unary main_v116 main_v117 (Host.negf : (⟨S50000x1, .f32⟩ : BufTy).Contents (Elt F) → (⟨S50000x1, .f32⟩ : BufTy).Contents (Elt F)),
    StableHlo.unary main_v117 main_v118 (Host.exp : (⟨S50000x1, .f32⟩ : BufTy).Contents (Elt F) → (⟨S50000x1, .f32⟩ : BufTy).Contents (Elt F)),
    StableHlo.nullary main_cst_19 (constant S_ .f32 0x3F800000#32),
    StableHlo.unary main_cst_19 main_v119 (broadcastInDim S50000x1 ![] bcast_S_S50000x1 : (⟨S_, .f32⟩ : BufTy).Contents (Elt F) → (⟨S50000x1, .f32⟩ : BufTy).Contents (Elt F)),
    StableHlo.binary main_v119 main_v118 main_v120 (addf : (⟨S50000x1, .f32⟩ : BufTy).Contents (Elt F) → (⟨S50000x1, .f32⟩ : BufTy).Contents (Elt F) → (⟨S50000x1, .f32⟩ : BufTy).Contents (Elt F)),
    StableHlo.nullary main_cst_20 (constant S_ .f32 0x3F800000#32),
    StableHlo.unary main_cst_20 main_v121 (broadcastInDim S50000x1 ![] bcast_S_S50000x1 : (⟨S_, .f32⟩ : BufTy).Contents (Elt F) → (⟨S50000x1, .f32⟩ : BufTy).Contents (Elt F)),
    StableHlo.binary main_v121 main_v120 main_v122 (Host.divf : (⟨S50000x1, .f32⟩ : BufTy).Contents (Elt F) → (⟨S50000x1, .f32⟩ : BufTy).Contents (Elt F) → (⟨S50000x1, .f32⟩ : BufTy).Contents (Elt F)),
    StableHlo.nullary main_cst_21 (constant S_ .f32 0x00000000#32),
    StableHlo.unary main_cst_21 main_v123 (broadcastInDim S64x1 ![] bcast_S_S64x1 : (⟨S_, .f32⟩ : BufTy).Contents (Elt F) → (⟨S64x1, .f32⟩ : BufTy).Contents (Elt F)),
    StableHlo.unary main_arg2 main_v124 (broadcastInDim S50000x1 ![0] bcast_S50000_S50000x1_0 : (⟨S50000, .i32⟩ : BufTy).Contents (Elt F) → (⟨S50000x1, .i32⟩ : BufTy).Contents (Elt F)),
    StableHlo.ternary main_v123 main_v124 main_v122 main_v125 ((fun x i u => Host.scatterAdd scatter_S64x1_S50000x1_S50000x1_1_0_0_1 x i u) : (⟨S64x1, .f32⟩ : BufTy).Contents (Elt F) → (⟨S50000x1, .i32⟩ : BufTy).Contents (Elt F) → (⟨S50000x1, .f32⟩ : BufTy).Contents (Elt F) → (⟨S64x1, .f32⟩ : BufTy).Contents (Elt F)),
    StableHlo.nullary main_cst_22 (constant S_ .f32 0x3F800000#32),
    StableHlo.unary main_cst_22 main_v126 (broadcastInDim S50000x1 ![] bcast_S_S50000x1 : (⟨S_, .f32⟩ : BufTy).Contents (Elt F) → (⟨S50000x1, .f32⟩ : BufTy).Contents (Elt F)),
    StableHlo.nullary main_cst_23 (constant S_ .f32 0x00000000#32),
    StableHlo.unary main_cst_23 main_v127 (broadcastInDim S64x1 ![] bcast_S_S64x1 : (⟨S_, .f32⟩ : BufTy).Contents (Elt F) → (⟨S64x1, .f32⟩ : BufTy).Contents (Elt F)),
    StableHlo.unary main_arg2 main_v128 (broadcastInDim S50000x1 ![0] bcast_S50000_S50000x1_0 : (⟨S50000, .i32⟩ : BufTy).Contents (Elt F) → (⟨S50000x1, .i32⟩ : BufTy).Contents (Elt F)),
    StableHlo.ternary main_v127 main_v128 main_v126 main_v129 ((fun x i u => Host.scatterAdd scatter_S64x1_S50000x1_S50000x1_1_0_0_1 x i u) : (⟨S64x1, .f32⟩ : BufTy).Contents (Elt F) → (⟨S50000x1, .i32⟩ : BufTy).Contents (Elt F) → (⟨S50000x1, .f32⟩ : BufTy).Contents (Elt F) → (⟨S64x1, .f32⟩ : BufTy).Contents (Elt F)),
    StableHlo.nullary main_cst_24 (constant S_ .f32 0x3F800000#32),
    StableHlo.unary main_cst_24 main_v130 (broadcastInDim S64x1 ![] bcast_S_S64x1 : (⟨S_, .f32⟩ : BufTy).Contents (Elt F) → (⟨S64x1, .f32⟩ : BufTy).Contents (Elt F)),
    StableHlo.binary main_v129 main_v130 main_v131 (maximumf : (⟨S64x1, .f32⟩ : BufTy).Contents (Elt F) → (⟨S64x1, .f32⟩ : BufTy).Contents (Elt F) → (⟨S64x1, .f32⟩ : BufTy).Contents (Elt F)),
    StableHlo.binary main_v125 main_v131 main_v132 (Host.divf : (⟨S64x1, .f32⟩ : BufTy).Contents (Elt F) → (⟨S64x1, .f32⟩ : BufTy).Contents (Elt F) → (⟨S64x1, .f32⟩ : BufTy).Contents (Elt F)) ]

-- one bind per statement to re-associate: the rewrite under the chain recurses once per statement
set_option maxRecDepth 8192 in
set_option maxHeartbeats 4000000 in
/-- @main is that straight line: the three windows and the functions unfolded at their calls, both sides are one
    chain of host steps once sequencing is re-associated. -/
theorem main_eq (c : Dev nD) : main (F := F) c = seq ops := by
  simp only [main, main_part0, main_part1, main_part2, fn_var.body, fn_where.body, fn_relu.body, fn_relu_0.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    binary_bufs_sub ..⟩

/-! ## The line, window by window -/

/-- The two rows of the edge list, each as a vector of node indices. -/
def opsP0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

/-- The first layer: neighbour sum, linear map, batch normalisation, rectifier. -/
def opsL1 : List (HloOp τ sig (Elt F)) :=
  [ StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst (constant S_ .f32 0x00000000#32),
    StableHlo.unary main_cst main_v11 (broadcastInDim S50000x64 ![] bcast_S_S50000x64 : (⟨S_, .f32⟩ : BufTy).Contents (Elt F) → (⟨S50000x64, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_arg0 main_v13 main_v14 (addf : (⟨S50000x64, .f32⟩ : BufTy).Contents (Elt F) → (⟨S50000x64, .f32⟩ : BufTy).Contents (Elt F) → (⟨S50000x64, .f32⟩ : BufTy).Contents (Elt F)),
    StableHlo.binary main_v14 main_arg3 main_v15 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    StableHlo.unary main_arg4 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S50000x256 ![0, 1] bcast_S1x256_S50000x256_0_1 : (⟨S1x256, .f32⟩ : BufTy).Contents (Elt F) → (⟨S50000x256, .f32⟩ : BufTy).Contents (Elt F)),
    StableHlo.binary main_v15 main_v17 main_v18 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x00000000#32),
    StableHlo.binary main_v18 main_cst_1 main_v19 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v20 (broadcastInDim S256 ![] bcast_S_S256 : (⟨S_, .f32⟩ : BufTy).Contents (Elt F) → (⟨S256, .f32⟩ : BufTy).Contents (Elt F)),
    StableHlo.binary main_v19 main_v20 main_v21 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call0.cst (constant S_ .f32 0x00000000#32),
    StableHlo.TRef.binary (.of main_v18 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v18 : StableHlo.TRef sig ⟨S50000x256, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v21 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S50000x256 ![0, 1] bcast_S1x256_S50000x256_0_1 : (⟨S1x256, .f32⟩ : BufTy).Contents (Elt F) → (⟨S50000x256, .f32⟩ : BufTy).Contents (Elt F)),
    StableHlo.binary main_v18 main_v24 main_v25 (subf : (⟨S50000x256, .f32⟩ : BufTy).Contents (Elt F) → (⟨S50000x256, .f32⟩ : BufTy).Contents (Elt F) → (⟨S50000x256, .f32⟩ : BufTy).Contents (Elt F)),
    StableHlo.unary main_arg5 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S50000x256 ![0, 1] bcast_S1x256_S50000x256_0_1 : (⟨S1x256, .f32⟩ : BufTy).Contents (Elt F) → (⟨S50000x256, .f32⟩ : BufTy).Contents (Elt F)),
    StableHlo.binary main_v27 main_v25 main_v28 (mulf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x3727C5AC#32),
    StableHlo.unary main_cst_4 main_v29 (broadcastInDim S256 ![] bcast_S_S256 : (⟨S_, .f32⟩ : BufTy).Contents (Elt F) → (⟨S256, .f32⟩ : BufTy).Contents (Elt F)),
    StableHlo.binary main_v22 main_v29 main_v30 (addf : (⟨S256, .f32⟩ : BufTy).Contents (Elt F) → (⟨S256, .f32⟩ : BufTy).Contents (Elt F) → (⟨S256, .f32⟩ : BufTy).Contents (Elt F)),
    StableHlo.unary main_v30 main_v31 (Host.rsqrt : (⟨S256, .f32⟩ : BufTy).Contents (Elt F) → (⟨S256, .f32⟩ : BufTy).Contents (Elt F)),
    StableHlo.unary main_v31 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S50000x256 ![0, 1] bcast_S1x256_S50000x256_0_1 : (⟨S1x256, .f32⟩ : BufTy).Contents (Elt F) → (⟨S50000x256, .f32⟩ : BufTy).Contents (Elt F)),
    StableHlo.binary main_v28 main_v33 main_v34 (mulf : (⟨S50000x256, .f32⟩ : BufTy).Contents (Elt F) → (⟨S50000x256, .f32⟩ : BufTy).Contents (Elt F) → (⟨S50000x256, .f32⟩ : BufTy).Contents (Elt F)),
    StableHlo.unary main_arg6 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S50000x256 ![0, 1] bcast_S1x256_S50000x256_0_1 : (⟨S1x256, .f32⟩ : BufTy).Contents (Elt F) → (⟨S50000x256, .f32⟩ : BufTy).Contents (Elt F)),
    StableHlo.binary main_v34 main_v36 main_v37 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v37 : StableHlo.TRef sig ⟨S50000x256, .f32⟩) main_call1.v0 main_call1.v1 maximumf ]

/-- The second layer, the same over 256 features. -/
def opsL2 : List (HloOp τ sig (Elt F)) :=
  [ StableHlo.nullary main_c_5 (constantI S_ 32 0#32),
    StableHlo.unary main_c_5 main_v39 (broadcastInDim S800000 ![] bcast_S_S800000 : (⟨S_, .i32⟩ : BufTy).Contents (Elt F) → (⟨S800000, .i32⟩ : BufTy).Contents (Elt F)),
    StableHlo.binary main_v1 main_v39 main_v40 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v41 (broadcastInDim S800000 ![] bcast_S_S800000 : (⟨S_, .i32⟩ : BufTy).Contents (Elt F) → (⟨S800000, .i32⟩ : BufTy).Contents (Elt F)),
    StableHlo.binary main_v1 main_v41 main_v42 (addi : (⟨S800000, .i32⟩ : BufTy).Contents (Elt F) → (⟨S800000, .i32⟩ : BufTy).Contents (Elt F) → (⟨S800000, .i32⟩ : BufTy).Contents (Elt F)),
    StableHlo.ternary main_v40 main_v42 main_v1 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v43 main_v44 (broadcastInDim S800000x1 ![0] bcast_S800000_S800000x1_0 : (⟨S800000, .i32⟩ : BufTy).Contents (Elt F) → (⟨S800000x1, .i32⟩ : BufTy).Contents (Elt F)),
    StableHlo.binary main_v38 main_v44 main_v45 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_7 (constant S_ .f32 0x00000000#32),
    StableHlo.unary main_cst_7 main_v46 (broadcastInDim S50000x256 ![] bcast_S_S50000x256 : (⟨S_, .f32⟩ : BufTy).Contents (Elt F) → (⟨S50000x256, .f32⟩ : BufTy).Contents (Elt F)),
    StableHlo.unary main_v3 main_v47 (broadcastInDim S800000x1 ![0] bcast_S800000_S800000x1_0 : (⟨S800000, .i32⟩ : BufTy).Contents (Elt F) → (⟨S800000x1, .i32⟩ : BufTy).Contents (Elt F)),
    StableHlo.ternary main_v46 main_v47 main_v45 main_v48 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v38 main_v48 main_v49 (addf : (⟨S50000x256, .f32⟩ : BufTy).Contents (Elt F) → (⟨S50000x256, .f32⟩ : BufTy).Contents (Elt F) → (⟨S50000x256, .f32⟩ : BufTy).Contents (Elt F)),
    StableHlo.binary main_v49 main_arg7 main_v50 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v51 (broadcastInDim S1x256 ![1] bcast_S256_S1x256_1 : (⟨S256, .f32⟩ : BufTy).Contents (Elt F) → (⟨S1x256, .f32⟩ : BufTy).Contents (Elt F)),
    StableHlo.unary main_v51 main_v52 (broadcastInDim S50000x256 ![0, 1] bcast_S1x256_S50000x256_0_1 : (⟨S1x256, .f32⟩ : BufTy).Contents (Elt F) → (⟨S50000x256, .f32⟩ : BufTy).Contents (Elt F)),
    StableHlo.binary main_v50 main_v52 main_v53 (addf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x00000000#32),
    StableHlo.binary main_v53 main_cst_8 main_v54 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_9 (constant S_ .f32 0x47435000#32),
    StableHlo.unary main_cst_9 main_v55 (broadcastInDim S256 ![] bcast_S_S256 : (⟨S_, .f32⟩ : BufTy).Contents (Elt F) → (⟨S256, .f32⟩ : BufTy).Contents (Elt F)),
    StableHlo.binary main_v54 main_v55 main_v56 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32),
    StableHlo.TRef.nullary main_call2.cst (constant S_ .f32 0x00000000#32),
    StableHlo.TRef.binary (.of main_v53 : StableHlo.TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v53 : StableHlo.TRef sig ⟨S50000x256, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v56 main_v58 (broadcastInDim S1x256 ![1] bcast_S256_S1x256_1 : (⟨S256, .f32⟩ : BufTy).Contents (Elt F) → (⟨S1x256, .f32⟩ : BufTy).Contents (Elt F)),
    StableHlo.unary main_v58 main_v59 (broadcastInDim S50000x256 ![0, 1] bcast_S1x256_S50000x256_0_1 : (⟨S1x256, .f32⟩ : BufTy).Contents (Elt F) → (⟨S50000x256, .f32⟩ : BufTy).Contents (Elt F)),
    StableHlo.binary main_v53 main_v59 main_v60 (subf : (⟨S50000x256, .f32⟩ : BufTy).Contents (Elt F) → (⟨S50000x256, .f32⟩ : BufTy).Contents (Elt F) → (⟨S50000x256, .f32⟩ : BufTy).Contents (Elt F)),
    StableHlo.unary main_arg9 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S50000x256 ![0, 1] bcast_S1x256_S50000x256_0_1 : (⟨S1x256, .f32⟩ : BufTy).Contents (Elt F) → (⟨S50000x256, .f32⟩ : BufTy).Contents (Elt F)),
    StableHlo.binary main_v62 main_v60 main_v63 (mulf : (⟨S50000x256, .f32⟩ : BufTy).Contents (Elt F) → (⟨S50000x256, .f32⟩ : BufTy).Contents (Elt F) → (⟨S50000x256, .f32⟩ : BufTy).Contents (Elt F)),
    StableHlo.nullary main_cst_11 (constant S_ .f32 0x3727C5AC#32),
    StableHlo.unary main_cst_11 main_v64 (broadcastInDim S256 ![] bcast_S_S256 : (⟨S_, .f32⟩ : BufTy).Contents (Elt F) → (⟨S256, .f32⟩ : BufTy).Contents (Elt F)),
    StableHlo.binary main_v57 main_v64 main_v65 (addf : (⟨S256, .f32⟩ : BufTy).Contents (Elt F) → (⟨S256, .f32⟩ : BufTy).Contents (Elt F) → (⟨S256, .f32⟩ : BufTy).Contents (Elt F)),
    StableHlo.unary main_v65 main_v66 (Host.rsqrt : (⟨S256, .f32⟩ : BufTy).Contents (Elt F) → (⟨S256, .f32⟩ : BufTy).Contents (Elt F)),
    StableHlo.unary main_v66 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S50000x256 ![0, 1] bcast_S1x256_S50000x256_0_1 : (⟨S1x256, .f32⟩ : BufTy).Contents (Elt F) → (⟨S50000x256, .f32⟩ : BufTy).Contents (Elt F)),
    StableHlo.binary main_v63 main_v68 main_v69 (mulf : (⟨S50000x256, .f32⟩ : BufTy).Contents (Elt F) → (⟨S50000x256, .f32⟩ : BufTy).Contents (Elt F) → (⟨S50000x256, .f32⟩ : BufTy).Contents (Elt F)),
    StableHlo.unary main_arg10 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S50000x256 ![0, 1] bcast_S1x256_S50000x256_0_1 : (⟨S1x256, .f32⟩ : BufTy).Contents (Elt F) → (⟨S50000x256, .f32⟩ : BufTy).Contents (Elt F)),
    StableHlo.binary main_v69 main_v71 main_v72 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v72 : StableHlo.TRef sig ⟨S50000x256, .f32⟩) main_call3.v0 main_call3.v1 maximumf ]

/-- The third layer, without the rectifier. -/
def opsL3 : List (HloOp τ sig (Elt F)) :=
  [ StableHlo.nullary main_c_12 (constantI S_ 32 0#32),
    StableHlo.unary main_c_12 main_v74 (broadcastInDim S800000 ![] bcast_S_S800000 : (⟨S_, .i32⟩ : BufTy).Contents (Elt F) → (⟨S800000, .i32⟩ : BufTy).Contents (Elt F)),
    StableHlo.binary main_v1 main_v74 main_v75 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v76 (broadcastInDim S800000 ![] bcast_S_S800000 : (⟨S_, .i32⟩ : BufTy).Contents (Elt F) → (⟨S800000, .i32⟩ : BufTy).Contents (Elt F)),
    StableHlo.binary main_v1 main_v76 main_v77 (addi : (⟨S800000, .i32⟩ : BufTy).Contents (Elt F) → (⟨S800000, .i32⟩ : BufTy).Contents (Elt F) → (⟨S800000, .i32⟩ : BufTy).Contents (Elt F)),
    StableHlo.ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v78 main_v79 (broadcastInDim S800000x1 ![0] bcast_S800000_S800000x1_0 : (⟨S800000, .i32⟩ : BufTy).Contents (Elt F) → (⟨S800000x1, .i32⟩ : BufTy).Contents (Elt F)),
    StableHlo.binary main_v73 main_v79 main_v80 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_14 (constant S_ .f32 0x00000000#32),
    StableHlo.unary main_cst_14 main_v81 (broadcastInDim S50000x256 ![] bcast_S_S50000x256 : (⟨S_, .f32⟩ : BufTy).Contents (Elt F) → (⟨S50000x256, .f32⟩ : BufTy).Contents (Elt F)),
    StableHlo.unary main_v3 main_v82 (broadcastInDim S800000x1 ![0] bcast_S800000_S800000x1_0 : (⟨S800000, .i32⟩ : BufTy).Contents (Elt F) → (⟨S800000x1, .i32⟩ : BufTy).Contents (Elt F)),
    StableHlo.ternary main_v81 main_v82 main_v80 main_v83 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v73 main_v83 main_v84 (addf : (⟨S50000x256, .f32⟩ : BufTy).Contents (Elt F) → (⟨S50000x256, .f32⟩ : BufTy).Contents (Elt F) → (⟨S50000x256, .f32⟩ : BufTy).Contents (Elt F)),
    StableHlo.binary main_v84 main_arg11 main_v85 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg12 main_v86 (broadcastInDim S1x256 ![1] bcast_S256_S1x256_1 : (⟨S256, .f32⟩ : BufTy).Contents (Elt F) → (⟨S1x256, .f32⟩ : BufTy).Contents (Elt F)),
    StableHlo.unary main_v86 main_v87 (broadcastInDim S50000x256 ![0, 1] bcast_S1x256_S50000x256_0_1 : (⟨S1x256, .f32⟩ : BufTy).Contents (Elt F) → (⟨S50000x256, .f32⟩ : BufTy).Contents (Elt F)),
    StableHlo.binary main_v85 main_v87 main_v88 (addf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x00000000#32),
    StableHlo.binary main_v88 main_cst_15 main_v89 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_16 (constant S_ .f32 0x47435000#32),
    StableHlo.unary main_cst_16 main_v90 (broadcastInDim S256 ![] bcast_S_S256 : (⟨S_, .f32⟩ : BufTy).Contents (Elt F) → (⟨S256, .f32⟩ : BufTy).Contents (Elt F)),
    StableHlo.binary main_v89 main_v90 main_v91 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32),
    StableHlo.TRef.nullary main_call4.cst (constant S_ .f32 0x00000000#32),
    StableHlo.TRef.binary (.of main_v88 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v88 : StableHlo.TRef sig ⟨S50000x256, .f32⟩) main_call4.v4 main_call4.v5 subf,
    StableHlo.TRef.binary main_call4.v5 main_call4.v5 main_call4.v6 mulf,
    StableHlo.TRef.unary (.of main_c_17 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v91 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S50000x256 ![0, 1] bcast_S1x256_S50000x256_0_1 : (⟨S1x256, .f32⟩ : BufTy).Contents (Elt F) → (⟨S50000x256, .f32⟩ : BufTy).Contents (Elt F)),
    StableHlo.binary main_v88 main_v94 main_v95 (subf : (⟨S50000x256, .f32⟩ : BufTy).Contents (Elt F) → (⟨S50000x256, .f32⟩ : BufTy).Contents (Elt F) → (⟨S50000x256, .f32⟩ : BufTy).Contents (Elt F)),
    StableHlo.unary main_arg13 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S50000x256 ![0, 1] bcast_S1x256_S50000x256_0_1 : (⟨S1x256, .f32⟩ : BufTy).Contents (Elt F) → (⟨S50000x256, .f32⟩ : BufTy).Contents (Elt F)),
    StableHlo.binary main_v97 main_v95 main_v98 (mulf : (⟨S50000x256, .f32⟩ : BufTy).Contents (Elt F) → (⟨S50000x256, .f32⟩ : BufTy).Contents (Elt F) → (⟨S50000x256, .f32⟩ : BufTy).Contents (Elt F)),
    StableHlo.nullary main_cst_18 (constant S_ .f32 0x3727C5AC#32),
    StableHlo.unary main_cst_18 main_v99 (broadcastInDim S256 ![] bcast_S_S256 : (⟨S_, .f32⟩ : BufTy).Contents (Elt F) → (⟨S256, .f32⟩ : BufTy).Contents (Elt F)),
    StableHlo.binary main_v92 main_v99 main_v100 (addf : (⟨S256, .f32⟩ : BufTy).Contents (Elt F) → (⟨S256, .f32⟩ : BufTy).Contents (Elt F) → (⟨S256, .f32⟩ : BufTy).Contents (Elt F)),
    StableHlo.unary main_v100 main_v101 (Host.rsqrt : (⟨S256, .f32⟩ : BufTy).Contents (Elt F) → (⟨S256, .f32⟩ : BufTy).Contents (Elt F)),
    StableHlo.unary main_v101 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S50000x256 ![0, 1] bcast_S1x256_S50000x256_0_1 : (⟨S1x256, .f32⟩ : BufTy).Contents (Elt F) → (⟨S50000x256, .f32⟩ : BufTy).Contents (Elt F)),
    StableHlo.binary main_v98 main_v103 main_v104 (mulf : (⟨S50000x256, .f32⟩ : BufTy).Contents (Elt F) → (⟨S50000x256, .f32⟩ : BufTy).Contents (Elt F) → (⟨S50000x256, .f32⟩ : BufTy).Contents (Elt F)),
    StableHlo.unary main_arg14 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S50000x256 ![0, 1] bcast_S1x256_S50000x256_0_1 : (⟨S1x256, .f32⟩ : BufTy).Contents (Elt F) → (⟨S50000x256, .f32⟩ : BufTy).Contents (Elt F)),
    StableHlo.binary main_v104 main_v106 main_v107 (addf : (⟨S50000x256, .f32⟩ : BufTy).Contents (Elt F) → (⟨S50000x256, .f32⟩ : BufTy).Contents (Elt F) → (⟨S50000x256, .f32⟩ : BufTy).Contents (Elt F)) ]

/-- The head (two linear maps, rectifier, logistic) and the mean over each graph's nodes. -/
def opsH : List (HloOp τ sig (Elt F)) :=
  [ StableHlo.binary main_v107 main_arg15 main_v108 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg16 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v108 main_v110 main_v111 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v111 : StableHlo.TRef sig ⟨S50000x128, .f32⟩) main_call5.v0 main_call5.v1 maximumf,
    StableHlo.binary main_v112 main_arg17 main_v113 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg18 main_v114 (broadcastInDim S1x1 ![1] bcast_S1_S1x1_1 : (⟨S1, .f32⟩ : BufTy).Contents (Elt F) → (⟨S1x1, .f32⟩ : BufTy).Contents (Elt F)),
    StableHlo.unary main_v114 main_v115 (broadcastInDim S50000x1 ![0, 1] bcast_S1x1_S50000x1_0_1 : (⟨S1x1, .f32⟩ : BufTy).Contents (Elt F) → (⟨S50000x1, .f32⟩ : BufTy).Contents (Elt F)),
    StableHlo.binary main_v113 main_v115 main_v116 (addf : (⟨S50000x1, .f32⟩ : BufTy).Contents (Elt F) → (⟨S50000x1, .f32⟩ : BufTy).Contents (Elt F) → (⟨S50000x1, .f32⟩ : BufTy).Contents (Elt F)),
    StableHlo.unary main_v116 main_v117 (Host.negf : (⟨S50000x1, .f32⟩ : BufTy).Contents (Elt F) → (⟨S50000x1, .f32⟩ : BufTy).Contents (Elt F)),
    StableHlo.unary main_v117 main_v118 (Host.exp : (⟨S50000x1, .f32⟩ : BufTy).Contents (Elt F) → (⟨S50000x1, .f32⟩ : BufTy).Contents (Elt F)),
    StableHlo.nullary main_cst_19 (constant S_ .f32 0x3F800000#32),
    StableHlo.unary main_cst_19 main_v119 (broadcastInDim S50000x1 ![] bcast_S_S50000x1 : (⟨S_, .f32⟩ : BufTy).Contents (Elt F) → (⟨S50000x1, .f32⟩ : BufTy).Contents (Elt F)),
    StableHlo.binary main_v119 main_v118 main_v120 (addf : (⟨S50000x1, .f32⟩ : BufTy).Contents (Elt F) → (⟨S50000x1, .f32⟩ : BufTy).Contents (Elt F) → (⟨S50000x1, .f32⟩ : BufTy).Contents (Elt F)),
    StableHlo.nullary main_cst_20 (constant S_ .f32 0x3F800000#32),
    StableHlo.unary main_cst_20 main_v121 (broadcastInDim S50000x1 ![] bcast_S_S50000x1 : (⟨S_, .f32⟩ : BufTy).Contents (Elt F) → (⟨S50000x1, .f32⟩ : BufTy).Contents (Elt F)),
    StableHlo.binary main_v121 main_v120 main_v122 (Host.divf : (⟨S50000x1, .f32⟩ : BufTy).Contents (Elt F) → (⟨S50000x1, .f32⟩ : BufTy).Contents (Elt F) → (⟨S50000x1, .f32⟩ : BufTy).Contents (Elt F)),
    StableHlo.nullary main_cst_21 (constant S_ .f32 0x00000000#32),
    StableHlo.unary main_cst_21 main_v123 (broadcastInDim S64x1 ![] bcast_S_S64x1 : (⟨S_, .f32⟩ : BufTy).Contents (Elt F) → (⟨S64x1, .f32⟩ : BufTy).Contents (Elt F)),
    StableHlo.unary main_arg2 main_v124 (broadcastInDim S50000x1 ![0] bcast_S50000_S50000x1_0 : (⟨S50000, .i32⟩ : BufTy).Contents (Elt F) → (⟨S50000x1, .i32⟩ : BufTy).Contents (Elt F)),
    StableHlo.ternary main_v123 main_v124 main_v122 main_v125 ((fun x i u => Host.scatterAdd scatter_S64x1_S50000x1_S50000x1_1_0_0_1 x i u) : (⟨S64x1, .f32⟩ : BufTy).Contents (Elt F) → (⟨S50000x1, .i32⟩ : BufTy).Contents (Elt F) → (⟨S50000x1, .f32⟩ : BufTy).Contents (Elt F) → (⟨S64x1, .f32⟩ : BufTy).Contents (Elt F)),
    StableHlo.nullary main_cst_22 (constant S_ .f32 0x3F800000#32),
    StableHlo.unary main_cst_22 main_v126 (broadcastInDim S50000x1 ![] bcast_S_S50000x1 : (⟨S_, .f32⟩ : BufTy).Contents (Elt F) → (⟨S50000x1, .f32⟩ : BufTy).Contents (Elt F)),
    StableHlo.nullary main_cst_23 (constant S_ .f32 0x00000000#32),
    StableHlo.unary main_cst_23 main_v127 (broadcastInDim S64x1 ![] bcast_S_S64x1 : (⟨S_, .f32⟩ : BufTy).Contents (Elt F) → (⟨S64x1, .f32⟩ : BufTy).Contents (Elt F)),
    StableHlo.unary main_arg2 main_v128 (broadcastInDim S50000x1 ![0] bcast_S50000_S50000x1_0 : (⟨S50000, .i32⟩ : BufTy).Contents (Elt F) → (⟨S50000x1, .i32⟩ : BufTy).Contents (Elt F)),
    StableHlo.ternary main_v127 main_v128 main_v126 main_v129 ((fun x i u => Host.scatterAdd scatter_S64x1_S50000x1_S50000x1_1_0_0_1 x i u) : (⟨S64x1, .f32⟩ : BufTy).Contents (Elt F) → (⟨S50000x1, .i32⟩ : BufTy).Contents (Elt F) → (⟨S50000x1, .f32⟩ : BufTy).Contents (Elt F) → (⟨S64x1, .f32⟩ : BufTy).Contents (Elt F)),
    StableHlo.nullary main_cst_24 (constant S_ .f32 0x3F800000#32),
    StableHlo.unary main_cst_24 main_v130 (broadcastInDim S64x1 ![] bcast_S_S64x1 : (⟨S_, .f32⟩ : BufTy).Contents (Elt F) → (⟨S64x1, .f32⟩ : BufTy).Contents (Elt F)),
    StableHlo.binary main_v129 main_v130 main_v131 (maximumf : (⟨S64x1, .f32⟩ : BufTy).Contents (Elt F) → (⟨S64x1, .f32⟩ : BufTy).Contents (Elt F) → (⟨S64x1, .f32⟩ : BufTy).Contents (Elt F)),
    StableHlo.binary main_v125 main_v131 main_v132 (Host.divf : (⟨S64x1, .f32⟩ : BufTy).Contents (Elt F) → (⟨S64x1, .f32⟩ : BufTy).Contents (Elt F) → (⟨S64x1, .f32⟩ : BufTy).Contents (Elt F)) ]

/-! ## The stages

What each window computes, as a function of the arrays it reads. -/

/-- A tensor of shape `s` and element type `e` over the float values `F`. -/
abbrev Ten (F : FTy → Type) (s : Shape) (e : EltTy) : Type := (⟨s, e⟩ : BufTy).Contents (Elt F)

/-- The edges' source nodes: row 0 of the edge list. -/
def edgeSrc (e : Ten F S2x800000 .i32) : Ten F S800000 .i32 :=
  shapeCast S800000 (extractStridedSlice S1x800000 ![0, 0] e slices_S2x800000_S1x800000_0_0) shapeCasts_S1x800000_S800000

/-- The edges' destination nodes: row 1 of the edge list. -/
def edgeDst (e : Ten F S2x800000 .i32) : Ten F S800000 .i32 :=
  shapeCast S800000 (extractStridedSlice S1x800000 ![1, 0] e slices_S2x800000_S1x800000_1_0) shapeCasts_S1x800000_S800000

/-- Gather indices: a negative index counts from the end (50000 added), then one index column per edge. -/
def wrapIdx (v : Ten F S800000 .i32) : Ten F S800000x1 .i32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Scatter indices: one index column per edge. -/
def idxCol (v : Ten F S800000 .i32) : Ten F S800000x1 .i32 :=
  broadcastInDim S800000x1 ![0] bcast_S800000_S800000x1_0 v

/-- A feature vector repeated on every node. -/
def rows256 (v : Ten F S256 .f32) : Ten F S50000x256 .f32 :=
  broadcastInDim S50000x256 ![0, 1] bcast_S1x256_S50000x256_0_1 (broadcastInDim S1x256 ![1] bcast_S256_S1x256_1 v)

/-- The first layer's linear map: `(x + Σ_{j → i} x_j) · W + b` over 64 input features. -/
def lin64 (x : Ten F S50000x64 .f32) (src dst : Ten F S800000 .i32) (W : Ten F S64x256 .f32) (b : Ten F S256 .f32) :
    Ten F S50000x256 .f32 :=
  addf
    (Host.dotGeneral dot_S50000x64_S64x256_S50000x256_1_0_0_1_n_n none
      (addf x
        (Host.scatterAdd scatter_S50000x64_S800000x1_S800000x64_1_0_0_1
          (broadcastInDim S50000x64 ![] bcast_S_S50000x64 (constant S_ .f32 0x00000000#32)) (idxCol dst)
          (Host.gather gather_S50000x64_S800000x1_S800000x64_1_0_n_n_0_1_164 x (wrapIdx src))))
      W)
    (rows256 b)

/-- A later layer's linear map: the same over 256 input features. -/
def lin256 (x : Ten F S50000x256 .f32) (src dst : Ten F S800000 .i32) (W : Ten F S256x256 .f32) (b : Ten F S256 .f32) :
    Ten F S50000x256 .f32 :=
  addf
    (Host.dotGeneral dot_S50000x256_S256x256_S50000x256_1_0_0_1_n_n none
      (addf x
        (Host.scatterAdd scatter_S50000x256_S800000x1_S800000x256_1_0_0_1
          (broadcastInDim S50000x256 ![] bcast_S_S50000x256 (constant S_ .f32 0x00000000#32)) (idxCol dst)
          (Host.gather gather_S50000x256_S800000x1_S800000x256_1_0_n_n_0_1_1256 x (wrapIdx src))))
      W)
    (rows256 b)

/-- The sum of each feature over the nodes. -/
def colSum (h : Ten F S50000x256 .f32) : Ten F S256 .f32 :=
  Host.reduceAdd h (constant S_ .f32 0x00000000#32) reducesTo_S50000x256_S256_d0 h_S_

/-- The mean of each feature over the 50000 nodes. -/
def colMean (h : Ten F S50000x256 .f32) : Ten F S256 .f32 :=
  Host.divf (colSum h) (broadcastInDim S256 ![] bcast_S_S256 (constant S_ .f32 0x47435000#32))

/-- Each entry less its feature's mean, the mean taken at shape 1×256 (as the variance computes it). -/
def centred (h : Ten F S50000x256 .f32) : Ten F S50000x256 .f32 :=
  subf h
    (broadcastInDim S50000x256 ![0, 1] bcast_S1x256_S50000x256_0_1
      (Host.divf (broadcastInDim S1x256 ![1] bcast_S256_S1x256_1 (colSum h))
        (broadcastInDim S1x256 ![] bcast_S_S1x256 (constant S_ .f32 0x47435000#32))))

/-- The variance's divisor: the node count less the degrees of freedom removed (none). -/
def varDiv : Ten F S_ .f32 :=
  subf (constant S_ .f32 0x47435000#32) (sitofp (F := F) .f32 (constantI S_ 32 0#32))

/-- The (biased) variance of each feature over the nodes: the mean square deviation where the divisor is positive,
    else the not-a-number word. -/
def colVar (h : Ten F S50000x256 .f32) : Ten F S256 .f32 :=
  select (broadcastInDim S256 ![] bcast_S_S256 (cmpf .ogt (varDiv (F := F)) (constant S_ .f32 0x00000000#32)))
    (Host.divf
      (Host.reduceAdd (mulf (centred h) (centred h)) (constant S_ .f32 0x00000000#32) reducesTo_S50000x256_S256_d0 h_S_)
      (broadcastInDim S256 ![] bcast_S_S256 (varDiv (F := F))))
    (broadcastInDim S256 ![] bcast_S_S256 (constant S_ .f32 0x7FC00000#32))

/-- Batch normalisation over the nodes: `γ · (h − mean) · rsqrt(var + ε) + β`. -/
def bnorm (h : Ten F S50000x256 .f32) (g be : Ten F S256 .f32) : Ten F S50000x256 .f32 :=
  addf
    (mulf (mulf (rows256 g) (subf h (rows256 (colMean h))))
      (rows256 (Host.rsqrt (addf (colVar h) (broadcastInDim S256 ![] bcast_S_S256 (constant S_ .f32 0x3727C5AC#32))))))
    (rows256 be)

/-- The rectifier over 256 features. -/
def relu256 (h : Ten F S50000x256 .f32) : Ten F S50000x256 .f32 :=
  maximumf h (broadcastInDim S50000x256 ![] bcast_S_S50000x256 (constant S_ .f32 0x00000000#32))

/-- The first layer. -/
def layer1 (x : Ten F S50000x64 .f32) (src dst : Ten F S800000 .i32) (W : Ten F S64x256 .f32) (b g be : Ten F S256 .f32) :
    Ten F S50000x256 .f32 :=
  relu256 (bnorm (lin64 x src dst W b) g be)

/-- The second layer. -/
def layer2 (x : Ten F S50000x256 .f32) (src dst : Ten F S800000 .i32) (W : Ten F S256x256 .f32) (b g be : Ten F S256 .f32) :
    Ten F S50000x256 .f32 :=
  relu256 (bnorm (lin256 x src dst W b) g be)

/-- The third layer: no rectifier. -/
def layer3 (x : Ten F S50000x256 .f32) (src dst : Ten F S800000 .i32) (W : Ten F S256x256 .f32) (b g be : Ten F S256 .f32) :
    Ten F S50000x256 .f32 :=
  bnorm (lin256 x src dst W b) g be

/-- The head's score of each node: `σ(relu(h · Wl1 + bl1) · Wl2 + bl2)`, the logistic written `1 / (1 + exp(−z))`. -/
def headScore (h : Ten F S50000x256 .f32) (Wl1 : Ten F S256x128 .f32) (bl1 : Ten F S128 .f32) (Wl2 : Ten F S128x1 .f32)
    (bl2 : Ten F S1 .f32) : Ten F S50000x1 .f32 :=
  Host.divf (broadcastInDim S50000x1 ![] bcast_S_S50000x1 (constant S_ .f32 0x3F800000#32))
    (addf (broadcastInDim S50000x1 ![] bcast_S_S50000x1 (constant S_ .f32 0x3F800000#32))
      (Host.exp
        (Host.negf
          (addf
            (Host.dotGeneral dot_S50000x128_S128x1_S50000x1_1_0_0_1_n_n none
              (maximumf
                (addf (Host.dotGeneral dot_S50000x256_S256x128_S50000x128_1_0_0_1_n_n none h Wl1)
                  (broadcastInDim S50000x128 ![0, 1] bcast_S1x128_S50000x128_0_1
                    (broadcastInDim S1x128 ![1] bcast_S128_S1x128_1 bl1)))
                (broadcastInDim S50000x128 ![] bcast_S_S50000x128 (constant S_ .f32 0x00000000#32)))
              Wl2)
            (broadcastInDim S50000x1 ![0, 1] bcast_S1x1_S50000x1_0_1 (broadcastInDim S1x1 ![1] bcast_S1_S1x1_1 bl2))))))

/-- The mean of a node score over each of the 64 graphs: the scores summed by graph, over the node count of the
    graph (at least one). -/
def graphMean (batch : Ten F S50000 .i32) (s : Ten F S50000x1 .f32) : Ten F S64x1 .f32 :=
  Host.divf
    (Host.scatterAdd scatter_S64x1_S50000x1_S50000x1_1_0_0_1
      (broadcastInDim S64x1 ![] bcast_S_S64x1 (constant S_ .f32 0x00000000#32))
      (broadcastInDim S50000x1 ![0] bcast_S50000_S50000x1_0 batch) s)
    (maximumf
      (Host.scatterAdd scatter_S64x1_S50000x1_S50000x1_1_0_0_1
        (broadcastInDim S64x1 ![] bcast_S_S64x1 (constant S_ .f32 0x00000000#32))
        (broadcastInDim S50000x1 ![0] bcast_S50000_S50000x1_0 batch)
        (broadcastInDim S50000x1 ![] bcast_S_S50000x1 (constant S_ .f32 0x3F800000#32)))
      (broadcastInDim S64x1 ![] bcast_S_S64x1 (constant S_ .f32 0x3F800000#32)))

/-- The reference's result as a function of its nineteen argument arrays. -/
def refOut (a0 : Ten F S50000x64 .f32) (a1 : Ten F S2x800000 .i32) (a2 : Ten F S50000 .i32)
    (a3 : Ten F S64x256 .f32) (a4 a5 a6 : Ten F S256 .f32)
    (a7 : Ten F S256x256 .f32) (a8 a9 a10 : Ten F S256 .f32)
    (a11 : Ten F S256x256 .f32) (a12 a13 a14 : Ten F S256 .f32)
    (a15 : Ten F S256x128 .f32) (a16 : Ten F S128 .f32) (a17 : Ten F S128x1 .f32) (a18 : Ten F S1 .f32) :
    Ten F S64x1 .f32 :=
  graphMean a2
    (headScore
      (layer3
        (layer2 (layer1 a0 (edgeSrc a1) (edgeDst a1) a3 a4 a5 a6) (edgeSrc a1) (edgeDst a1) a7 a8 a9 a10)
        (edgeSrc a1) (edgeDst a1) a11 a12 a13 a14)
      a15 a16 a17 a18)

/-! ## The windows' results -/

set_option maxRecDepth 8192 in
theorem P0_src (V : Valuation τ sig (Elt F)) :
    after opsP0 V (main_v1 : DevRef τ sig) = edgeSrc (V (main_arg1 : DevRef τ sig)) := by
  unfold opsP0; after_results_simp; rfl

set_option maxRecDepth 8192 in
theorem P0_dst (V : Valuation τ sig (Elt F)) :
    after opsP0 V (main_v3 : DevRef τ sig) = edgeDst (V (main_arg1 : DevRef τ sig)) := by
  unfold opsP0; after_results_simp; rfl

set_option maxRecDepth 8192 in
set_option maxHeartbeats 4000000 in
theorem L1_out (V : Valuation τ sig (Elt F)) :
    after opsL1 V (main_v38 : DevRef τ sig)
      = layer1 (V (main_arg0 : DevRef τ sig)) (V (main_v1 : DevRef τ sig)) (V (main_v3 : DevRef τ sig))
          (V (main_arg3 : DevRef τ sig)) (V (main_arg4 : DevRef τ sig)) (V (main_arg5 : DevRef τ sig))
          (V (main_arg6 : DevRef τ sig)) := by
  unfold opsL1; after_results_simp; rfl

set_option maxRecDepth 8192 in
set_option maxHeartbeats 4000000 in
theorem L2_out (V : Valuation τ sig (Elt F)) :
    after opsL2 V (main_v73 : DevRef τ sig)
      = layer2 (V (main_v38 : DevRef τ sig)) (V (main_v1 : DevRef τ sig)) (V (main_v3 : DevRef τ sig))
          (V (main_arg7 : DevRef τ sig)) (V (main_arg8 : DevRef τ sig)) (V (main_arg9 : DevRef τ sig))
          (V (main_arg10 : DevRef τ sig)) := by
  unfold opsL2; after_results_simp; rfl

set_option maxRecDepth 8192 in
set_option maxHeartbeats 4000000 in
theorem L3_out (V : Valuation τ sig (Elt F)) :
    after opsL3 V (main_v107 : DevRef τ sig)
      = layer3 (V (main_v73 : DevRef τ sig)) (V (main_v1 : DevRef τ sig)) (V (main_v3 : DevRef τ sig))
          (V (main_arg11 : DevRef τ sig)) (V (main_arg12 : DevRef τ sig)) (V (main_arg13 : DevRef τ sig))
          (V (main_arg14 : DevRef τ sig)) := by
  unfold opsL3; after_results_simp; rfl

set_option maxRecDepth 8192 in
set_option maxHeartbeats 4000000 in
theorem H_out (V : Valuation τ sig (Elt F)) :
    after opsH V (main_v132 : DevRef τ sig)
      = graphMean (V (main_arg2 : DevRef τ sig))
          (headScore (V (main_v107 : DevRef τ sig)) (V (main_arg15 : DevRef τ sig)) (V (main_arg16 : DevRef τ sig))
            (V (main_arg17 : DevRef τ sig)) (V (main_arg18 : DevRef τ sig))) := by
  unfold opsH; after_results_simp; rfl

/-! ## What the windows leave alone

No window writes an argument array, and the layers leave the two index vectors as they found them. -/

section
set_option maxRecDepth 8192
theorem P0_arg0 (V : Valuation τ sig (Elt F)) : after opsP0 V (main_arg0 : DevRef τ sig) = V (main_arg0 : DevRef τ sig) := by
  unfold opsP0; after_results_simp
theorem P0_arg1 (V : Valuation τ sig (Elt F)) : after opsP0 V (main_arg1 : DevRef τ sig) = V (main_arg1 : DevRef τ sig) := by
  unfold opsP0; after_results_simp
theorem P0_arg2 (V : Valuation τ sig (Elt F)) : after opsP0 V (main_arg2 : DevRef τ sig) = V (main_arg2 : DevRef τ sig) := by
  unfold opsP0; after_results_simp
theorem P0_arg3 (V : Valuation τ sig (Elt F)) : after opsP0 V (main_arg3 : DevRef τ sig) = V (main_arg3 : DevRef τ sig) := by
  unfold opsP0; after_results_simp
theorem P0_arg4 (V : Valuation τ sig (Elt F)) : after opsP0 V (main_arg4 : DevRef τ sig) = V (main_arg4 : DevRef τ sig) := by
  unfold opsP0; after_results_simp
theorem P0_arg5 (V : Valuation τ sig (Elt F)) : after opsP0 V (main_arg5 : DevRef τ sig) = V (main_arg5 : DevRef τ sig) := by
  unfold opsP0; after_results_simp
theorem P0_arg6 (V : Valuation τ sig (Elt F)) : after opsP0 V (main_arg6 : DevRef τ sig) = V (main_arg6 : DevRef τ sig) := by
  unfold opsP0; after_results_simp
theorem P0_arg7 (V : Valuation τ sig (Elt F)) : after opsP0 V (main_arg7 : DevRef τ sig) = V (main_arg7 : DevRef τ sig) := by
  unfold opsP0; after_results_simp
theorem P0_arg8 (V : Valuation τ sig (Elt F)) : after opsP0 V (main_arg8 : DevRef τ sig) = V (main_arg8 : DevRef τ sig) := by
  unfold opsP0; after_results_simp
theorem P0_arg9 (V : Valuation τ sig (Elt F)) : after opsP0 V (main_arg9 : DevRef τ sig) = V (main_arg9 : DevRef τ sig) := by
  unfold opsP0; after_results_simp
theorem P0_arg10 (V : Valuation τ sig (Elt F)) : after opsP0 V (main_arg10 : DevRef τ sig) = V (main_arg10 : DevRef τ sig) := by
  unfold opsP0; after_results_simp
theorem P0_arg11 (V : Valuation τ sig (Elt F)) : after opsP0 V (main_arg11 : DevRef τ sig) = V (main_arg11 : DevRef τ sig) := by
  unfold opsP0; after_results_simp
theorem P0_arg12 (V : Valuation τ sig (Elt F)) : after opsP0 V (main_arg12 : DevRef τ sig) = V (main_arg12 : DevRef τ sig) := by
  unfold opsP0; after_results_simp
theorem P0_arg13 (V : Valuation τ sig (Elt F)) : after opsP0 V (main_arg13 : DevRef τ sig) = V (main_arg13 : DevRef τ sig) := by
  unfold opsP0; after_results_simp
theorem P0_arg14 (V : Valuation τ sig (Elt F)) : after opsP0 V (main_arg14 : DevRef τ sig) = V (main_arg14 : DevRef τ sig) := by
  unfold opsP0; after_results_simp
theorem P0_arg15 (V : Valuation τ sig (Elt F)) : after opsP0 V (main_arg15 : DevRef τ sig) = V (main_arg15 : DevRef τ sig) := by
  unfold opsP0; after_results_simp
theorem P0_arg16 (V : Valuation τ sig (Elt F)) : after opsP0 V (main_arg16 : DevRef τ sig) = V (main_arg16 : DevRef τ sig) := by
  unfold opsP0; after_results_simp
theorem P0_arg17 (V : Valuation τ sig (Elt F)) : after opsP0 V (main_arg17 : DevRef τ sig) = V (main_arg17 : DevRef τ sig) := by
  unfold opsP0; after_results_simp
theorem P0_arg18 (V : Valuation τ sig (Elt F)) : after opsP0 V (main_arg18 : DevRef τ sig) = V (main_arg18 : DevRef τ sig) := by
  unfold opsP0; after_results_simp
end

section
set_option maxRecDepth 8192
theorem L1_arg0 (V : Valuation τ sig (Elt F)) : after opsL1 V (main_arg0 : DevRef τ sig) = V (main_arg0 : DevRef τ sig) := by
  unfold opsL1; after_results_simp
theorem L1_arg1 (V : Valuation τ sig (Elt F)) : after opsL1 V (main_arg1 : DevRef τ sig) = V (main_arg1 : DevRef τ sig) := by
  unfold opsL1; after_results_simp
theorem L1_arg2 (V : Valuation τ sig (Elt F)) : after opsL1 V (main_arg2 : DevRef τ sig) = V (main_arg2 : DevRef τ sig) := by
  unfold opsL1; after_results_simp
theorem L1_arg3 (V : Valuation τ sig (Elt F)) : after opsL1 V (main_arg3 : DevRef τ sig) = V (main_arg3 : DevRef τ sig) := by
  unfold opsL1; after_results_simp
theorem L1_arg4 (V : Valuation τ sig (Elt F)) : after opsL1 V (main_arg4 : DevRef τ sig) = V (main_arg4 : DevRef τ sig) := by
  unfold opsL1; after_results_simp
theorem L1_arg5 (V : Valuation τ sig (Elt F)) : after opsL1 V (main_arg5 : DevRef τ sig) = V (main_arg5 : DevRef τ sig) := by
  unfold opsL1; after_results_simp
theorem L1_arg6 (V : Valuation τ sig (Elt F)) : after opsL1 V (main_arg6 : DevRef τ sig) = V (main_arg6 : DevRef τ sig) := by
  unfold opsL1; after_results_simp
theorem L1_arg7 (V : Valuation τ sig (Elt F)) : after opsL1 V (main_arg7 : DevRef τ sig) = V (main_arg7 : DevRef τ sig) := by
  unfold opsL1; after_results_simp
theorem L1_arg8 (V : Valuation τ sig (Elt F)) : after opsL1 V (main_arg8 : DevRef τ sig) = V (main_arg8 : DevRef τ sig) := by
  unfold opsL1; after_results_simp
theorem L1_arg9 (V : Valuation τ sig (Elt F)) : after opsL1 V (main_arg9 : DevRef τ sig) = V (main_arg9 : DevRef τ sig) := by
  unfold opsL1; after_results_simp
theorem L1_arg10 (V : Valuation τ sig (Elt F)) : after opsL1 V (main_arg10 : DevRef τ sig) = V (main_arg10 : DevRef τ sig) := by
  unfold opsL1; after_results_simp
theorem L1_arg11 (V : Valuation τ sig (Elt F)) : after opsL1 V (main_arg11 : DevRef τ sig) = V (main_arg11 : DevRef τ sig) := by
  unfold opsL1; after_results_simp
theorem L1_arg12 (V : Valuation τ sig (Elt F)) : after opsL1 V (main_arg12 : DevRef τ sig) = V (main_arg12 : DevRef τ sig) := by
  unfold opsL1; after_results_simp
theorem L1_arg13 (V : Valuation τ sig (Elt F)) : after opsL1 V (main_arg13 : DevRef τ sig) = V (main_arg13 : DevRef τ sig) := by
  unfold opsL1; after_results_simp
theorem L1_arg14 (V : Valuation τ sig (Elt F)) : after opsL1 V (main_arg14 : DevRef τ sig) = V (main_arg14 : DevRef τ sig) := by
  unfold opsL1; after_results_simp
theorem L1_arg15 (V : Valuation τ sig (Elt F)) : after opsL1 V (main_arg15 : DevRef τ sig) = V (main_arg15 : DevRef τ sig) := by
  unfold opsL1; after_results_simp
theorem L1_arg16 (V : Valuation τ sig (Elt F)) : after opsL1 V (main_arg16 : DevRef τ sig) = V (main_arg16 : DevRef τ sig) := by
  unfold opsL1; after_results_simp
theorem L1_arg17 (V : Valuation τ sig (Elt F)) : after opsL1 V (main_arg17 : DevRef τ sig) = V (main_arg17 : DevRef τ sig) := by
  unfold opsL1; after_results_simp
theorem L1_arg18 (V : Valuation τ sig (Elt F)) : after opsL1 V (main_arg18 : DevRef τ sig) = V (main_arg18 : DevRef τ sig) := by
  unfold opsL1; after_results_simp
theorem L1_v1 (V : Valuation τ sig (Elt F)) : after opsL1 V (main_v1 : DevRef τ sig) = V (main_v1 : DevRef τ sig) := by
  unfold opsL1; after_results_simp
theorem L1_v3 (V : Valuation τ sig (Elt F)) : after opsL1 V (main_v3 : DevRef τ sig) = V (main_v3 : DevRef τ sig) := by
  unfold opsL1; after_results_simp
end

section
set_option maxRecDepth 8192
theorem L2_arg0 (V : Valuation τ sig (Elt F)) : after opsL2 V (main_arg0 : DevRef τ sig) = V (main_arg0 : DevRef τ sig) := by
  unfold opsL2; after_results_simp
theorem L2_arg1 (V : Valuation τ sig (Elt F)) : after opsL2 V (main_arg1 : DevRef τ sig) = V (main_arg1 : DevRef τ sig) := by
  unfold opsL2; after_results_simp
theorem L2_arg2 (V : Valuation τ sig (Elt F)) : after opsL2 V (main_arg2 : DevRef τ sig) = V (main_arg2 : DevRef τ sig) := by
  unfold opsL2; after_results_simp
theorem L2_arg3 (V : Valuation τ sig (Elt F)) : after opsL2 V (main_arg3 : DevRef τ sig) = V (main_arg3 : DevRef τ sig) := by
  unfold opsL2; after_results_simp
theorem L2_arg4 (V : Valuation τ sig (Elt F)) : after opsL2 V (main_arg4 : DevRef τ sig) = V (main_arg4 : DevRef τ sig) := by
  unfold opsL2; after_results_simp
theorem L2_arg5 (V : Valuation τ sig (Elt F)) : after opsL2 V (main_arg5 : DevRef τ sig) = V (main_arg5 : DevRef τ sig) := by
  unfold opsL2; after_results_simp
theorem L2_arg6 (V : Valuation τ sig (Elt F)) : after opsL2 V (main_arg6 : DevRef τ sig) = V (main_arg6 : DevRef τ sig) := by
  unfold opsL2; after_results_simp
theorem L2_arg7 (V : Valuation τ sig (Elt F)) : after opsL2 V (main_arg7 : DevRef τ sig) = V (main_arg7 : DevRef τ sig) := by
  unfold opsL2; after_results_simp
theorem L2_arg8 (V : Valuation τ sig (Elt F)) : after opsL2 V (main_arg8 : DevRef τ sig) = V (main_arg8 : DevRef τ sig) := by
  unfold opsL2; after_results_simp
theorem L2_arg9 (V : Valuation τ sig (Elt F)) : after opsL2 V (main_arg9 : DevRef τ sig) = V (main_arg9 : DevRef τ sig) := by
  unfold opsL2; after_results_simp
theorem L2_arg10 (V : Valuation τ sig (Elt F)) : after opsL2 V (main_arg10 : DevRef τ sig) = V (main_arg10 : DevRef τ sig) := by
  unfold opsL2; after_results_simp
theorem L2_arg11 (V : Valuation τ sig (Elt F)) : after opsL2 V (main_arg11 : DevRef τ sig) = V (main_arg11 : DevRef τ sig) := by
  unfold opsL2; after_results_simp
theorem L2_arg12 (V : Valuation τ sig (Elt F)) : after opsL2 V (main_arg12 : DevRef τ sig) = V (main_arg12 : DevRef τ sig) := by
  unfold opsL2; after_results_simp
theorem L2_arg13 (V : Valuation τ sig (Elt F)) : after opsL2 V (main_arg13 : DevRef τ sig) = V (main_arg13 : DevRef τ sig) := by
  unfold opsL2; after_results_simp
theorem L2_arg14 (V : Valuation τ sig (Elt F)) : after opsL2 V (main_arg14 : DevRef τ sig) = V (main_arg14 : DevRef τ sig) := by
  unfold opsL2; after_results_simp
theorem L2_arg15 (V : Valuation τ sig (Elt F)) : after opsL2 V (main_arg15 : DevRef τ sig) = V (main_arg15 : DevRef τ sig) := by
  unfold opsL2; after_results_simp
theorem L2_arg16 (V : Valuation τ sig (Elt F)) : after opsL2 V (main_arg16 : DevRef τ sig) = V (main_arg16 : DevRef τ sig) := by
  unfold opsL2; after_results_simp
theorem L2_arg17 (V : Valuation τ sig (Elt F)) : after opsL2 V (main_arg17 : DevRef τ sig) = V (main_arg17 : DevRef τ sig) := by
  unfold opsL2; after_results_simp
theorem L2_arg18 (V : Valuation τ sig (Elt F)) : after opsL2 V (main_arg18 : DevRef τ sig) = V (main_arg18 : DevRef τ sig) := by
  unfold opsL2; after_results_simp
theorem L2_v1 (V : Valuation τ sig (Elt F)) : after opsL2 V (main_v1 : DevRef τ sig) = V (main_v1 : DevRef τ sig) := by
  unfold opsL2; after_results_simp
theorem L2_v3 (V : Valuation τ sig (Elt F)) : after opsL2 V (main_v3 : DevRef τ sig) = V (main_v3 : DevRef τ sig) := by
  unfold opsL2; after_results_simp
end

section
set_option maxRecDepth 8192
theorem L3_arg0 (V : Valuation τ sig (Elt F)) : after opsL3 V (main_arg0 : DevRef τ sig) = V (main_arg0 : DevRef τ sig) := by
  unfold opsL3; after_results_simp
theorem L3_arg1 (V : Valuation τ sig (Elt F)) : after opsL3 V (main_arg1 : DevRef τ sig) = V (main_arg1 : DevRef τ sig) := by
  unfold opsL3; after_results_simp
theorem L3_arg2 (V : Valuation τ sig (Elt F)) : after opsL3 V (main_arg2 : DevRef τ sig) = V (main_arg2 : DevRef τ sig) := by
  unfold opsL3; after_results_simp
theorem L3_arg3 (V : Valuation τ sig (Elt F)) : after opsL3 V (main_arg3 : DevRef τ sig) = V (main_arg3 : DevRef τ sig) := by
  unfold opsL3; after_results_simp
theorem L3_arg4 (V : Valuation τ sig (Elt F)) : after opsL3 V (main_arg4 : DevRef τ sig) = V (main_arg4 : DevRef τ sig) := by
  unfold opsL3; after_results_simp
theorem L3_arg5 (V : Valuation τ sig (Elt F)) : after opsL3 V (main_arg5 : DevRef τ sig) = V (main_arg5 : DevRef τ sig) := by
  unfold opsL3; after_results_simp
theorem L3_arg6 (V : Valuation τ sig (Elt F)) : after opsL3 V (main_arg6 : DevRef τ sig) = V (main_arg6 : DevRef τ sig) := by
  unfold opsL3; after_results_simp
theorem L3_arg7 (V : Valuation τ sig (Elt F)) : after opsL3 V (main_arg7 : DevRef τ sig) = V (main_arg7 : DevRef τ sig) := by
  unfold opsL3; after_results_simp
theorem L3_arg8 (V : Valuation τ sig (Elt F)) : after opsL3 V (main_arg8 : DevRef τ sig) = V (main_arg8 : DevRef τ sig) := by
  unfold opsL3; after_results_simp
theorem L3_arg9 (V : Valuation τ sig (Elt F)) : after opsL3 V (main_arg9 : DevRef τ sig) = V (main_arg9 : DevRef τ sig) := by
  unfold opsL3; after_results_simp
theorem L3_arg10 (V : Valuation τ sig (Elt F)) : after opsL3 V (main_arg10 : DevRef τ sig) = V (main_arg10 : DevRef τ sig) := by
  unfold opsL3; after_results_simp
theorem L3_arg11 (V : Valuation τ sig (Elt F)) : after opsL3 V (main_arg11 : DevRef τ sig) = V (main_arg11 : DevRef τ sig) := by
  unfold opsL3; after_results_simp
theorem L3_arg12 (V : Valuation τ sig (Elt F)) : after opsL3 V (main_arg12 : DevRef τ sig) = V (main_arg12 : DevRef τ sig) := by
  unfold opsL3; after_results_simp
theorem L3_arg13 (V : Valuation τ sig (Elt F)) : after opsL3 V (main_arg13 : DevRef τ sig) = V (main_arg13 : DevRef τ sig) := by
  unfold opsL3; after_results_simp
theorem L3_arg14 (V : Valuation τ sig (Elt F)) : after opsL3 V (main_arg14 : DevRef τ sig) = V (main_arg14 : DevRef τ sig) := by
  unfold opsL3; after_results_simp
theorem L3_arg15 (V : Valuation τ sig (Elt F)) : after opsL3 V (main_arg15 : DevRef τ sig) = V (main_arg15 : DevRef τ sig) := by
  unfold opsL3; after_results_simp
theorem L3_arg16 (V : Valuation τ sig (Elt F)) : after opsL3 V (main_arg16 : DevRef τ sig) = V (main_arg16 : DevRef τ sig) := by
  unfold opsL3; after_results_simp
theorem L3_arg17 (V : Valuation τ sig (Elt F)) : after opsL3 V (main_arg17 : DevRef τ sig) = V (main_arg17 : DevRef τ sig) := by
  unfold opsL3; after_results_simp
theorem L3_arg18 (V : Valuation τ sig (Elt F)) : after opsL3 V (main_arg18 : DevRef τ sig) = V (main_arg18 : DevRef τ sig) := by
  unfold opsL3; after_results_simp
end

section
set_option maxRecDepth 8192
theorem H_arg0 (V : Valuation τ sig (Elt F)) : after opsH V (main_arg0 : DevRef τ sig) = V (main_arg0 : DevRef τ sig) := by
  unfold opsH; after_results_simp
theorem H_arg1 (V : Valuation τ sig (Elt F)) : after opsH V (main_arg1 : DevRef τ sig) = V (main_arg1 : DevRef τ sig) := by
  unfold opsH; after_results_simp
theorem H_arg2 (V : Valuation τ sig (Elt F)) : after opsH V (main_arg2 : DevRef τ sig) = V (main_arg2 : DevRef τ sig) := by
  unfold opsH; after_results_simp
theorem H_arg3 (V : Valuation τ sig (Elt F)) : after opsH V (main_arg3 : DevRef τ sig) = V (main_arg3 : DevRef τ sig) := by
  unfold opsH; after_results_simp
theorem H_arg4 (V : Valuation τ sig (Elt F)) : after opsH V (main_arg4 : DevRef τ sig) = V (main_arg4 : DevRef τ sig) := by
  unfold opsH; after_results_simp
theorem H_arg5 (V : Valuation τ sig (Elt F)) : after opsH V (main_arg5 : DevRef τ sig) = V (main_arg5 : DevRef τ sig) := by
  unfold opsH; after_results_simp
theorem H_arg6 (V : Valuation τ sig (Elt F)) : after opsH V (main_arg6 : DevRef τ sig) = V (main_arg6 : DevRef τ sig) := by
  unfold opsH; after_results_simp
theorem H_arg7 (V : Valuation τ sig (Elt F)) : after opsH V (main_arg7 : DevRef τ sig) = V (main_arg7 : DevRef τ sig) := by
  unfold opsH; after_results_simp
theorem H_arg8 (V : Valuation τ sig (Elt F)) : after opsH V (main_arg8 : DevRef τ sig) = V (main_arg8 : DevRef τ sig) := by
  unfold opsH; after_results_simp
theorem H_arg9 (V : Valuation τ sig (Elt F)) : after opsH V (main_arg9 : DevRef τ sig) = V (main_arg9 : DevRef τ sig) := by
  unfold opsH; after_results_simp
theorem H_arg10 (V : Valuation τ sig (Elt F)) : after opsH V (main_arg10 : DevRef τ sig) = V (main_arg10 : DevRef τ sig) := by
  unfold opsH; after_results_simp
theorem H_arg11 (V : Valuation τ sig (Elt F)) : after opsH V (main_arg11 : DevRef τ sig) = V (main_arg11 : DevRef τ sig) := by
  unfold opsH; after_results_simp
theorem H_arg12 (V : Valuation τ sig (Elt F)) : after opsH V (main_arg12 : DevRef τ sig) = V (main_arg12 : DevRef τ sig) := by
  unfold opsH; after_results_simp
theorem H_arg13 (V : Valuation τ sig (Elt F)) : after opsH V (main_arg13 : DevRef τ sig) = V (main_arg13 : DevRef τ sig) := by
  unfold opsH; after_results_simp
theorem H_arg14 (V : Valuation τ sig (Elt F)) : after opsH V (main_arg14 : DevRef τ sig) = V (main_arg14 : DevRef τ sig) := by
  unfold opsH; after_results_simp
theorem H_arg15 (V : Valuation τ sig (Elt F)) : after opsH V (main_arg15 : DevRef τ sig) = V (main_arg15 : DevRef τ sig) := by
  unfold opsH; after_results_simp
theorem H_arg16 (V : Valuation τ sig (Elt F)) : after opsH V (main_arg16 : DevRef τ sig) = V (main_arg16 : DevRef τ sig) := by
  unfold opsH; after_results_simp
theorem H_arg17 (V : Valuation τ sig (Elt F)) : after opsH V (main_arg17 : DevRef τ sig) = V (main_arg17 : DevRef τ sig) := by
  unfold opsH; after_results_simp
theorem H_arg18 (V : Valuation τ sig (Elt F)) : after opsH V (main_arg18 : DevRef τ sig) = V (main_arg18 : DevRef τ sig) := by
  unfold opsH; after_results_simp
end

/-! ## The whole line -/

/-- The operations, window after window. -/
theorem ops_split : (ops : List (HloOp τ sig (Elt F))) = opsP0 ++ (opsL1 ++ (opsL2 ++ (opsL3 ++ opsH))) := rfl

/-- The result buffer after the whole line is `refOut` of the argument arrays' contents before it. -/
theorem out_eq (V : Valuation τ sig (Elt F)) :
    after ops V (main_v132 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) := by
  rw [ops_split, after_append, after_append, after_append, after_append]
  rw [H_out,
    L3_out, L3_arg2, L3_arg15, L3_arg16, L3_arg17, L3_arg18,
    L2_out, L2_v1, L2_v3, L2_arg2, L2_arg11, L2_arg12, L2_arg13, L2_arg14, L2_arg15, L2_arg16, L2_arg17, L2_arg18,
    L1_out, L1_v1, L1_v3, L1_arg2, L1_arg7, L1_arg8, L1_arg9, L1_arg10, L1_arg11, L1_arg12, L1_arg13, L1_arg14, L1_arg15, L1_arg16, L1_arg17, L1_arg18,
    P0_src, P0_dst, P0_arg0, P0_arg2, P0_arg3, P0_arg4, P0_arg5, P0_arg6, P0_arg7, P0_arg8, P0_arg9, P0_arg10, P0_arg11, P0_arg12, P0_arg13, P0_arg14, P0_arg15, P0_arg16, P0_arg17, P0_arg18]
  rfl

theorem arg0_eq (V : Valuation τ sig (Elt F)) : after ops V (main_arg0 : DevRef τ sig) = V (main_arg0 : DevRef τ sig) := by
  rw [ops_split, after_append, after_append, after_append, after_append, H_arg0, L3_arg0, L2_arg0, L1_arg0, P0_arg0]

theorem arg1_eq (V : Valuation τ sig (Elt F)) : after ops V (main_arg1 : DevRef τ sig) = V (main_arg1 : DevRef τ sig) := by
  rw [ops_split, after_append, after_append, after_append, after_append, H_arg1, L3_arg1, L2_arg1, L1_arg1, P0_arg1]

theorem arg2_eq (V : Valuation τ sig (Elt F)) : after ops V (main_arg2 : DevRef τ sig) = V (main_arg2 : DevRef τ sig) := by
  rw [ops_split, after_append, after_append, after_append, after_append, H_arg2, L3_arg2, L2_arg2, L1_arg2, P0_arg2]

theorem arg3_eq (V : Valuation τ sig (Elt F)) : after ops V (main_arg3 : DevRef τ sig) = V (main_arg3 : DevRef τ sig) := by
  rw [ops_split, after_append, after_append, after_append, after_append, H_arg3, L3_arg3, L2_arg3, L1_arg3, P0_arg3]

theorem arg4_eq (V : Valuation τ sig (Elt F)) : after ops V (main_arg4 : DevRef τ sig) = V (main_arg4 : DevRef τ sig) := by
  rw [ops_split, after_append, after_append, after_append, after_append, H_arg4, L3_arg4, L2_arg4, L1_arg4, P0_arg4]

theorem arg5_eq (V : Valuation τ sig (Elt F)) : after ops V (main_arg5 : DevRef τ sig) = V (main_arg5 : DevRef τ sig) := by
  rw [ops_split, after_append, after_append, after_append, after_append, H_arg5, L3_arg5, L2_arg5, L1_arg5, P0_arg5]

theorem arg6_eq (V : Valuation τ sig (Elt F)) : after ops V (main_arg6 : DevRef τ sig) = V (main_arg6 : DevRef τ sig) := by
  rw [ops_split, after_append, after_append, after_append, after_append, H_arg6, L3_arg6, L2_arg6, L1_arg6, P0_arg6]

theorem arg7_eq (V : Valuation τ sig (Elt F)) : after ops V (main_arg7 : DevRef τ sig) = V (main_arg7 : DevRef τ sig) := by
  rw [ops_split, after_append, after_append, after_append, after_append, H_arg7, L3_arg7, L2_arg7, L1_arg7, P0_arg7]

theorem arg8_eq (V : Valuation τ sig (Elt F)) : after ops V (main_arg8 : DevRef τ sig) = V (main_arg8 : DevRef τ sig) := by
  rw [ops_split, after_append, after_append, after_append, after_append, H_arg8, L3_arg8, L2_arg8, L1_arg8, P0_arg8]

theorem arg9_eq (V : Valuation τ sig (Elt F)) : after ops V (main_arg9 : DevRef τ sig) = V (main_arg9 : DevRef τ sig) := by
  rw [ops_split, after_append, after_append, after_append, after_append, H_arg9, L3_arg9, L2_arg9, L1_arg9, P0_arg9]

theorem arg10_eq (V : Valuation τ sig (Elt F)) : after ops V (main_arg10 : DevRef τ sig) = V (main_arg10 : DevRef τ sig) := by
  rw [ops_split, after_append, after_append, after_append, after_append, H_arg10, L3_arg10, L2_arg10, L1_arg10, P0_arg10]

theorem arg11_eq (V : Valuation τ sig (Elt F)) : after ops V (main_arg11 : DevRef τ sig) = V (main_arg11 : DevRef τ sig) := by
  rw [ops_split, after_append, after_append, after_append, after_append, H_arg11, L3_arg11, L2_arg11, L1_arg11, P0_arg11]

theorem arg12_eq (V : Valuation τ sig (Elt F)) : after ops V (main_arg12 : DevRef τ sig) = V (main_arg12 : DevRef τ sig) := by
  rw [ops_split, after_append, after_append, after_append, after_append, H_arg12, L3_arg12, L2_arg12, L1_arg12, P0_arg12]

theorem arg13_eq (V : Valuation τ sig (Elt F)) : after ops V (main_arg13 : DevRef τ sig) = V (main_arg13 : DevRef τ sig) := by
  rw [ops_split, after_append, after_append, after_append, after_append, H_arg13, L3_arg13, L2_arg13, L1_arg13, P0_arg13]

theorem arg14_eq (V : Valuation τ sig (Elt F)) : after ops V (main_arg14 : DevRef τ sig) = V (main_arg14 : DevRef τ sig) := by
  rw [ops_split, after_append, after_append, after_append, after_append, H_arg14, L3_arg14, L2_arg14, L1_arg14, P0_arg14]

theorem arg15_eq (V : Valuation τ sig (Elt F)) : after ops V (main_arg15 : DevRef τ sig) = V (main_arg15 : DevRef τ sig) := by
  rw [ops_split, after_append, after_append, after_append, after_append, H_arg15, L3_arg15, L2_arg15, L1_arg15, P0_arg15]

theorem arg16_eq (V : Valuation τ sig (Elt F)) : after ops V (main_arg16 : DevRef τ sig) = V (main_arg16 : DevRef τ sig) := by
  rw [ops_split, after_append, after_append, after_append, after_append, H_arg16, L3_arg16, L2_arg16, L1_arg16, P0_arg16]

theorem arg17_eq (V : Valuation τ sig (Elt F)) : after ops V (main_arg17 : DevRef τ sig) = V (main_arg17 : DevRef τ sig) := by
  rw [ops_split, after_append, after_append, after_append, after_append, H_arg17, L3_arg17, L2_arg17, L1_arg17, P0_arg17]

theorem arg18_eq (V : Valuation τ sig (Elt F)) : after ops V (main_arg18 : DevRef τ sig) = V (main_arg18 : DevRef τ sig) := by
  rw [ops_split, after_append, after_append, after_append, after_append, H_arg18, L3_arg18, L2_arg18, L1_arg18, P0_arg18]

/-! ## The run -/

set_option maxRecDepth 8192 in
set_option maxHeartbeats 4000000 in
/-- On every device, for any float values, from any memory with zero counters: every weakly fair execution of
    @main terminates with the result at `refOut` of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v132)
          = refOut (F := F) (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
              (m ((c.tc : Thread nD τ).loc main_arg15))
              (m ((c.tc : Thread nD τ).loc main_arg16))
              (m ((c.tc : Thread nD τ).loc main_arg17))
              (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v132).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _)⟩)
    (run_seq scopedRefs_eq scopedSems_eq defs main (fun _ => ops) main_eq (fun _ => ops_sub) m ρ)

end Cert.ReferenceIdeal.RefRun

end
-- ==== Proof.RefFrame.lean ====
import proofs.«144698_j9466107920964_1_alg».proof.Proof.RefRun
import proofs.«144698_j9466107920964_1_alg».proof.Proof.Gen.Pre_finite_inputs
import proofs.«144698_j9466107920964_1_alg».proof.Defs

/-!
# The reference's frame

The reference runs to the end, faults nowhere and leaves its nineteen argument arrays unchanged: the run's post less
its first conjunct, at the extended reals.
-/

noncomputable section

namespace Cert.ReferenceIdeal.RefRun

open Idealize.ShloMosaic Idealize.SL.Sem

theorem frame_ri : Cert.frame_ReferenceIdeal := fun m ρ _ =>
  (θ_run Cert.ReferenceIdeal.defs _ _).mono (fun _ h c => (h c).2) (run (F := Ideal) m ρ)

end Cert.ReferenceIdeal.RefRun

end
-- ==== Proof.LibERealBridge.lean ====
/-
  The float operations of the extended-real ("ideal") instance, at real arguments, are the real operations.

  An extended real is -∞, +∞ or a real. The instance's exp, tanh and quotient are defined by cases on that, and the sums,
  products and maxima are those of the extended reals; at reals every one of them is the real operation, carried into the
  extended reals by the inclusion. These are the lemmas that move a formula whose inputs are all real from the extended reals
  down to the reals, one operation at a time: the exponential, the hyperbolic tangent, a quotient with a nonzero denominator,
  a finite sum, a finite sum of products, a maximum (of two, and of a nonempty finite family folded from -∞), an absolute
  value written as a maximum with the negation, and the remark that an extended real that is neither infinity is a real.
-/
import Idealize.ShloMosaic.PureOps.Ideal

namespace LibERealBridge

open Idealize.ShloMosaic
open scoped BigOperators

/-- The instance's exponential at a real is the real exponential. -/
theorem exp_coe (r : ℝ) : Ideal.exp (r : EReal) = ((Real.exp r : ℝ) : EReal) := Ideal.exp_coe r

/-- The instance's hyperbolic tangent at a real is the real hyperbolic tangent. -/
theorem tanh_coe (r : ℝ) : Ideal.tanh (r : EReal) = ((Real.tanh r : ℝ) : EReal) := Ideal.tanh_coe r

/-- The instance's quotient of two reals, the second not zero, is the real quotient. -/
theorem div_coe_coe (x y : ℝ) (hy : y ≠ 0) : Ideal.div (x : EReal) (y : EReal) = ((x / y : ℝ) : EReal) := by
  rw [Ideal.div_coe hy, ← EReal.coe_mul, mul_one_div]

/-- The inclusion of the reals carries a finite sum to the sum of the inclusions. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- A finite sum of products of reals, taken in the extended reals, is the real sum of the real products. -/
theorem sum_mul_coe {ι : Type*} (t : Finset ι) (f g : ι → ℝ) :
    (∑ i ∈ t, ((f i : ℝ) : EReal) * ((g i : ℝ) : EReal)) = ((∑ i ∈ t, f i * g i : ℝ) : EReal) := by
  rw [coe_finset_sum]
  exact Finset.sum_congr rfl fun i _ => (EReal.coe_mul (f i) (g i)).symm

/-- A finite sum of products of reals, taken in the extended reals, is a real. -/
theorem sum_exists_real {ι : Type*} (t : Finset ι) (f g : ι → ℝ) :
    ∃ r : ℝ, (∑ i ∈ t, ((f i : ℝ) : EReal) * ((g i : ℝ) : EReal)) = (r : EReal) :=
  ⟨∑ i ∈ t, f i * g i, sum_mul_coe t f g⟩

/-- The maximum of two reals, taken in the extended reals, is the real maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The maximum of a real and its negation, taken in the extended reals, is the real absolute value. -/
theorem abs_coe (x : ℝ) : max (x : EReal) (-(x : EReal)) = ((|x| : ℝ) : EReal) := by
  rw [← EReal.coe_neg, max_coe, abs_eq_max_neg]

/-- The maximum of a nonempty finite family of reals, folded in the extended reals from -∞, is the real maximum of the
    family. -/
theorem fold_max_coe {n : ℕ} (f : Fin (n + 1) → ℝ) :
    Finset.univ.fold max (⊥ : EReal) (fun i => (f i : EReal))
      = ((Finset.univ.sup' Finset.univ_nonempty f : ℝ) : EReal) := by
  apply le_antisymm
  · rw [Finset.fold_max_le]
    exact ⟨bot_le, fun i hi => EReal.coe_le_coe_iff.mpr (Finset.le_sup' f hi)⟩
  · obtain ⟨i, hi, h⟩ := Finset.exists_mem_eq_sup' Finset.univ_nonempty f
    rw [h, Finset.le_fold_max]
    exact Or.inr ⟨i, hi, le_rfl⟩

/-- An extended real that is neither infinity is a real. -/
theorem exists_real_of_ne (x : EReal) (h1 : x ≠ ⊤) (h2 : x ≠ ⊥) : ∃ r : ℝ, x = (r : EReal) :=
  ⟨x.toReal, (EReal.coe_toReal h1 h2).symm⟩

end LibERealBridge
-- ==== Proof.LibIsReal.lean ====
/-
  Extended reals that are real numbers, and the operations that keep them so.

  An extended real is -∞, +∞ or a real. A float computation whose inputs are all real and whose operations are sums,
  differences, products, maxima, finite sums, the logistic function, a quotient by a nonzero real, or the reciprocal
  square root of a positive real, has a real result: at reals each of these is the real operation. The predicate
  below names "is a real", and the lemmas are its closure under those operations; they are what lets a formula be
  moved from the extended reals, where distributivity and cancellation fail at the infinities, down to the reals.
-/
import proofs.«144698_j9466107920964_1_alg».proof.Proof.LibERealBridge

open scoped BigOperators

namespace Cert.Alg

open Idealize.ShloMosaic LibERealBridge

/-- The extended real x is (the inclusion of) a real number. -/
def IsReal (x : EReal) : Prop := ∃ r : ℝ, x = (r : EReal)

namespace IsReal

/-- The inclusion of a real is a real. -/
theorem coe (r : ℝ) : IsReal (r : EReal) := ⟨r, rfl⟩

/-- Zero is a real. -/
theorem zero : IsReal 0 := ⟨0, rfl⟩

/-- One is a real. -/
theorem one : IsReal 1 := ⟨1, rfl⟩

/-- Anything equal to a real is a real. -/
theorem of_eq {x : EReal} {r : ℝ} (h : x = (r : EReal)) : IsReal x := ⟨r, h⟩

/-- A real is not +∞. -/
theorem ne_top {x : EReal} (hx : IsReal x) : x ≠ ⊤ := by
  obtain ⟨a, rfl⟩ := hx; exact EReal.coe_ne_top a

/-- A real is not -∞. -/
theorem ne_bot {x : EReal} (hx : IsReal x) : x ≠ ⊥ := by
  obtain ⟨a, rfl⟩ := hx; exact EReal.coe_ne_bot a

/-- An extended real that is neither infinity is a real. -/
theorem of_ne {x : EReal} (h1 : x ≠ ⊤) (h2 : x ≠ ⊥) : IsReal x := exists_real_of_ne x h1 h2

/-- A real is the inclusion of its real part. -/
theorem coe_toReal {x : EReal} (hx : IsReal x) : ((x.toReal : ℝ) : EReal) = x :=
  EReal.coe_toReal hx.ne_top hx.ne_bot

/-- The sum of two reals is a real. -/
theorem add {x y : EReal} (hx : IsReal x) (hy : IsReal y) : IsReal (x + y) := by
  obtain ⟨a, rfl⟩ := hx; obtain ⟨b, rfl⟩ := hy; exact ⟨a + b, (EReal.coe_add a b).symm⟩

/-- The negation of a real is a real. -/
theorem neg {x : EReal} (hx : IsReal x) : IsReal (-x) := by
  obtain ⟨a, rfl⟩ := hx; exact ⟨-a, (EReal.coe_neg a).symm⟩

/-- The difference of two reals is a real. -/
theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem mul {x y : EReal} (hx : IsReal x) (hy : IsReal y) : IsReal (x * y) := by
  obtain ⟨a, rfl⟩ := hx; obtain ⟨b, rfl⟩ := hy; exact ⟨a * b, (EReal.coe_mul a b).symm⟩

/-- The maximum of two reals is a real. -/
theorem max {x y : EReal} (hx : IsReal x) (hy : IsReal y) : IsReal (max x y) := by
  obtain ⟨a, rfl⟩ := hx; obtain ⟨b, rfl⟩ := hy; exact ⟨_, max_coe a b⟩

/-- A finite sum of reals is a real. -/
theorem sum {ι : Type*} (t : Finset ι) (f : ι → EReal) (h : ∀ i ∈ t, IsReal (f i)) : IsReal (∑ i ∈ t, f i) := by
  classical
  induction t using Finset.induction_on with
  | empty => rw [Finset.sum_empty]; exact zero
  | insert a s ha ih =>
    rw [Finset.sum_insert ha]
    exact add (h a (Finset.mem_insert_self a s)) (ih fun i hi => h i (Finset.mem_insert_of_mem hi))

/-- A sum of reals over a finite type is a real. -/
theorem sum_univ {ι : Type*} [Fintype ι] (f : ι → EReal) (h : ∀ i, IsReal (f i)) : IsReal (∑ i, f i) :=
  sum Finset.univ f fun i _ => h i

/-- The logistic function 1 / (1 + e^(-x)) of a real is a real. -/
theorem logistic {x : EReal} (hx : IsReal x) : IsReal (Ideal.logistic x) := by
  obtain ⟨a, rfl⟩ := hx; exact ⟨_, Ideal.logistic_coe a⟩

/-- The exponential of a real is a real. -/
theorem exp {x : EReal} (hx : IsReal x) : IsReal (Ideal.exp x) := by
  obtain ⟨a, rfl⟩ := hx; exact ⟨_, Ideal.exp_coe a⟩

/-- The quotient of a real by a nonzero real is a real. -/
theorem div_coe {x : EReal} (hx : IsReal x) {c : ℝ} (hc : c ≠ 0) : IsReal (Ideal.div x (c : EReal)) := by
  obtain ⟨a, rfl⟩ := hx; exact ⟨a / c, div_coe_coe a c hc⟩

/-- The quotient of a real by a real that is not zero is a real. -/
theorem div {x y : EReal} (hx : IsReal x) (hy : IsReal y) (hy0 : y ≠ 0) : IsReal (Ideal.div x y) := by
  obtain ⟨b, rfl⟩ := hy
  exact div_coe hx (fun hb => hy0 (by rw [hb]; rfl))

/-- The reciprocal square root of a positive real is a real. -/
theorem rsqrt_pos {x : EReal} (hx : IsReal x) (h0 : 0 < x) : IsReal (Ideal.rsqrt x) := by
  obtain ⟨a, rfl⟩ := hx
  have ha : 0 < a := by exact_mod_cast h0
  refine ⟨(Real.sqrt a)⁻¹, ?_⟩
  rw [Ideal.rsqrt_coe, if_neg (not_lt.mpr ha.le), if_neg ha.ne']

/-- The sum of two reals, the first nonnegative and the second positive, is positive. -/
theorem add_pos_of_nonneg_of_pos {x y : EReal} (hx : 0 ≤ x) (hy : 0 < y) : 0 < x + y := by
  calc (0 : EReal) < y := hy
    _ = 0 + y := (zero_add y).symm
    _ ≤ x + y := add_le_add hx le_rfl

end IsReal

end Cert.Alg
-- ==== Proof.LibIdealReal.lean ====
/-
  The ideal float instance on finite values, read as real arithmetic.

  At the ideal instance a float is an extended real and every operation is the exact one.  On values that are
  coercions of reals the operations stay inside the reals: sums, products, differences, maxima, quotients by a
  nonzero real, exponentials and square roots of nonnegative reals all are the coercion of the real operation.
  This file states those facts in the spellings programs use (the scalar field of the instance, the vector
  operation read at an index, the host's variant of the operation), gives the extended reals that four binary32
  words denote, the behaviour of the operations at the bottom element (the value a running maximum starts
  from), and reads a maximum taken by folding `max` from the bottom element over finitely many coerced reals
  as the coercion of the real maximum.

  General: nothing here mentions a program.  It imports only the library's ideal instance (PureOps/Ideal.lean), the laws
  of that instance (PureOps/Ideal/Laws.lean: reductions over one axis as folds and sums) and indices by coordinates
  (Lib/ValueIdx.lean).

  Contents (namespace Cert.IdealReal):
    coe_sum, coe_sum_univ          coercion commutes with finite sums
    coe_mul', coe_add', coe_sub', coe_max'   the arithmetic on coerced reals, oriented towards the reals
    div_coe_coe                    Ideal.div ↑a ↑b = ↑(a / b) for b ≠ 0
    exp_coe', exp_bot', sqrt_coe_nonneg       exponential and square root on coerced reals
    bot_sub_coe, max_bot_left, max_bot_right, coe_sub_bot …    the bottom element
    *_apply                        vector operations read at an index
    ofBits_eps, ofBits_sixteenth, ofBits_neg_inf, ofBits_zero  four binary32 words
    fold_max_bot_coe               the fold of max from ⊥ over coerced reals is the coerced real maximum
    exp_bot_sub_coe, sum_coe_mul_coe, sqrt_sum_mul_self       small compositions of the above
    sup'_univ_split, sum_univ_split, exp_sub_mul_sum_exp, exp_sub_mul_sum_exp_mul
                                   a maximum or sum over a range cut in two; rescaled sums of exponentials
    multiReduction_maximumf_coe, multiReduction_add_coe, hostReduce_maximumf_coe, hostReduceAdd_coe
                                   a maximum / sum reduction over one axis whose source elements are coerced reals
-/
import Idealize.ShloMosaic.PureOps.Ideal
import Idealize.ShloMosaic.PureOps.Ideal.Laws
import Idealize.ShloMosaic.Lib.ValueIdx

noncomputable section

namespace Cert.IdealReal

open Idealize.ShloMosaic

/-! ## Sums -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ i, f i : ℝ) : EReal) = ∑ i, ((f i : ℝ) : EReal) := coe_sum Finset.univ f

/-! ## Arithmetic on coerced reals, oriented towards the reals -/

theorem coe_mul' (a b : ℝ) : ((a : ℝ) : EReal) * ((b : ℝ) : EReal) = ((a * b : ℝ) : EReal) := (EReal.coe_mul a b).symm
theorem coe_add' (a b : ℝ) : ((a : ℝ) : EReal) + ((b : ℝ) : EReal) = ((a + b : ℝ) : EReal) := (EReal.coe_add a b).symm
theorem coe_sub' (a b : ℝ) : ((a : ℝ) : EReal) - ((b : ℝ) : EReal) = ((a - b : ℝ) : EReal) := (EReal.coe_sub a b).symm
theorem coe_max' (a b : ℝ) : max ((a : ℝ) : EReal) ((b : ℝ) : EReal) = ((max a b : ℝ) : EReal) :=
  (EReal.coe_strictMono.monotone.map_max (a := a) (b := b)).symm

/-- The ideal instance's division of a real by a nonzero real is the real quotient. -/
theorem div_coe_coe (a : ℝ) {b : ℝ} (hb : b ≠ 0) : Ideal.div ((a : ℝ) : EReal) ((b : ℝ) : EReal) = ((a / b : ℝ) : EReal) := by
  rw [Ideal.div_coe hb, ← EReal.coe_mul, mul_one_div]

/-- The exponential of a real. -/
theorem exp_coe' (a : ℝ) : Ideal.exp ((a : ℝ) : EReal) = ((Real.exp a : ℝ) : EReal) := rfl
/-- The exponential of the bottom element is zero. -/
theorem exp_bot' : Ideal.exp ⊥ = 0 := rfl
/-- The square root of a nonnegative real. -/
theorem sqrt_coe_nonneg {a : ℝ} (ha : 0 ≤ a) : Ideal.sqrt ((a : ℝ) : EReal) = ((Real.sqrt a : ℝ) : EReal) := by
  rw [Ideal.sqrt_coe, if_neg (not_lt.mpr ha)]

/-! ## The bottom element -/

theorem bot_sub_coe (a : ℝ) : (⊥ : EReal) - ((a : ℝ) : EReal) = ⊥ := EReal.bot_sub _
theorem max_bot_left (x : EReal) : max ⊥ x = x := max_eq_right bot_le
theorem max_bot_right (x : EReal) : max x ⊥ = x := max_eq_left bot_le

/-! ## Vector operations read at an index (the ones Lib/ValueIdx.lean does not list) -/

section Apply
variable {s : Shape} {φ : FTy}

theorem exp_apply (x : FVec Ideal s φ) (i : s.Idx) : exp x i = Ideal.exp (x i) := rfl
theorem sqrt_apply (x : FVec Ideal s φ) (i : s.Idx) : sqrt x i = Ideal.sqrt (x i) := rfl
theorem hostExp_apply (x : FVec Ideal s φ) (i : s.Idx) : Host.exp x i = Ideal.exp (x i) := rfl
theorem hostSqrt_apply (x : FVec Ideal s φ) (i : s.Idx) : Host.sqrt x i = Ideal.sqrt (x i) := rfl
theorem hostDivf_apply (x y : FVec Ideal s φ) (i : s.Idx) : Host.divf x y i = Ideal.div (x i) (y i) := rfl
theorem hostAbsf_apply (x : FVec Ideal s φ) (i : s.Idx) : Host.absf x i = max (x i) (-(x i)) := rfl
theorem broadcast_ofBits_apply (b : BitVec φ.bits) (i : s.Idx) :
    broadcast s (Scalar.ofBits (F := Ideal) φ b) i = Ideal.ofBits φ b := rfl
theorem scalar_ofBits (b : BitVec φ.bits) : Scalar.ofBits (F := Ideal) φ b = Ideal.ofBits φ b := rfl

end Apply

/-! ## Four binary32 words -/

/-- The word 0x2B8CBCCC: exponent field 87, fraction 834764, so (2²³ + 834764) · 2^(87 − 127 − 23) = 9223372 · 2⁻⁶³. -/
theorem ofBits_eps : Ideal.ofBits .f32 0x2B8CBCCC#32 = (((9223372 : ℝ) / 2 ^ 63 : ℝ) : EReal) := by
  simp [Ideal.ofBits, Ideal.ieee, -EReal.coe_mul]; norm_num

/-- The word 0x3D800000: exponent field 123, fraction 0, so 2²³ · 2^(123 − 127 − 23) = 2⁻⁴. -/
theorem ofBits_sixteenth : Ideal.ofBits .f32 0x3D800000#32 = (((1 : ℝ) / 16 : ℝ) : EReal) := by
  simp [Ideal.ofBits, Ideal.ieee, -EReal.coe_mul]; norm_num

/-- The word 0xFF800000 is the negative infinity: the bottom element. -/
theorem ofBits_neg_inf : Ideal.ofBits .f32 0xFF800000#32 = ⊥ := by
  simp [Ideal.ofBits, Ideal.ieee]

/-- The word 0x7F800000 is the positive infinity: the top element. -/
theorem ofBits_pos_inf : Ideal.ofBits .f32 0x7F800000#32 = ⊤ := by
  simp [Ideal.ofBits, Ideal.ieee]

/-- The zero word is zero. -/
theorem ofBits_zero : Ideal.ofBits .f32 0x00000000#32 = 0 := Ideal.ofBits_zero_f32

/-! ## Maxima and sums over one axis, on coerced reals -/

/-- Folding `max` from the bottom element over finitely many coerced reals gives the coercion of their real maximum. -/
theorem fold_max_bot_coe {ι : Type} (s : Finset ι) (hs : s.Nonempty) (f : ι → ℝ) :
    s.fold max (⊥ : EReal) (fun j => ((f j : ℝ) : EReal)) = ((s.sup' hs f : ℝ) : EReal) := by
  classical
  induction hs using Finset.Nonempty.cons_induction with
  | singleton a => simp
  | cons a s ha hs ih =>
    rw [Finset.fold_cons, ih, Finset.sup'_cons hs]
    exact (EReal.coe_strictMono.monotone.map_max).symm

/-- A binary32 maximum reduction over one axis, started from the negative infinity, read at a result index at which
    every source element along the axis is a coerced real: the coercion of the real maximum over the axis. -/
theorem multiReduction_maximumf_coe {s t : Shape} {a : Fin s.rank} (src : FVec Ideal s .f32)
    (h : s.Reduces [a] t) (hφ : FKind.Formats .f32) (hacc : (0xFF800000#32 : BitVec 32) = FKind.maximumf.neutral .f32 hφ) (j : t.Idx)
    (H : (Finset.univ : Finset (Fin (s.size a))).Nonempty) (f : Fin (s.size a) → ℝ)
    (hf : ∀ k, src (h.lift j k) = ((f k : ℝ) : EReal)) :
    multiReduction .maximumf [a] t src 0xFF800000#32 h hφ hacc j = ((Finset.univ.sup' H f : ℝ) : EReal) := by
  rw [Ideal.multiReduction_maximumf_single]
  have e : (src ∘ h.lift j) = fun k => ((f k : ℝ) : EReal) := funext hf
  rw [e, Ideal.ofBits_def, ofBits_neg_inf]
  exact fold_max_bot_coe _ H f

/-- A binary32 sum reduction over one axis, read at a result index at which every source element along the axis is a
    coerced real: the coercion of the real sum over the axis. -/
theorem multiReduction_add_coe {s t : Shape} {a : Fin s.rank} (src : FVec Ideal s .f32)
    (h : s.Reduces [a] t) (hφ : FKind.Formats .f32) (hacc : (0x00000000#32 : BitVec 32) = FKind.add.neutral .f32 hφ) (j : t.Idx)
    (f : Fin (s.size a) → ℝ) (hf : ∀ k, src (h.lift j k) = ((f k : ℝ) : EReal)) :
    multiReduction .add [a] t src 0x00000000#32 h hφ hacc j = ((∑ k, f k : ℝ) : EReal) := by
  rw [Ideal.multiReduction_add_single, coe_sum_univ]
  exact Finset.sum_congr rfl fun k _ => hf k

/-- The host's maximum reduction over one axis from an initial value that is the bottom element, likewise. -/
theorem hostReduce_maximumf_coe {s t u : Shape} {a : Fin s.rank} (x : FVec Ideal s .f32) (init : FVec Ideal u .f32)
    (h' : s.ReducesTo [a] t) (h : s.Reduces [a] t) (hu : 0 < u.numel) (j : t.Idx)
    (hinit : init (Shape.Idx.first hu) = ⊥)
    (H : (Finset.univ : Finset (Fin (s.size a))).Nonempty) (f : Fin (s.size a) → ℝ)
    (hf : ∀ k, x (h.lift j k) = ((f k : ℝ) : EReal)) :
    Host.reduce (FloatOps.maximumf (F := Ideal) (φ := .f32)) x init h' hu j = ((Finset.univ.sup' H f : ℝ) : EReal) := by
  rw [Host.reduce_eq_fold_single _ x init h' h hu j]
  have e : (x ∘ h.lift j) = fun k => ((f k : ℝ) : EReal) := funext hf
  rw [e, hinit]
  exact fold_max_bot_coe _ H f

/-- The host's sum reduction over one axis from an initial value that is zero, likewise. -/
theorem hostReduceAdd_coe {s t u : Shape} {a : Fin s.rank} (x : FVec Ideal s .f32) (init : FVec Ideal u .f32)
    (h' : s.ReducesTo [a] t) (h : s.Reduces [a] t) (hu : 0 < u.numel) (j : t.Idx)
    (hinit : init (Shape.Idx.first hu) = 0)
    (f : Fin (s.size a) → ℝ) (hf : ∀ k, x (h.lift j k) = ((f k : ℝ) : EReal)) :
    Host.reduceAdd x init h' hu j = ((∑ k, f k : ℝ) : EReal) := by
  unfold Host.reduceAdd
  rw [Ideal.hostReduceAdd_def, Ideal.hostReduceAdd_single h' h, hinit, zero_add, coe_sum_univ]
  exact Finset.sum_congr rfl fun k _ => hf k

/-- The exponential of the bottom element minus a real is zero (the rescaling factor of a running sum whose running
    maximum is still the bottom element). -/
theorem exp_bot_sub_coe (a : ℝ) : Ideal.exp ((⊥ : EReal) - ((a : ℝ) : EReal)) = 0 := by
  rw [bot_sub_coe]; rfl

/-- A sum of products of coerced reals is the coercion of the real sum of products (a contraction read on reals). -/
theorem sum_coe_mul_coe {ι : Type} [Fintype ι] (f g : ι → ℝ) :
    ∑ k, ((f k : ℝ) : EReal) * ((g k : ℝ) : EReal) = ((∑ k, f k * g k : ℝ) : EReal) := by
  rw [coe_sum_univ]; exact Finset.sum_congr rfl fun k _ => coe_mul' _ _

/-- The square root of a coerced sum of squares. -/
theorem sqrt_sum_mul_self {ι : Type} [Fintype ι] (f : ι → ℝ) :
    Ideal.sqrt ((∑ d, f d * f d : ℝ) : EReal) = ((Real.sqrt (∑ d, f d * f d) : ℝ) : EReal) :=
  sqrt_coe_nonneg (Finset.sum_nonneg fun d _ => mul_self_nonneg _)

/-! ## An index range cut in two, and rescaled sums of exponentials (real arithmetic) -/

/-- The maximum over an index range cut in two is the larger of the two parts' maxima. -/
theorem sup'_univ_split {m n N : ℕ} (hN : m + n = N) (f : Fin N → ℝ)
    (H : (Finset.univ : Finset (Fin N)).Nonempty) (H1 : (Finset.univ : Finset (Fin m)).Nonempty)
    (H2 : (Finset.univ : Finset (Fin n)).Nonempty) :
    Finset.univ.sup' H f
      = max (Finset.univ.sup' H1 fun i : Fin m => f ⟨i.val, by omega⟩)
            (Finset.univ.sup' H2 fun i : Fin n => f ⟨m + i.val, by omega⟩) := by
  subst hN
  apply le_antisymm
  · apply Finset.sup'_le
    intro i _
    refine Fin.addCases (motive := fun i => f i ≤ _) (fun i => ?_) (fun i => ?_) i
    · exact le_max_of_le_left (Finset.le_sup' (fun i : Fin m => f ⟨i.val, by omega⟩) (Finset.mem_univ i))
    · exact le_max_of_le_right (Finset.le_sup' (fun i : Fin n => f ⟨m + i.val, by omega⟩) (Finset.mem_univ i))
  · apply max_le
    · apply Finset.sup'_le
      intro i _
      exact Finset.le_sup' f (Finset.mem_univ _)
    · apply Finset.sup'_le
      intro i _
      exact Finset.le_sup' f (Finset.mem_univ _)

/-- A sum over an index range cut in two is the sum of the two parts' sums. -/
theorem sum_univ_split {M : Type} [AddCommMonoid M] {m n N : ℕ} (hN : m + n = N) (f : Fin N → M) :
    ∑ k, f k = (∑ i : Fin m, f ⟨i.val, by omega⟩) + ∑ i : Fin n, f ⟨m + i.val, by omega⟩ := by
  subst hN
  rw [Fin.sum_univ_add]
  rfl

/-- Moving a sum of exponentials from the reference point a to the reference point b multiplies it by exp (a − b). -/
theorem exp_sub_mul_sum_exp {ι : Type} (s : Finset ι) (g : ι → ℝ) (a b : ℝ) :
    Real.exp (a - b) * ∑ j ∈ s, Real.exp (g j - a) = ∑ j ∈ s, Real.exp (g j - b) := by
  rw [Finset.mul_sum]
  refine Finset.sum_congr rfl fun j _ => ?_
  rw [← Real.exp_add]
  congr 1; ring

/-- The same for a sum of exponentials weighted by further factors. -/
theorem exp_sub_mul_sum_exp_mul {ι : Type} (s : Finset ι) (g v : ι → ℝ) (a b : ℝ) :
    Real.exp (a - b) * ∑ j ∈ s, Real.exp (g j - a) * v j = ∑ j ∈ s, Real.exp (g j - b) * v j := by
  rw [Finset.mul_sum]
  refine Finset.sum_congr rfl fun j _ => ?_
  rw [← mul_assoc, ← Real.exp_add]
  congr 2; ring

end Cert.IdealReal

end
-- ==== Proof.LibRealVec.lean ====
/-
  Arrays of extended reals all of whose entries are real numbers, and the array operations that keep them so.

  An extended real is -∞, +∞ or a real. The laws that rearrange a formula (distributivity, cancellation) fail at the
  infinities, so a formula is moved down to the reals first, and for that every intermediate array has to consist of
  reals. This file names "every entry is a real" for a family of extended reals and proves that it is preserved by the
  array operations of a message-passing chain, each stated for arbitrary shapes and arbitrary dimension numbers:
  entrywise sum, difference, product and maximum; a broadcast (of one real, or of a real array along some axes); a
  gather (every result entry IS an operand entry); an accumulating scatter (every result entry is an operand entry plus
  a finite sum of update entries); a contraction (an accumulator entry plus a finite sum of products); a sum
  reduction; and the entrywise quotient by an array of reals none of which is zero, in particular by reals that are
  at least one. It ends with the way in: an entry whose absolute value is below +∞ is a real.
-/
import Idealize.ShloMosaic.PureOps.Ideal
import Idealize.ShloMosaic.PureOps.Ideal.Laws
import Idealize.ShloMosaic.Lib.ValueIdx
import proofs.«144698_j9466107920964_1_alg».proof.Proof.LibIsReal
import proofs.«144698_j9466107920964_1_alg».proof.Proof.LibIdealReal

noncomputable section

open scoped BigOperators

namespace Cert.RealVec

open Idealize.ShloMosaic Idealize.ShloMosaic.ValueIdx Cert.Alg

/-- Every entry of the family is (the inclusion of) a real number. -/
def IsRealV {ι : Type*} (v : ι → EReal) : Prop := ∀ i, ∃ r : ℝ, v i = (r : EReal)

/-- The same, said entry by entry with the scalar predicate. -/
theorem isRealV_iff {ι : Type*} (v : ι → EReal) : IsRealV v ↔ ∀ i, IsReal (v i) := Iff.rfl

/-- A family of inclusions of reals is real. -/
theorem isRealV_coe {ι : Type*} (f : ι → ℝ) : IsRealV (fun i => ((f i : ℝ) : EReal)) := fun i => ⟨f i, rfl⟩

/-- A real family is the family of inclusions of its real parts. -/
theorem IsRealV.exists_real {ι : Type*} {v : ι → EReal} (h : IsRealV v) : ∃ f : ι → ℝ, v = fun i => ((f i : ℝ) : EReal) := by
  choose f hf using h
  exact ⟨f, funext hf⟩

/-- Reading a real family along any map of indices gives a real family. -/
theorem IsRealV.comp {ι κ : Type*} {v : ι → EReal} (h : IsRealV v) (g : κ → ι) : IsRealV (fun j => v (g j)) :=
  fun j => h (g j)

/-! ## Entrywise arithmetic -/

section Entrywise
variable {s : Shape} {φ : FTy}

/-- The entrywise sum of two real arrays is real. -/
theorem IsRealV.addf {a b : FVec Ideal s φ} (ha : IsRealV a) (hb : IsRealV b) : IsRealV (addf a b) :=
  fun i => IsReal.add (ha i) (hb i)

/-- The entrywise difference of two real arrays is real. -/
theorem IsRealV.subf {a b : FVec Ideal s φ} (ha : IsRealV a) (hb : IsRealV b) : IsRealV (subf a b) :=
  fun i => IsReal.sub (ha i) (hb i)

/-- The entrywise product of two real arrays is real. -/
theorem IsRealV.mulf {a b : FVec Ideal s φ} (ha : IsRealV a) (hb : IsRealV b) : IsRealV (mulf a b) :=
  fun i => IsReal.mul (ha i) (hb i)

/-- The entrywise maximum of two real arrays is real. -/
theorem IsRealV.maximumf {a b : FVec Ideal s φ} (ha : IsRealV a) (hb : IsRealV b) : IsRealV (maximumf a b) :=
  fun i => IsReal.max (ha i) (hb i)

/-- The entrywise maximum with a real array is at least that array: a lower clip at 1 gives entries that are at least 1. -/
theorem le_maximumf_left (a b : FVec Ideal s φ) (i : s.Idx) : a i ≤ maximumf a b i := le_max_left _ _

theorem le_maximumf_right (a b : FVec Ideal s φ) (i : s.Idx) : b i ≤ maximumf a b i := le_max_right _ _

/-- The entrywise quotient of a real array by a real array with no zero entry is real. -/
theorem IsRealV.hostDivf {a b : FVec Ideal s φ} (ha : IsRealV a) (hb : IsRealV b) (h0 : ∀ i, b i ≠ 0) :
    IsRealV (Host.divf a b) :=
  fun i => IsReal.div (ha i) (hb i) (h0 i)

/-- The same for the quotient written inside a kernel. -/
theorem IsRealV.divf {a b : FVec Ideal s φ} (ha : IsRealV a) (hb : IsRealV b) (h0 : ∀ i, b i ≠ 0) :
    IsRealV (divf a b) :=
  fun i => IsReal.div (ha i) (hb i) (h0 i)

/-- An extended real that is at least one is not zero. -/
theorem ne_zero_of_one_le {y : EReal} (h : 1 ≤ y) : y ≠ 0 :=
  fun h0 => absurd (h0 ▸ h) (by norm_num)

/-- The entrywise quotient of a real array by a real array whose entries are all at least one is real. -/
theorem IsRealV.hostDivf_of_one_le {a b : FVec Ideal s φ} (ha : IsRealV a) (hb : IsRealV b) (h1 : ∀ i, 1 ≤ b i) :
    IsRealV (Host.divf a b) :=
  ha.hostDivf hb fun i => ne_zero_of_one_le (h1 i)

/-- The quotient of a real that is not negative by a real that is at least one is a real that is not negative. -/
theorem div_nonneg_real {x y : EReal} (hx : IsReal x) (hx0 : 0 ≤ x) (hy : IsReal y) (h1 : 1 ≤ y) :
    ∃ r : ℝ, 0 ≤ r ∧ Ideal.div x y = (r : EReal) := by
  obtain ⟨a, rfl⟩ := hx
  obtain ⟨b, rfl⟩ := hy
  have ha : 0 ≤ a := by exact_mod_cast hx0
  have hb : 1 ≤ b := by exact_mod_cast h1
  have hb0 : b ≠ 0 := by linarith
  exact ⟨a / b, div_nonneg ha (by linarith), LibERealBridge.div_coe_coe a b hb0⟩

end Entrywise

/-! ## Broadcasts -/

section Broadcast
variable {s t : Shape}

/-- The broadcast of one real is a real array. -/
theorem IsRealV.broadcast {x : EReal} (hx : IsReal x) : IsRealV (broadcast t x) := fun _ => hx

/-- The broadcast of a real array along some axes is real: each result entry is an operand entry. -/
theorem IsRealV.broadcastInDim {x : s.Idx → EReal} (hx : IsRealV x) (dims : Fin s.rank → Fin t.rank)
    (h : s.BroadcastsInDim t dims) : IsRealV (broadcastInDim t dims h x) :=
  fun _ => hx _

end Broadcast

/-! ## Gather and accumulating scatter, for arbitrary dimension numbers -/

section Indexing
variable {s si t u : Shape} {w : Nat}

/-- A gather from a real array is real, whatever the dimension numbers and the indices: each result entry is the
    operand's entry at some index. -/
theorem IsRealV.gather (d : GatherDims s si t) {x : s.Idx → EReal} (hx : IsRealV x) (idx : IVec si w) :
    IsRealV (Host.gather d x idx) :=
  fun _ => hx _

/-- An accumulating scatter of real updates into a real operand is real, whatever the dimension numbers and the
    indices: each result entry is the operand's entry plus a finite sum of update entries. -/
theorem IsRealV.idealScatterAdd (d : ScatterDims s si u) {x : s.Idx → EReal} (hx : IsRealV x) (idx : IVec si w)
    {upd : u.Idx → EReal} (hu : IsRealV upd) : IsRealV (Ideal.hostScatterAdd d x idx upd) :=
  fun i => IsReal.add (hx i) (IsReal.sum _ _ fun j _ => hu j)

/-- The same for the operation as a host program writes it. -/
theorem IsRealV.scatterAdd {φ : FTy} (d : ScatterDims s si u) {x : FVec Ideal s φ} (hx : IsRealV x) (idx : IVec si w)
    {upd : FVec Ideal u φ} (hu : IsRealV upd) : IsRealV (Host.scatterAdd d x idx upd) :=
  IsRealV.idealScatterAdd d hx idx hu

end Indexing

/-! ## Contractions and sum reductions -/

section Contract

/-- A contraction of two real arrays onto a real accumulator is real: each result entry is an accumulator entry plus
    a finite sum of products. -/
theorem IsRealV.matmul {sl sr so : Shape} (d : DotDims sl sr so) {lhs : sl.Idx → EReal} {rhs : sr.Idx → EReal}
    {acc : so.Idx → EReal} (hl : IsRealV lhs) (hr : IsRealV rhs) (ha : IsRealV acc) :
    IsRealV (Ideal.matmul d lhs rhs acc) :=
  fun j => IsReal.add (ha j) (IsReal.sum _ _ fun k _ => IsReal.mul (hl _) (hr _))

/-- The host's sum reduction of a real array from a real initial value is real. -/
theorem IsRealV.hostReduceAdd {s t : Shape} {axes : List (Fin s.rank)} (h : s.ReducesTo axes t) {x : s.Idx → EReal}
    (hx : IsRealV x) {init : EReal} (hi : IsReal init) : IsRealV (Ideal.hostReduceAdd h x init) :=
  fun _ => IsReal.add hi (IsReal.sum _ _ fun i _ => hx i)

end Contract

/-! ## A message-passing hop, composed

  The node factor is 1 / max (1, degree), the degree a scatter of ones into zeros; one hop gathers the rows of the
  feature array along the edges' sources, scales each by its edge weight, scatters the scaled rows into zeros along
  the edges' targets and rescales each node's row by the node factor. Every array on the way is real when the feature
  array and the weights are. The statements take the constant arrays (zeros, ones) as any arrays with those entries,
  and the broadcast weights and factors as any real arrays, so they apply whatever chain of broadcasts produced them. -/

section Chain
variable {φ : FTy}

/-- The binary32 word 0x3F800000 is one. -/
theorem ofBits_one : Ideal.ofBits .f32 0x3F800000#32 = 1 := by
  have h : Ideal.ofBits .f32 0x3F800000#32 = (((1 : ℝ) : ℝ) : EReal) := by
    simp [Ideal.ofBits, Ideal.ieee, -EReal.coe_mul]; norm_num
  rw [h, EReal.coe_one]

/-- The zero word and the one word denote reals. -/
theorem isReal_ofBits_zero : IsReal (Ideal.ofBits .f32 0x00000000#32) := by
  rw [Cert.IdealReal.ofBits_zero]; exact IsReal.zero

theorem isReal_ofBits_one : IsReal (Ideal.ofBits .f32 0x3F800000#32) := by
  rw [ofBits_one]; exact IsReal.one

/-- The node factor 1 / max (1, degree) is a real array: the degree is a scatter of real updates into a real
    operand, the clip at one keeps it real and makes every entry at least one, and the quotient of a real array by
    such an array is real. -/
theorem isRealV_degInv {sN sI sE : Shape} {w : Nat} (dS : ScatterDims sN sI sE) (idx : IVec sI w)
    {zero num one : FVec Ideal sN φ} {ones : FVec Ideal sE φ}
    (hz : IsRealV zero) (ho : IsRealV ones) (h1 : ∀ i, one i = 1) (hnum : IsRealV num) :
    IsRealV (Host.divf num (maximumf one (Host.scatterAdd dS zero idx ones))) := by
  have hone : IsRealV one := fun i => ⟨1, by rw [h1 i, EReal.coe_one]⟩
  refine hnum.hostDivf_of_one_le (hone.maximumf (hz.scatterAdd dS idx ho)) fun i => ?_
  have := le_maximumf_left one (Host.scatterAdd dS zero idx ones) i
  rwa [h1 i] at this

/-- One hop keeps the feature array real: gather along the sources, scale by the (broadcast) edge weights, scatter
    into a real array along the targets, rescale by the (broadcast) node factor. -/
theorem isRealV_hop {sH sIs sId sM : Shape} {w w' : Nat} (dG : GatherDims sH sIs sM) (dS : ScatterDims sH sId sM)
    (idxS : IVec sIs w) (idxD : IVec sId w') {h zero dB : FVec Ideal sH φ} {wB : FVec Ideal sM φ}
    (hh : IsRealV h) (hw : IsRealV wB) (hz : IsRealV zero) (hd : IsRealV dB) :
    IsRealV (mulf (Host.scatterAdd dS zero idxD (mulf (Host.gather dG h idxS) wB)) dB) :=
  (hz.scatterAdd dS idxD (IsRealV.mulf (hh.gather dG idxS) hw)).mulf hd

end Chain

/-! ## The way in: an entry of absolute value below +∞ is a real -/

/-- An extended real whose absolute value (the maximum of it and its negation) is below +∞ is a real. -/
theorem isReal_of_abs_lt_top {x : EReal} (h : max x (-x) < ⊤) : IsReal x := by
  induction x using EReal.rec with
  | bot => exact absurd h (by simp)
  | coe r => exact ⟨r, rfl⟩
  | top => exact absurd h (by simp)

/-- The same with the comparison as a float program makes it: the test "|x| < +∞", +∞ given by its binary32 word,
    answers true. -/
theorem isReal_of_cmp_abs_lt_inf {x : EReal}
    (h : Ideal.cmp .olt (max x (-x)) (Ideal.ofBits .f32 0x7F800000#32) = 1#1) : IsReal x := by
  have h' : BitVec.ofBool (decide (max x (-x) < Ideal.ofBits .f32 0x7F800000#32)) = 1#1 := h
  rw [Cert.IdealReal.ofBits_pos_inf] at h'
  by_cases hlt : max x (-x) < ⊤
  · exact isReal_of_abs_lt_top hlt
  · rw [decide_eq_false hlt] at h'
    exact absurd h' (by decide)

/-- An array every entry of which passes the test "|x| < +∞" against an array of +∞ words is real. -/
theorem isRealV_of_finite {s : Shape} (x inf : FVec Ideal s .f32)
    (hinf : ∀ i, inf i = Ideal.ofBits .f32 0x7F800000#32)
    (h : ∀ i, cmpf .olt (Host.absf x) inf i = 1#1) : IsRealV x := by
  intro i
  have hi : Ideal.cmp .olt (max (x i) (-(x i))) (inf i) = 1#1 := h i
  rw [hinf i] at hi
  exact isReal_of_cmp_abs_lt_inf hi

end Cert.RealVec

end
-- ==== Proof.PreReal.lean ====
/-
  The finiteness precondition, read back: every floating-point argument array consists of real numbers.

  The precondition is one truth value: for each of the seventeen floating-point arrays x, the conjunction over all
  entries of the test |x| < +∞, and then the conjunction of those seventeen values. Over the extended reals an entry
  passes the test exactly when it is neither -∞ nor +∞, that is, when it is a real. A conjunction that is true has
  all its members true, so from the one value being true every entry of every array is a real.
-/
import Idealize.ShloMosaic.Lib.ReduceAll
import proofs.«144698_j9466107920964_1_alg».proof.Pre_finite_inputs
import proofs.«144698_j9466107920964_1_alg».proof.Proof.LibRealVec

noncomputable section

namespace Cert.Gin

open Idealize.ShloMosaic Cert.Pre_finite_inputs Cert.RealVec

/-- The shape with no axes has exactly one index. -/
instance subsingleton_S_Idx : Subsingleton S_.Idx := ⟨fun a b => funext fun d => d.elim0⟩

/-- A conjunction of two truth values (arrays over the shape with no axes) that is true has both members true. -/
theorem andi_true {x y : IVec S_ 1} {j : S_.Idx} (h : andi x y j = 1#1) : x j = 1#1 ∧ y j = 1#1 :=
  IntOp.andi_eq_one.1 h

/-- If the conjunction over all entries of the test |x| < +∞ is true, the array x is real. The array of +∞ words
    is the broadcast of the one-entry constant; every entry of it is that word. -/
theorem isRealV_of_all_finite {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant S_ .f32 0x7F800000#32))) init hr hu j = 1#1) :
    IsRealV x :=
  isRealV_of_finite x _ (fun _ => rfl) (Host.reduce_andi_all _ init hr hu j e)

/-- The precondition gives that each of the seventeen floating-point argument arrays is real. The value is a chain of
    conjunctions nested to the left, so the members come off from the last one inwards. -/
theorem pre_real [Cert.Pre_finite_inputs.Facts]
    (a0 : FVec Ideal S50000x64 .f32) (a1 : IVec S2x800000 32) (a2 : IVec S50000 32)
    (a3 : FVec Ideal S64x256 .f32) (a4 : FVec Ideal S256 .f32) (a5 : FVec Ideal S256 .f32)
    (a6 : FVec Ideal S256 .f32) (a7 : FVec Ideal S256x256 .f32) (a8 : FVec Ideal S256 .f32)
    (a9 : FVec Ideal S256 .f32) (a10 : FVec Ideal S256 .f32) (a11 : FVec Ideal S256x256 .f32)
    (a12 : FVec Ideal S256 .f32) (a13 : FVec Ideal S256 .f32) (a14 : FVec Ideal S256 .f32)
    (a15 : FVec Ideal S256x128 .f32) (a16 : FVec Ideal S128 .f32) (a17 : FVec Ideal S128x1 .f32)
    (a18 : FVec Ideal S1 .f32)
    (h : Cert.Pre_finite_inputs.fn (F := Ideal) a0 a1 a2 a3 a4 a5 a6 a7 a8 a9 a10 a11 a12 a13 a14 a15 a16 a17 a18
          = fun _ => 1#1) :
    IsRealV a0 ∧ IsRealV a3 ∧ IsRealV a4 ∧ IsRealV a5 ∧ IsRealV a6 ∧ IsRealV a7 ∧ IsRealV a8 ∧ IsRealV a9
      ∧ IsRealV a10 ∧ IsRealV a11 ∧ IsRealV a12 ∧ IsRealV a13 ∧ IsRealV a14 ∧ IsRealV a15 ∧ IsRealV a16
      ∧ IsRealV a17 ∧ IsRealV a18 := by
  have e := congrFun h ValueIdx.ix0
  dsimp only [fn, fn_part1, fn_part2, fn_part3, fn_part4] at e
  obtain ⟨e, r18⟩ := andi_true e
  obtain ⟨e, r17⟩ := andi_true e
  obtain ⟨e, r16⟩ := andi_true e
  obtain ⟨e, r15⟩ := andi_true e
  obtain ⟨e, r14⟩ := andi_true e
  obtain ⟨e, r13⟩ := andi_true e
  obtain ⟨e, r12⟩ := andi_true e
  obtain ⟨e, r11⟩ := andi_true e
  obtain ⟨e, r10⟩ := andi_true e
  obtain ⟨e, r9⟩ := andi_true e
  obtain ⟨e, r8⟩ := andi_true e
  obtain ⟨e, r7⟩ := andi_true e
  obtain ⟨e, r6⟩ := andi_true e
  obtain ⟨e, r5⟩ := andi_true e
  obtain ⟨e, r4⟩ := andi_true e
  obtain ⟨r0, r3⟩ := andi_true e
  exact ⟨isRealV_of_all_finite a0 _ _ _ _ _ r0, isRealV_of_all_finite a3 _ _ _ _ _ r3,
    isRealV_of_all_finite a4 _ _ _ _ _ r4, isRealV_of_all_finite a5 _ _ _ _ _ r5,
    isRealV_of_all_finite a6 _ _ _ _ _ r6, isRealV_of_all_finite a7 _ _ _ _ _ r7,
    isRealV_of_all_finite a8 _ _ _ _ _ r8, isRealV_of_all_finite a9 _ _ _ _ _ r9,
    isRealV_of_all_finite a10 _ _ _ _ _ r10, isRealV_of_all_finite a11 _ _ _ _ _ r11,
    isRealV_of_all_finite a12 _ _ _ _ _ r12, isRealV_of_all_finite a13 _ _ _ _ _ r13,
    isRealV_of_all_finite a14 _ _ _ _ _ r14, isRealV_of_all_finite a15 _ _ _ _ _ r15,
    isRealV_of_all_finite a16 _ _ _ _ _ r16, isRealV_of_all_finite a17 _ _ _ _ _ r17,
    isRealV_of_all_finite a18 _ _ _ _ _ r18⟩

end Cert.Gin

end
-- ==== Proof.KVal.lean ====
import proofs.«144698_j9466107920964_1_alg».proof.Proof.Fold
import proofs.«144698_j9466107920964_1_alg».proof.Proof.Kept
import Idealize.ShloMosaic.Lib.StableHlo.Run

/-! The idealized kernel's host operations read back: what each stretch leaves in the buffers the next region reads,
    as named functions of the buffers before it — the edge list's two rows, the wrapped gather indices, the
    neighbour sums, the parameter rows recast to 1 × n, and the pooling of the node scores. -/

set_option maxRecDepth 16384

noncomputable section

namespace Cert.KernelIdeal.Hand

open Cert.KernelIdeal Cert.KernelIdeal.Gen
open Idealize.ShloMosaic Idealize.ShloMosaic.TcCoe Idealize.SL.Sem

/-- The edges' source nodes: row 0 of the edge list. -/
def kSrc (e : IVec S2x800000 32) : IVec S800000 32 :=
  shapeCast S800000 (extractStridedSlice S1x800000 ![0, 0] e slices_S2x800000_S1x800000_0_0) shapeCasts_S1x800000_S800000
/-- The edges' destination nodes: row 1 of the edge list. -/
def kDst (e : IVec S2x800000 32) : IVec S800000 32 :=
  shapeCast S800000 (extractStridedSlice S1x800000 ![1, 0] e slices_S2x800000_S1x800000_1_0) shapeCasts_S1x800000_S800000
/-- Gather indices: a negative index counts from the end, then one index column per edge. -/
def kWrap (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- Scatter indices: one index column per edge. -/
def kCol (v : IVec S800000 32) : IVec S800000x1 32 := broadcastInDim S800000x1 ![0] bcast_S800000_S800000x1_0 v
/-- The sum over incoming edges of the source rows, 64 features. -/
def kAgg64 (x : FVec Ideal S50000x64 .f32) (src dst : IVec S800000 32) : FVec Ideal S50000x64 .f32 :=
  Host.scatterAdd scatter_S50000x64_S800000x1_S800000x64_1_0_0_1
    (broadcastInDim S50000x64 ![] bcast_S_S50000x64 (constant (F := Ideal) S_ .f32 0x00000000#32)) (kCol dst)
    (Host.gather gather_S50000x64_S800000x1_S800000x64_1_0_n_n_0_1_164 x (kWrap src))
/-- The same over 256 features. -/
def kAgg256 (x : FVec Ideal S50000x256 .f32) (src dst : IVec S800000 32) : FVec Ideal S50000x256 .f32 :=
  Host.scatterAdd scatter_S50000x256_S800000x1_S800000x256_1_0_0_1
    (broadcastInDim S50000x256 ![] bcast_S_S50000x256 (constant (F := Ideal) S_ .f32 0x00000000#32)) (kCol dst)
    (Host.gather gather_S50000x256_S800000x1_S800000x256_1_0_n_n_0_1_1256 x (kWrap src))
/-- The mean of a node score over each of the 64 graphs. -/
def kPool (batch : IVec S50000 32) (s : FVec Ideal S50000x1 .f32) : FVec Ideal S64x1 .f32 :=
  Host.divf
    (Host.scatterAdd scatter_S64x1_S50000x1_S50000x1_1_0_0_1
      (broadcastInDim S64x1 ![] bcast_S_S64x1 (constant (F := Ideal) S_ .f32 0x00000000#32))
      (broadcastInDim S50000x1 ![0] bcast_S50000_S50000x1_0 batch) s)
    (maximumf
      (Host.scatterAdd scatter_S64x1_S50000x1_S50000x1_1_0_0_1
        (broadcastInDim S64x1 ![] bcast_S_S64x1 (constant (F := Ideal) S_ .f32 0x00000000#32))
        (broadcastInDim S50000x1 ![0] bcast_S50000_S50000x1_0 batch)
        (broadcastInDim S50000x1 ![] bcast_S_S50000x1 (constant (F := Ideal) S_ .f32 0x3F800000#32)))
      (broadcastInDim S64x1 ![] bcast_S_S64x1 (constant (F := Ideal) S_ .f32 0x3F800000#32)))

variable (m : (ℓ : Loc nD τ sig) → Buf (Elt Ideal) ℓ) (c : Dev nD)

/-! ## A buffer an item does not write holds what it held before the item -/
theorem step1 (r : Ref sig .tc) (h : r ∉ hostOps0_W) : Wk1 m c (Proc.devRef .tc r) = Wk0 m c (Proc.devRef .tc r) :=
  StableHlo.after_of_writes_sub hostOps0 _ hostOps0_writes h
theorem step2 (r : Ref sig .tc) (h : r ∉ ([main_v15_0, main_v15_1, main_v15_2] : List (Ref sig .tc))) : Wk2 m c (Proc.devRef .tc r) = Wk1 m c (Proc.devRef .tc r) :=
  exit0_keep (Wk1 m) c r h
theorem step3 (r : Ref sig .tc) (h : r ∉ hostOps1_W) : Wk3 m c (Proc.devRef .tc r) = Wk2 m c (Proc.devRef .tc r) :=
  StableHlo.after_of_writes_sub hostOps1 _ hostOps1_writes h
theorem step4 (r : Ref sig .tc) (h : r ∉ ([main_v18] : List (Ref sig .tc))) : Wk4 m c (Proc.devRef .tc r) = Wk3 m c (Proc.devRef .tc r) :=
  exit1_keep (Wk3 m) c r h
theorem step5 (r : Ref sig .tc) (h : r ∉ hostOps2_W) : Wk5 m c (Proc.devRef .tc r) = Wk4 m c (Proc.devRef .tc r) :=
  StableHlo.after_of_writes_sub hostOps2 _ hostOps2_writes h
theorem step6 (r : Ref sig .tc) (h : r ∉ ([main_v30_0, main_v30_1, main_v30_2] : List (Ref sig .tc))) : Wk6 m c (Proc.devRef .tc r) = Wk5 m c (Proc.devRef .tc r) :=
  exit2_keep (Wk5 m) c r h
theorem step7 (r : Ref sig .tc) (h : r ∉ hostOps3_W) : Wk7 m c (Proc.devRef .tc r) = Wk6 m c (Proc.devRef .tc r) :=
  StableHlo.after_of_writes_sub hostOps3 _ hostOps3_writes h
theorem step8 (r : Ref sig .tc) (h : r ∉ ([main_v33] : List (Ref sig .tc))) : Wk8 m c (Proc.devRef .tc r) = Wk7 m c (Proc.devRef .tc r) :=
  exit3_keep (Wk7 m) c r h
theorem step9 (r : Ref sig .tc) (h : r ∉ hostOps4_W) : Wk9 m c (Proc.devRef .tc r) = Wk8 m c (Proc.devRef .tc r) :=
  StableHlo.after_of_writes_sub hostOps4 _ hostOps4_writes h
theorem step10 (r : Ref sig .tc) (h : r ∉ ([main_v45_0, main_v45_1, main_v45_2] : List (Ref sig .tc))) : Wk10 m c (Proc.devRef .tc r) = Wk9 m c (Proc.devRef .tc r) :=
  exit4_keep (Wk9 m) c r h
theorem step11 (r : Ref sig .tc) (h : r ∉ hostOps5_W) : Wk11 m c (Proc.devRef .tc r) = Wk10 m c (Proc.devRef .tc r) :=
  StableHlo.after_of_writes_sub hostOps5 _ hostOps5_writes h
theorem step12 (r : Ref sig .tc) (h : r ∉ ([main_v48] : List (Ref sig .tc))) : Wk12 m c (Proc.devRef .tc r) = Wk11 m c (Proc.devRef .tc r) :=
  exit5_keep (Wk11 m) c r h
theorem step13 (r : Ref sig .tc) (h : r ∉ hostOps6_W) : Wk13 m c (Proc.devRef .tc r) = Wk12 m c (Proc.devRef .tc r) :=
  StableHlo.after_of_writes_sub hostOps6 _ hostOps6_writes h
theorem step14 (r : Ref sig .tc) (h : r ∉ ([main_v51] : List (Ref sig .tc))) : Wk14 m c (Proc.devRef .tc r) = Wk13 m c (Proc.devRef .tc r) :=
  exit6_keep (Wk13 m) c r h
theorem step15 (r : Ref sig .tc) (h : r ∉ hostOps7_W) : Wk15 m c (Proc.devRef .tc r) = Wk14 m c (Proc.devRef .tc r) :=
  StableHlo.after_of_writes_sub hostOps7 _ hostOps7_writes h

/-! ## The first stretch -/

set_option maxHeartbeats 4000000 in
theorem Wk1_v1 : (Wk1 m c (Proc.devRef .tc main_v1) : IVec S800000 32) = kSrc (m ((c : Thread nD τ).loc main_arg1)) := by
  dsimp only [Wk1, Wk0, hostOps0]; after_results_simp; rfl
set_option maxHeartbeats 4000000 in
theorem Wk1_v3 : (Wk1 m c (Proc.devRef .tc main_v3) : IVec S800000 32) = kDst (m ((c : Thread nD τ).loc main_arg1)) := by
  dsimp only [Wk1, Wk0, hostOps0]; after_results_simp; rfl
set_option maxHeartbeats 4000000 in
theorem Wk1_v13 : (Wk1 m c (Proc.devRef .tc main_v13) : FVec Ideal S50000x64 .f32)
    = kAgg64 (m ((c : Thread nD τ).loc main_arg0)) (kSrc (m ((c : Thread nD τ).loc main_arg1))) (kDst (m ((c : Thread nD τ).loc main_arg1))) := by
  dsimp only [Wk1, Wk0, hostOps0]; after_results_simp; rfl
set_option maxHeartbeats 4000000 in
theorem Wk1_v14 : (Wk1 m c (Proc.devRef .tc main_v14) : FVec Ideal S1x256 .f32) = shapeCast S1x256 (m ((c : Thread nD τ).loc main_arg4)) shapeCasts_S256_S1x256 := by
  dsimp only [Wk1, Wk0, hostOps0]; after_results_simp; rfl

/-! ## The later boundaries -/

/-- The source and destination rows are computed once and never written again. -/
theorem Wk4_v1 : Wk4 m c (Proc.devRef .tc main_v1) = Wk1 m c (Proc.devRef .tc main_v1) := (step4 m c main_v1 (by decide)).trans ((step3 m c main_v1 (by decide)).trans (step2 m c main_v1 (by decide)))
theorem Wk4_v3 : Wk4 m c (Proc.devRef .tc main_v3) = Wk1 m c (Proc.devRef .tc main_v3) := (step4 m c main_v3 (by decide)).trans ((step3 m c main_v3 (by decide)).trans (step2 m c main_v3 (by decide)))
theorem Wk8_v1 : Wk8 m c (Proc.devRef .tc main_v1) = Wk1 m c (Proc.devRef .tc main_v1) := (step8 m c main_v1 (by decide)).trans ((step7 m c main_v1 (by decide)).trans ((step6 m c main_v1 (by decide)).trans ((step5 m c main_v1 (by decide)).trans ((step4 m c main_v1 (by decide)).trans ((step3 m c main_v1 (by decide)).trans (step2 m c main_v1 (by decide)))))))
theorem Wk8_v3 : Wk8 m c (Proc.devRef .tc main_v3) = Wk1 m c (Proc.devRef .tc main_v3) := (step8 m c main_v3 (by decide)).trans ((step7 m c main_v3 (by decide)).trans ((step6 m c main_v3 (by decide)).trans ((step5 m c main_v3 (by decide)).trans ((step4 m c main_v3 (by decide)).trans ((step3 m c main_v3 (by decide)).trans (step2 m c main_v3 (by decide)))))))

theorem Wk1_arg0 : Wk1 m c (Proc.devRef .tc main_arg0) = m ((c : Thread nD τ).loc main_arg0) :=
  (step1 m c main_arg0 (by decide))
theorem Wk1_arg3 : Wk1 m c (Proc.devRef .tc main_arg3) = m ((c : Thread nD τ).loc main_arg3) :=
  (step1 m c main_arg3 (by decide))
theorem Wk2_arg5 : Wk2 m c (Proc.devRef .tc main_arg5) = m ((c : Thread nD τ).loc main_arg5) :=
  (step2 m c main_arg5 (by decide)).trans (step1 m c main_arg5 (by decide))
theorem Wk2_arg6 : Wk2 m c (Proc.devRef .tc main_arg6) = m ((c : Thread nD τ).loc main_arg6) :=
  (step2 m c main_arg6 (by decide)).trans (step1 m c main_arg6 (by decide))
theorem Wk4_arg7 : Wk4 m c (Proc.devRef .tc main_arg7) = m ((c : Thread nD τ).loc main_arg7) :=
  (step4 m c main_arg7 (by decide)).trans ((step3 m c main_arg7 (by decide)).trans ((step2 m c main_arg7 (by decide)).trans (step1 m c main_arg7 (by decide))))
theorem Wk4_arg8 : Wk4 m c (Proc.devRef .tc main_arg8) = m ((c : Thread nD τ).loc main_arg8) :=
  (step4 m c main_arg8 (by decide)).trans ((step3 m c main_arg8 (by decide)).trans ((step2 m c main_arg8 (by decide)).trans (step1 m c main_arg8 (by decide))))
theorem Wk5_arg7 : Wk5 m c (Proc.devRef .tc main_arg7) = m ((c : Thread nD τ).loc main_arg7) :=
  (step5 m c main_arg7 (by decide)).trans ((step4 m c main_arg7 (by decide)).trans ((step3 m c main_arg7 (by decide)).trans ((step2 m c main_arg7 (by decide)).trans (step1 m c main_arg7 (by decide)))))
theorem Wk6_arg9 : Wk6 m c (Proc.devRef .tc main_arg9) = m ((c : Thread nD τ).loc main_arg9) :=
  (step6 m c main_arg9 (by decide)).trans ((step5 m c main_arg9 (by decide)).trans ((step4 m c main_arg9 (by decide)).trans ((step3 m c main_arg9 (by decide)).trans ((step2 m c main_arg9 (by decide)).trans (step1 m c main_arg9 (by decide))))))
theorem Wk6_arg10 : Wk6 m c (Proc.devRef .tc main_arg10) = m ((c : Thread nD τ).loc main_arg10) :=
  (step6 m c main_arg10 (by decide)).trans ((step5 m c main_arg10 (by decide)).trans ((step4 m c main_arg10 (by decide)).trans ((step3 m c main_arg10 (by decide)).trans ((step2 m c main_arg10 (by decide)).trans (step1 m c main_arg10 (by decide))))))
theorem Wk8_arg11 : Wk8 m c (Proc.devRef .tc main_arg11) = m ((c : Thread nD τ).loc main_arg11) :=
  (step8 m c main_arg11 (by decide)).trans ((step7 m c main_arg11 (by decide)).trans ((step6 m c main_arg11 (by decide)).trans ((step5 m c main_arg11 (by decide)).trans ((step4 m c main_arg11 (by decide)).trans ((step3 m c main_arg11 (by decide)).trans ((step2 m c main_arg11 (by decide)).trans (step1 m c main_arg11 (by decide))))))))
theorem Wk8_arg12 : Wk8 m c (Proc.devRef .tc main_arg12) = m ((c : Thread nD τ).loc main_arg12) :=
  (step8 m c main_arg12 (by decide)).trans ((step7 m c main_arg12 (by decide)).trans ((step6 m c main_arg12 (by decide)).trans ((step5 m c main_arg12 (by decide)).trans ((step4 m c main_arg12 (by decide)).trans ((step3 m c main_arg12 (by decide)).trans ((step2 m c main_arg12 (by decide)).trans (step1 m c main_arg12 (by decide))))))))
theorem Wk9_arg11 : Wk9 m c (Proc.devRef .tc main_arg11) = m ((c : Thread nD τ).loc main_arg11) :=
  (step9 m c main_arg11 (by decide)).trans ((step8 m c main_arg11 (by decide)).trans ((step7 m c main_arg11 (by decide)).trans ((step6 m c main_arg11 (by decide)).trans ((step5 m c main_arg11 (by decide)).trans ((step4 m c main_arg11 (by decide)).trans ((step3 m c main_arg11 (by decide)).trans ((step2 m c main_arg11 (by decide)).trans (step1 m c main_arg11 (by decide)))))))))
theorem Wk10_arg13 : Wk10 m c (Proc.devRef .tc main_arg13) = m ((c : Thread nD τ).loc main_arg13) :=
  (step10 m c main_arg13 (by decide)).trans ((step9 m c main_arg13 (by decide)).trans ((step8 m c main_arg13 (by decide)).trans ((step7 m c main_arg13 (by decide)).trans ((step6 m c main_arg13 (by decide)).trans ((step5 m c main_arg13 (by decide)).trans ((step4 m c main_arg13 (by decide)).trans ((step3 m c main_arg13 (by decide)).trans ((step2 m c main_arg13 (by decide)).trans (step1 m c main_arg13 (by decide))))))))))
theorem Wk10_arg14 : Wk10 m c (Proc.devRef .tc main_arg14) = m ((c : Thread nD τ).loc main_arg14) :=
  (step10 m c main_arg14 (by decide)).trans ((step9 m c main_arg14 (by decide)).trans ((step8 m c main_arg14 (by decide)).trans ((step7 m c main_arg14 (by decide)).trans ((step6 m c main_arg14 (by decide)).trans ((step5 m c main_arg14 (by decide)).trans ((step4 m c main_arg14 (by decide)).trans ((step3 m c main_arg14 (by decide)).trans ((step2 m c main_arg14 (by decide)).trans (step1 m c main_arg14 (by decide))))))))))
theorem Wk12_arg15 : Wk12 m c (Proc.devRef .tc main_arg15) = m ((c : Thread nD τ).loc main_arg15) :=
  (step12 m c main_arg15 (by decide)).trans ((step11 m c main_arg15 (by decide)).trans ((step10 m c main_arg15 (by decide)).trans ((step9 m c main_arg15 (by decide)).trans ((step8 m c main_arg15 (by decide)).trans ((step7 m c main_arg15 (by decide)).trans ((step6 m c main_arg15 (by decide)).trans ((step5 m c main_arg15 (by decide)).trans ((step4 m c main_arg15 (by decide)).trans ((step3 m c main_arg15 (by decide)).trans ((step2 m c main_arg15 (by decide)).trans (step1 m c main_arg15 (by decide))))))))))))
theorem Wk12_arg16 : Wk12 m c (Proc.devRef .tc main_arg16) = m ((c : Thread nD τ).loc main_arg16) :=
  (step12 m c main_arg16 (by decide)).trans ((step11 m c main_arg16 (by decide)).trans ((step10 m c main_arg16 (by decide)).trans ((step9 m c main_arg16 (by decide)).trans ((step8 m c main_arg16 (by decide)).trans ((step7 m c main_arg16 (by decide)).trans ((step6 m c main_arg16 (by decide)).trans ((step5 m c main_arg16 (by decide)).trans ((step4 m c main_arg16 (by decide)).trans ((step3 m c main_arg16 (by decide)).trans ((step2 m c main_arg16 (by decide)).trans (step1 m c main_arg16 (by decide))))))))))))
theorem Wk12_arg17 : Wk12 m c (Proc.devRef .tc main_arg17) = m ((c : Thread nD τ).loc main_arg17) :=
  (step12 m c main_arg17 (by decide)).trans ((step11 m c main_arg17 (by decide)).trans ((step10 m c main_arg17 (by decide)).trans ((step9 m c main_arg17 (by decide)).trans ((step8 m c main_arg17 (by decide)).trans ((step7 m c main_arg17 (by decide)).trans ((step6 m c main_arg17 (by decide)).trans ((step5 m c main_arg17 (by decide)).trans ((step4 m c main_arg17 (by decide)).trans ((step3 m c main_arg17 (by decide)).trans ((step2 m c main_arg17 (by decide)).trans (step1 m c main_arg17 (by decide))))))))))))
theorem Wk12_arg18 : Wk12 m c (Proc.devRef .tc main_arg18) = m ((c : Thread nD τ).loc main_arg18) :=
  (step12 m c main_arg18 (by decide)).trans ((step11 m c main_arg18 (by decide)).trans ((step10 m c main_arg18 (by decide)).trans ((step9 m c main_arg18 (by decide)).trans ((step8 m c main_arg18 (by decide)).trans ((step7 m c main_arg18 (by decide)).trans ((step6 m c main_arg18 (by decide)).trans ((step5 m c main_arg18 (by decide)).trans ((step4 m c main_arg18 (by decide)).trans ((step3 m c main_arg18 (by decide)).trans ((step2 m c main_arg18 (by decide)).trans (step1 m c main_arg18 (by decide))))))))))))
theorem Wk13_arg15 : Wk13 m c (Proc.devRef .tc main_arg15) = m ((c : Thread nD τ).loc main_arg15) :=
  (step13 m c main_arg15 (by decide)).trans ((step12 m c main_arg15 (by decide)).trans ((step11 m c main_arg15 (by decide)).trans ((step10 m c main_arg15 (by decide)).trans ((step9 m c main_arg15 (by decide)).trans ((step8 m c main_arg15 (by decide)).trans ((step7 m c main_arg15 (by decide)).trans ((step6 m c main_arg15 (by decide)).trans ((step5 m c main_arg15 (by decide)).trans ((step4 m c main_arg15 (by decide)).trans ((step3 m c main_arg15 (by decide)).trans ((step2 m c main_arg15 (by decide)).trans (step1 m c main_arg15 (by decide)))))))))))))
theorem Wk13_arg17 : Wk13 m c (Proc.devRef .tc main_arg17) = m ((c : Thread nD τ).loc main_arg17) :=
  (step13 m c main_arg17 (by decide)).trans ((step12 m c main_arg17 (by decide)).trans ((step11 m c main_arg17 (by decide)).trans ((step10 m c main_arg17 (by decide)).trans ((step9 m c main_arg17 (by decide)).trans ((step8 m c main_arg17 (by decide)).trans ((step7 m c main_arg17 (by decide)).trans ((step6 m c main_arg17 (by decide)).trans ((step5 m c main_arg17 (by decide)).trans ((step4 m c main_arg17 (by decide)).trans ((step3 m c main_arg17 (by decide)).trans ((step2 m c main_arg17 (by decide)).trans (step1 m c main_arg17 (by decide)))))))))))))
theorem Wk14_arg2 : Wk14 m c (Proc.devRef .tc main_arg2) = m ((c : Thread nD τ).loc main_arg2) :=
  (step14 m c main_arg2 (by decide)).trans ((step13 m c main_arg2 (by decide)).trans ((step12 m c main_arg2 (by decide)).trans ((step11 m c main_arg2 (by decide)).trans ((step10 m c main_arg2 (by decide)).trans ((step9 m c main_arg2 (by decide)).trans ((step8 m c main_arg2 (by decide)).trans ((step7 m c main_arg2 (by decide)).trans ((step6 m c main_arg2 (by decide)).trans ((step5 m c main_arg2 (by decide)).trans ((step4 m c main_arg2 (by decide)).trans ((step3 m c main_arg2 (by decide)).trans ((step2 m c main_arg2 (by decide)).trans (step1 m c main_arg2 (by decide))))))))))))))

set_option maxHeartbeats 4000000 in
theorem Wk3_v16 : (Wk3 m c (Proc.devRef .tc main_v16) : FVec Ideal S1x256 .f32) = shapeCast S1x256 (m ((c : Thread nD τ).loc main_arg5)) shapeCasts_S256_S1x256 := by
  have e : (Wk3 m c (Proc.devRef .tc main_v16) : FVec Ideal S1x256 .f32) = shapeCast S1x256 (Wk2 m c (Proc.devRef .tc main_arg5)) shapeCasts_S256_S1x256 := by
    dsimp only [Wk3, hostOps1]; after_results_simp; rfl
  rw [e, Wk2_arg5]
set_option maxHeartbeats 4000000 in
theorem Wk3_v17 : (Wk3 m c (Proc.devRef .tc main_v17) : FVec Ideal S1x256 .f32) = shapeCast S1x256 (m ((c : Thread nD τ).loc main_arg6)) shapeCasts_S256_S1x256 := by
  have e : (Wk3 m c (Proc.devRef .tc main_v17) : FVec Ideal S1x256 .f32) = shapeCast S1x256 (Wk2 m c (Proc.devRef .tc main_arg6)) shapeCasts_S256_S1x256 := by
    dsimp only [Wk3, hostOps1]; after_results_simp; rfl
  rw [e, Wk2_arg6]
set_option maxHeartbeats 4000000 in
theorem Wk5_v29 : (Wk5 m c (Proc.devRef .tc main_v29) : FVec Ideal S1x256 .f32) = shapeCast S1x256 (m ((c : Thread nD τ).loc main_arg8)) shapeCasts_S256_S1x256 := by
  have e : (Wk5 m c (Proc.devRef .tc main_v29) : FVec Ideal S1x256 .f32) = shapeCast S1x256 (Wk4 m c (Proc.devRef .tc main_arg8)) shapeCasts_S256_S1x256 := by
    dsimp only [Wk5, hostOps2]; after_results_simp; rfl
  rw [e, Wk4_arg8]
set_option maxHeartbeats 4000000 in
theorem Wk7_v31 : (Wk7 m c (Proc.devRef .tc main_v31) : FVec Ideal S1x256 .f32) = shapeCast S1x256 (m ((c : Thread nD τ).loc main_arg9)) shapeCasts_S256_S1x256 := by
  have e : (Wk7 m c (Proc.devRef .tc main_v31) : FVec Ideal S1x256 .f32) = shapeCast S1x256 (Wk6 m c (Proc.devRef .tc main_arg9)) shapeCasts_S256_S1x256 := by
    dsimp only [Wk7, hostOps3]; after_results_simp; rfl
  rw [e, Wk6_arg9]
set_option maxHeartbeats 4000000 in
theorem Wk7_v32 : (Wk7 m c (Proc.devRef .tc main_v32) : FVec Ideal S1x256 .f32) = shapeCast S1x256 (m ((c : Thread nD τ).loc main_arg10)) shapeCasts_S256_S1x256 := by
  have e : (Wk7 m c (Proc.devRef .tc main_v32) : FVec Ideal S1x256 .f32) = shapeCast S1x256 (Wk6 m c (Proc.devRef .tc main_arg10)) shapeCasts_S256_S1x256 := by
    dsimp only [Wk7, hostOps3]; after_results_simp; rfl
  rw [e, Wk6_arg10]
set_option maxHeartbeats 4000000 in
theorem Wk9_v44 : (Wk9 m c (Proc.devRef .tc main_v44) : FVec Ideal S1x256 .f32) = shapeCast S1x256 (m ((c : Thread nD τ).loc main_arg12)) shapeCasts_S256_S1x256 := by
  have e : (Wk9 m c (Proc.devRef .tc main_v44) : FVec Ideal S1x256 .f32) = shapeCast S1x256 (Wk8 m c (Proc.devRef .tc main_arg12)) shapeCasts_S256_S1x256 := by
    dsimp only [Wk9, hostOps4]; after_results_simp; rfl
  rw [e, Wk8_arg12]
set_option maxHeartbeats 4000000 in
theorem Wk11_v46 : (Wk11 m c (Proc.devRef .tc main_v46) : FVec Ideal S1x256 .f32) = shapeCast S1x256 (m ((c : Thread nD τ).loc main_arg13)) shapeCasts_S256_S1x256 := by
  have e : (Wk11 m c (Proc.devRef .tc main_v46) : FVec Ideal S1x256 .f32) = shapeCast S1x256 (Wk10 m c (Proc.devRef .tc main_arg13)) shapeCasts_S256_S1x256 := by
    dsimp only [Wk11, hostOps5]; after_results_simp; rfl
  rw [e, Wk10_arg13]
set_option maxHeartbeats 4000000 in
theorem Wk11_v47 : (Wk11 m c (Proc.devRef .tc main_v47) : FVec Ideal S1x256 .f32) = shapeCast S1x256 (m ((c : Thread nD τ).loc main_arg14)) shapeCasts_S256_S1x256 := by
  have e : (Wk11 m c (Proc.devRef .tc main_v47) : FVec Ideal S1x256 .f32) = shapeCast S1x256 (Wk10 m c (Proc.devRef .tc main_arg14)) shapeCasts_S256_S1x256 := by
    dsimp only [Wk11, hostOps5]; after_results_simp; rfl
  rw [e, Wk10_arg14]
set_option maxHeartbeats 4000000 in
theorem Wk13_v49 : (Wk13 m c (Proc.devRef .tc main_v49) : FVec Ideal S1x128 .f32) = shapeCast S1x128 (m ((c : Thread nD τ).loc main_arg16)) shapeCasts_S128_S1x128 := by
  have e : (Wk13 m c (Proc.devRef .tc main_v49) : FVec Ideal S1x128 .f32) = shapeCast S1x128 (Wk12 m c (Proc.devRef .tc main_arg16)) shapeCasts_S128_S1x128 := by
    dsimp only [Wk13, hostOps6]; after_results_simp; rfl
  rw [e, Wk12_arg16]
set_option maxHeartbeats 4000000 in
theorem Wk13_v50 : (Wk13 m c (Proc.devRef .tc main_v50) : FVec Ideal S1x1 .f32) = shapeCast S1x1 (m ((c : Thread nD τ).loc main_arg18)) shapeCasts_S1_S1x1 := by
  have e : (Wk13 m c (Proc.devRef .tc main_v50) : FVec Ideal S1x1 .f32) = shapeCast S1x1 (Wk12 m c (Proc.devRef .tc main_arg18)) shapeCasts_S1_S1x1 := by
    dsimp only [Wk13, hostOps6]; after_results_simp; rfl
  rw [e, Wk12_arg18]

set_option maxHeartbeats 4000000 in
/-- The second layer's neighbour sums: of the first layer's output, along the same edges. -/
theorem Wk5_v28 : (Wk5 m c (Proc.devRef .tc main_v28) : FVec Ideal S50000x256 .f32)
    = kAgg256 (Wk4 m c (Proc.devRef .tc main_v18)) (kSrc (m ((c : Thread nD τ).loc main_arg1))) (kDst (m ((c : Thread nD τ).loc main_arg1))) := by
  have e : (Wk5 m c (Proc.devRef .tc main_v28) : FVec Ideal S50000x256 .f32)
      = kAgg256 (Wk4 m c (Proc.devRef .tc main_v18)) (Wk4 m c (Proc.devRef .tc main_v1)) (Wk4 m c (Proc.devRef .tc main_v3)) := by
    dsimp only [Wk5, hostOps2]; after_results_simp; rfl
  rw [e, Wk4_v1, Wk4_v3, Wk1_v1, Wk1_v3]
set_option maxHeartbeats 4000000 in
/-- The third layer's. -/
theorem Wk9_v43 : (Wk9 m c (Proc.devRef .tc main_v43) : FVec Ideal S50000x256 .f32)
    = kAgg256 (Wk8 m c (Proc.devRef .tc main_v33)) (kSrc (m ((c : Thread nD τ).loc main_arg1))) (kDst (m ((c : Thread nD τ).loc main_arg1))) := by
  have e : (Wk9 m c (Proc.devRef .tc main_v43) : FVec Ideal S50000x256 .f32)
      = kAgg256 (Wk8 m c (Proc.devRef .tc main_v33)) (Wk8 m c (Proc.devRef .tc main_v1)) (Wk8 m c (Proc.devRef .tc main_v3)) := by
    dsimp only [Wk9, hostOps4]; after_results_simp; rfl
  rw [e, Wk8_v1, Wk8_v3, Wk1_v1, Wk1_v3]
set_option maxHeartbeats 4000000 in
/-- The result: the node scores pooled by graph. -/
theorem Wk15_v61 : (Wk15 m c (Proc.devRef .tc main_v61) : FVec Ideal S64x1 .f32)
    = kPool (m ((c : Thread nD τ).loc main_arg2)) (Wk14 m c (Proc.devRef .tc main_v51)) := by
  have e : (Wk15 m c (Proc.devRef .tc main_v61) : FVec Ideal S64x1 .f32)
      = kPool (Wk14 m c (Proc.devRef .tc main_arg2)) (Wk14 m c (Proc.devRef .tc main_v51)) := by
    dsimp only [Wk15, hostOps7]; after_results_simp; rfl
  rw [e, Wk14_arg2]

/-! ## What a region's arrays hold when the next region is entered -/
theorem Wk3_v15_0 : Wk3 m c (Proc.devRef .tc main_v15_0) = Wk2 m c (Proc.devRef .tc main_v15_0) := step3 m c main_v15_0 (by decide)
theorem Wk3_v15_1 : Wk3 m c (Proc.devRef .tc main_v15_1) = Wk2 m c (Proc.devRef .tc main_v15_1) := step3 m c main_v15_1 (by decide)
theorem Wk3_v15_2 : Wk3 m c (Proc.devRef .tc main_v15_2) = Wk2 m c (Proc.devRef .tc main_v15_2) := step3 m c main_v15_2 (by decide)
theorem Wk5_v18 : Wk5 m c (Proc.devRef .tc main_v18) = Wk4 m c (Proc.devRef .tc main_v18) := step5 m c main_v18 (by decide)
theorem Wk7_v30_0 : Wk7 m c (Proc.devRef .tc main_v30_0) = Wk6 m c (Proc.devRef .tc main_v30_0) := step7 m c main_v30_0 (by decide)
theorem Wk7_v30_1 : Wk7 m c (Proc.devRef .tc main_v30_1) = Wk6 m c (Proc.devRef .tc main_v30_1) := step7 m c main_v30_1 (by decide)
theorem Wk7_v30_2 : Wk7 m c (Proc.devRef .tc main_v30_2) = Wk6 m c (Proc.devRef .tc main_v30_2) := step7 m c main_v30_2 (by decide)
theorem Wk9_v33 : Wk9 m c (Proc.devRef .tc main_v33) = Wk8 m c (Proc.devRef .tc main_v33) := step9 m c main_v33 (by decide)
theorem Wk11_v45_0 : Wk11 m c (Proc.devRef .tc main_v45_0) = Wk10 m c (Proc.devRef .tc main_v45_0) := step11 m c main_v45_0 (by decide)
theorem Wk11_v45_1 : Wk11 m c (Proc.devRef .tc main_v45_1) = Wk10 m c (Proc.devRef .tc main_v45_1) := step11 m c main_v45_1 (by decide)
theorem Wk11_v45_2 : Wk11 m c (Proc.devRef .tc main_v45_2) = Wk10 m c (Proc.devRef .tc main_v45_2) := step11 m c main_v45_2 (by decide)
theorem Wk13_v48 : Wk13 m c (Proc.devRef .tc main_v48) = Wk12 m c (Proc.devRef .tc main_v48) := step13 m c main_v48 (by decide)

end Cert.KernelIdeal.Hand

end
-- ==== Proof.LibBlockMatmul.lean ====
import Idealize.ShloMosaic.Lib.ValueIdx
import Idealize.ShloMosaic.PureOps.Ideal.Laws

/-!
# The plain two-dimensional contraction read at an index, and a row block of a product

For a left operand `A` of shape `[M, K]`, a right operand `B` of shape `[K, N]` and the dimension numbers that contract
the left operand's axis 1 with the right operand's axis 0 (no batch axes), the product at the exact (extended real)
values is, at row `p` and column `q`, the sum over `k < K` of `A (p, k) * B (k, q)`. This holds for the matrix unit's
product accumulated into the zero splat (`matmul_zero_plain_apply`) and for the host's `dot_general`
(`dotGeneral_plain_apply`): both are the same sum over the contraction shape's indices, re-indexed through the bijection
between a one-axis contraction index and its coordinate (`plain_sum`).

Consequently a row block of a product is the product of the row block (`block_matmul_eq_dotGeneral`): if the rows of an
`[m, K]` block `A'` are rows of `A` — row `p` of `A'` is row `r` of `A` — then the block's product with `B` at `(p, q)` is the
whole product at `(r, q)`, since each is the sum over `k` of `A (r, k) * B (k, q)`.

The dimension numbers are given as the literal record `plainDims wf` (`wf` any proof of its well-formedness); a record
defined with the same axis lists unfolds to it.
-/

namespace Cert.BlockMatmul

open Idealize.ShloMosaic Idealize.ShloMosaic.ValueIdx

/-- The dimension numbers of a plain `[M, K]` by `[K, N]` product with literal axis lists: contract axis 1 of the left
    operand with axis 0 of the right, no batch axes. -/
abbrev plainDims {M K N : Nat} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

section
variable {M K N : Nat} (wf : DotDims.WF ⟨2, ![M, K]⟩ ⟨2, ![K, N]⟩ ⟨2, ![M, N]⟩ [1] [0] [0] [1] [] [])

/-- The left operand's row coordinate is the result's row coordinate. -/
theorem plain_lhs0 (i : (⟨2, ![M, N]⟩ : Shape).Idx) (k : (plainDims wf).contr.Idx) :
    ((plainDims wf).lhsIdx i k 0).val = (i 0).val := by
  unfold DotDims.lhsIdx
  rw [dif_neg (show ¬(0 : Fin 2) ∈ ([] : List (Fin 2)) by decide), dif_pos (show (0 : Fin 2) ∈ ([0] : List (Fin 2)) by decide)]
  rfl

/-- The left operand's column coordinate is the contraction coordinate. -/
theorem plain_lhs1 (i : (⟨2, ![M, N]⟩ : Shape).Idx) (k : (plainDims wf).contr.Idx) :
    ((plainDims wf).lhsIdx i k 1).val = (k ⟨0, Nat.one_pos⟩).val :=
  (plainDims wf).lhsIdx_val_of_single rfl i k

/-- The right operand's row coordinate is the contraction coordinate. -/
theorem plain_rhs0 (i : (⟨2, ![M, N]⟩ : Shape).Idx) (k : (plainDims wf).contr.Idx) :
    ((plainDims wf).rhsIdx i k 0).val = (k ⟨0, Nat.one_pos⟩).val :=
  (plainDims wf).rhsIdx_val_of_single rfl i k

/-- The right operand's column coordinate is the result's column coordinate. -/
theorem plain_rhs1 (i : (⟨2, ![M, N]⟩ : Shape).Idx) (k : (plainDims wf).contr.Idx) :
    ((plainDims wf).rhsIdx i k 1).val = (i 1).val := by
  unfold DotDims.rhsIdx
  rw [dif_neg (show ¬(1 : Fin 2) ∈ ([] : List (Fin 2)) by decide), dif_pos (show (1 : Fin 2) ∈ ([1] : List (Fin 2)) by decide)]
  rfl

/-- The contraction's sum at `(p, q)`, over the contraction shape's indices, is the sum over `k < K` of
    `lhs (p, k) * rhs (k, q)`. -/
theorem plain_sum (lhs : (⟨2, ![M, K]⟩ : Shape).Idx → EReal) (rhs : (⟨2, ![K, N]⟩ : Shape).Idx → EReal) (p : Fin M) (q : Fin N) :
    ∑ k : (plainDims wf).contr.Idx, lhs ((plainDims wf).lhsIdx (ix2 p q) k) * rhs ((plainDims wf).rhsIdx (ix2 p q) k)
      = ∑ k : Fin K, lhs (ix2 p k) * rhs (ix2 k q) := by
  rw [← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact plain_lhs0 wf _ _
    | ⟨1, _⟩ => exact (plain_lhs1 wf _ _).trans hk)
  have er : (plainDims wf).rhsIdx (ix2 p q) ((contrEquiv1 (plainDims wf) K rfl rfl).symm k) = ix2 k q := funext fun a => Fin.ext (by
    match a with
    | ⟨0, _⟩ => exact (plain_rhs0 wf _ _).trans hk
    | ⟨1, _⟩ => exact plain_rhs1 wf _ _)
  rw [el, er]

/-- The matrix unit's product accumulated into the zero splat, at `(p, q)`: the sum over `k < K` of
    `lhs (p, k) * rhs (k, q)`. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (plainDims wf) prec lhs rhs (constant ⟨2, ![M, N]⟩ .f32 0x00000000#32) (ix2 p q)
      = ∑ k : Fin K, lhs (ix2 p k) * rhs (ix2 k q) :=
  (Ideal.matmul_constant_zero_apply (plainDims wf) prec lhs rhs (ix2 p q)).trans (plain_sum wf lhs rhs p q)

/-- The host's `dot_general` at `(p, q)`: the same sum. -/
theorem dotGeneral_plain_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (plainDims wf) prec lhs rhs (ix2 p q) = ∑ k : Fin K, lhs (ix2 p k) * rhs (ix2 k q) :=
  (Ideal.dotGeneral_apply (plainDims wf) prec .single lhs rhs (ix2 p q)).trans (plain_sum wf lhs rhs p q)

end

/-- A ROW BLOCK OF A PRODUCT IS THE PRODUCT OF THE ROW BLOCK: when row `p` of the `[m, K]` block `lhs'` is row `r` of the
    `[M, K]` operand `lhs` and the right operands agree, the block's product into the zero splat at `(p, q)` is the host's
    `dot_general` of the whole operands at `(r, q)`. -/
theorem block_matmul_eq_dotGeneral {m M K N : Nat} {φ₁ φ₂ ψ₁ ψ₂ : FTy}
    (wf' : DotDims.WF ⟨2, ![m, K]⟩ ⟨2, ![K, N]⟩ ⟨2, ![m, N]⟩ [1] [0] [0] [1] [] [])
    (wf : DotDims.WF ⟨2, ![M, K]⟩ ⟨2, ![K, N]⟩ ⟨2, ![M, N]⟩ [1] [0] [0] [1] [] [])
    (prec' prec : Option ContractPrecision)
    (lhs' : FVec Ideal ⟨2, ![m, K]⟩ φ₁) (rhs' : FVec Ideal ⟨2, ![K, N]⟩ φ₂)
    (lhs : FVec Ideal ⟨2, ![M, K]⟩ ψ₁) (rhs : FVec Ideal ⟨2, ![K, N]⟩ ψ₂)
    (p : Fin m) (r : Fin M) (q : Fin N)
    (hl : ∀ k : Fin K, lhs' (ix2 p k) = lhs (ix2 r k)) (hr : ∀ k : Fin K, rhs' (ix2 k q) = rhs (ix2 k q)) :
    matmul (F := Ideal) (plainDims wf') prec' lhs' rhs' (constant ⟨2, ![m, N]⟩ .f32 0x00000000#32) (ix2 p q)
      = Host.dotGeneral (F := Ideal) (plainDims wf) prec lhs rhs (ix2 r q) := by
  rw [matmul_zero_plain_apply, dotGeneral_plain_apply]
  exact Finset.sum_congr rfl fun k _ => by rw [hl k, hr k]

end Cert.BlockMatmul
-- ==== Proof.LibVariance.lean ====
/-
  The two ways of writing a variance agree on real data.

  For numbers u₁ … u_N with mean μ = (Σ uₙ)/N, the mean of the squared deviations (Σ (uₙ − μ)²)/N equals the mean of
  the squares minus the squared mean, (Σ uₙ²)/N − μ²: expanding the square gives Σ uₙ² − 2μ Σ uₙ + N μ², and
  Σ uₙ = N μ. In the extended reals the expansion needs every uₙ to be a real (∞ − ∞ has no meaning there), so the
  statement assumes that, moves each operation down to the reals, and proves the identity there.
-/
import proofs.«144698_j9466107920964_1_alg».proof.Proof.LibERealBridge
import Mathlib.Tactic.FieldSimp
import Mathlib.Tactic.Ring

open scoped BigOperators

namespace Cert.Alg

open Idealize.ShloMosaic LibERealBridge

/-- On the reals: with c the number of terms, the mean of the squared deviations from the mean is the mean of the
    squares minus the squared mean. -/
theorem real_variance {ι : Type*} [Fintype ι] (v : ι → ℝ) (c : ℝ) (hc : c = (Fintype.card ι : ℝ)) (hc0 : c ≠ 0) :
    (∑ n, (v n - (∑ i, v i) / c) * (v n - (∑ i, v i) / c)) / c
      = (∑ n, v n * v n) / c - ((∑ i, v i) / c) * ((∑ i, v i) / c) := by
  have h1 : ∀ m : ℝ, ∑ n, (v n - m) * (v n - m) = (∑ n, v n * v n) - 2 * m * (∑ n, v n) + c * (m * m) := by
    intro m
    have h : ∀ n, (v n - m) * (v n - m) = v n * v n - 2 * m * v n + m * m := fun n => by ring
    rw [Finset.sum_congr rfl fun n _ => h n, Finset.sum_add_distrib, Finset.sum_sub_distrib, ← Finset.mul_sum,
      Finset.sum_const, Finset.card_univ, nsmul_eq_mul, hc]
  rw [h1]
  field_simp
  ring

/-- On the extended reals, for a family of reals uₙ indexed by a finite type with c elements (c ≠ 0), and with the
    quotient of the float instance: the mean of (uₙ − μ)², μ the mean, is the mean of uₙ² minus μ². -/
theorem variance_identity {ι : Type*} [Fintype ι] (u : ι → EReal) (hu : ∀ n, ∃ r : ℝ, u n = (r : EReal))
    (c : ℝ) (hc : c = (Fintype.card ι : ℝ)) (hc0 : c ≠ 0) :
    Ideal.div (∑ n, (u n - Ideal.div (∑ i, u i) (c : EReal)) * (u n - Ideal.div (∑ i, u i) (c : EReal))) (c : EReal)
      = Ideal.div (∑ n, u n * u n) (c : EReal)
          - Ideal.div (∑ i, u i) (c : EReal) * Ideal.div (∑ i, u i) (c : EReal) := by
  choose v hv using hu
  obtain rfl : u = fun n => (v n : EReal) := funext hv
  have hS : (∑ i, ((v i : ℝ) : EReal)) = ((∑ i, v i : ℝ) : EReal) := (coe_finset_sum _ _).symm
  have hQ : (∑ n, ((v n : ℝ) : EReal) * ((v n : ℝ) : EReal)) = ((∑ n, v n * v n : ℝ) : EReal) := sum_mul_coe _ _ _
  have hD : ∀ m : ℝ, (∑ n, (((v n : ℝ) : EReal) - (m : EReal)) * (((v n : ℝ) : EReal) - (m : EReal)))
      = ((∑ n, (v n - m) * (v n - m) : ℝ) : EReal) := by
    intro m
    rw [coe_finset_sum]
    exact Finset.sum_congr rfl fun n _ => by rw [← EReal.coe_sub, ← EReal.coe_mul]
  rw [hS, hQ, div_coe_coe _ _ hc0, hD, div_coe_coe _ _ hc0, div_coe_coe _ _ hc0, ← EReal.coe_mul, ← EReal.coe_sub,
    real_variance v c hc hc0]

end Cert.Alg
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.LibGraphConvNorm.lean ====
/-
  One graph-convolution layer followed by batch normalisation, in the two arrangements the two programs use, and
  the proof that the arrangements agree on real data.

  THE CONVOLUTION. With `xl = h · W`, `dinv n = deg(n)^(-1/2)`, and edges `e` from `src e` to the node whose number is
  the target word `tgt e`, the symmetric-normalised aggregate at node `n`, column `q`, is

      Σ_{e : tgt e = n} xl(src e, q) · (dinv(src e) · dinv(dst e))  +  (dinv n · dinv n) · xl(n, q)  +  b q.

  The other arrangement scales each row once, `xls = xl · dinv`, sums the scaled rows over the incoming edges, adds the
  node's own scaled row and multiplies by `dinv n` at the end:

      dinv n · ( Σ_{e : tgt e = n} xls(src e, q)  +  xls(n, q) )  +  b q.

  They agree because an edge counted at `n` has `dst e = n`, so the factor `dinv(dst e)` is the constant `dinv n` over
  the sum, and a constant factor moves across a finite sum — a law of the reals that fails at the infinities, which
  is why every factor is required to be a real.

  THE MOMENTS. One arrangement takes the mean and the mean of squared deviations over all `T · R` rows; the other sums
  the entries and their squares block by block (`T` blocks of `R` consecutive rows), adds the block sums, and takes
  `E[u²] − E[u]²`. A sum over `T · R` indices is the sum of its block sums, and on real data the two variances are
  the same number.
-/
import proofs.«144698_j9466107920964_1_alg».proof.Proof.LibIsReal
import proofs.«144698_j9466107920964_1_alg».proof.Proof.LibVariance
import proofs.«144698_j9466107920964_1_alg».proof.Proof.LibSumBlocks
import Idealize.ShloMosaic.PureOps.Ideal

open scoped BigOperators

noncomputable section

namespace Cert.Gnn

open Idealize.ShloMosaic Cert.Alg LibERealBridge

/-! ## The convolution -/

section Conv

variable {N E H : ℕ}

/-- The aggregate with each edge weighted by both end points' factors. -/
def convEdgeWeighted (dinv : Fin N → EReal) (src dst : Fin E → Fin N) (tgt : Fin E → ℤ)
    (xl : Fin N → Fin H → EReal) (b : Fin H → EReal) (n : Fin N) (q : Fin H) : EReal :=
  ((0 + ∑ e : Fin E, if tgt e = (n.val : ℤ) then xl (src e) q * (dinv (src e) * dinv (dst e)) else 0)
      + (dinv n * dinv n) * xl n q) + b q

/-- The aggregate of rows scaled once per node, rescaled at the target. -/
def convRowScaled (dinv : Fin N → EReal) (src : Fin E → Fin N) (tgt : Fin E → ℤ)
    (xl : Fin N → Fin H → EReal) (b : Fin H → EReal) (n : Fin N) (q : Fin H) : EReal :=
  dinv n * ((0 + ∑ e : Fin E, if tgt e = (n.val : ℤ) then xl (src e) q * dinv (src e) else 0) + xl n q * dinv n) + b q

/-- On real factors the two aggregates are equal, entry by entry. The bias is any extended real: it is added last on
    both sides. -/
theorem conv_agree (dinv : Fin N → EReal) (src dst : Fin E → Fin N) (tgt : Fin E → ℤ)
    (xl : Fin N → Fin H → EReal) (b : Fin H → EReal)
    (hd : ∀ n, IsReal (dinv n)) (hx : ∀ n q, IsReal (xl n q))
    (hdst : ∀ e (n : Fin N), tgt e = (n.val : ℤ) → dst e = n) (n : Fin N) (q : Fin H) :
    convRowScaled dinv src tgt xl b n q = convEdgeWeighted dinv src dst tgt xl b n q := by
  choose d hd using hd
  choose x hx using hx
  unfold convRowScaled convEdgeWeighted
  refine congrArg (· + b q) ?_
  have hL : ∀ e : Fin E, (if tgt e = (n.val : ℤ) then xl (src e) q * dinv (src e) else 0)
      = (((if tgt e = (n.val : ℤ) then x (src e) q * d (src e) else 0 : ℝ)) : EReal) := by
    intro e
    split_ifs
    · rw [hx, hd, EReal.coe_mul]
    · rfl
  have hR : ∀ e : Fin E, (if tgt e = (n.val : ℤ) then xl (src e) q * (dinv (src e) * dinv (dst e)) else 0)
      = (((if tgt e = (n.val : ℤ) then x (src e) q * d (src e) else 0 : ℝ) * d n : ℝ) : EReal) := by
    intro e
    split_ifs with h
    · rw [hdst e n h, hx, hd, hd, EReal.coe_mul, EReal.coe_mul, mul_assoc]
    · rw [zero_mul]; rfl
  simp only [hL, hR, ← coe_finset_sum, hx n q, hd n, zero_add]
  rw [← EReal.coe_mul, ← EReal.coe_add, ← EReal.coe_mul, ← EReal.coe_mul, ← EReal.coe_mul, ← EReal.coe_add]
  refine congrArg _ ?_
  rw [← Finset.sum_mul]
  ring

/-- The aggregate of real data, with a real bias, is real. -/
theorem convEdgeWeighted_isReal (dinv : Fin N → EReal) (src dst : Fin E → Fin N) (tgt : Fin E → ℤ)
    (xl : Fin N → Fin H → EReal) (b : Fin H → EReal)
    (hd : ∀ n, IsReal (dinv n)) (hx : ∀ n q, IsReal (xl n q)) (hb : ∀ q, IsReal (b q)) (n : Fin N) (q : Fin H) :
    IsReal (convEdgeWeighted dinv src dst tgt xl b n q) := by
  unfold convEdgeWeighted
  refine IsReal.add (IsReal.add (IsReal.add IsReal.zero (IsReal.sum_univ _ fun e => ?_)) ?_) (hb q)
  · split_ifs
    · exact IsReal.mul (hx _ _) (IsReal.mul (hd _) (hd _))
    · exact IsReal.zero
  · exact IsReal.mul (IsReal.mul (hd n) (hd n)) (hx n q)

end Conv

/-! ## The moments -/

section Moments

variable {T R : ℕ}

/-- Row `r` of block `t`. -/
def blockRow (t : Fin T) (r : Fin R) : Fin (T * R) := ⟨t.val * R + r.val, Cert.LibSumBlocks.block_index_lt t r⟩

/-- The mean over all rows. -/
def meanAll (c : EReal) (u : Fin (T * R) → EReal) : EReal := Ideal.div (∑ n, u n) c

/-- The mean of the squared deviations from the mean, over all rows. -/
def varAll (c : EReal) (u : Fin (T * R) → EReal) : EReal :=
  Ideal.div (∑ n, (u n - meanAll c u) * (u n - meanAll c u)) c

/-- The mean from block sums. -/
def meanBlocks (c : EReal) (u : Fin (T * R) → EReal) : EReal := Ideal.div (∑ t : Fin T, ∑ r : Fin R, u (blockRow t r)) c

/-- The mean of squares from block sums, less the squared mean. -/
def varBlocks (c : EReal) (u : Fin (T * R) → EReal) : EReal :=
  Ideal.div (∑ t : Fin T, ∑ r : Fin R, u (blockRow t r) * u (blockRow t r)) c - meanBlocks c u * meanBlocks c u

theorem meanBlocks_eq (c : EReal) (u : Fin (T * R) → EReal) : meanBlocks c u = meanAll c u := by
  unfold meanBlocks meanAll
  rw [Cert.LibSumBlocks.sum_blocks T R u]
  rfl

/-- On real data, with the divisor the number of rows, the two variances are equal. -/
theorem varBlocks_eq (c : ℝ) (u : Fin (T * R) → EReal) (hu : ∀ n, IsReal (u n))
    (hc : c = ((T * R : ℕ) : ℝ)) (hc0 : c ≠ 0) : varBlocks (c : EReal) u = varAll (c : EReal) u := by
  unfold varBlocks varAll
  rw [meanBlocks_eq]
  unfold meanAll
  rw [variance_identity u hu c (by rw [hc, Fintype.card_fin]) hc0, Cert.LibSumBlocks.sum_blocks T R fun n => u n * u n]
  rfl

/-- The mean of real data is real. -/
theorem meanAll_isReal (c : ℝ) (hc0 : c ≠ 0) (u : Fin (T * R) → EReal) (hu : ∀ n, IsReal (u n)) :
    IsReal (meanAll (c : EReal) u) :=
  IsReal.div_coe (IsReal.sum_univ _ hu) hc0

/-- The variance of real data over a positive count is a real that is not negative. -/
theorem varAll_nonneg (c : ℝ) (hc : 0 < c) (u : Fin (T * R) → EReal) (hu : ∀ n, IsReal (u n)) :
    IsReal (varAll (c : EReal) u) ∧ 0 ≤ varAll (c : EReal) u := by
  obtain ⟨μ, hμ⟩ := meanAll_isReal c hc.ne' u hu
  choose v hv using hu
  unfold varAll
  rw [hμ]
  have hs : (∑ n, (u n - (μ : EReal)) * (u n - (μ : EReal))) = ((∑ n, (v n - μ) * (v n - μ) : ℝ) : EReal) := by
    rw [coe_finset_sum]
    refine Finset.sum_congr rfl fun n _ => ?_
    rw [hv n, ← EReal.coe_sub, ← EReal.coe_mul]
  rw [hs, div_coe_coe _ _ hc.ne']
  refine ⟨⟨_, rfl⟩, ?_⟩
  exact_mod_cast div_nonneg (Finset.sum_nonneg fun n _ => mul_self_nonneg _) hc.le

end Moments

/-! ## Normalisation and rectifier -/

/-- One entry normalised by the column's moments, scaled, shifted and rectified. -/
def normRect (x mean var eps g beta : EReal) : EReal :=
  max (((x - mean) * Ideal.rsqrt (var + eps)) * g + beta) 0

/-- A real entry normalised by real moments, the variance not negative and the epsilon positive, is real. -/
theorem normRect_isReal {x mean var eps g beta : EReal} (hx : IsReal x) (hm : IsReal mean) (hv : IsReal var)
    (hv0 : 0 ≤ var) (he : IsReal eps) (he0 : 0 < eps) (hg : IsReal g) (hb : IsReal beta) :
    IsReal (normRect x mean var eps g beta) :=
  IsReal.max (IsReal.add (IsReal.mul (IsReal.mul (IsReal.sub hx hm)
    (IsReal.rsqrt_pos (IsReal.add hv he) (IsReal.add_pos_of_nonneg_of_pos hv0 he0))) hg) hb) IsReal.zero

end Cert.Gnn

end
-- ==== Proof.LibGinMoments.lean ====
import proofs.«144698_j9466107920964_1_alg».proof.Proof.LibGraphConvNorm
import Idealize.ShloMosaic.PureOps.Ideal

/-! Moments of a column of 50000 = 25 × 2000 real entries. The kernel forms the sum and the sum of squares block by
    block and multiplies each by the reciprocal of the row count; the reference divides the whole sums by the row count
    and averages the squared deviations. On real data the two means agree and the two variances agree. -/

noncomputable section

namespace Cert.Gin

open Idealize.ShloMosaic Cert.Alg Cert.Gnn

/-- Multiplying by the reciprocal of the row count is dividing by the row count, on every extended real. -/
theorem mul_recip (x : EReal) : x * ((1 / 50000 : ℝ) : EReal) = Ideal.div x ((50000 : ℝ) : EReal) :=
  (Ideal.div_coe (by norm_num) x).symm

variable (u : Fin (25 * 2000) → EReal)

/-- The sum taken block by block. -/
def blockSum : EReal := ∑ t : Fin 25, ∑ r : Fin 2000, u (blockRow t r)
/-- The sum of squares taken block by block. -/
def blockSumSq : EReal := ∑ t : Fin 25, ∑ r : Fin 2000, u (blockRow t r) * u (blockRow t r)

/-- The mean from block sums and the reciprocal is the mean over all rows. -/
theorem mean_bridge : blockSum u * ((1 / 50000 : ℝ) : EReal) = meanAll ((50000 : ℝ) : EReal) u := by
  rw [mul_recip]; unfold blockSum; exact meanBlocks_eq _ u

/-- On real data the mean of squares less the squared mean is the mean squared deviation. -/
theorem var_bridge (hu : ∀ n, IsReal (u n)) :
    blockSumSq u * ((1 / 50000 : ℝ) : EReal)
        - (blockSum u * ((1 / 50000 : ℝ) : EReal)) * (blockSum u * ((1 / 50000 : ℝ) : EReal))
      = varAll ((50000 : ℝ) : EReal) u := by
  rw [mul_recip, mul_recip]; unfold blockSum blockSumSq
  exact varBlocks_eq 50000 u hu (by norm_num) (by norm_num)

/-- One entry scaled, centred, normalised and shifted, in the order both programs use. -/
def norm (x mean var eps g beta : EReal) : EReal := (g * (x - mean)) * Ideal.rsqrt (var + eps) + beta

theorem norm_isReal {x mean var eps g beta : EReal} (hx : IsReal x) (hm : IsReal mean) (hv : IsReal var)
    (hv0 : 0 ≤ var) (he : IsReal eps) (he0 : 0 < eps) (hg : IsReal g) (hb : IsReal beta) :
    IsReal (norm x mean var eps g beta) :=
  IsReal.add (IsReal.mul (IsReal.mul hg (IsReal.sub hx hm))
    (IsReal.rsqrt_pos (IsReal.add hv he) (IsReal.add_pos_of_nonneg_of_pos hv0 he0))) hb

end Cert.Gin

end
-- ==== Proof.Val0.lean ====
/- The values region 0 leaves in its three output arrays, from the arrays the region is entered with: the rows' array
   at row `p`, column `q` is the product of the summed inputs' row `p` with the weights' column `q` plus the bias;
   the mean's and the variance's arrays are, column by column, the block sums of that column and of its squares times
   the reciprocal of the row count (the variance less the squared mean). Each grid point `t` writes rows
   `2000 t … 2000 t + 1999`; the two `[1, 256]` arrays are written at the last point, from the running sums. -/
import proofs.«144698_j9466107920964_1_alg».proof.Proof.Reg0
import proofs.«144698_j9466107920964_1_alg».proof.Proof.LibBlockMatmul
import proofs.«144698_j9466107920964_1_alg».proof.Proof.LibGinMoments
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The payloads at an index -/

/-- The reciprocal of the row count, the named constant at the exact values. -/
theorem inv_rows0 : Named.named (F := Ideal) κ "inv_50000" (φ := .f32) 0x37A7C5AC#32 = ((1 / 50000 : ℝ) : EReal) :=
  IdealRules.named_const.ideal_named_scalar _ _ _ _ rfl

/-- The rows of a point at row `r`, column `q`: the product of the summed inputs with the weights, plus the bias. -/
theorem pay5_apply0 (x0 x1 : Vec Ideal S2000x64 .f32) (x2 : Vec Ideal S64x256 .f32) (x3 : Vec Ideal S1x256 .f32) (r : Fin 2000) (q : Fin 256) :
    k0_pay5 x0 x1 x2 x3 (ix2 r q) = (∑ k : Fin 64, (x0 (ix2 r k) + x1 (ix2 r k)) * x2 (ix2 k q)) + x3 (ix2 0 q) := by
  unfold k0_pay5
  simp only [shapeCast_self, addf_apply, broadcastTo_1b_ab_apply]
  rw [show dot_S2000x64_S64x256_S2000x256_1_0_0_1_n_n = Cert.BlockMatmul.plainDims dot_S2000x64_S64x256_S2000x256_1_0_0_1_n_n_wf from rfl]
  rw [Cert.BlockMatmul.matmul_zero_plain_apply]
  simp only [truncf_apply, addf_apply]

/-- The zeroed accumulators. -/
theorem pay3_apply0 (j : S1x256.Idx) : k0_pay3 (F := Ideal) j = 0 := by
  unfold k0_pay3
  simp only [shapeCast_self, broadcast_apply, Ideal.ofBits_def, Ideal.ofBits_zero_f32]
theorem pay4_apply0 (j : S1x256.Idx) : k0_pay4 (F := Ideal) j = 0 := by
  unfold k0_pay4
  simp only [shapeCast_self, broadcast_apply, Ideal.ofBits_def, Ideal.ofBits_zero_f32]

/-- The sum over the rows of a `[2000, 256]` block, column by column. -/
theorem colsum_apply0 (src : FVec Ideal S2000x256 .f32) (j : S256.Idx) :
    multiReduction (F := Ideal) .add [0] S256 src 0x00000000#32 reduces_S2000x256_S256 (.inl rfl) rfl j = ∑ r : Fin 2000, src (ix2 r (j 0)) := by
  refine (Ideal.multiReduction_add_single src 0x00000000#32 reduces_S2000x256_S256 (.inl rfl) rfl j).trans ?_
  exact Finset.sum_congr rfl fun r _ => congrArg src (funext fun a => Fin.ext (by match a with | ⟨0, _⟩ => rfl | ⟨1, _⟩ => rfl))

/-- The running sum after a point: what it was plus the column sums of the point's rows. -/
theorem pay6_apply0 (x0 x1 : Vec Ideal S2000x64 .f32) (x2 : Vec Ideal S64x256 .f32) (x3 xs : Vec Ideal S1x256 .f32) (q : Fin 256) :
    k0_pay6 x0 x1 x2 x3 xs (ix2 0 q) = xs (ix2 0 q) + ∑ r : Fin 2000, k0_pay5 x0 x1 x2 x3 (ix2 r q) := by
  unfold k0_pay6
  simp only [shapeCast_self, addf_apply]
  rw [shapeCast_addUnit_apply ![256]]
  refine congrArg (xs (ix2 0 q) + ·) ?_
  exact colsum_apply0 _ _

/-- The running sum of squares after a point. -/
theorem pay7_apply0 (x0 x1 : Vec Ideal S2000x64 .f32) (x2 : Vec Ideal S64x256 .f32) (x3 xs : Vec Ideal S1x256 .f32) (q : Fin 256) :
    k0_pay7 x0 x1 x2 x3 xs (ix2 0 q) = xs (ix2 0 q) + ∑ r : Fin 2000, k0_pay5 x0 x1 x2 x3 (ix2 r q) * k0_pay5 x0 x1 x2 x3 (ix2 r q) := by
  unfold k0_pay7
  simp only [shapeCast_self, addf_apply]
  rw [shapeCast_addUnit_apply ![256]]
  refine congrArg (xs (ix2 0 q) + ·) ?_
  exact colsum_apply0 _ _

/-- The mean from the running sum. -/
theorem pay1_apply0 (s : Vec Ideal S1x256 .f32) (j : S1x256.Idx) : k0_pay1 s j = s j * ((1 / 50000 : ℝ) : EReal) := by
  unfold k0_pay1
  simp only [mulf_apply, broadcast_apply, inv_rows0]

/-- The variance from the two running sums. -/
theorem pay2_apply0 (s ss : Vec Ideal S1x256 .f32) (j : S1x256.Idx) :
    k0_pay2 s ss j = ss j * ((1 / 50000 : ℝ) : EReal) - (s j * ((1 / 50000 : ℝ) : EReal)) * (s j * ((1 / 50000 : ℝ) : EReal)) := by
  unfold k0_pay2
  simp only [subf_apply, mulf_apply, broadcast_apply, inv_rows0, pay1_apply0]

/-! ## The windows' blocks, by coordinates -/

/-- The index maps over the 25 grid points: the row-tiled windows sit at row block `t`, the others at block zero. -/
theorem idx_facts0 : ∀ t : Fin cfg0.N, win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- A row of block `t` is a row of the array. -/
theorem row_lt0 (t : Fin cfg0.N) (r : Fin 2000) : t.val * 2000 + r.val < 50000 := by
  have ht : t.val < 25 := Nat.lt_of_lt_of_eq t.isLt N_0
  have hr := r.isLt
  omega

/-- The rows' window at point `t` sits at rows `2000 t …` of the array. -/
theorem emb0_4 (t : Fin cfg0.N) (r : Fin 2000) (q : Fin 256) :
    ((cfg0.win 4).blk t).view.emb (ix2 r q) = (ix2 ⟨t.val * 2000 + r.val, row_lt0 t r⟩ q : S50000x256.Idx) := by
  obtain ⟨e0, e1, -⟩ := idx_facts0 t
  funext a; apply Fin.ext
  match a with
  | ⟨0, _⟩ => show win0_4.index t (0 : Fin 2) * 2000 + 1 * r.val = t.val * 2000 + r.val; omega
  | ⟨1, _⟩ => show win0_4.index t (1 : Fin 2) * 256 + 1 * q.val = q.val; omega

/-- Input window 0's block at point `t` is rows `2000 t …` of its array. -/
theorem iblk0_0_apply (c : Dev nD) (t : Fin cfg0.N) (r : Fin 2000) (k : Fin 64) :
    (iblk0 V c 0 t : Vec Ideal S2000x64 .f32) (ix2 r k) = (V c main_arg0 : S50000x64.Idx → Elt Ideal .f32) (ix2 ⟨t.val * 2000 + r.val, row_lt0 t r⟩ k) := by
  obtain ⟨-, -, e0, e1, -⟩ := idx_facts0 t
  unfold iblk0
  rw [View.read_apply]
  show V c main_arg0 _ = V c main_arg0 _
  congr 1
  funext a; apply Fin.ext
  match a with
  | ⟨0, _⟩ => show win0_0.index t (0 : Fin 2) * 2000 + 1 * r.val = t.val * 2000 + r.val; omega
  | ⟨1, _⟩ => show win0_0.index t (1 : Fin 2) * 64 + 1 * k.val = k.val; omega

/-- Input window 1's block at point `t` is rows `2000 t …` of its array. -/
theorem iblk0_1_apply (c : Dev nD) (t : Fin cfg0.N) (r : Fin 2000) (k : Fin 64) :
    (iblk0 V c 1 t : Vec Ideal S2000x64 .f32) (ix2 r k) = (V c main_v13 : S50000x64.Idx → Elt Ideal .f32) (ix2 ⟨t.val * 2000 + r.val, row_lt0 t r⟩ k) := by
  obtain ⟨-, -, -, -, e0, e1, -⟩ := idx_facts0 t
  unfold iblk0
  rw [View.read_apply]
  show V c main_v13 _ = V c main_v13 _
  congr 1
  funext a; apply Fin.ext
  match a with
  | ⟨0, _⟩ => show win0_1.index t (0 : Fin 2) * 2000 + 1 * r.val = t.val * 2000 + r.val; omega
  | ⟨1, _⟩ => show win0_1.index t (1 : Fin 2) * 64 + 1 * k.val = k.val; omega

/-- Input window 2's block at every point is the weight array. -/
theorem iblk0_2_apply (c : Dev nD) (t : Fin cfg0.N) (k : Fin 64) (q : Fin 256) :
    (iblk0 V c 2 t : Vec Ideal S64x256 .f32) (ix2 k q) = (V c main_arg3 : S64x256.Idx → Elt Ideal .f32) (ix2 k q) := by
  obtain ⟨-, -, -, -, -, -, e0, e1, -⟩ := idx_facts0 t
  unfold iblk0
  rw [View.read_apply]
  show V c main_arg3 _ = V c main_arg3 _
  congr 1
  funext a; apply Fin.ext
  match a with
  | ⟨0, _⟩ => show win0_2.index t (0 : Fin 2) * 64 + 1 * k.val = k.val; omega
  | ⟨1, _⟩ => show win0_2.index t (1 : Fin 2) * 256 + 1 * q.val = q.val; omega

/-- Input window 3's block at every point is the bias row. -/
theorem iblk0_3_apply (c : Dev nD) (t : Fin cfg0.N) (q : Fin 256) :
    (iblk0 V c 3 t : Vec Ideal S1x256 .f32) (ix2 0 q) = (V c main_v14 : S1x256.Idx → Elt Ideal .f32) (ix2 0 q) := by
  obtain ⟨-, -, -, -, -, -, -, -, e0, e1, -⟩ := idx_facts0 t
  unfold iblk0
  rw [View.read_apply]
  show V c main_v14 _ = V c main_v14 _
  congr 1
  funext a; apply Fin.ext
  match a with
  | ⟨0, _⟩ => show win0_3.index t (0 : Fin 2) * 1 + 1 * 0 = 0; omega
  | ⟨1, _⟩ => show win0_3.index t (1 : Fin 2) * 256 + 1 * q.val = q.val; omega

/-! ## The rows' array -/

/-- The linear layer at row `p`, column `q`: the product of the summed inputs' row `p` with the weights' column `q`,
    plus the bias at `q`. -/
def linOut0 (x agg : S50000x64.Idx → Elt Ideal .f32) (W : S64x256.Idx → Elt Ideal .f32) (b : S1x256.Idx → Elt Ideal .f32)
    (p : Fin 50000) (q : Fin 256) : Elt Ideal .f32 :=
  (∑ k : Fin 64, (x (ix2 p k) + agg (ix2 p k)) * W (ix2 k q)) + b (ix2 0 q)

/-- What the rows' array ends holding. -/
def G0 (c : Dev nD) : S50000x256.Idx → Elt Ideal .f32 := fun i =>
  linOut0 (V c main_arg0) (V c main_v13) (V c main_arg3) (V c main_v14) (i 0) (i 1)

/-- The rows a point stores, at row `r`, column `q`, are the array's at row `2000 t + r`. -/
theorem pay5_block0 (c : Dev nD) (t : Fin cfg0.N) (r : Fin 2000) (q : Fin 256) :
    k0_pay5 (iblk0 V c 0 t) (iblk0 V c 1 t) (iblk0 V c 2 t) (iblk0 V c 3 t) (ix2 r q)
      = G0 V c (ix2 ⟨t.val * 2000 + r.val, row_lt0 t r⟩ q) := by
  refine (pay5_apply0 _ _ _ _ r q).trans ?_
  simp only [iblk0_0_apply V c t, iblk0_1_apply V c t, iblk0_2_apply V c t, iblk0_3_apply V c t]
  rfl

/-- What point `t` writes back is block `t` of `G0`. -/
theorem flushed0_4_eq (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  funext j
  obtain ⟨r, q, rfl⟩ : ∃ (r : Fin 2000) (q : Fin 256), j = ix2 r q := ⟨j 0, j 1, eq_ix2 j⟩
  refine (pay5_block0 V c t r q).trans ?_
  rw [View.read_apply, emb0_4 t r q]
  rfl

/-- An index of the array is in point `t`'s block iff each coordinate is in the block's range on its axis. -/
theorem mem_blk0_4 (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v15_0).slice (win0_4.rect t)).set ↔ _
  rw [View.set_slice_whole, Rect.mem_set_unit]
  exact Iff.rfl

/-- Row `p` is in the block of point `p / 2000`. -/
theorem cover0_4 (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  have hN : (i 0).val / 2000 < cfg0.N := Nat.lt_of_lt_of_eq (by omega) N_0.symm
  obtain ⟨e0, e1, -⟩ := idx_facts0 ⟨(i 0).val / 2000, hN⟩
  have e0' : win0_4.index ⟨(i 0).val / 2000, hN⟩ (0 : Fin 2) = (i 0).val / 2000 := e0
  refine ⟨⟨(i 0).val / 2000, hN⟩, flush0_4 _, ?_⟩
  rw [mem_blk0_4]
  intro a
  match a with
  | ⟨0, _⟩ => show win0_4.index ⟨(i 0).val / 2000, hN⟩ (0 : Fin 2) * 2000 ≤ (i 0).val ∧ (i 0).val < win0_4.index ⟨(i 0).val / 2000, hN⟩ (0 : Fin 2) * 2000 + 2000; omega
  | ⟨1, _⟩ => show win0_4.index ⟨(i 0).val / 2000, hN⟩ (1 : Fin 2) * 256 ≤ (i 1).val ∧ (i 1).val < win0_4.index ⟨(i 0).val / 2000, hN⟩ (1 : Fin 2) * 256 + 256; omega

/-- The rows' array after the region is `G0`. -/
theorem final0_h_fun (c : Dev nD) : (dat0 V c).arrAt 4 cfg0.N = G0 V c :=
  (dat0 V c).arrAt_eq_of_cover 4 (G0 V c) (fun t _ => flushed0_4_eq V c t) cover0_4

/-- The rows' array after the region, at row `p` and column `q`. -/
theorem final0_h (c : Dev nD) (p : Fin 50000) (q : Fin 256) :
    (dat0 V c).arrAt 4 cfg0.N (ix2 p q) = linOut0 (V c main_arg0) (V c main_v13) (V c main_arg3) (V c main_v14) p q := by
  rw [final0_h_fun]
  rfl

/-! ## The running sums, in closed form -/

theorem row_lt0' {n : ℕ} (hn : n ≤ 25) (t : Fin n) (r : Fin 2000) : t.val * 2000 + r.val < 50000 := by
  have := t.isLt; have := r.isLt; omega

/-- The running column sum after `n` points is the sum of the array's column over the rows of the first `n` blocks. -/
theorem acc0S_apply (c : Dev nD) (q : Fin 256) : ∀ (n : ℕ) (hn : n ≤ 25),
    acc0S V c n (ix2 0 q) = ∑ t : Fin n, ∑ r : Fin 2000, G0 V c (ix2 ⟨t.val * 2000 + r.val, row_lt0' hn t r⟩ q)
  | 0, _ => by rw [acc0S_zero, pay3_apply0]; rfl
  | n + 1, hn => by
    have hlt : n < cfg0.N := Nat.lt_of_lt_of_eq (by omega) N_0.symm
    rw [(acc0S_succ V c ⟨n, hlt⟩ : acc0S V c (n + 1) = _), pay6_apply0, acc0S_apply c q n (by omega), Fin.sum_univ_castSucc (n := n)]
    refine congrArg₂ (· + ·) rfl ?_
    exact Finset.sum_congr rfl fun r _ => pay5_block0 V c ⟨n, hlt⟩ r q

/-- The running column sum of squares after `n` points. -/
theorem acc0Q_apply (c : Dev nD) (q : Fin 256) : ∀ (n : ℕ) (hn : n ≤ 25),
    acc0Q V c n (ix2 0 q) = ∑ t : Fin n, ∑ r : Fin 2000,
      G0 V c (ix2 ⟨t.val * 2000 + r.val, row_lt0' hn t r⟩ q) * G0 V c (ix2 ⟨t.val * 2000 + r.val, row_lt0' hn t r⟩ q)
  | 0, _ => by rw [acc0Q_zero, pay4_apply0]; rfl
  | n + 1, hn => by
    have hlt : n < cfg0.N := Nat.lt_of_lt_of_eq (by omega) N_0.symm
    rw [(acc0Q_succ V c ⟨n, hlt⟩ : acc0Q V c (n + 1) = _), pay7_apply0, acc0Q_apply c q n (by omega), Fin.sum_univ_castSucc (n := n)]
    refine congrArg₂ (· + ·) rfl ?_
    exact Finset.sum_congr rfl fun r _ => congrArg₂ (· * ·) (pay5_block0 V c ⟨n, hlt⟩ r q) (pay5_block0 V c ⟨n, hlt⟩ r q)

/-- Column `q` of the rows' array after the region, as a column of `25 * 2000` entries. -/
def col0 (c : Dev nD) (q : Fin 256) : Fin (25 * 2000) → EReal :=
  fun n => (dat0 V c).arrAt 4 cfg0.N (ix2 (Fin.cast (by norm_num) n) q)

theorem acc0S_last (c : Dev nD) (q : Fin 256) : acc0S V c 25 (ix2 0 q) = Cert.Gin.blockSum (col0 V c q) := by
  rw [acc0S_apply V c q 25 le_rfl]
  unfold Cert.Gin.blockSum col0
  rw [final0_h_fun]
  rfl

theorem acc0Q_last (c : Dev nD) (q : Fin 256) : acc0Q V c 25 (ix2 0 q) = Cert.Gin.blockSumSq (col0 V c q) := by
  rw [acc0Q_apply V c q 25 le_rfl]
  unfold Cert.Gin.blockSumSq col0
  rw [final0_h_fun]
  rfl

/-! ## The mean's and the variance's arrays -/

/-- The last point is point 24. -/
theorem last_of_flush0_5 (t : Fin cfg0.N) (hf : (cfg0.win 5).flush t = true) : t.val + 1 = 25 := by
  have ht : t.val < 25 := Nat.lt_of_lt_of_eq t.isLt N_0
  have := (flush0_5 t).mp hf
  omega
theorem last_of_flush0_6 (t : Fin cfg0.N) (hf : (cfg0.win 6).flush t = true) : t.val + 1 = 25 := by
  have ht : t.val < 25 := Nat.lt_of_lt_of_eq t.isLt N_0
  have := (flush0_6 t).mp hf
  omega

/-- The mean's and the variance's windows are their whole `[1, 256]` arrays at every point. -/
theorem emb0_5 (t : Fin cfg0.N) (j : S1x256.Idx) : ((cfg0.win 5).blk t).view.emb j = (j : S1x256.Idx) := by
  obtain ⟨-, -, -, -, -, -, -, -, -, -, e0, e1, -⟩ := idx_facts0 t
  funext a; apply Fin.ext
  match a with
  | ⟨0, _⟩ => show win0_5.index t (0 : Fin 2) * 1 + 1 * (j 0).val = (j 0).val; omega
  | ⟨1, _⟩ => show win0_5.index t (1 : Fin 2) * 256 + 1 * (j 1).val = (j 1).val; omega
theorem emb0_6 (t : Fin cfg0.N) (j : S1x256.Idx) : ((cfg0.win 6).blk t).view.emb j = (j : S1x256.Idx) := by
  obtain ⟨-, -, -, -, -, -, -, -, -, -, -, -, e0, e1⟩ := idx_facts0 t
  funext a; apply Fin.ext
  match a with
  | ⟨0, _⟩ => show win0_6.index t (0 : Fin 2) * 1 + 1 * (j 0).val = (j 0).val; omega
  | ⟨1, _⟩ => show win0_6.index t (1 : Fin 2) * 256 + 1 * (j 1).val = (j 1).val; omega

/-- What the mean's array ends holding. -/
def M0 (c : Dev nD) : S1x256.Idx → Elt Ideal .f32 := k0_pay1 (acc0S V c 25)
/-- What the variance's array ends holding. -/
def Q0 (c : Dev nD) : S1x256.Idx → Elt Ideal .f32 := k0_pay2 (acc0S V c 25) (acc0Q V c 25)

theorem flushed0_5_eq (c : Dev nD) (t : Fin cfg0.N) (hf : (cfg0.win 5).flush t = true) :
    (dat0 V c).flushed 5 t = ((cfg0.win 5).blk t).view.read (Elt Ideal) (M0 V c) := by
  show (cfg0.win 5).cut (grid0.coords t) ((dat0 V c).after 5 t) = _
  rw [after0_5, last_of_flush0_5 t hf]
  funext j
  rw [View.read_apply, emb0_5 t j]
  rfl
theorem flushed0_6_eq (c : Dev nD) (t : Fin cfg0.N) (hf : (cfg0.win 6).flush t = true) :
    (dat0 V c).flushed 6 t = ((cfg0.win 6).blk t).view.read (Elt Ideal) (Q0 V c) := by
  show (cfg0.win 6).cut (grid0.coords t) ((dat0 V c).after 6 t) = _
  rw [after0_6, last_of_flush0_6 t hf]
  funext j
  rw [View.read_apply, emb0_6 t j]
  rfl

/-- The last point's block is the whole array. -/
theorem cover0_5 (i : S1x256.Idx) : ∃ t : Fin cfg0.N, (cfg0.win 5).flush t = true ∧ i ∈ ((cfg0.win 5).blk t).view.set := by
  have hN : 24 < cfg0.N := Nat.lt_of_lt_of_eq (by norm_num) N_0.symm
  refine ⟨⟨24, hN⟩, (flush0_5 _).mpr rfl, ?_⟩
  rw [← emb0_5 ⟨24, hN⟩ i]
  exact ((cfg0.win 5).blk ⟨24, hN⟩).view.emb_mem_set i
theorem cover0_6 (i : S1x256.Idx) : ∃ t : Fin cfg0.N, (cfg0.win 6).flush t = true ∧ i ∈ ((cfg0.win 6).blk t).view.set := by
  have hN : 24 < cfg0.N := Nat.lt_of_lt_of_eq (by norm_num) N_0.symm
  refine ⟨⟨24, hN⟩, (flush0_6 _).mpr rfl, ?_⟩
  rw [← emb0_6 ⟨24, hN⟩ i]
  exact ((cfg0.win 6).blk ⟨24, hN⟩).view.emb_mem_set i

theorem final0_mean_fun (c : Dev nD) : (dat0 V c).arrAt 5 cfg0.N = M0 V c :=
  (dat0 V c).arrAt_eq_of_cover 5 (M0 V c) (fun t hf => flushed0_5_eq V c t hf) cover0_5
theorem final0_var_fun (c : Dev nD) : (dat0 V c).arrAt 6 cfg0.N = Q0 V c :=
  (dat0 V c).arrAt_eq_of_cover 6 (Q0 V c) (fun t hf => flushed0_6_eq V c t hf) cover0_6

/-- The mean's array after the region: the column's block sum times the reciprocal of the row count. -/
theorem final0_mean (c : Dev nD) (q : Fin 256) :
    (dat0 V c).arrAt 5 cfg0.N (ix2 0 q) = Cert.Gin.blockSum (col0 V c q) * ((1 / 50000 : ℝ) : EReal) := by
  rw [final0_mean_fun]
  unfold M0
  rw [pay1_apply0, acc0S_last]

/-- The variance's array after the region: the column's block sum of squares times the reciprocal of the row count,
    less the squared mean. -/
theorem final0_var (c : Dev nD) (q : Fin 256) :
    (dat0 V c).arrAt 6 cfg0.N (ix2 0 q)
      = Cert.Gin.blockSumSq (col0 V c q) * ((1 / 50000 : ℝ) : EReal)
        - (Cert.Gin.blockSum (col0 V c q) * ((1 / 50000 : ℝ) : EReal)) * (Cert.Gin.blockSum (col0 V c q) * ((1 / 50000 : ℝ) : EReal)) := by
  rw [final0_var_fun]
  unfold Q0
  rw [pay2_apply0, acc0S_last, acc0Q_last]

end Cert.KernelIdeal.Hand

end
-- ==== Proof.Val1.lean ====
/- The value region 1 leaves in its output array: at row `p`, column `q` the batch normalisation
   `gamma q * (h p q - mean q) * rsqrt (var q + eps) + beta q`, clamped below at zero, of the arrays the region is entered with. Each grid
   point `t` writes rows `2000 t … 2000 t + 1999`; the 25 points cover the 50000 rows. -/
import proofs.«144698_j9466107920964_1_alg».proof.Proof.Reg1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The payload at an index -/

/-- The reciprocal square root of a vector, at an index. -/
theorem rsqrt_apply1 {s : Shape} (a : FVec Ideal s .f32) (i : s.Idx) : rsqrt a i = Ideal.rsqrt (a i) := rfl

/-- The normalisation at row `p`, column `q`, of a `[50000, 256]` array and four `[1, 256]` rows. -/
def bnOut1 (h : S50000x256.Idx → Elt Ideal .f32) (mean var gamma beta : S1x256.Idx → Elt Ideal .f32) (p : Fin 50000) (q : Fin 256) : Elt Ideal .f32 :=
  max ((gamma (ix2 0 q) * (h (ix2 p q) - mean (ix2 0 q))) * Ideal.rsqrt (var (ix2 0 q) + Ideal.ofBits .f32 0x3727C5AC#32) + beta (ix2 0 q)) 0

theorem bnOut1_apply (h : S50000x256.Idx → Elt Ideal .f32) (mean var gamma beta : S1x256.Idx → Elt Ideal .f32) (p : Fin 50000) (q : Fin 256) :
    bnOut1 h mean var gamma beta p q = max ((gamma (ix2 0 q) * (h (ix2 p q) - mean (ix2 0 q))) * Ideal.rsqrt (var (ix2 0 q) + Ideal.ofBits .f32 0x3727C5AC#32) + beta (ix2 0 q)) 0 := rfl

/-- The stored block at row `r`, column `q`, from the loaded blocks: the `[1, 256]` rows are read at column `q`. -/
theorem pay1_apply (x0 : Vec Ideal S2000x256 .f32) (x1 x2 x3 x4 : Vec Ideal S1x256 .f32) (r : Fin 2000) (q : Fin 256) :
    k1_pay1 x0 x1 x2 x3 x4 (ix2 r q)
      = max ((x3 (ix2 0 q) * (x0 (ix2 r q) - x1 (ix2 0 q))) * Ideal.rsqrt (x2 (ix2 0 q) + Ideal.ofBits .f32 0x3727C5AC#32) + x4 (ix2 0 q)) 0 := by
  unfold k1_pay1
  simp only [shapeCast_self, maximumf_apply, addf_apply, mulf_apply, subf_apply, broadcastTo_1b_ab_apply, broadcast_apply,
    rsqrt_apply1, Ideal.ofBits_def, Ideal.ofBits_zero_f32]

/-! ## The windows' blocks, by coordinates -/

/-- The index maps over the 25 grid points: the two `[2000, 256]` windows sit at row block `t`, the four `[1, 256]`
    windows at block zero. -/
theorem idx_facts1 : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- A row of block `t` is a row of the array. -/
theorem row_lt1 (t : Fin cfg1.N) (r : Fin 2000) : t.val * 2000 + r.val < 50000 := by
  have ht : t.val < 25 := Nat.lt_of_lt_of_eq t.isLt N_1
  have hr := r.isLt
  omega

/-- The output window's block at point `t` sits at rows `2000 t …` of the array. -/
theorem emb1_5 (t : Fin cfg1.N) (r : Fin 2000) (q : Fin 256) :
    ((cfg1.win 5).blk t).view.emb (ix2 r q) = (ix2 ⟨t.val * 2000 + r.val, row_lt1 t r⟩ q : S50000x256.Idx) := by
  obtain ⟨e0, e1, -⟩ := idx_facts1 t
  funext a; apply Fin.ext
  match a with
  | ⟨0, _⟩ => show win1_5.index t (0 : Fin 2) * 2000 + 1 * r.val = t.val * 2000 + r.val; omega
  | ⟨1, _⟩ => show win1_5.index t (1 : Fin 2) * 256 + 1 * q.val = q.val; omega

/-- Input window 0's block at point `t` is rows `2000 t …` of its array. -/
theorem iblk1_0_apply (c : Dev nD) (t : Fin cfg1.N) (r : Fin 2000) (q : Fin 256) :
    (iblk1 V c 0 t : Vec Ideal S2000x256 .f32) (ix2 r q) = (V c main_v15_0 : S50000x256.Idx → Elt Ideal .f32) (ix2 ⟨t.val * 2000 + r.val, row_lt1 t r⟩ q) := by
  obtain ⟨-, -, e0, e1, -⟩ := idx_facts1 t
  unfold iblk1
  rw [View.read_apply]
  show V c main_v15_0 _ = V c main_v15_0 _
  congr 1
  funext a; apply Fin.ext
  match a with
  | ⟨0, _⟩ => show win1_0.index t (0 : Fin 2) * 2000 + 1 * r.val = t.val * 2000 + r.val; omega
  | ⟨1, _⟩ => show win1_0.index t (1 : Fin 2) * 256 + 1 * q.val = q.val; omega

/-- Input window 1's block at every point is its `[1, 256]` array. -/
theorem iblk1_1_apply (c : Dev nD) (t : Fin cfg1.N) (q : Fin 256) :
    (iblk1 V c 1 t : Vec Ideal S1x256 .f32) (ix2 0 q) = (V c main_v15_1 : S1x256.Idx → Elt Ideal .f32) (ix2 0 q) := by
  obtain ⟨-, -, -, -, e0, e1, -⟩ := idx_facts1 t
  unfold iblk1
  rw [View.read_apply]
  show V c main_v15_1 _ = V c main_v15_1 _
  congr 1
  funext a; apply Fin.ext
  match a with
  | ⟨0, _⟩ => show win1_1.index t (0 : Fin 2) * 1 + 1 * 0 = 0; omega
  | ⟨1, _⟩ => show win1_1.index t (1 : Fin 2) * 256 + 1 * q.val = q.val; omega

/-- Input window 2's block at every point is its `[1, 256]` array. -/
theorem iblk1_2_apply (c : Dev nD) (t : Fin cfg1.N) (q : Fin 256) :
    (iblk1 V c 2 t : Vec Ideal S1x256 .f32) (ix2 0 q) = (V c main_v15_2 : S1x256.Idx → Elt Ideal .f32) (ix2 0 q) := by
  obtain ⟨-, -, -, -, -, -, e0, e1, -⟩ := idx_facts1 t
  unfold iblk1
  rw [View.read_apply]
  show V c main_v15_2 _ = V c main_v15_2 _
  congr 1
  funext a; apply Fin.ext
  match a with
  | ⟨0, _⟩ => show win1_2.index t (0 : Fin 2) * 1 + 1 * 0 = 0; omega
  | ⟨1, _⟩ => show win1_2.index t (1 : Fin 2) * 256 + 1 * q.val = q.val; omega

/-- Input window 3's block at every point is its `[1, 256]` array. -/
theorem iblk1_3_apply (c : Dev nD) (t : Fin cfg1.N) (q : Fin 256) :
    (iblk1 V c 3 t : Vec Ideal S1x256 .f32) (ix2 0 q) = (V c main_v16 : S1x256.Idx → Elt Ideal .f32) (ix2 0 q) := by
  obtain ⟨-, -, -, -, -, -, -, -, e0, e1, -⟩ := idx_facts1 t
  unfold iblk1
  rw [View.read_apply]
  show V c main_v16 _ = V c main_v16 _
  congr 1
  funext a; apply Fin.ext
  match a with
  | ⟨0, _⟩ => show win1_3.index t (0 : Fin 2) * 1 + 1 * 0 = 0; omega
  | ⟨1, _⟩ => show win1_3.index t (1 : Fin 2) * 256 + 1 * q.val = q.val; omega

/-- Input window 4's block at every point is its `[1, 256]` array. -/
theorem iblk1_4_apply (c : Dev nD) (t : Fin cfg1.N) (q : Fin 256) :
    (iblk1 V c 4 t : Vec Ideal S1x256 .f32) (ix2 0 q) = (V c main_v17 : S1x256.Idx → Elt Ideal .f32) (ix2 0 q) := by
  obtain ⟨-, -, -, -, -, -, -, -, -, -, e0, e1⟩ := idx_facts1 t
  unfold iblk1
  rw [View.read_apply]
  show V c main_v17 _ = V c main_v17 _
  congr 1
  funext a; apply Fin.ext
  match a with
  | ⟨0, _⟩ => show win1_4.index t (0 : Fin 2) * 1 + 1 * 0 = 0; omega
  | ⟨1, _⟩ => show win1_4.index t (1 : Fin 2) * 256 + 1 * q.val = q.val; omega

/-! ## The whole output array -/

/-- What the output array ends holding, index by index, from the arrays the region is entered with. -/
def G1 (c : Dev nD) : S50000x256.Idx → Elt Ideal .f32 := fun i =>
  bnOut1 (V c main_v15_0) (V c main_v15_1) (V c main_v15_2) (V c main_v16) (V c main_v17) (i 0) (i 1)

/-- What point `t` writes back is block `t` of `G1`. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5, out1_5_eq]
  funext j
  obtain ⟨r, q, rfl⟩ : ∃ (r : Fin 2000) (q : Fin 256), j = ix2 r q := ⟨j 0, j 1, eq_ix2 j⟩
  refine (pay1_apply _ _ _ _ _ r q).trans ?_
  rw [iblk1_0_apply V c t r q, iblk1_1_apply V c t q, iblk1_2_apply V c t q, iblk1_3_apply V c t q, iblk1_4_apply V c t q,
    View.read_apply, emb1_5 t r q]
  rfl

/-- An index of the array is in point `t`'s block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v18).slice (win1_5.rect t)).set ↔ _
  rw [View.set_slice_whole, Rect.mem_set_unit]
  exact Iff.rfl

/-- Row `p` is in the block of point `p / 2000`. -/
theorem cover1 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : (i 0).val / 2000 < cfg1.N := Nat.lt_of_lt_of_eq (by omega) N_1.symm
  obtain ⟨e0, e1, -⟩ := idx_facts1 ⟨(i 0).val / 2000, hN⟩
  have e0' : win1_5.index ⟨(i 0).val / 2000, hN⟩ (0 : Fin 2) = (i 0).val / 2000 := e0
  refine ⟨⟨(i 0).val / 2000, hN⟩, flush1_5 _, ?_⟩
  rw [mem_blk1]
  intro a
  match a with
  | ⟨0, _⟩ => show win1_5.index ⟨(i 0).val / 2000, hN⟩ (0 : Fin 2) * 2000 ≤ (i 0).val ∧ (i 0).val < win1_5.index ⟨(i 0).val / 2000, hN⟩ (0 : Fin 2) * 2000 + 2000; omega
  | ⟨1, _⟩ => show win1_5.index ⟨(i 0).val / 2000, hN⟩ (1 : Fin 2) * 256 ≤ (i 1).val ∧ (i 1).val < win1_5.index ⟨(i 0).val / 2000, hN⟩ (1 : Fin 2) * 256 + 256; omega

/-- The output array after the region is `G1`. -/
theorem final1_fun (c : Dev nD) : (dat1 V c).arrAt 5 cfg1.N = G1 V c :=
  (dat1 V c).arrAt_eq_of_cover 5 (G1 V c) (fun t _ => flushed1_eq V c t) cover1

/-- The output array after the region, at row `p` and column `q`. -/
theorem final1 (c : Dev nD) (p : Fin 50000) (q : Fin 256) :
    (dat1 V c).arrAt 5 cfg1.N (ix2 p q) = bnOut1 (V c main_v15_0) (V c main_v15_1) (V c main_v15_2) (V c main_v16) (V c main_v17) p q := by
  rw [final1_fun]
  rfl

end Cert.KernelIdeal.Hand
-- ==== Proof.Val2.lean ====
/- The values region 2 leaves in its three output arrays, from the arrays the region is entered with: the rows' array
   at row `p`, column `q` is the product of the summed inputs' row `p` with the weights' column `q` plus the bias;
   the mean's and the variance's arrays are, column by column, the block sums of that column and of its squares times
   the reciprocal of the row count (the variance less the squared mean). Each grid point `t` writes rows
   `2000 t … 2000 t + 1999`; the two `[1, 256]` arrays are written at the last point, from the running sums. -/
import proofs.«144698_j9466107920964_1_alg».proof.Proof.Reg2
import proofs.«144698_j9466107920964_1_alg».proof.Proof.LibBlockMatmul
import proofs.«144698_j9466107920964_1_alg».proof.Proof.LibGinMoments
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The payloads at an index -/

/-- The reciprocal of the row count, the named constant at the exact values. -/
theorem inv_rows2 : Named.named (F := Ideal) κ "inv_50000" (φ := .f32) 0x37A7C5AC#32 = ((1 / 50000 : ℝ) : EReal) :=
  IdealRules.named_const.ideal_named_scalar _ _ _ _ rfl

/-- The rows of a point at row `r`, column `q`: the product of the summed inputs with the weights, plus the bias. -/
theorem pay5_apply2 (x0 x1 : Vec Ideal S2000x256 .f32) (x2 : Vec Ideal S256x256 .f32) (x3 : Vec Ideal S1x256 .f32) (r : Fin 2000) (q : Fin 256) :
    k2_pay5 x0 x1 x2 x3 (ix2 r q) = (∑ k : Fin 256, (x0 (ix2 r k) + x1 (ix2 r k)) * x2 (ix2 k q)) + x3 (ix2 0 q) := by
  unfold k2_pay5
  simp only [shapeCast_self, addf_apply, broadcastTo_1b_ab_apply]
  rw [show dot_S2000x256_S256x256_S2000x256_1_0_0_1_n_n = Cert.BlockMatmul.plainDims dot_S2000x256_S256x256_S2000x256_1_0_0_1_n_n_wf from rfl]
  rw [Cert.BlockMatmul.matmul_zero_plain_apply]
  simp only [truncf_apply, addf_apply]

/-- The zeroed accumulators. -/
theorem pay3_apply2 (j : S1x256.Idx) : k2_pay3 (F := Ideal) j = 0 := by
  unfold k2_pay3
  simp only [shapeCast_self, broadcast_apply, Ideal.ofBits_def, Ideal.ofBits_zero_f32]
theorem pay4_apply2 (j : S1x256.Idx) : k2_pay4 (F := Ideal) j = 0 := by
  unfold k2_pay4
  simp only [shapeCast_self, broadcast_apply, Ideal.ofBits_def, Ideal.ofBits_zero_f32]

/-- The sum over the rows of a `[2000, 256]` block, column by column. -/
theorem colsum_apply2 (src : FVec Ideal S2000x256 .f32) (j : S256.Idx) :
    multiReduction (F := Ideal) .add [0] S256 src 0x00000000#32 reduces_S2000x256_S256 (.inl rfl) rfl j = ∑ r : Fin 2000, src (ix2 r (j 0)) := by
  refine (Ideal.multiReduction_add_single src 0x00000000#32 reduces_S2000x256_S256 (.inl rfl) rfl j).trans ?_
  exact Finset.sum_congr rfl fun r _ => congrArg src (funext fun a => Fin.ext (by match a with | ⟨0, _⟩ => rfl | ⟨1, _⟩ => rfl))

/-- The running sum after a point: what it was plus the column sums of the point's rows. -/
theorem pay6_apply2 (x0 x1 : Vec Ideal S2000x256 .f32) (x2 : Vec Ideal S256x256 .f32) (x3 xs : Vec Ideal S1x256 .f32) (q : Fin 256) :
    k2_pay6 x0 x1 x2 x3 xs (ix2 0 q) = xs (ix2 0 q) + ∑ r : Fin 2000, k2_pay5 x0 x1 x2 x3 (ix2 r q) := by
  unfold k2_pay6
  simp only [shapeCast_self, addf_apply]
  rw [shapeCast_addUnit_apply ![256]]
  refine congrArg (xs (ix2 0 q) + ·) ?_
  exact colsum_apply2 _ _

/-- The running sum of squares after a point. -/
theorem pay7_apply2 (x0 x1 : Vec Ideal S2000x256 .f32) (x2 : Vec Ideal S256x256 .f32) (x3 xs : Vec Ideal S1x256 .f32) (q : Fin 256) :
    k2_pay7 x0 x1 x2 x3 xs (ix2 0 q) = xs (ix2 0 q) + ∑ r : Fin 2000, k2_pay5 x0 x1 x2 x3 (ix2 r q) * k2_pay5 x0 x1 x2 x3 (ix2 r q) := by
  unfold k2_pay7
  simp only [shapeCast_self, addf_apply]
  rw [shapeCast_addUnit_apply ![256]]
  refine congrArg (xs (ix2 0 q) + ·) ?_
  exact colsum_apply2 _ _

/-- The mean from the running sum. -/
theorem pay1_apply2 (s : Vec Ideal S1x256 .f32) (j : S1x256.Idx) : k2_pay1 s j = s j * ((1 / 50000 : ℝ) : EReal) := by
  unfold k2_pay1
  simp only [mulf_apply, broadcast_apply, inv_rows2]

/-- The variance from the two running sums. -/
theorem pay2_apply2 (s ss : Vec Ideal S1x256 .f32) (j : S1x256.Idx) :
    k2_pay2 s ss j = ss j * ((1 / 50000 : ℝ) : EReal) - (s j * ((1 / 50000 : ℝ) : EReal)) * (s j * ((1 / 50000 : ℝ) : EReal)) := by
  unfold k2_pay2
  simp only [subf_apply, mulf_apply, broadcast_apply, inv_rows2, pay1_apply2]

/-! ## The windows' blocks, by coordinates -/

/-- The index maps over the 25 grid points: the row-tiled windows sit at row block `t`, the others at block zero. -/
theorem idx_facts2 : ∀ t : Fin cfg2.N, win2_4.index t (0 : Fin 2) = t.val ∧ win2_4.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- A row of block `t` is a row of the array. -/
theorem row_lt2 (t : Fin cfg2.N) (r : Fin 2000) : t.val * 2000 + r.val < 50000 := by
  have ht : t.val < 25 := Nat.lt_of_lt_of_eq t.isLt N_2
  have hr := r.isLt
  omega

/-- The rows' window at point `t` sits at rows `2000 t …` of the array. -/
theorem emb2_4 (t : Fin cfg2.N) (r : Fin 2000) (q : Fin 256) :
    ((cfg2.win 4).blk t).view.emb (ix2 r q) = (ix2 ⟨t.val * 2000 + r.val, row_lt2 t r⟩ q : S50000x256.Idx) := by
  obtain ⟨e0, e1, -⟩ := idx_facts2 t
  funext a; apply Fin.ext
  match a with
  | ⟨0, _⟩ => show win2_4.index t (0 : Fin 2) * 2000 + 1 * r.val = t.val * 2000 + r.val; omega
  | ⟨1, _⟩ => show win2_4.index t (1 : Fin 2) * 256 + 1 * q.val = q.val; omega

/-- Input window 0's block at point `t` is rows `2000 t …` of its array. -/
theorem iblk2_0_apply (c : Dev nD) (t : Fin cfg2.N) (r : Fin 2000) (k : Fin 256) :
    (iblk2 V c 0 t : Vec Ideal S2000x256 .f32) (ix2 r k) = (V c main_v18 : S50000x256.Idx → Elt Ideal .f32) (ix2 ⟨t.val * 2000 + r.val, row_lt2 t r⟩ k) := by
  obtain ⟨-, -, e0, e1, -⟩ := idx_facts2 t
  unfold iblk2
  rw [View.read_apply]
  show V c main_v18 _ = V c main_v18 _
  congr 1
  funext a; apply Fin.ext
  match a with
  | ⟨0, _⟩ => show win2_0.index t (0 : Fin 2) * 2000 + 1 * r.val = t.val * 2000 + r.val; omega
  | ⟨1, _⟩ => show win2_0.index t (1 : Fin 2) * 256 + 1 * k.val = k.val; omega

/-- Input window 1's block at point `t` is rows `2000 t …` of its array. -/
theorem iblk2_1_apply (c : Dev nD) (t : Fin cfg2.N) (r : Fin 2000) (k : Fin 256) :
    (iblk2 V c 1 t : Vec Ideal S2000x256 .f32) (ix2 r k) = (V c main_v28 : S50000x256.Idx → Elt Ideal .f32) (ix2 ⟨t.val * 2000 + r.val, row_lt2 t r⟩ k) := by
  obtain ⟨-, -, -, -, e0, e1, -⟩ := idx_facts2 t
  unfold iblk2
  rw [View.read_apply]
  show V c main_v28 _ = V c main_v28 _
  congr 1
  funext a; apply Fin.ext
  match a with
  | ⟨0, _⟩ => show win2_1.index t (0 : Fin 2) * 2000 + 1 * r.val = t.val * 2000 + r.val; omega
  | ⟨1, _⟩ => show win2_1.index t (1 : Fin 2) * 256 + 1 * k.val = k.val; omega

/-- Input window 2's block at every point is the weight array. -/
theorem iblk2_2_apply (c : Dev nD) (t : Fin cfg2.N) (k : Fin 256) (q : Fin 256) :
    (iblk2 V c 2 t : Vec Ideal S256x256 .f32) (ix2 k q) = (V c main_arg7 : S256x256.Idx → Elt Ideal .f32) (ix2 k q) := by
  obtain ⟨-, -, -, -, -, -, e0, e1, -⟩ := idx_facts2 t
  unfold iblk2
  rw [View.read_apply]
  show V c main_arg7 _ = V c main_arg7 _
  congr 1
  funext a; apply Fin.ext
  match a with
  | ⟨0, _⟩ => show win2_2.index t (0 : Fin 2) * 256 + 1 * k.val = k.val; omega
  | ⟨1, _⟩ => show win2_2.index t (1 : Fin 2) * 256 + 1 * q.val = q.val; omega

/-- Input window 3's block at every point is the bias row. -/
theorem iblk2_3_apply (c : Dev nD) (t : Fin cfg2.N) (q : Fin 256) :
    (iblk2 V c 3 t : Vec Ideal S1x256 .f32) (ix2 0 q) = (V c main_v29 : S1x256.Idx → Elt Ideal .f32) (ix2 0 q) := by
  obtain ⟨-, -, -, -, -, -, -, -, e0, e1, -⟩ := idx_facts2 t
  unfold iblk2
  rw [View.read_apply]
  show V c main_v29 _ = V c main_v29 _
  congr 1
  funext a; apply Fin.ext
  match a with
  | ⟨0, _⟩ => show win2_3.index t (0 : Fin 2) * 1 + 1 * 0 = 0; omega
  | ⟨1, _⟩ => show win2_3.index t (1 : Fin 2) * 256 + 1 * q.val = q.val; omega

/-! ## The rows' array -/

/-- The linear layer at row `p`, column `q`: the product of the summed inputs' row `p` with the weights' column `q`,
    plus the bias at `q`. -/
def linOut2 (x agg : S50000x256.Idx → Elt Ideal .f32) (W : S256x256.Idx → Elt Ideal .f32) (b : S1x256.Idx → Elt Ideal .f32)
    (p : Fin 50000) (q : Fin 256) : Elt Ideal .f32 :=
  (∑ k : Fin 256, (x (ix2 p k) + agg (ix2 p k)) * W (ix2 k q)) + b (ix2 0 q)

/-- What the rows' array ends holding. -/
def G2 (c : Dev nD) : S50000x256.Idx → Elt Ideal .f32 := fun i =>
  linOut2 (V c main_v18) (V c main_v28) (V c main_arg7) (V c main_v29) (i 0) (i 1)

/-- The rows a point stores, at row `r`, column `q`, are the array's at row `2000 t + r`. -/
theorem pay5_block2 (c : Dev nD) (t : Fin cfg2.N) (r : Fin 2000) (q : Fin 256) :
    k2_pay5 (iblk2 V c 0 t) (iblk2 V c 1 t) (iblk2 V c 2 t) (iblk2 V c 3 t) (ix2 r q)
      = G2 V c (ix2 ⟨t.val * 2000 + r.val, row_lt2 t r⟩ q) := by
  refine (pay5_apply2 _ _ _ _ r q).trans ?_
  simp only [iblk2_0_apply V c t, iblk2_1_apply V c t, iblk2_2_apply V c t, iblk2_3_apply V c t]
  rfl

/-- What point `t` writes back is block `t` of `G2`. -/
theorem flushed2_4_eq (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  funext j
  obtain ⟨r, q, rfl⟩ : ∃ (r : Fin 2000) (q : Fin 256), j = ix2 r q := ⟨j 0, j 1, eq_ix2 j⟩
  refine (pay5_block2 V c t r q).trans ?_
  rw [View.read_apply, emb2_4 t r q]
  rfl

/-- An index of the array is in point `t`'s block iff each coordinate is in the block's range on its axis. -/
theorem mem_blk2_4 (t : Fin cfg2.N) (i : S50000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v30_0).slice (win2_4.rect t)).set ↔ _
  rw [View.set_slice_whole, Rect.mem_set_unit]
  exact Iff.rfl

/-- Row `p` is in the block of point `p / 2000`. -/
theorem cover2_4 (i : S50000x256.Idx) : ∃ t : Fin cfg2.N, (cfg2.win 4).flush t = true ∧ i ∈ ((cfg2.win 4).blk t).view.set := by
  have hi0 : (i 0).val < 50000 := (i 0).isLt
  have hi1 : (i 1).val < 256 := (i 1).isLt
  have hN : (i 0).val / 2000 < cfg2.N := Nat.lt_of_lt_of_eq (by omega) N_2.symm
  obtain ⟨e0, e1, -⟩ := idx_facts2 ⟨(i 0).val / 2000, hN⟩
  have e0' : win2_4.index ⟨(i 0).val / 2000, hN⟩ (0 : Fin 2) = (i 0).val / 2000 := e0
  refine ⟨⟨(i 0).val / 2000, hN⟩, flush2_4 _, ?_⟩
  rw [mem_blk2_4]
  intro a
  match a with
  | ⟨0, _⟩ => show win2_4.index ⟨(i 0).val / 2000, hN⟩ (0 : Fin 2) * 2000 ≤ (i 0).val ∧ (i 0).val < win2_4.index ⟨(i 0).val / 2000, hN⟩ (0 : Fin 2) * 2000 + 2000; omega
  | ⟨1, _⟩ => show win2_4.index ⟨(i 0).val / 2000, hN⟩ (1 : Fin 2) * 256 ≤ (i 1).val ∧ (i 1).val < win2_4.index ⟨(i 0).val / 2000, hN⟩ (1 : Fin 2) * 256 + 256; omega

/-- The rows' array after the region is `G2`. -/
theorem final2_h_fun (c : Dev nD) : (dat2 V c).arrAt 4 cfg2.N = G2 V c :=
  (dat2 V c).arrAt_eq_of_cover 4 (G2 V c) (fun t _ => flushed2_4_eq V c t) cover2_4

/-- The rows' array after the region, at row `p` and column `q`. -/
theorem final2_h (c : Dev nD) (p : Fin 50000) (q : Fin 256) :
    (dat2 V c).arrAt 4 cfg2.N (ix2 p q) = linOut2 (V c main_v18) (V c main_v28) (V c main_arg7) (V c main_v29) p q := by
  rw [final2_h_fun]
  rfl

/-! ## The running sums, in closed form -/

theorem row_lt2' {n : ℕ} (hn : n ≤ 25) (t : Fin n) (r : Fin 2000) : t.val * 2000 + r.val < 50000 := by
  have := t.isLt; have := r.isLt; omega

/-- The running column sum after `n` points is the sum of the array's column over the rows of the first `n` blocks. -/
theorem acc2S_apply (c : Dev nD) (q : Fin 256) : ∀ (n : ℕ) (hn : n ≤ 25),
    acc2S V c n (ix2 0 q) = ∑ t : Fin n, ∑ r : Fin 2000, G2 V c (ix2 ⟨t.val * 2000 + r.val, row_lt2' hn t r⟩ q)
  | 0, _ => by rw [acc2S_zero, pay3_apply2]; rfl
  | n + 1, hn => by
    have hlt : n < cfg2.N := Nat.lt_of_lt_of_eq (by omega) N_2.symm
    rw [(acc2S_succ V c ⟨n, hlt⟩ : acc2S V c (n + 1) = _), pay6_apply2, acc2S_apply c q n (by omega), Fin.sum_univ_castSucc (n := n)]
    refine congrArg₂ (· + ·) rfl ?_
    exact Finset.sum_congr rfl fun r _ => pay5_block2 V c ⟨n, hlt⟩ r q

/-- The running column sum of squares after `n` points. -/
theorem acc2Q_apply (c : Dev nD) (q : Fin 256) : ∀ (n : ℕ) (hn : n ≤ 25),
    acc2Q V c n (ix2 0 q) = ∑ t : Fin n, ∑ r : Fin 2000,
      G2 V c (ix2 ⟨t.val * 2000 + r.val, row_lt2' hn t r⟩ q) * G2 V c (ix2 ⟨t.val * 2000 + r.val, row_lt2' hn t r⟩ q)
  | 0, _ => by rw [acc2Q_zero, pay4_apply2]; rfl
  | n + 1, hn => by
    have hlt : n < cfg2.N := Nat.lt_of_lt_of_eq (by omega) N_2.symm
    rw [(acc2Q_succ V c ⟨n, hlt⟩ : acc2Q V c (n + 1) = _), pay7_apply2, acc2Q_apply c q n (by omega), Fin.sum_univ_castSucc (n := n)]
    refine congrArg₂ (· + ·) rfl ?_
    exact Finset.sum_congr rfl fun r _ => congrArg₂ (· * ·) (pay5_block2 V c ⟨n, hlt⟩ r q) (pay5_block2 V c ⟨n, hlt⟩ r q)

/-- Column `q` of the rows' array after the region, as a column of `25 * 2000` entries. -/
def col2 (c : Dev nD) (q : Fin 256) : Fin (25 * 2000) → EReal :=
  fun n => (dat2 V c).arrAt 4 cfg2.N (ix2 (Fin.cast (by norm_num) n) q)

theorem acc2S_last (c : Dev nD) (q : Fin 256) : acc2S V c 25 (ix2 0 q) = Cert.Gin.blockSum (col2 V c q) := by
  rw [acc2S_apply V c q 25 le_rfl]
  unfold Cert.Gin.blockSum col2
  rw [final2_h_fun]
  rfl

theorem acc2Q_last (c : Dev nD) (q : Fin 256) : acc2Q V c 25 (ix2 0 q) = Cert.Gin.blockSumSq (col2 V c q) := by
  rw [acc2Q_apply V c q 25 le_rfl]
  unfold Cert.Gin.blockSumSq col2
  rw [final2_h_fun]
  rfl

/-! ## The mean's and the variance's arrays -/

/-- The last point is point 24. -/
theorem last_of_flush2_5 (t : Fin cfg2.N) (hf : (cfg2.win 5).flush t = true) : t.val + 1 = 25 := by
  have ht : t.val < 25 := Nat.lt_of_lt_of_eq t.isLt N_2
  have := (flush2_5 t).mp hf
  omega
theorem last_of_flush2_6 (t : Fin cfg2.N) (hf : (cfg2.win 6).flush t = true) : t.val + 1 = 25 := by
  have ht : t.val < 25 := Nat.lt_of_lt_of_eq t.isLt N_2
  have := (flush2_6 t).mp hf
  omega

/-- The mean's and the variance's windows are their whole `[1, 256]` arrays at every point. -/
theorem emb2_5 (t : Fin cfg2.N) (j : S1x256.Idx) : ((cfg2.win 5).blk t).view.emb j = (j : S1x256.Idx) := by
  obtain ⟨-, -, -, -, -, -, -, -, -, -, e0, e1, -⟩ := idx_facts2 t
  funext a; apply Fin.ext
  match a with
  | ⟨0, _⟩ => show win2_5.index t (0 : Fin 2) * 1 + 1 * (j 0).val = (j 0).val; omega
  | ⟨1, _⟩ => show win2_5.index t (1 : Fin 2) * 256 + 1 * (j 1).val = (j 1).val; omega
theorem emb2_6 (t : Fin cfg2.N) (j : S1x256.Idx) : ((cfg2.win 6).blk t).view.emb j = (j : S1x256.Idx) := by
  obtain ⟨-, -, -, -, -, -, -, -, -, -, -, -, e0, e1⟩ := idx_facts2 t
  funext a; apply Fin.ext
  match a with
  | ⟨0, _⟩ => show win2_6.index t (0 : Fin 2) * 1 + 1 * (j 0).val = (j 0).val; omega
  | ⟨1, _⟩ => show win2_6.index t (1 : Fin 2) * 256 + 1 * (j 1).val = (j 1).val; omega

/-- What the mean's array ends holding. -/
def M2 (c : Dev nD) : S1x256.Idx → Elt Ideal .f32 := k2_pay1 (acc2S V c 25)
/-- What the variance's array ends holding. -/
def Q2 (c : Dev nD) : S1x256.Idx → Elt Ideal .f32 := k2_pay2 (acc2S V c 25) (acc2Q V c 25)

theorem flushed2_5_eq (c : Dev nD) (t : Fin cfg2.N) (hf : (cfg2.win 5).flush t = true) :
    (dat2 V c).flushed 5 t = ((cfg2.win 5).blk t).view.read (Elt Ideal) (M2 V c) := by
  show (cfg2.win 5).cut (grid2.coords t) ((dat2 V c).after 5 t) = _
  rw [after2_5, last_of_flush2_5 t hf]
  funext j
  rw [View.read_apply, emb2_5 t j]
  rfl
theorem flushed2_6_eq (c : Dev nD) (t : Fin cfg2.N) (hf : (cfg2.win 6).flush t = true) :
    (dat2 V c).flushed 6 t = ((cfg2.win 6).blk t).view.read (Elt Ideal) (Q2 V c) := by
  show (cfg2.win 6).cut (grid2.coords t) ((dat2 V c).after 6 t) = _
  rw [after2_6, last_of_flush2_6 t hf]
  funext j
  rw [View.read_apply, emb2_6 t j]
  rfl

/-- The last point's block is the whole array. -/
theorem cover2_5 (i : S1x256.Idx) : ∃ t : Fin cfg2.N, (cfg2.win 5).flush t = true ∧ i ∈ ((cfg2.win 5).blk t).view.set := by
  have hN : 24 < cfg2.N := Nat.lt_of_lt_of_eq (by norm_num) N_2.symm
  refine ⟨⟨24, hN⟩, (flush2_5 _).mpr rfl, ?_⟩
  rw [← emb2_5 ⟨24, hN⟩ i]
  exact ((cfg2.win 5).blk ⟨24, hN⟩).view.emb_mem_set i
theorem cover2_6 (i : S1x256.Idx) : ∃ t : Fin cfg2.N, (cfg2.win 6).flush t = true ∧ i ∈ ((cfg2.win 6).blk t).view.set := by
  have hN : 24 < cfg2.N := Nat.lt_of_lt_of_eq (by norm_num) N_2.symm
  refine ⟨⟨24, hN⟩, (flush2_6 _).mpr rfl, ?_⟩
  rw [← emb2_6 ⟨24, hN⟩ i]
  exact ((cfg2.win 6).blk ⟨24, hN⟩).view.emb_mem_set i

theorem final2_mean_fun (c : Dev nD) : (dat2 V c).arrAt 5 cfg2.N = M2 V c :=
  (dat2 V c).arrAt_eq_of_cover 5 (M2 V c) (fun t hf => flushed2_5_eq V c t hf) cover2_5
theorem final2_var_fun (c : Dev nD) : (dat2 V c).arrAt 6 cfg2.N = Q2 V c :=
  (dat2 V c).arrAt_eq_of_cover 6 (Q2 V c) (fun t hf => flushed2_6_eq V c t hf) cover2_6

/-- The mean's array after the region: the column's block sum times the reciprocal of the row count. -/
theorem final2_mean (c : Dev nD) (q : Fin 256) :
    (dat2 V c).arrAt 5 cfg2.N (ix2 0 q) = Cert.Gin.blockSum (col2 V c q) * ((1 / 50000 : ℝ) : EReal) := by
  rw [final2_mean_fun]
  unfold M2
  rw [pay1_apply2, acc2S_last]

/-- The variance's array after the region: the column's block sum of squares times the reciprocal of the row count,
    less the squared mean. -/
theorem final2_var (c : Dev nD) (q : Fin 256) :
    (dat2 V c).arrAt 6 cfg2.N (ix2 0 q)
      = Cert.Gin.blockSumSq (col2 V c q) * ((1 / 50000 : ℝ) : EReal)
        - (Cert.Gin.blockSum (col2 V c q) * ((1 / 50000 : ℝ) : EReal)) * (Cert.Gin.blockSum (col2 V c q) * ((1 / 50000 : ℝ) : EReal)) := by
  rw [final2_var_fun]
  unfold Q2
  rw [pay2_apply2, acc2S_last, acc2Q_last]

end Cert.KernelIdeal.Hand

end
-- ==== Proof.Val3.lean ====
/- The value region 3 leaves in its output array: at row `p`, column `q` the batch normalisation
   `gamma q * (h p q - mean q) * rsqrt (var q + eps) + beta q`, clamped below at zero, of the arrays the region is entered with. Each grid
   point `t` writes rows `2000 t … 2000 t + 1999`; the 25 points cover the 50000 rows. -/
import proofs.«144698_j9466107920964_1_alg».proof.Proof.Reg3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The payload at an index -/

/-- The reciprocal square root of a vector, at an index. -/
theorem rsqrt_apply3 {s : Shape} (a : FVec Ideal s .f32) (i : s.Idx) : rsqrt a i = Ideal.rsqrt (a i) := rfl

/-- The normalisation at row `p`, column `q`, of a `[50000, 256]` array and four `[1, 256]` rows. -/
def bnOut3 (h : S50000x256.Idx → Elt Ideal .f32) (mean var gamma beta : S1x256.Idx → Elt Ideal .f32) (p : Fin 50000) (q : Fin 256) : Elt Ideal .f32 :=
  max ((gamma (ix2 0 q) * (h (ix2 p q) - mean (ix2 0 q))) * Ideal.rsqrt (var (ix2 0 q) + Ideal.ofBits .f32 0x3727C5AC#32) + beta (ix2 0 q)) 0

theorem bnOut3_apply (h : S50000x256.Idx → Elt Ideal .f32) (mean var gamma beta : S1x256.Idx → Elt Ideal .f32) (p : Fin 50000) (q : Fin 256) :
    bnOut3 h mean var gamma beta p q = max ((gamma (ix2 0 q) * (h (ix2 p q) - mean (ix2 0 q))) * Ideal.rsqrt (var (ix2 0 q) + Ideal.ofBits .f32 0x3727C5AC#32) + beta (ix2 0 q)) 0 := rfl

/-- The stored block at row `r`, column `q`, from the loaded blocks: the `[1, 256]` rows are read at column `q`. -/
theorem pay3_apply (x0 : Vec Ideal S2000x256 .f32) (x1 x2 x3 x4 : Vec Ideal S1x256 .f32) (r : Fin 2000) (q : Fin 256) :
    k3_pay1 x0 x1 x2 x3 x4 (ix2 r q)
      = max ((x3 (ix2 0 q) * (x0 (ix2 r q) - x1 (ix2 0 q))) * Ideal.rsqrt (x2 (ix2 0 q) + Ideal.ofBits .f32 0x3727C5AC#32) + x4 (ix2 0 q)) 0 := by
  unfold k3_pay1
  simp only [shapeCast_self, maximumf_apply, addf_apply, mulf_apply, subf_apply, broadcastTo_1b_ab_apply, broadcast_apply,
    rsqrt_apply3, Ideal.ofBits_def, Ideal.ofBits_zero_f32]

/-! ## The windows' blocks, by coordinates -/

/-- The index maps over the 25 grid points: the two `[2000, 256]` windows sit at row block `t`, the four `[1, 256]`
    windows at block zero. -/
theorem idx_facts3 : ∀ t : Fin cfg3.N, win3_5.index t (0 : Fin 2) = t.val ∧ win3_5.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- A row of block `t` is a row of the array. -/
theorem row_lt3 (t : Fin cfg3.N) (r : Fin 2000) : t.val * 2000 + r.val < 50000 := by
  have ht : t.val < 25 := Nat.lt_of_lt_of_eq t.isLt N_3
  have hr := r.isLt
  omega

/-- The output window's block at point `t` sits at rows `2000 t …` of the array. -/
theorem emb3_5 (t : Fin cfg3.N) (r : Fin 2000) (q : Fin 256) :
    ((cfg3.win 5).blk t).view.emb (ix2 r q) = (ix2 ⟨t.val * 2000 + r.val, row_lt3 t r⟩ q : S50000x256.Idx) := by
  obtain ⟨e0, e1, -⟩ := idx_facts3 t
  funext a; apply Fin.ext
  match a with
  | ⟨0, _⟩ => show win3_5.index t (0 : Fin 2) * 2000 + 1 * r.val = t.val * 2000 + r.val; omega
  | ⟨1, _⟩ => show win3_5.index t (1 : Fin 2) * 256 + 1 * q.val = q.val; omega

/-- Input window 0's block at point `t` is rows `2000 t …` of its array. -/
theorem iblk3_0_apply (c : Dev nD) (t : Fin cfg3.N) (r : Fin 2000) (q : Fin 256) :
    (iblk3 V c 0 t : Vec Ideal S2000x256 .f32) (ix2 r q) = (V c main_v30_0 : S50000x256.Idx → Elt Ideal .f32) (ix2 ⟨t.val * 2000 + r.val, row_lt3 t r⟩ q) := by
  obtain ⟨-, -, e0, e1, -⟩ := idx_facts3 t
  unfold iblk3
  rw [View.read_apply]
  show V c main_v30_0 _ = V c main_v30_0 _
  congr 1
  funext a; apply Fin.ext
  match a with
  | ⟨0, _⟩ => show win3_0.index t (0 : Fin 2) * 2000 + 1 * r.val = t.val * 2000 + r.val; omega
  | ⟨1, _⟩ => show win3_0.index t (1 : Fin 2) * 256 + 1 * q.val = q.val; omega

/-- Input window 1's block at every point is its `[1, 256]` array. -/
theorem iblk3_1_apply (c : Dev nD) (t : Fin cfg3.N) (q : Fin 256) :
    (iblk3 V c 1 t : Vec Ideal S1x256 .f32) (ix2 0 q) = (V c main_v30_1 : S1x256.Idx → Elt Ideal .f32) (ix2 0 q) := by
  obtain ⟨-, -, -, -, e0, e1, -⟩ := idx_facts3 t
  unfold iblk3
  rw [View.read_apply]
  show V c main_v30_1 _ = V c main_v30_1 _
  congr 1
  funext a; apply Fin.ext
  match a with
  | ⟨0, _⟩ => show win3_1.index t (0 : Fin 2) * 1 + 1 * 0 = 0; omega
  | ⟨1, _⟩ => show win3_1.index t (1 : Fin 2) * 256 + 1 * q.val = q.val; omega

/-- Input window 2's block at every point is its `[1, 256]` array. -/
theorem iblk3_2_apply (c : Dev nD) (t : Fin cfg3.N) (q : Fin 256) :
    (iblk3 V c 2 t : Vec Ideal S1x256 .f32) (ix2 0 q) = (V c main_v30_2 : S1x256.Idx → Elt Ideal .f32) (ix2 0 q) := by
  obtain ⟨-, -, -, -, -, -, e0, e1, -⟩ := idx_facts3 t
  unfold iblk3
  rw [View.read_apply]
  show V c main_v30_2 _ = V c main_v30_2 _
  congr 1
  funext a; apply Fin.ext
  match a with
  | ⟨0, _⟩ => show win3_2.index t (0 : Fin 2) * 1 + 1 * 0 = 0; omega
  | ⟨1, _⟩ => show win3_2.index t (1 : Fin 2) * 256 + 1 * q.val = q.val; omega

/-- Input window 3's block at every point is its `[1, 256]` array. -/
theorem iblk3_3_apply (c : Dev nD) (t : Fin cfg3.N) (q : Fin 256) :
    (iblk3 V c 3 t : Vec Ideal S1x256 .f32) (ix2 0 q) = (V c main_v31 : S1x256.Idx → Elt Ideal .f32) (ix2 0 q) := by
  obtain ⟨-, -, -, -, -, -, -, -, e0, e1, -⟩ := idx_facts3 t
  unfold iblk3
  rw [View.read_apply]
  show V c main_v31 _ = V c main_v31 _
  congr 1
  funext a; apply Fin.ext
  match a with
  | ⟨0, _⟩ => show win3_3.index t (0 : Fin 2) * 1 + 1 * 0 = 0; omega
  | ⟨1, _⟩ => show win3_3.index t (1 : Fin 2) * 256 + 1 * q.val = q.val; omega

/-- Input window 4's block at every point is its `[1, 256]` array. -/
theorem iblk3_4_apply (c : Dev nD) (t : Fin cfg3.N) (q : Fin 256) :
    (iblk3 V c 4 t : Vec Ideal S1x256 .f32) (ix2 0 q) = (V c main_v32 : S1x256.Idx → Elt Ideal .f32) (ix2 0 q) := by
  obtain ⟨-, -, -, -, -, -, -, -, -, -, e0, e1⟩ := idx_facts3 t
  unfold iblk3
  rw [View.read_apply]
  show V c main_v32 _ = V c main_v32 _
  congr 1
  funext a; apply Fin.ext
  match a with
  | ⟨0, _⟩ => show win3_4.index t (0 : Fin 2) * 1 + 1 * 0 = 0; omega
  | ⟨1, _⟩ => show win3_4.index t (1 : Fin 2) * 256 + 1 * q.val = q.val; omega

/-! ## The whole output array -/

/-- What the output array ends holding, index by index, from the arrays the region is entered with. -/
def G3 (c : Dev nD) : S50000x256.Idx → Elt Ideal .f32 := fun i =>
  bnOut3 (V c main_v30_0) (V c main_v30_1) (V c main_v30_2) (V c main_v31) (V c main_v32) (i 0) (i 1)

/-- What point `t` writes back is block `t` of `G3`. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5, out3_5_eq]
  funext j
  obtain ⟨r, q, rfl⟩ : ∃ (r : Fin 2000) (q : Fin 256), j = ix2 r q := ⟨j 0, j 1, eq_ix2 j⟩
  refine (pay3_apply _ _ _ _ _ r q).trans ?_
  rw [iblk3_0_apply V c t r q, iblk3_1_apply V c t q, iblk3_2_apply V c t q, iblk3_3_apply V c t q, iblk3_4_apply V c t q,
    View.read_apply, emb3_5 t r q]
  rfl

/-- An index of the array is in point `t`'s block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v33).slice (win3_5.rect t)).set ↔ _
  rw [View.set_slice_whole, Rect.mem_set_unit]
  exact Iff.rfl

/-- Row `p` is in the block of point `p / 2000`. -/
theorem cover3 (i : S50000x256.Idx) : ∃ t : Fin cfg3.N, (cfg3.win 5).flush t = true ∧ i ∈ ((cfg3.win 5).blk t).view.set := by
  have hi0 : (i 0).val < 50000 := (i 0).isLt
  have hi1 : (i 1).val < 256 := (i 1).isLt
  have hN : (i 0).val / 2000 < cfg3.N := Nat.lt_of_lt_of_eq (by omega) N_3.symm
  obtain ⟨e0, e1, -⟩ := idx_facts3 ⟨(i 0).val / 2000, hN⟩
  have e0' : win3_5.index ⟨(i 0).val / 2000, hN⟩ (0 : Fin 2) = (i 0).val / 2000 := e0
  refine ⟨⟨(i 0).val / 2000, hN⟩, flush3_5 _, ?_⟩
  rw [mem_blk3]
  intro a
  match a with
  | ⟨0, _⟩ => show win3_5.index ⟨(i 0).val / 2000, hN⟩ (0 : Fin 2) * 2000 ≤ (i 0).val ∧ (i 0).val < win3_5.index ⟨(i 0).val / 2000, hN⟩ (0 : Fin 2) * 2000 + 2000; omega
  | ⟨1, _⟩ => show win3_5.index ⟨(i 0).val / 2000, hN⟩ (1 : Fin 2) * 256 ≤ (i 1).val ∧ (i 1).val < win3_5.index ⟨(i 0).val / 2000, hN⟩ (1 : Fin 2) * 256 + 256; omega

/-- The output array after the region is `G3`. -/
theorem final3_fun (c : Dev nD) : (dat3 V c).arrAt 5 cfg3.N = G3 V c :=
  (dat3 V c).arrAt_eq_of_cover 5 (G3 V c) (fun t _ => flushed3_eq V c t) cover3

/-- The output array after the region, at row `p` and column `q`. -/
theorem final3 (c : Dev nD) (p : Fin 50000) (q : Fin 256) :
    (dat3 V c).arrAt 5 cfg3.N (ix2 p q) = bnOut3 (V c main_v30_0) (V c main_v30_1) (V c main_v30_2) (V c main_v31) (V c main_v32) p q := by
  rw [final3_fun]
  rfl

end Cert.KernelIdeal.Hand
-- ==== Proof.Val4.lean ====
/- The values region 4 leaves in its three output arrays, from the arrays the region is entered with: the rows' array
   at row `p`, column `q` is the product of the summed inputs' row `p` with the weights' column `q` plus the bias;
   the mean's and the variance's arrays are, column by column, the block sums of that column and of its squares times
   the reciprocal of the row count (the variance less the squared mean). Each grid point `t` writes rows
   `2000 t … 2000 t + 1999`; the two `[1, 256]` arrays are written at the last point, from the running sums. -/
import proofs.«144698_j9466107920964_1_alg».proof.Proof.Reg4
import proofs.«144698_j9466107920964_1_alg».proof.Proof.LibBlockMatmul
import proofs.«144698_j9466107920964_1_alg».proof.Proof.LibGinMoments
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The payloads at an index -/

/-- The reciprocal of the row count, the named constant at the exact values. -/
theorem inv_rows4 : Named.named (F := Ideal) κ "inv_50000" (φ := .f32) 0x37A7C5AC#32 = ((1 / 50000 : ℝ) : EReal) :=
  IdealRules.named_const.ideal_named_scalar _ _ _ _ rfl

/-- The rows of a point at row `r`, column `q`: the product of the summed inputs with the weights, plus the bias. -/
theorem pay5_apply4 (x0 x1 : Vec Ideal S2000x256 .f32) (x2 : Vec Ideal S256x256 .f32) (x3 : Vec Ideal S1x256 .f32) (r : Fin 2000) (q : Fin 256) :
    k4_pay5 x0 x1 x2 x3 (ix2 r q) = (∑ k : Fin 256, (x0 (ix2 r k) + x1 (ix2 r k)) * x2 (ix2 k q)) + x3 (ix2 0 q) := by
  unfold k4_pay5
  simp only [shapeCast_self, addf_apply, broadcastTo_1b_ab_apply]
  rw [show dot_S2000x256_S256x256_S2000x256_1_0_0_1_n_n = Cert.BlockMatmul.plainDims dot_S2000x256_S256x256_S2000x256_1_0_0_1_n_n_wf from rfl]
  rw [Cert.BlockMatmul.matmul_zero_plain_apply]
  simp only [truncf_apply, addf_apply]

/-- The zeroed accumulators. -/
theorem pay3_apply4 (j : S1x256.Idx) : k4_pay3 (F := Ideal) j = 0 := by
  unfold k4_pay3
  simp only [shapeCast_self, broadcast_apply, Ideal.ofBits_def, Ideal.ofBits_zero_f32]
theorem pay4_apply4 (j : S1x256.Idx) : k4_pay4 (F := Ideal) j = 0 := by
  unfold k4_pay4
  simp only [shapeCast_self, broadcast_apply, Ideal.ofBits_def, Ideal.ofBits_zero_f32]

/-- The sum over the rows of a `[2000, 256]` block, column by column. -/
theorem colsum_apply4 (src : FVec Ideal S2000x256 .f32) (j : S256.Idx) :
    multiReduction (F := Ideal) .add [0] S256 src 0x00000000#32 reduces_S2000x256_S256 (.inl rfl) rfl j = ∑ r : Fin 2000, src (ix2 r (j 0)) := by
  refine (Ideal.multiReduction_add_single src 0x00000000#32 reduces_S2000x256_S256 (.inl rfl) rfl j).trans ?_
  exact Finset.sum_congr rfl fun r _ => congrArg src (funext fun a => Fin.ext (by match a with | ⟨0, _⟩ => rfl | ⟨1, _⟩ => rfl))

/-- The running sum after a point: what it was plus the column sums of the point's rows. -/
theorem pay6_apply4 (x0 x1 : Vec Ideal S2000x256 .f32) (x2 : Vec Ideal S256x256 .f32) (x3 xs : Vec Ideal S1x256 .f32) (q : Fin 256) :
    k4_pay6 x0 x1 x2 x3 xs (ix2 0 q) = xs (ix2 0 q) + ∑ r : Fin 2000, k4_pay5 x0 x1 x2 x3 (ix2 r q) := by
  unfold k4_pay6
  simp only [shapeCast_self, addf_apply]
  rw [shapeCast_addUnit_apply ![256]]
  refine congrArg (xs (ix2 0 q) + ·) ?_
  exact colsum_apply4 _ _

/-- The running sum of squares after a point. -/
theorem pay7_apply4 (x0 x1 : Vec Ideal S2000x256 .f32) (x2 : Vec Ideal S256x256 .f32) (x3 xs : Vec Ideal S1x256 .f32) (q : Fin 256) :
    k4_pay7 x0 x1 x2 x3 xs (ix2 0 q) = xs (ix2 0 q) + ∑ r : Fin 2000, k4_pay5 x0 x1 x2 x3 (ix2 r q) * k4_pay5 x0 x1 x2 x3 (ix2 r q) := by
  unfold k4_pay7
  simp only [shapeCast_self, addf_apply]
  rw [shapeCast_addUnit_apply ![256]]
  refine congrArg (xs (ix2 0 q) + ·) ?_
  exact colsum_apply4 _ _

/-- The mean from the running sum. -/
theorem pay1_apply4 (s : Vec Ideal S1x256 .f32) (j : S1x256.Idx) : k4_pay1 s j = s j * ((1 / 50000 : ℝ) : EReal) := by
  unfold k4_pay1
  simp only [mulf_apply, broadcast_apply, inv_rows4]

/-- The variance from the two running sums. -/
theorem pay2_apply4 (s ss : Vec Ideal S1x256 .f32) (j : S1x256.Idx) :
    k4_pay2 s ss j = ss j * ((1 / 50000 : ℝ) : EReal) - (s j * ((1 / 50000 : ℝ) : EReal)) * (s j * ((1 / 50000 : ℝ) : EReal)) := by
  unfold k4_pay2
  simp only [subf_apply, mulf_apply, broadcast_apply, inv_rows4, pay1_apply4]

/-! ## The windows' blocks, by coordinates -/

/-- The index maps over the 25 grid points: the row-tiled windows sit at row block `t`, the others at block zero. -/
theorem idx_facts4 : ∀ t : Fin cfg4.N, win4_4.index t (0 : Fin 2) = t.val ∧ win4_4.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- A row of block `t` is a row of the array. -/
theorem row_lt4 (t : Fin cfg4.N) (r : Fin 2000) : t.val * 2000 + r.val < 50000 := by
  have ht : t.val < 25 := Nat.lt_of_lt_of_eq t.isLt N_4
  have hr := r.isLt
  omega

/-- The rows' window at point `t` sits at rows `2000 t …` of the array. -/
theorem emb4_4 (t : Fin cfg4.N) (r : Fin 2000) (q : Fin 256) :
    ((cfg4.win 4).blk t).view.emb (ix2 r q) = (ix2 ⟨t.val * 2000 + r.val, row_lt4 t r⟩ q : S50000x256.Idx) := by
  obtain ⟨e0, e1, -⟩ := idx_facts4 t
  funext a; apply Fin.ext
  match a with
  | ⟨0, _⟩ => show win4_4.index t (0 : Fin 2) * 2000 + 1 * r.val = t.val * 2000 + r.val; omega
  | ⟨1, _⟩ => show win4_4.index t (1 : Fin 2) * 256 + 1 * q.val = q.val; omega

/-- Input window 0's block at point `t` is rows `2000 t …` of its array. -/
theorem iblk4_0_apply (c : Dev nD) (t : Fin cfg4.N) (r : Fin 2000) (k : Fin 256) :
    (iblk4 V c 0 t : Vec Ideal S2000x256 .f32) (ix2 r k) = (V c main_v33 : S50000x256.Idx → Elt Ideal .f32) (ix2 ⟨t.val * 2000 + r.val, row_lt4 t r⟩ k) := by
  obtain ⟨-, -, e0, e1, -⟩ := idx_facts4 t
  unfold iblk4
  rw [View.read_apply]
  show V c main_v33 _ = V c main_v33 _
  congr 1
  funext a; apply Fin.ext
  match a with
  | ⟨0, _⟩ => show win4_0.index t (0 : Fin 2) * 2000 + 1 * r.val = t.val * 2000 + r.val; omega
  | ⟨1, _⟩ => show win4_0.index t (1 : Fin 2) * 256 + 1 * k.val = k.val; omega

/-- Input window 1's block at point `t` is rows `2000 t …` of its array. -/
theorem iblk4_1_apply (c : Dev nD) (t : Fin cfg4.N) (r : Fin 2000) (k : Fin 256) :
    (iblk4 V c 1 t : Vec Ideal S2000x256 .f32) (ix2 r k) = (V c main_v43 : S50000x256.Idx → Elt Ideal .f32) (ix2 ⟨t.val * 2000 + r.val, row_lt4 t r⟩ k) := by
  obtain ⟨-, -, -, -, e0, e1, -⟩ := idx_facts4 t
  unfold iblk4
  rw [View.read_apply]
  show V c main_v43 _ = V c main_v43 _
  congr 1
  funext a; apply Fin.ext
  match a with
  | ⟨0, _⟩ => show win4_1.index t (0 : Fin 2) * 2000 + 1 * r.val = t.val * 2000 + r.val; omega
  | ⟨1, _⟩ => show win4_1.index t (1 : Fin 2) * 256 + 1 * k.val = k.val; omega

/-- Input window 2's block at every point is the weight array. -/
theorem iblk4_2_apply (c : Dev nD) (t : Fin cfg4.N) (k : Fin 256) (q : Fin 256) :
    (iblk4 V c 2 t : Vec Ideal S256x256 .f32) (ix2 k q) = (V c main_arg11 : S256x256.Idx → Elt Ideal .f32) (ix2 k q) := by
  obtain ⟨-, -, -, -, -, -, e0, e1, -⟩ := idx_facts4 t
  unfold iblk4
  rw [View.read_apply]
  show V c main_arg11 _ = V c main_arg11 _
  congr 1
  funext a; apply Fin.ext
  match a with
  | ⟨0, _⟩ => show win4_2.index t (0 : Fin 2) * 256 + 1 * k.val = k.val; omega
  | ⟨1, _⟩ => show win4_2.index t (1 : Fin 2) * 256 + 1 * q.val = q.val; omega

/-- Input window 3's block at every point is the bias row. -/
theorem iblk4_3_apply (c : Dev nD) (t : Fin cfg4.N) (q : Fin 256) :
    (iblk4 V c 3 t : Vec Ideal S1x256 .f32) (ix2 0 q) = (V c main_v44 : S1x256.Idx → Elt Ideal .f32) (ix2 0 q) := by
  obtain ⟨-, -, -, -, -, -, -, -, e0, e1, -⟩ := idx_facts4 t
  unfold iblk4
  rw [View.read_apply]
  show V c main_v44 _ = V c main_v44 _
  congr 1
  funext a; apply Fin.ext
  match a with
  | ⟨0, _⟩ => show win4_3.index t (0 : Fin 2) * 1 + 1 * 0 = 0; omega
  | ⟨1, _⟩ => show win4_3.index t (1 : Fin 2) * 256 + 1 * q.val = q.val; omega

/-! ## The rows' array -/

/-- The linear layer at row `p`, column `q`: the product of the summed inputs' row `p` with the weights' column `q`,
    plus the bias at `q`. -/
def linOut4 (x agg : S50000x256.Idx → Elt Ideal .f32) (W : S256x256.Idx → Elt Ideal .f32) (b : S1x256.Idx → Elt Ideal .f32)
    (p : Fin 50000) (q : Fin 256) : Elt Ideal .f32 :=
  (∑ k : Fin 256, (x (ix2 p k) + agg (ix2 p k)) * W (ix2 k q)) + b (ix2 0 q)

/-- What the rows' array ends holding. -/
def G4 (c : Dev nD) : S50000x256.Idx → Elt Ideal .f32 := fun i =>
  linOut4 (V c main_v33) (V c main_v43) (V c main_arg11) (V c main_v44) (i 0) (i 1)

/-- The rows a point stores, at row `r`, column `q`, are the array's at row `2000 t + r`. -/
theorem pay5_block4 (c : Dev nD) (t : Fin cfg4.N) (r : Fin 2000) (q : Fin 256) :
    k4_pay5 (iblk4 V c 0 t) (iblk4 V c 1 t) (iblk4 V c 2 t) (iblk4 V c 3 t) (ix2 r q)
      = G4 V c (ix2 ⟨t.val * 2000 + r.val, row_lt4 t r⟩ q) := by
  refine (pay5_apply4 _ _ _ _ r q).trans ?_
  simp only [iblk4_0_apply V c t, iblk4_1_apply V c t, iblk4_2_apply V c t, iblk4_3_apply V c t]
  rfl

/-- What point `t` writes back is block `t` of `G4`. -/
theorem flushed4_4_eq (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4]
  funext j
  obtain ⟨r, q, rfl⟩ : ∃ (r : Fin 2000) (q : Fin 256), j = ix2 r q := ⟨j 0, j 1, eq_ix2 j⟩
  refine (pay5_block4 V c t r q).trans ?_
  rw [View.read_apply, emb4_4 t r q]
  rfl

/-- An index of the array is in point `t`'s block iff each coordinate is in the block's range on its axis. -/
theorem mem_blk4_4 (t : Fin cfg4.N) (i : S50000x256.Idx) :
    i ∈ ((cfg4.win 4).blk t).view.set ↔ ∀ a : Fin 2, win4_4.index t a * S2000x256.size a ≤ (i a).val ∧ (i a).val < win4_4.index t a * S2000x256.size a + S2000x256.size a := by
  show i ∈ ((View.whole main_v45_0).slice (win4_4.rect t)).set ↔ _
  rw [View.set_slice_whole, Rect.mem_set_unit]
  exact Iff.rfl

/-- Row `p` is in the block of point `p / 2000`. -/
theorem cover4_4 (i : S50000x256.Idx) : ∃ t : Fin cfg4.N, (cfg4.win 4).flush t = true ∧ i ∈ ((cfg4.win 4).blk t).view.set := by
  have hi0 : (i 0).val < 50000 := (i 0).isLt
  have hi1 : (i 1).val < 256 := (i 1).isLt
  have hN : (i 0).val / 2000 < cfg4.N := Nat.lt_of_lt_of_eq (by omega) N_4.symm
  obtain ⟨e0, e1, -⟩ := idx_facts4 ⟨(i 0).val / 2000, hN⟩
  have e0' : win4_4.index ⟨(i 0).val / 2000, hN⟩ (0 : Fin 2) = (i 0).val / 2000 := e0
  refine ⟨⟨(i 0).val / 2000, hN⟩, flush4_4 _, ?_⟩
  rw [mem_blk4_4]
  intro a
  match a with
  | ⟨0, _⟩ => show win4_4.index ⟨(i 0).val / 2000, hN⟩ (0 : Fin 2) * 2000 ≤ (i 0).val ∧ (i 0).val < win4_4.index ⟨(i 0).val / 2000, hN⟩ (0 : Fin 2) * 2000 + 2000; omega
  | ⟨1, _⟩ => show win4_4.index ⟨(i 0).val / 2000, hN⟩ (1 : Fin 2) * 256 ≤ (i 1).val ∧ (i 1).val < win4_4.index ⟨(i 0).val / 2000, hN⟩ (1 : Fin 2) * 256 + 256; omega

/-- The rows' array after the region is `G4`. -/
theorem final4_h_fun (c : Dev nD) : (dat4 V c).arrAt 4 cfg4.N = G4 V c :=
  (dat4 V c).arrAt_eq_of_cover 4 (G4 V c) (fun t _ => flushed4_4_eq V c t) cover4_4

/-- The rows' array after the region, at row `p` and column `q`. -/
theorem final4_h (c : Dev nD) (p : Fin 50000) (q : Fin 256) :
    (dat4 V c).arrAt 4 cfg4.N (ix2 p q) = linOut4 (V c main_v33) (V c main_v43) (V c main_arg11) (V c main_v44) p q := by
  rw [final4_h_fun]
  rfl

/-! ## The running sums, in closed form -/

theorem row_lt4' {n : ℕ} (hn : n ≤ 25) (t : Fin n) (r : Fin 2000) : t.val * 2000 + r.val < 50000 := by
  have := t.isLt; have := r.isLt; omega

/-- The running column sum after `n` points is the sum of the array's column over the rows of the first `n` blocks. -/
theorem acc4S_apply (c : Dev nD) (q : Fin 256) : ∀ (n : ℕ) (hn : n ≤ 25),
    acc4S V c n (ix2 0 q) = ∑ t : Fin n, ∑ r : Fin 2000, G4 V c (ix2 ⟨t.val * 2000 + r.val, row_lt4' hn t r⟩ q)
  | 0, _ => by rw [acc4S_zero, pay3_apply4]; rfl
  | n + 1, hn => by
    have hlt : n < cfg4.N := Nat.lt_of_lt_of_eq (by omega) N_4.symm
    rw [(acc4S_succ V c ⟨n, hlt⟩ : acc4S V c (n + 1) = _), pay6_apply4, acc4S_apply c q n (by omega), Fin.sum_univ_castSucc (n := n)]
    refine congrArg₂ (· + ·) rfl ?_
    exact Finset.sum_congr rfl fun r _ => pay5_block4 V c ⟨n, hlt⟩ r q

/-- The running column sum of squares after `n` points. -/
theorem acc4Q_apply (c : Dev nD) (q : Fin 256) : ∀ (n : ℕ) (hn : n ≤ 25),
    acc4Q V c n (ix2 0 q) = ∑ t : Fin n, ∑ r : Fin 2000,
      G4 V c (ix2 ⟨t.val * 2000 + r.val, row_lt4' hn t r⟩ q) * G4 V c (ix2 ⟨t.val * 2000 + r.val, row_lt4' hn t r⟩ q)
  | 0, _ => by rw [acc4Q_zero, pay4_apply4]; rfl
  | n + 1, hn => by
    have hlt : n < cfg4.N := Nat.lt_of_lt_of_eq (by omega) N_4.symm
    rw [(acc4Q_succ V c ⟨n, hlt⟩ : acc4Q V c (n + 1) = _), pay7_apply4, acc4Q_apply c q n (by omega), Fin.sum_univ_castSucc (n := n)]
    refine congrArg₂ (· + ·) rfl ?_
    exact Finset.sum_congr rfl fun r _ => congrArg₂ (· * ·) (pay5_block4 V c ⟨n, hlt⟩ r q) (pay5_block4 V c ⟨n, hlt⟩ r q)

/-- Column `q` of the rows' array after the region, as a column of `25 * 2000` entries. -/
def col4 (c : Dev nD) (q : Fin 256) : Fin (25 * 2000) → EReal :=
  fun n => (dat4 V c).arrAt 4 cfg4.N (ix2 (Fin.cast (by norm_num) n) q)

theorem acc4S_last (c : Dev nD) (q : Fin 256) : acc4S V c 25 (ix2 0 q) = Cert.Gin.blockSum (col4 V c q) := by
  rw [acc4S_apply V c q 25 le_rfl]
  unfold Cert.Gin.blockSum col4
  rw [final4_h_fun]
  rfl

theorem acc4Q_last (c : Dev nD) (q : Fin 256) : acc4Q V c 25 (ix2 0 q) = Cert.Gin.blockSumSq (col4 V c q) := by
  rw [acc4Q_apply V c q 25 le_rfl]
  unfold Cert.Gin.blockSumSq col4
  rw [final4_h_fun]
  rfl

/-! ## The mean's and the variance's arrays -/

/-- The last point is point 24. -/
theorem last_of_flush4_5 (t : Fin cfg4.N) (hf : (cfg4.win 5).flush t = true) : t.val + 1 = 25 := by
  have ht : t.val < 25 := Nat.lt_of_lt_of_eq t.isLt N_4
  have := (flush4_5 t).mp hf
  omega
theorem last_of_flush4_6 (t : Fin cfg4.N) (hf : (cfg4.win 6).flush t = true) : t.val + 1 = 25 := by
  have ht : t.val < 25 := Nat.lt_of_lt_of_eq t.isLt N_4
  have := (flush4_6 t).mp hf
  omega

/-- The mean's and the variance's windows are their whole `[1, 256]` arrays at every point. -/
theorem emb4_5 (t : Fin cfg4.N) (j : S1x256.Idx) : ((cfg4.win 5).blk t).view.emb j = (j : S1x256.Idx) := by
  obtain ⟨-, -, -, -, -, -, -, -, -, -, e0, e1, -⟩ := idx_facts4 t
  funext a; apply Fin.ext
  match a with
  | ⟨0, _⟩ => show win4_5.index t (0 : Fin 2) * 1 + 1 * (j 0).val = (j 0).val; omega
  | ⟨1, _⟩ => show win4_5.index t (1 : Fin 2) * 256 + 1 * (j 1).val = (j 1).val; omega
theorem emb4_6 (t : Fin cfg4.N) (j : S1x256.Idx) : ((cfg4.win 6).blk t).view.emb j = (j : S1x256.Idx) := by
  obtain ⟨-, -, -, -, -, -, -, -, -, -, -, -, e0, e1⟩ := idx_facts4 t
  funext a; apply Fin.ext
  match a with
  | ⟨0, _⟩ => show win4_6.index t (0 : Fin 2) * 1 + 1 * (j 0).val = (j 0).val; omega
  | ⟨1, _⟩ => show win4_6.index t (1 : Fin 2) * 256 + 1 * (j 1).val = (j 1).val; omega

/-- What the mean's array ends holding. -/
def M4 (c : Dev nD) : S1x256.Idx → Elt Ideal .f32 := k4_pay1 (acc4S V c 25)
/-- What the variance's array ends holding. -/
def Q4 (c : Dev nD) : S1x256.Idx → Elt Ideal .f32 := k4_pay2 (acc4S V c 25) (acc4Q V c 25)

theorem flushed4_5_eq (c : Dev nD) (t : Fin cfg4.N) (hf : (cfg4.win 5).flush t = true) :
    (dat4 V c).flushed 5 t = ((cfg4.win 5).blk t).view.read (Elt Ideal) (M4 V c) := by
  show (cfg4.win 5).cut (grid4.coords t) ((dat4 V c).after 5 t) = _
  rw [after4_5, last_of_flush4_5 t hf]
  funext j
  rw [View.read_apply, emb4_5 t j]
  rfl
theorem flushed4_6_eq (c : Dev nD) (t : Fin cfg4.N) (hf : (cfg4.win 6).flush t = true) :
    (dat4 V c).flushed 6 t = ((cfg4.win 6).blk t).view.read (Elt Ideal) (Q4 V c) := by
  show (cfg4.win 6).cut (grid4.coords t) ((dat4 V c).after 6 t) = _
  rw [after4_6, last_of_flush4_6 t hf]
  funext j
  rw [View.read_apply, emb4_6 t j]
  rfl

/-- The last point's block is the whole array. -/
theorem cover4_5 (i : S1x256.Idx) : ∃ t : Fin cfg4.N, (cfg4.win 5).flush t = true ∧ i ∈ ((cfg4.win 5).blk t).view.set := by
  have hN : 24 < cfg4.N := Nat.lt_of_lt_of_eq (by norm_num) N_4.symm
  refine ⟨⟨24, hN⟩, (flush4_5 _).mpr rfl, ?_⟩
  rw [← emb4_5 ⟨24, hN⟩ i]
  exact ((cfg4.win 5).blk ⟨24, hN⟩).view.emb_mem_set i
theorem cover4_6 (i : S1x256.Idx) : ∃ t : Fin cfg4.N, (cfg4.win 6).flush t = true ∧ i ∈ ((cfg4.win 6).blk t).view.set := by
  have hN : 24 < cfg4.N := Nat.lt_of_lt_of_eq (by norm_num) N_4.symm
  refine ⟨⟨24, hN⟩, (flush4_6 _).mpr rfl, ?_⟩
  rw [← emb4_6 ⟨24, hN⟩ i]
  exact ((cfg4.win 6).blk ⟨24, hN⟩).view.emb_mem_set i

theorem final4_mean_fun (c : Dev nD) : (dat4 V c).arrAt 5 cfg4.N = M4 V c :=
  (dat4 V c).arrAt_eq_of_cover 5 (M4 V c) (fun t hf => flushed4_5_eq V c t hf) cover4_5
theorem final4_var_fun (c : Dev nD) : (dat4 V c).arrAt 6 cfg4.N = Q4 V c :=
  (dat4 V c).arrAt_eq_of_cover 6 (Q4 V c) (fun t hf => flushed4_6_eq V c t hf) cover4_6

/-- The mean's array after the region: the column's block sum times the reciprocal of the row count. -/
theorem final4_mean (c : Dev nD) (q : Fin 256) :
    (dat4 V c).arrAt 5 cfg4.N (ix2 0 q) = Cert.Gin.blockSum (col4 V c q) * ((1 / 50000 : ℝ) : EReal) := by
  rw [final4_mean_fun]
  unfold M4
  rw [pay1_apply4, acc4S_last]

/-- The variance's array after the region: the column's block sum of squares times the reciprocal of the row count,
    less the squared mean. -/
theorem final4_var (c : Dev nD) (q : Fin 256) :
    (dat4 V c).arrAt 6 cfg4.N (ix2 0 q)
      = Cert.Gin.blockSumSq (col4 V c q) * ((1 / 50000 : ℝ) : EReal)
        - (Cert.Gin.blockSum (col4 V c q) * ((1 / 50000 : ℝ) : EReal)) * (Cert.Gin.blockSum (col4 V c q) * ((1 / 50000 : ℝ) : EReal)) := by
  rw [final4_var_fun]
  unfold Q4
  rw [pay2_apply4, acc4S_last, acc4Q_last]

end Cert.KernelIdeal.Hand

end
-- ==== Proof.Val5.lean ====
/- The value region 5 leaves in its output array: at row `p`, column `q` the batch normalisation
   `gamma q * (h p q - mean q) * rsqrt (var q + eps) + beta q`, of the arrays the region is entered with. Each grid
   point `t` writes rows `2000 t … 2000 t + 1999`; the 25 points cover the 50000 rows. -/
import proofs.«144698_j9466107920964_1_alg».proof.Proof.Reg5
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The payload at an index -/

/-- The reciprocal square root of a vector, at an index. -/
theorem rsqrt_apply5 {s : Shape} (a : FVec Ideal s .f32) (i : s.Idx) : rsqrt a i = Ideal.rsqrt (a i) := rfl

/-- The normalisation at row `p`, column `q`, of a `[50000, 256]` array and four `[1, 256]` rows. -/
def bnOut5 (h : S50000x256.Idx → Elt Ideal .f32) (mean var gamma beta : S1x256.Idx → Elt Ideal .f32) (p : Fin 50000) (q : Fin 256) : Elt Ideal .f32 :=
  (gamma (ix2 0 q) * (h (ix2 p q) - mean (ix2 0 q))) * Ideal.rsqrt (var (ix2 0 q) + Ideal.ofBits .f32 0x3727C5AC#32) + beta (ix2 0 q)

theorem bnOut5_apply (h : S50000x256.Idx → Elt Ideal .f32) (mean var gamma beta : S1x256.Idx → Elt Ideal .f32) (p : Fin 50000) (q : Fin 256) :
    bnOut5 h mean var gamma beta p q = (gamma (ix2 0 q) * (h (ix2 p q) - mean (ix2 0 q))) * Ideal.rsqrt (var (ix2 0 q) + Ideal.ofBits .f32 0x3727C5AC#32) + beta (ix2 0 q) := rfl

/-- The stored block at row `r`, column `q`, from the loaded blocks: the `[1, 256]` rows are read at column `q`. -/
theorem pay5_apply (x0 : Vec Ideal S2000x256 .f32) (x1 x2 x3 x4 : Vec Ideal S1x256 .f32) (r : Fin 2000) (q : Fin 256) :
    k5_pay1 x0 x1 x2 x3 x4 (ix2 r q)
      = (x3 (ix2 0 q) * (x0 (ix2 r q) - x1 (ix2 0 q))) * Ideal.rsqrt (x2 (ix2 0 q) + Ideal.ofBits .f32 0x3727C5AC#32) + x4 (ix2 0 q) := by
  unfold k5_pay1
  simp only [shapeCast_self, addf_apply, mulf_apply, subf_apply, broadcastTo_1b_ab_apply, broadcast_apply,
    rsqrt_apply5, Ideal.ofBits_def]

/-! ## The windows' blocks, by coordinates -/

/-- The index maps over the 25 grid points: the two `[2000, 256]` windows sit at row block `t`, the four `[1, 256]`
    windows at block zero. -/
theorem idx_facts5 : ∀ t : Fin cfg5.N, win5_5.index t (0 : Fin 2) = t.val ∧ win5_5.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- A row of block `t` is a row of the array. -/
theorem row_lt5 (t : Fin cfg5.N) (r : Fin 2000) : t.val * 2000 + r.val < 50000 := by
  have ht : t.val < 25 := Nat.lt_of_lt_of_eq t.isLt N_5
  have hr := r.isLt
  omega

/-- The output window's block at point `t` sits at rows `2000 t …` of the array. -/
theorem emb5_5 (t : Fin cfg5.N) (r : Fin 2000) (q : Fin 256) :
    ((cfg5.win 5).blk t).view.emb (ix2 r q) = (ix2 ⟨t.val * 2000 + r.val, row_lt5 t r⟩ q : S50000x256.Idx) := by
  obtain ⟨e0, e1, -⟩ := idx_facts5 t
  funext a; apply Fin.ext
  match a with
  | ⟨0, _⟩ => show win5_5.index t (0 : Fin 2) * 2000 + 1 * r.val = t.val * 2000 + r.val; omega
  | ⟨1, _⟩ => show win5_5.index t (1 : Fin 2) * 256 + 1 * q.val = q.val; omega

/-- Input window 0's block at point `t` is rows `2000 t …` of its array. -/
theorem iblk5_0_apply (c : Dev nD) (t : Fin cfg5.N) (r : Fin 2000) (q : Fin 256) :
    (iblk5 V c 0 t : Vec Ideal S2000x256 .f32) (ix2 r q) = (V c main_v45_0 : S50000x256.Idx → Elt Ideal .f32) (ix2 ⟨t.val * 2000 + r.val, row_lt5 t r⟩ q) := by
  obtain ⟨-, -, e0, e1, -⟩ := idx_facts5 t
  unfold iblk5
  rw [View.read_apply]
  show V c main_v45_0 _ = V c main_v45_0 _
  congr 1
  funext a; apply Fin.ext
  match a with
  | ⟨0, _⟩ => show win5_0.index t (0 : Fin 2) * 2000 + 1 * r.val = t.val * 2000 + r.val; omega
  | ⟨1, _⟩ => show win5_0.index t (1 : Fin 2) * 256 + 1 * q.val = q.val; omega

/-- Input window 1's block at every point is its `[1, 256]` array. -/
theorem iblk5_1_apply (c : Dev nD) (t : Fin cfg5.N) (q : Fin 256) :
    (iblk5 V c 1 t : Vec Ideal S1x256 .f32) (ix2 0 q) = (V c main_v45_1 : S1x256.Idx → Elt Ideal .f32) (ix2 0 q) := by
  obtain ⟨-, -, -, -, e0, e1, -⟩ := idx_facts5 t
  unfold iblk5
  rw [View.read_apply]
  show V c main_v45_1 _ = V c main_v45_1 _
  congr 1
  funext a; apply Fin.ext
  match a with
  | ⟨0, _⟩ => show win5_1.index t (0 : Fin 2) * 1 + 1 * 0 = 0; omega
  | ⟨1, _⟩ => show win5_1.index t (1 : Fin 2) * 256 + 1 * q.val = q.val; omega

/-- Input window 2's block at every point is its `[1, 256]` array. -/
theorem iblk5_2_apply (c : Dev nD) (t : Fin cfg5.N) (q : Fin 256) :
    (iblk5 V c 2 t : Vec Ideal S1x256 .f32) (ix2 0 q) = (V c main_v45_2 : S1x256.Idx → Elt Ideal .f32) (ix2 0 q) := by
  obtain ⟨-, -, -, -, -, -, e0, e1, -⟩ := idx_facts5 t
  unfold iblk5
  rw [View.read_apply]
  show V c main_v45_2 _ = V c main_v45_2 _
  congr 1
  funext a; apply Fin.ext
  match a with
  | ⟨0, _⟩ => show win5_2.index t (0 : Fin 2) * 1 + 1 * 0 = 0; omega
  | ⟨1, _⟩ => show win5_2.index t (1 : Fin 2) * 256 + 1 * q.val = q.val; omega

/-- Input window 3's block at every point is its `[1, 256]` array. -/
theorem iblk5_3_apply (c : Dev nD) (t : Fin cfg5.N) (q : Fin 256) :
    (iblk5 V c 3 t : Vec Ideal S1x256 .f32) (ix2 0 q) = (V c main_v46 : S1x256.Idx → Elt Ideal .f32) (ix2 0 q) := by
  obtain ⟨-, -, -, -, -, -, -, -, e0, e1, -⟩ := idx_facts5 t
  unfold iblk5
  rw [View.read_apply]
  show V c main_v46 _ = V c main_v46 _
  congr 1
  funext a; apply Fin.ext
  match a with
  | ⟨0, _⟩ => show win5_3.index t (0 : Fin 2) * 1 + 1 * 0 = 0; omega
  | ⟨1, _⟩ => show win5_3.index t (1 : Fin 2) * 256 + 1 * q.val = q.val; omega

/-- Input window 4's block at every point is its `[1, 256]` array. -/
theorem iblk5_4_apply (c : Dev nD) (t : Fin cfg5.N) (q : Fin 256) :
    (iblk5 V c 4 t : Vec Ideal S1x256 .f32) (ix2 0 q) = (V c main_v47 : S1x256.Idx → Elt Ideal .f32) (ix2 0 q) := by
  obtain ⟨-, -, -, -, -, -, -, -, -, -, e0, e1⟩ := idx_facts5 t
  unfold iblk5
  rw [View.read_apply]
  show V c main_v47 _ = V c main_v47 _
  congr 1
  funext a; apply Fin.ext
  match a with
  | ⟨0, _⟩ => show win5_4.index t (0 : Fin 2) * 1 + 1 * 0 = 0; omega
  | ⟨1, _⟩ => show win5_4.index t (1 : Fin 2) * 256 + 1 * q.val = q.val; omega

/-! ## The whole output array -/

/-- What the output array ends holding, index by index, from the arrays the region is entered with. -/
def G5 (c : Dev nD) : S50000x256.Idx → Elt Ideal .f32 := fun i =>
  bnOut5 (V c main_v45_0) (V c main_v45_1) (V c main_v45_2) (V c main_v46) (V c main_v47) (i 0) (i 1)

/-- What point `t` writes back is block `t` of `G5`. -/
theorem flushed5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5, out5_5_eq]
  funext j
  obtain ⟨r, q, rfl⟩ : ∃ (r : Fin 2000) (q : Fin 256), j = ix2 r q := ⟨j 0, j 1, eq_ix2 j⟩
  refine (pay5_apply _ _ _ _ _ r q).trans ?_
  rw [iblk5_0_apply V c t r q, iblk5_1_apply V c t q, iblk5_2_apply V c t q, iblk5_3_apply V c t q, iblk5_4_apply V c t q,
    View.read_apply, emb5_5 t r q]
  rfl

/-- An index of the array is in point `t`'s block iff each coordinate is in the block's range on its axis. -/
theorem mem_blk5 (t : Fin cfg5.N) (i : S50000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v48).slice (win5_5.rect t)).set ↔ _
  rw [View.set_slice_whole, Rect.mem_set_unit]
  exact Iff.rfl

/-- Row `p` is in the block of point `p / 2000`. -/
theorem cover5 (i : S50000x256.Idx) : ∃ t : Fin cfg5.N, (cfg5.win 5).flush t = true ∧ i ∈ ((cfg5.win 5).blk t).view.set := by
  have hi0 : (i 0).val < 50000 := (i 0).isLt
  have hi1 : (i 1).val < 256 := (i 1).isLt
  have hN : (i 0).val / 2000 < cfg5.N := Nat.lt_of_lt_of_eq (by omega) N_5.symm
  obtain ⟨e0, e1, -⟩ := idx_facts5 ⟨(i 0).val / 2000, hN⟩
  have e0' : win5_5.index ⟨(i 0).val / 2000, hN⟩ (0 : Fin 2) = (i 0).val / 2000 := e0
  refine ⟨⟨(i 0).val / 2000, hN⟩, flush5_5 _, ?_⟩
  rw [mem_blk5]
  intro a
  match a with
  | ⟨0, _⟩ => show win5_5.index ⟨(i 0).val / 2000, hN⟩ (0 : Fin 2) * 2000 ≤ (i 0).val ∧ (i 0).val < win5_5.index ⟨(i 0).val / 2000, hN⟩ (0 : Fin 2) * 2000 + 2000; omega
  | ⟨1, _⟩ => show win5_5.index ⟨(i 0).val / 2000, hN⟩ (1 : Fin 2) * 256 ≤ (i 1).val ∧ (i 1).val < win5_5.index ⟨(i 0).val / 2000, hN⟩ (1 : Fin 2) * 256 + 256; omega

/-- The output array after the region is `G5`. -/
theorem final5_fun (c : Dev nD) : (dat5 V c).arrAt 5 cfg5.N = G5 V c :=
  (dat5 V c).arrAt_eq_of_cover 5 (G5 V c) (fun t _ => flushed5_eq V c t) cover5

/-- The output array after the region, at row `p` and column `q`. -/
theorem final5 (c : Dev nD) (p : Fin 50000) (q : Fin 256) :
    (dat5 V c).arrAt 5 cfg5.N (ix2 p q) = bnOut5 (V c main_v45_0) (V c main_v45_1) (V c main_v45_2) (V c main_v46) (V c main_v47) p q := by
  rw [final5_fun]
  rfl

end Cert.KernelIdeal.Hand
-- ==== Proof.Val6.lean ====
/- The value region 6 leaves in its output array: at row `p` the logistic of the two-layer head
   `(∑ j, max ((∑ k, h p k * W1 k j) + b1 j) 0 * W2 j) + b2` of the arrays the region is entered with. Each grid point
   `t` writes rows `2000 t … 2000 t + 1999`; the 25 points cover the 50000 rows. -/
import proofs.«144698_j9466107920964_1_alg».proof.Proof.Reg6
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The two products' index maps, coordinate by coordinate -/

/-- The first product: `[2000, 256]` by `[256, 128]`. -/
abbrev Dh1 : DotDims S2000x256 S256x128 S2000x128 := dot_S2000x256_S256x128_S2000x128_1_0_0_1_n_n
/-- The second product: `[2000, 128]` by `[128, 1]`. -/
abbrev Dh2 : DotDims S2000x128 S128x1 S2000x1 := dot_S2000x128_S128x1_S2000x1_1_0_0_1_n_n

theorem lhs_h1_0 (j : S2000x128.Idx) (k : Dh1.contr.Idx) : (Dh1.lhsIdx j k 0 : ℕ) = j 0 := by
  simp [DotDims.lhsIdx, Dh1, dot_S2000x256_S256x128_S2000x128_1_0_0_1_n_n]; rfl
theorem lhs_h1_1 (j : S2000x128.Idx) (k : Dh1.contr.Idx) : (Dh1.lhsIdx j k 1 : ℕ) = k ⟨0, by decide⟩ := by
  simp [DotDims.lhsIdx, Dh1, dot_S2000x256_S256x128_S2000x128_1_0_0_1_n_n]; rfl
theorem rhs_h1_0 (j : S2000x128.Idx) (k : Dh1.contr.Idx) : (Dh1.rhsIdx j k 0 : ℕ) = k ⟨0, by decide⟩ := by
  simp [DotDims.rhsIdx, Dh1, dot_S2000x256_S256x128_S2000x128_1_0_0_1_n_n]; rfl
theorem rhs_h1_1 (j : S2000x128.Idx) (k : Dh1.contr.Idx) : (Dh1.rhsIdx j k 1 : ℕ) = j 1 := by
  simp [DotDims.rhsIdx, Dh1, dot_S2000x256_S256x128_S2000x128_1_0_0_1_n_n]; rfl

theorem lhs_h2_0 (j : S2000x1.Idx) (k : Dh2.contr.Idx) : (Dh2.lhsIdx j k 0 : ℕ) = j 0 := by
  simp [DotDims.lhsIdx, Dh2, dot_S2000x128_S128x1_S2000x1_1_0_0_1_n_n]; rfl
theorem lhs_h2_1 (j : S2000x1.Idx) (k : Dh2.contr.Idx) : (Dh2.lhsIdx j k 1 : ℕ) = k ⟨0, by decide⟩ := by
  simp [DotDims.lhsIdx, Dh2, dot_S2000x128_S128x1_S2000x1_1_0_0_1_n_n]; rfl
theorem rhs_h2_0 (j : S2000x1.Idx) (k : Dh2.contr.Idx) : (Dh2.rhsIdx j k 0 : ℕ) = k ⟨0, by decide⟩ := by
  simp [DotDims.rhsIdx, Dh2, dot_S2000x128_S128x1_S2000x1_1_0_0_1_n_n]; rfl
theorem rhs_h2_1 (j : S2000x1.Idx) (k : Dh2.contr.Idx) : (Dh2.rhsIdx j k 1 : ℕ) = j 1 := by
  have hj : (j 1).val < 1 := (j 1).isLt
  simp [DotDims.rhsIdx, Dh2, dot_S2000x128_S128x1_S2000x1_1_0_0_1_n_n]; omega

/-- The first product into the zero block, at row `r` and column `j`: the sum over the 256 contracted positions. -/
theorem mm_h1_apply {φ₁ φ₂ : FTy} (a : FVec Ideal S2000x256 φ₁) (b : FVec Ideal S256x128 φ₂) (r : Fin 2000) (j : Fin 128) :
    FloatOps.matmul Dh1 none a b (constant S2000x128 .f32 0x00000000#32) (ix2 r j) = ∑ k : Fin 256, a (ix2 r k) * b (ix2 k j) := by
  rw [Ideal.matmul_constant_zero_apply, ← Equiv.sum_comp (contrEquiv1 Dh1 256 (by decide) (by decide)).symm]
  refine Finset.sum_congr rfl fun k _ => ?_
  have ha : Dh1.lhsIdx (ix2 r j) ((contrEquiv1 Dh1 256 (by decide) (by decide)).symm k) = ix2 r k := by
    funext ax; apply Fin.ext
    match ax with
    | ⟨0, _⟩ => exact lhs_h1_0 _ _
    | ⟨1, _⟩ => exact (lhs_h1_1 _ _).trans (contrEquiv1_symm_val Dh1 256 _ _ k)
  have hb : Dh1.rhsIdx (ix2 r j) ((contrEquiv1 Dh1 256 (by decide) (by decide)).symm k) = ix2 k j := by
    funext ax; apply Fin.ext
    match ax with
    | ⟨0, _⟩ => exact (rhs_h1_0 _ _).trans (contrEquiv1_symm_val Dh1 256 _ _ k)
    | ⟨1, _⟩ => exact rhs_h1_1 _ _
  rw [ha, hb]

/-- The second product into the zero block, at row `r`: the sum over the 128 contracted positions. -/
theorem mm_h2_apply {φ₁ φ₂ : FTy} (a : FVec Ideal S2000x128 φ₁) (b : FVec Ideal S128x1 φ₂) (r : Fin 2000) (j : Fin 1) :
    FloatOps.matmul Dh2 none a b (constant S2000x1 .f32 0x00000000#32) (ix2 r j) = ∑ k : Fin 128, a (ix2 r k) * b (ix2 k j) := by
  rw [Ideal.matmul_constant_zero_apply, ← Equiv.sum_comp (contrEquiv1 Dh2 128 (by decide) (by decide)).symm]
  refine Finset.sum_congr rfl fun k _ => ?_
  have ha : Dh2.lhsIdx (ix2 r j) ((contrEquiv1 Dh2 128 (by decide) (by decide)).symm k) = ix2 r k := by
    funext ax; apply Fin.ext
    match ax with
    | ⟨0, _⟩ => exact lhs_h2_0 _ _
    | ⟨1, _⟩ => exact (lhs_h2_1 _ _).trans (contrEquiv1_symm_val Dh2 128 _ _ k)
  have hb : Dh2.rhsIdx (ix2 r j) ((contrEquiv1 Dh2 128 (by decide) (by decide)).symm k) = ix2 k j := by
    funext ax; apply Fin.ext
    match ax with
    | ⟨0, _⟩ => exact (rhs_h2_0 _ _).trans (contrEquiv1_symm_val Dh2 128 _ _ k)
    | ⟨1, _⟩ => exact rhs_h2_1 _ _
  rw [ha, hb]

/-! ## The payload at an index -/

/-- The logistic of a vector, at an index. -/
theorem logistic_apply6 {s : Shape} (a : FVec Ideal s .f32) (i : s.Idx) : logistic a i = Ideal.logistic (a i) := rfl

/-- The head at row `p` of a `[50000, 256]` array, with weights `[256, 128]`, `[128, 1]` and biases `[1, 128]`, `[1, 1]`. -/
def headOut6 (h : S50000x256.Idx → Elt Ideal .f32) (W1 : S256x128.Idx → Elt Ideal .f32) (b1 : S1x128.Idx → Elt Ideal .f32)
    (W2 : S128x1.Idx → Elt Ideal .f32) (b2 : S1x1.Idx → Elt Ideal .f32) (p : Fin 50000) : Elt Ideal .f32 :=
  Ideal.logistic ((∑ j : Fin 128, max ((∑ k : Fin 256, h (ix2 p k) * W1 (ix2 k j)) + b1 (ix2 0 j)) 0 * W2 (ix2 j 0)) + b2 (ix2 0 0))

theorem headOut6_apply (h : S50000x256.Idx → Elt Ideal .f32) (W1 : S256x128.Idx → Elt Ideal .f32) (b1 : S1x128.Idx → Elt Ideal .f32)
    (W2 : S128x1.Idx → Elt Ideal .f32) (b2 : S1x1.Idx → Elt Ideal .f32) (p : Fin 50000) :
    headOut6 h W1 b1 W2 b2 p
      = Ideal.logistic ((∑ j : Fin 128, max ((∑ k : Fin 256, h (ix2 p k) * W1 (ix2 k j)) + b1 (ix2 0 j)) 0 * W2 (ix2 j 0)) + b2 (ix2 0 0)) := rfl

/-- The stored block at row `r`, from the loaded blocks. -/
theorem pay6_apply (x0 : Vec Ideal S2000x256 .f32) (x1 : Vec Ideal S256x128 .f32) (x2 : Vec Ideal S1x128 .f32) (x3 : Vec Ideal S128x1 .f32)
    (x4 : Vec Ideal S1x1 .f32) (r : Fin 2000) :
    k6_pay1 x0 x1 x2 x3 x4 (ix2 r 0)
      = Ideal.logistic ((∑ j : Fin 128, max ((∑ k : Fin 256, x0 (ix2 r k) * x1 (ix2 k j)) + x2 (ix2 0 j)) 0 * x3 (ix2 j 0)) + x4 (ix2 0 0)) := by
  unfold k6_pay1
  simp only [matmul, shapeCast_self, logistic_apply6, addf_apply, broadcastTo_1b_ab_apply]
  rw [mm_h2_apply]
  simp only [truncf_apply, maximumf_apply, addf_apply, broadcast_apply, broadcastTo_1b_ab_apply, Ideal.ofBits_def, Ideal.ofBits_zero_f32,
    mm_h1_apply]

/-- The stored block at row `r` when the loaded blocks are rows and blocks of whole arrays: the head at the array's row. -/
theorem pay6_eq_of (x0 : Vec Ideal S2000x256 .f32) (x1 : Vec Ideal S256x128 .f32) (x2 : Vec Ideal S1x128 .f32) (x3 : Vec Ideal S128x1 .f32)
    (x4 : Vec Ideal S1x1 .f32) (h : S50000x256.Idx → Elt Ideal .f32) (W1 : S256x128.Idx → Elt Ideal .f32) (b1 : S1x128.Idx → Elt Ideal .f32)
    (W2 : S128x1.Idx → Elt Ideal .f32) (b2 : S1x1.Idx → Elt Ideal .f32) (p : Fin 50000) (r : Fin 2000)
    (h0 : ∀ k : Fin 256, x0 (ix2 r k) = h (ix2 p k)) (h1 : ∀ (k : Fin 256) (j : Fin 128), x1 (ix2 k j) = W1 (ix2 k j))
    (h2 : ∀ j : Fin 128, x2 (ix2 0 j) = b1 (ix2 0 j)) (h3 : ∀ j : Fin 128, x3 (ix2 j 0) = W2 (ix2 j 0)) (h4 : x4 (ix2 0 0) = b2 (ix2 0 0)) :
    k6_pay1 x0 x1 x2 x3 x4 (ix2 r 0) = headOut6 h W1 b1 W2 b2 p := by
  rw [pay6_apply, headOut6_apply]
  simp only [h0, h1, h2, h3, h4]

/-! ## The windows' blocks, by coordinates -/

/-- The index maps over the 25 grid points: the two row-blocked windows sit at row block `t`, the four whole-array
    windows at block zero. -/
theorem idx_facts6 : ∀ t : Fin cfg6.N, win6_5.index t (0 : Fin 2) = t.val ∧ win6_5.index t (1 : Fin 2) = 0
    ∧ win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- A row of block `t` is a row of the array. -/
theorem row_lt6 (t : Fin cfg6.N) (r : Fin 2000) : t.val * 2000 + r.val < 50000 := by
  have ht : t.val < 25 := Nat.lt_of_lt_of_eq t.isLt N_6
  have hr := r.isLt
  omega

/-- The output window's block at point `t` sits at rows `2000 t …` of the array. -/
theorem emb6_5 (t : Fin cfg6.N) (r : Fin 2000) :
    ((cfg6.win 5).blk t).view.emb (ix2 r 0) = (ix2 ⟨t.val * 2000 + r.val, row_lt6 t r⟩ 0 : S50000x1.Idx) := by
  obtain ⟨e0, e1, -⟩ := idx_facts6 t
  funext a; apply Fin.ext
  match a with
  | ⟨0, _⟩ => show win6_5.index t (0 : Fin 2) * 2000 + 1 * r.val = t.val * 2000 + r.val; omega
  | ⟨1, _⟩ => show win6_5.index t (1 : Fin 2) * 1 + 1 * 0 = 0; omega

/-- Input window 0's block at point `t` is rows `2000 t …` of its array. -/
theorem iblk6_0_apply (c : Dev nD) (t : Fin cfg6.N) (r : Fin 2000) (q : Fin 256) :
    (iblk6 V c 0 t : Vec Ideal S2000x256 .f32) (ix2 r q) = (V c main_v48 : S50000x256.Idx → Elt Ideal .f32) (ix2 ⟨t.val * 2000 + r.val, row_lt6 t r⟩ q) := by
  obtain ⟨-, -, e0, e1, -⟩ := idx_facts6 t
  unfold iblk6
  rw [View.read_apply]
  show V c main_v48 _ = V c main_v48 _
  congr 1
  funext a; apply Fin.ext
  match a with
  | ⟨0, _⟩ => show win6_0.index t (0 : Fin 2) * 2000 + 1 * r.val = t.val * 2000 + r.val; omega
  | ⟨1, _⟩ => show win6_0.index t (1 : Fin 2) * 256 + 1 * q.val = q.val; omega

/-- Input window 1's block at every point is its `[256, 128]` array. -/
theorem iblk6_1_apply (c : Dev nD) (t : Fin cfg6.N) (k : Fin 256) (j : Fin 128) :
    (iblk6 V c 1 t : Vec Ideal S256x128 .f32) (ix2 k j) = (V c main_arg15 : S256x128.Idx → Elt Ideal .f32) (ix2 k j) := by
  obtain ⟨-, -, -, -, e0, e1, -⟩ := idx_facts6 t
  unfold iblk6
  rw [View.read_apply]
  show V c main_arg15 _ = V c main_arg15 _
  congr 1
  funext a; apply Fin.ext
  match a with
  | ⟨0, _⟩ => show win6_1.index t (0 : Fin 2) * 256 + 1 * k.val = k.val; omega
  | ⟨1, _⟩ => show win6_1.index t (1 : Fin 2) * 128 + 1 * j.val = j.val; omega

/-- Input window 2's block at every point is its `[1, 128]` array. -/
theorem iblk6_2_apply (c : Dev nD) (t : Fin cfg6.N) (j : Fin 128) :
    (iblk6 V c 2 t : Vec Ideal S1x128 .f32) (ix2 0 j) = (V c main_v49 : S1x128.Idx → Elt Ideal .f32) (ix2 0 j) := by
  obtain ⟨-, -, -, -, -, -, e0, e1, -⟩ := idx_facts6 t
  unfold iblk6
  rw [View.read_apply]
  show V c main_v49 _ = V c main_v49 _
  congr 1
  funext a; apply Fin.ext
  match a with
  | ⟨0, _⟩ => show win6_2.index t (0 : Fin 2) * 1 + 1 * 0 = 0; omega
  | ⟨1, _⟩ => show win6_2.index t (1 : Fin 2) * 128 + 1 * j.val = j.val; omega

/-- Input window 3's block at every point is its `[128, 1]` array. -/
theorem iblk6_3_apply (c : Dev nD) (t : Fin cfg6.N) (j : Fin 128) :
    (iblk6 V c 3 t : Vec Ideal S128x1 .f32) (ix2 j 0) = (V c main_arg17 : S128x1.Idx → Elt Ideal .f32) (ix2 j 0) := by
  obtain ⟨-, -, -, -, -, -, -, -, e0, e1, -⟩ := idx_facts6 t
  unfold iblk6
  rw [View.read_apply]
  show V c main_arg17 _ = V c main_arg17 _
  congr 1
  funext a; apply Fin.ext
  match a with
  | ⟨0, _⟩ => show win6_3.index t (0 : Fin 2) * 128 + 1 * j.val = j.val; omega
  | ⟨1, _⟩ => show win6_3.index t (1 : Fin 2) * 1 + 1 * 0 = 0; omega

/-- Input window 4's block at every point is its `[1, 1]` array. -/
theorem iblk6_4_apply (c : Dev nD) (t : Fin cfg6.N) :
    (iblk6 V c 4 t : Vec Ideal S1x1 .f32) (ix2 0 0) = (V c main_v50 : S1x1.Idx → Elt Ideal .f32) (ix2 0 0) := by
  obtain ⟨-, -, -, -, -, -, -, -, -, -, e0, e1⟩ := idx_facts6 t
  unfold iblk6
  rw [View.read_apply]
  show V c main_v50 _ = V c main_v50 _
  congr 1
  funext a; apply Fin.ext
  match a with
  | ⟨0, _⟩ => show win6_4.index t (0 : Fin 2) * 1 + 1 * 0 = 0; omega
  | ⟨1, _⟩ => show win6_4.index t (1 : Fin 2) * 1 + 1 * 0 = 0; omega

/-! ## The whole output array -/

/-- What the output array ends holding, index by index, from the arrays the region is entered with. -/
def G6 (c : Dev nD) : S50000x1.Idx → Elt Ideal .f32 := fun i =>
  headOut6 (V c main_v48) (V c main_arg15) (V c main_v49) (V c main_arg17) (V c main_v50) (i 0)

/-- What point `t` writes back is block `t` of `G6`. -/
theorem flushed6_eq (c : Dev nD) (t : Fin cfg6.N) :
    (dat6 V c).flushed 5 t = ((cfg6.win 5).blk t).view.read (Elt Ideal) (G6 V c) := by
  show (cfg6.win 5).cut (grid6.coords t) ((dat6 V c).after 5 t) = _
  rw [after6_5, out6_5_eq]
  funext j
  obtain ⟨r, q, rfl⟩ : ∃ (r : Fin 2000) (q : Fin 1), j = ix2 r q := ⟨j 0, j 1, eq_ix2 j⟩
  obtain rfl : q = 0 := Subsingleton.elim _ _
  refine (pay6_eq_of _ _ _ _ _ (V c main_v48) (V c main_arg15) (V c main_v49) (V c main_arg17) (V c main_v50)
    ⟨t.val * 2000 + r.val, row_lt6 t r⟩ r (fun k => iblk6_0_apply V c t r k) (fun k j => iblk6_1_apply V c t k j)
    (fun j => iblk6_2_apply V c t j) (fun j => iblk6_3_apply V c t j) (iblk6_4_apply V c t)).trans ?_
  rw [View.read_apply, emb6_5 t r]
  rfl

/-- An index of the array is in point `t`'s block iff each coordinate is in the block's range on its axis. -/
theorem mem_blk6 (t : Fin cfg6.N) (i : S50000x1.Idx) :
    i ∈ ((cfg6.win 5).blk t).view.set ↔ ∀ a : Fin 2, win6_5.index t a * S2000x1.size a ≤ (i a).val ∧ (i a).val < win6_5.index t a * S2000x1.size a + S2000x1.size a := by
  show i ∈ ((View.whole main_v51).slice (win6_5.rect t)).set ↔ _
  rw [View.set_slice_whole, Rect.mem_set_unit]
  exact Iff.rfl

/-- Row `p` is in the block of point `p / 2000`. -/
theorem cover6 (i : S50000x1.Idx) : ∃ t : Fin cfg6.N, (cfg6.win 5).flush t = true ∧ i ∈ ((cfg6.win 5).blk t).view.set := by
  have hi0 : (i 0).val < 50000 := (i 0).isLt
  have hi1 : (i 1).val < 1 := (i 1).isLt
  have hN : (i 0).val / 2000 < cfg6.N := Nat.lt_of_lt_of_eq (by omega) N_6.symm
  obtain ⟨e0, e1, -⟩ := idx_facts6 ⟨(i 0).val / 2000, hN⟩
  have e0' : win6_5.index ⟨(i 0).val / 2000, hN⟩ (0 : Fin 2) = (i 0).val / 2000 := e0
  refine ⟨⟨(i 0).val / 2000, hN⟩, flush6_5 _, ?_⟩
  rw [mem_blk6]
  intro a
  match a with
  | ⟨0, _⟩ => show win6_5.index ⟨(i 0).val / 2000, hN⟩ (0 : Fin 2) * 2000 ≤ (i 0).val ∧ (i 0).val < win6_5.index ⟨(i 0).val / 2000, hN⟩ (0 : Fin 2) * 2000 + 2000; omega
  | ⟨1, _⟩ => show win6_5.index ⟨(i 0).val / 2000, hN⟩ (1 : Fin 2) * 1 ≤ (i 1).val ∧ (i 1).val < win6_5.index ⟨(i 0).val / 2000, hN⟩ (1 : Fin 2) * 1 + 1; omega

/-- The output array after the region is `G6`. -/
theorem final6_fun (c : Dev nD) : (dat6 V c).arrAt 5 cfg6.N = G6 V c :=
  (dat6 V c).arrAt_eq_of_cover 5 (G6 V c) (fun t _ => flushed6_eq V c t) cover6

/-- The output array after the region, at row `p`. -/
theorem final6 (c : Dev nD) (p : Fin 50000) :
    (dat6 V c).arrAt 5 cfg6.N (ix2 p 0) = headOut6 (V c main_v48) (V c main_arg15) (V c main_v49) (V c main_arg17) (V c main_v50) p := by
  rw [final6_fun]
  rfl

end Cert.KernelIdeal.Hand
-- ==== Proof.LibGinConsts.lean ====
import proofs.«144698_j9466107920964_1_alg».proof.Proof.LibIsReal
import Idealize.ShloMosaic.PureOps.Ideal

/-! The float literals the two programs share, read at the exact instance: the row count 50000, the small positive
    number added to the variance, zero and one. -/

noncomputable section

namespace Cert.Gin

open Idealize.ShloMosaic Cert.Alg

/-- The reference's divisor is the real 50000. -/
theorem ofBits_rows : Ideal.ofBits .f32 0x47435000#32 = ((50000 : ℝ) : EReal) := by
  simp [Ideal.ofBits, Ideal.ieee]
  norm_num [← EReal.coe_mul]

/-- The number added to the variance is a positive real. -/
theorem ofBits_eps : ∃ r : ℝ, 0 < r ∧ Ideal.ofBits .f32 0x3727C5AC#32 = (r : EReal) := by
  refine ⟨10995116 * (2 ^ 40)⁻¹, by positivity, ?_⟩
  simp [Ideal.ofBits, Ideal.ieee]

theorem eps_isReal : IsReal (Ideal.ofBits .f32 0x3727C5AC#32) := by
  obtain ⟨r, -, h⟩ := ofBits_eps; exact ⟨r, h⟩

theorem eps_pos : (0 : EReal) < Ideal.ofBits .f32 0x3727C5AC#32 := by
  obtain ⟨r, hr, h⟩ := ofBits_eps; rw [h]; exact_mod_cast hr

/-- The word of one is the real 1. -/
theorem ofBits_one : Ideal.ofBits .f32 0x3F800000#32 = (1 : EReal) := by
  simp [Ideal.ofBits, Ideal.ieee]
  norm_num [← EReal.coe_mul]

end Cert.Gin

end
-- ==== Proof.RowCast.lean ====
/-
  A vector recast as a one-row matrix has the vector's entries along its row.

  A reshape keeps the row-major order of the entries. The entry (u, q) of a [1, n] array stands at row-major position
  u * n + q, and the only row is u = 0, so it stands at position q, where the [n] vector has its entry q. This is
  stated for the three lengths the parameter rows of the network have: 256, 128 and 1.
-/
import Idealize.ShloMosaic.Lib.ValueLayout
import proofs.«144698_j9466107920964_1_alg».proof.KernelIdeal

namespace Cert.Gin

open Idealize.ShloMosaic Idealize.ShloMosaic.ValueIdx Cert.KernelIdeal

variable {α : Type}

/-- A vector of 256 entries recast as a [1, 256] array reads, at (u, q), the vector's entry q. -/
theorem rowCast256 (v : S256.Idx → α) (h : S256.ShapeCasts S1x256) (u : Fin 1) (q : Fin 256) :
    shapeCast S1x256 v h (ix2 u q) = v (ix1 q) :=
  shapeCast_a_1a_apply v h u q

/-- A vector of 128 entries recast as a [1, 128] array reads, at (u, q), the vector's entry q. -/
theorem rowCast128 (v : S128.Idx → α) (h : S128.ShapeCasts S1x128) (u : Fin 1) (q : Fin 128) :
    shapeCast S1x128 v h (ix2 u q) = v (ix1 q) :=
  shapeCast_a_1a_apply v h u q

/-- A vector of one entry recast as a [1, 1] array reads, at (u, q), the vector's entry q. -/
theorem rowCast1 (v : S1.Idx → α) (h : S1.ShapeCasts S1x1) (u : Fin 1) (q : Fin 1) :
    shapeCast S1x1 v h (ix2 u q) = v (ix1 q) :=
  shapeCast_a_1a_apply v h u q

end Cert.Gin
-- ==== Proof.HeadBridge.lean ====
/- The head, kernel side against reference side, at the exact instance. The kernel's head at a row is
   the logistic of the two-layer score; the reference spells the logistic as `1 / (1 + exp (-x))` over the same
   score, with its bias vectors broadcast along the rows where the kernel reads them recast as one-row arrays.
-/
import proofs.«144698_j9466107920964_1_alg».proof.Proof.Val6
import proofs.«144698_j9466107920964_1_alg».proof.Proof.RefRun
import proofs.«144698_j9466107920964_1_alg».proof.Proof.LibGinConsts
import proofs.«144698_j9466107920964_1_alg».proof.Proof.RowCast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-! ## The reference's two products, coordinate by coordinate -/

/-- The reference's first product: `[50000, 256]` by `[256, 128]`. -/
abbrev Dr1 : DotDims Cert.ReferenceIdeal.S50000x256 Cert.ReferenceIdeal.S256x128 Cert.ReferenceIdeal.S50000x128 :=
  Cert.ReferenceIdeal.dot_S50000x256_S256x128_S50000x128_1_0_0_1_n_n
/-- The reference's second product: `[50000, 128]` by `[128, 1]`. -/
abbrev Dr2 : DotDims Cert.ReferenceIdeal.S50000x128 Cert.ReferenceIdeal.S128x1 Cert.ReferenceIdeal.S50000x1 :=
  Cert.ReferenceIdeal.dot_S50000x128_S128x1_S50000x1_1_0_0_1_n_n

theorem lhs_r1_0 (j : Cert.ReferenceIdeal.S50000x128.Idx) (k : Dr1.contr.Idx) : (Dr1.lhsIdx j k 0 : ℕ) = j 0 := by
  simp [DotDims.lhsIdx, Dr1, Cert.ReferenceIdeal.dot_S50000x256_S256x128_S50000x128_1_0_0_1_n_n]; rfl
theorem lhs_r1_1 (j : Cert.ReferenceIdeal.S50000x128.Idx) (k : Dr1.contr.Idx) : (Dr1.lhsIdx j k 1 : ℕ) = k ⟨0, by decide⟩ := by
  simp [DotDims.lhsIdx, Dr1, Cert.ReferenceIdeal.dot_S50000x256_S256x128_S50000x128_1_0_0_1_n_n]; rfl
theorem rhs_r1_0 (j : Cert.ReferenceIdeal.S50000x128.Idx) (k : Dr1.contr.Idx) : (Dr1.rhsIdx j k 0 : ℕ) = k ⟨0, by decide⟩ := by
  simp [DotDims.rhsIdx, Dr1, Cert.ReferenceIdeal.dot_S50000x256_S256x128_S50000x128_1_0_0_1_n_n]; rfl
theorem rhs_r1_1 (j : Cert.ReferenceIdeal.S50000x128.Idx) (k : Dr1.contr.Idx) : (Dr1.rhsIdx j k 1 : ℕ) = j 1 := by
  simp [DotDims.rhsIdx, Dr1, Cert.ReferenceIdeal.dot_S50000x256_S256x128_S50000x128_1_0_0_1_n_n]; rfl

theorem lhs_r2_0 (j : Cert.ReferenceIdeal.S50000x1.Idx) (k : Dr2.contr.Idx) : (Dr2.lhsIdx j k 0 : ℕ) = j 0 := by
  simp [DotDims.lhsIdx, Dr2, Cert.ReferenceIdeal.dot_S50000x128_S128x1_S50000x1_1_0_0_1_n_n]; rfl
theorem lhs_r2_1 (j : Cert.ReferenceIdeal.S50000x1.Idx) (k : Dr2.contr.Idx) : (Dr2.lhsIdx j k 1 : ℕ) = k ⟨0, by decide⟩ := by
  simp [DotDims.lhsIdx, Dr2, Cert.ReferenceIdeal.dot_S50000x128_S128x1_S50000x1_1_0_0_1_n_n]; rfl
theorem rhs_r2_0 (j : Cert.ReferenceIdeal.S50000x1.Idx) (k : Dr2.contr.Idx) : (Dr2.rhsIdx j k 0 : ℕ) = k ⟨0, by decide⟩ := by
  simp [DotDims.rhsIdx, Dr2, Cert.ReferenceIdeal.dot_S50000x128_S128x1_S50000x1_1_0_0_1_n_n]; rfl
theorem rhs_r2_1 (j : Cert.ReferenceIdeal.S50000x1.Idx) (k : Dr2.contr.Idx) : (Dr2.rhsIdx j k 1 : ℕ) = j 1 := by
  have hj : (j 1).val < 1 := (j 1).isLt
  simp [DotDims.rhsIdx, Dr2, Cert.ReferenceIdeal.dot_S50000x128_S128x1_S50000x1_1_0_0_1_n_n]; omega

/-- The reference's first product at row `p` and column `j`: the sum over the 256 contracted positions. -/
theorem dg_r1_apply (a : FVec Ideal Cert.ReferenceIdeal.S50000x256 .f32) (b : FVec Ideal Cert.ReferenceIdeal.S256x128 .f32) (p : Fin 50000) (j : Fin 128) :
    FloatOps.dotGeneral Dr1 none .single a b (ix2 p j) = ∑ k : Fin 256, a (ix2 p k) * b (ix2 k j) := by
  rw [Ideal.dotGeneral_apply, ← Equiv.sum_comp (contrEquiv1 Dr1 256 (by decide) (by decide)).symm]
  refine Finset.sum_congr rfl fun k _ => ?_
  have ha : Dr1.lhsIdx (ix2 p j) ((contrEquiv1 Dr1 256 (by decide) (by decide)).symm k) = ix2 p k := by
    funext ax; apply Fin.ext
    match ax with
    | ⟨0, _⟩ => exact lhs_r1_0 _ _
    | ⟨1, _⟩ => exact (lhs_r1_1 _ _).trans (contrEquiv1_symm_val Dr1 256 _ _ k)
  have hb : Dr1.rhsIdx (ix2 p j) ((contrEquiv1 Dr1 256 (by decide) (by decide)).symm k) = ix2 k j := by
    funext ax; apply Fin.ext
    match ax with
    | ⟨0, _⟩ => exact (rhs_r1_0 _ _).trans (contrEquiv1_symm_val Dr1 256 _ _ k)
    | ⟨1, _⟩ => exact rhs_r1_1 _ _
  rw [ha, hb]

/-- The reference's second product at row `p`: the sum over the 128 contracted positions. -/
theorem dg_r2_apply (a : FVec Ideal Cert.ReferenceIdeal.S50000x128 .f32) (b : FVec Ideal Cert.ReferenceIdeal.S128x1 .f32) (p : Fin 50000) (j : Fin 1) :
    FloatOps.dotGeneral Dr2 none .single a b (ix2 p j) = ∑ k : Fin 128, a (ix2 p k) * b (ix2 k j) := by
  rw [Ideal.dotGeneral_apply, ← Equiv.sum_comp (contrEquiv1 Dr2 128 (by decide) (by decide)).symm]
  refine Finset.sum_congr rfl fun k _ => ?_
  have ha : Dr2.lhsIdx (ix2 p j) ((contrEquiv1 Dr2 128 (by decide) (by decide)).symm k) = ix2 p k := by
    funext ax; apply Fin.ext
    match ax with
    | ⟨0, _⟩ => exact lhs_r2_0 _ _
    | ⟨1, _⟩ => exact (lhs_r2_1 _ _).trans (contrEquiv1_symm_val Dr2 128 _ _ k)
  have hb : Dr2.rhsIdx (ix2 p j) ((contrEquiv1 Dr2 128 (by decide) (by decide)).symm k) = ix2 k j := by
    funext ax; apply Fin.ext
    match ax with
    | ⟨0, _⟩ => exact (rhs_r2_0 _ _).trans (contrEquiv1_symm_val Dr2 128 _ _ k)
    | ⟨1, _⟩ => exact rhs_r2_1 _ _
  rw [ha, hb]

/-! ## The reference's broadcasts at an index -/

/-- A scalar broadcast to any shape reads the scalar. -/
theorem bcast_scalar_apply {α : Type} {t : Shape} (dims : Fin Cert.ReferenceIdeal.S_.rank → Fin t.rank)
    (h : Cert.ReferenceIdeal.S_.BroadcastsInDim t dims) (x : Cert.ReferenceIdeal.S_.Idx → α) (j : t.Idx) :
    broadcastInDim t dims h x j = x ix0 :=
  broadcastInDim_apply dims h x j ix0 (fun a => a.elim0)

/-- The first bias, a vector of 128, broadcast along the 50000 rows: at row `p`, column `j` its entry `j`. -/
theorem bias1_apply {α : Type} (v : Cert.ReferenceIdeal.S128.Idx → α) (p : Fin 50000) (j : Fin 128) :
    broadcastInDim _ _ Cert.ReferenceIdeal.Gen.bcast_S1x128_S50000x128_0_1
      (broadcastInDim _ _ Cert.ReferenceIdeal.Gen.bcast_S128_S1x128_1 v) (ix2 p j) = v (ix1 j) := by
  rw [broadcastInDim_apply _ _ _ (ix2 p j) (ix2 (0 : Fin 1) j) (fun a => by
    match a with
    | ⟨0, _⟩ => rfl
    | ⟨1, _⟩ => rfl)]
  exact broadcastInDim_apply _ _ _ (ix2 (0 : Fin 1) j) (ix1 j) (fun a => by
    match a with
    | ⟨0, _⟩ => rfl)

/-- The second bias, a vector of one, broadcast along the 50000 rows: its one entry. -/
theorem bias2_apply {α : Type} (v : Cert.ReferenceIdeal.S1.Idx → α) (p : Fin 50000) :
    broadcastInDim _ _ Cert.ReferenceIdeal.Gen.bcast_S1x1_S50000x1_0_1
      (broadcastInDim _ _ Cert.ReferenceIdeal.Gen.bcast_S1_S1x1_1 v) (ix2 p 0) = v (ix1 0) := by
  rw [broadcastInDim_apply _ _ _ (ix2 p (0 : Fin 1)) (ix2 (0 : Fin 1) (0 : Fin 1)) (fun a => by
    match a with
    | ⟨0, _⟩ => rfl
    | ⟨1, _⟩ => rfl)]
  exact broadcastInDim_apply _ _ _ (ix2 (0 : Fin 1) (0 : Fin 1)) (ix1 0) (fun a => by
    match a with
    | ⟨0, _⟩ => rfl)

/-! ## The reference's head at a row -/

/-- The reference's head at row `p`: `1 / (1 + exp (-score))` of the two-layer score. -/
theorem headScore_apply (h : FVec Ideal S50000x256 .f32) (Wl1 : FVec Ideal S256x128 .f32) (bl1 : FVec Ideal S128 .f32)
    (Wl2 : FVec Ideal S128x1 .f32) (bl2 : FVec Ideal S1 .f32) (p : Fin 50000) :
    Cert.ReferenceIdeal.RefRun.headScore (F := Ideal) h Wl1 bl1 Wl2 bl2 (ix2 p 0)
      = Ideal.div 1 (1 + Ideal.exp (-((∑ j : Fin 128, max ((∑ k : Fin 256, h (ix2 p k) * Wl1 (ix2 k j)) + bl1 (ix1 j)) 0 * Wl2 (ix2 j 0)) + bl2 (ix1 0)))) := by
  unfold Cert.ReferenceIdeal.RefRun.headScore
  simp only [Host.divf, Host.exp, Host.negf, Host.dotGeneral, addf_apply, Ideal.hostDivf_def, Ideal.hostUnary_exp_def, Ideal.hostNegf_def,
    Ideal.negf_def, bcast_scalar_apply, constant_apply, Cert.Gin.ofBits_one]
  rw [dg_r2_apply]
  simp only [maximumf_apply, addf_apply, bcast_scalar_apply, constant_apply, Ideal.ofBits_zero_f32, dg_r1_apply]
  rw [bias2_apply]
  refine congrArg (fun z => Ideal.div 1 (1 + Ideal.exp (-(z + bl2 (ix1 0))))) (Finset.sum_congr rfl fun x _ => ?_)
  rw [bias1_apply]

/-! ## The two heads agree -/

/-- The kernel's head, its biases read as one-row arrays recast from the vectors, is the reference's head at the row:
    the logistic is `1 / (1 + exp (-x))`. -/
theorem head_agree (h : FVec Ideal S50000x256 .f32) (Wl1 : FVec Ideal S256x128 .f32) (bl1 : FVec Ideal S128 .f32)
    (Wl2 : FVec Ideal S128x1 .f32) (bl2 : FVec Ideal S1 .f32) (p : Fin 50000) :
    headOut6 h Wl1 (shapeCast S1x128 bl1 shapeCasts_S128_S1x128) Wl2 (shapeCast S1x1 bl2 shapeCasts_S1_S1x1) p
      = Cert.ReferenceIdeal.RefRun.headScore (F := Ideal) h Wl1 bl1 Wl2 bl2 (ix2 p 0) := by
  rw [headScore_apply, headOut6_apply]
  simp only [Cert.Gin.rowCast128, Cert.Gin.rowCast1]
  rfl

/-- The same as functions of the index: every index of a `[50000, 1]` array is a row and column zero. -/
theorem head_agree_fun (h : FVec Ideal S50000x256 .f32) (Wl1 : FVec Ideal S256x128 .f32) (bl1 : FVec Ideal S128 .f32)
    (Wl2 : FVec Ideal S128x1 .f32) (bl2 : FVec Ideal S1 .f32) :
    (fun i : S50000x1.Idx => headOut6 h Wl1 (shapeCast S1x128 bl1 shapeCasts_S128_S1x128) Wl2 (shapeCast S1x1 bl2 shapeCasts_S1_S1x1) (i 0))
      = Cert.ReferenceIdeal.RefRun.headScore (F := Ideal) h Wl1 bl1 Wl2 bl2 := by
  funext i
  obtain ⟨p, q, rfl⟩ : ∃ (p : Fin 50000) (q : Fin 1), i = ix2 p q := ⟨i 0, i 1, eq_ix2 i⟩
  obtain rfl : q = 0 := Subsingleton.elim _ _
  exact head_agree h Wl1 bl1 Wl2 bl2 p

end Cert.KernelIdeal.Hand
-- ==== Proof.PoolBridge.lean ====
/- The pooling of the node scores over the 64 graphs, kernel side against reference side, at the exact instance: the
   two programs apply the same operations (a scatter-add of the scores, a scatter-add of ones, the count clamped
   below at one, the quotient). -/
import proofs.«144698_j9466107920964_1_alg».proof.Proof.RefRun
import proofs.«144698_j9466107920964_1_alg».proof.Proof.KVal

noncomputable section

namespace Cert.KernelIdeal.Hand

open Cert.KernelIdeal
open Idealize.ShloMosaic

/-- The kernel program's pooling of the node scores is the reference's: the same operations. -/
theorem pool_eq (batch : IVec S50000 32) (s : FVec Ideal S50000x1 .f32) :
    kPool batch s = Cert.ReferenceIdeal.RefRun.graphMean (F := Ideal) batch s := rfl

end Cert.KernelIdeal.Hand
-- ==== Proof.LibGinLayer.lean ====
import proofs.«144698_j9466107920964_1_alg».proof.Proof.LibGinMoments

/-! One graph-isomorphism layer after its linear part, on the extended reals: the activations h of 50000 rows and 256
    columns are normalised column by column. The kernel takes each column's moments from 25 block sums of 2000 rows and
    the reciprocal of the row count; the reference from whole-column sums and squared deviations. On real activations
    the two normalised arrays agree entry by entry, and the result is real again. -/

noncomputable section

namespace Cert.Gin

open Idealize.ShloMosaic Cert.Alg Cert.Gnn

/-- Column q of the activations as a family over the 25 × 2000 rows. -/
def col (h : Fin 50000 → Fin 256 → EReal) (q : Fin 256) : Fin (25 * 2000) → EReal :=
  fun n => h (Fin.cast (by norm_num) n) q

/-- The kernel's mean of column q. -/
def meanK (h : Fin 50000 → Fin 256 → EReal) (q : Fin 256) : EReal := blockSum (col h q) * ((1 / 50000 : ℝ) : EReal)
/-- The kernel's variance of column q. -/
def varK (h : Fin 50000 → Fin 256 → EReal) (q : Fin 256) : EReal :=
  blockSumSq (col h q) * ((1 / 50000 : ℝ) : EReal) - meanK h q * meanK h q
/-- The reference's mean and variance of column q. -/
def meanR (h : Fin 50000 → Fin 256 → EReal) (q : Fin 256) : EReal := meanAll ((50000 : ℝ) : EReal) (col h q)
def varR (h : Fin 50000 → Fin 256 → EReal) (q : Fin 256) : EReal := varAll ((50000 : ℝ) : EReal) (col h q)

theorem meanK_eq (h : Fin 50000 → Fin 256 → EReal) (q : Fin 256) : meanK h q = meanR h q := mean_bridge _

theorem varK_eq (h : Fin 50000 → Fin 256 → EReal) (hh : ∀ p q, IsReal (h p q)) (q : Fin 256) : varK h q = varR h q :=
  var_bridge _ fun n => hh _ q

theorem meanR_isReal (h : Fin 50000 → Fin 256 → EReal) (hh : ∀ p q, IsReal (h p q)) (q : Fin 256) : IsReal (meanR h q) :=
  meanAll_isReal 50000 (by norm_num) _ fun n => hh _ q

theorem varR_nonneg (h : Fin 50000 → Fin 256 → EReal) (hh : ∀ p q, IsReal (h p q)) (q : Fin 256) :
    IsReal (varR h q) ∧ 0 ≤ varR h q :=
  varAll_nonneg 50000 (by norm_num) _ fun n => hh _ q

/-- The normalised entry from the kernel's moments is the one from the reference's, on real activations. -/
theorem norm_agree (h : Fin 50000 → Fin 256 → EReal) (hh : ∀ p q, IsReal (h p q)) (eps : EReal) (g be : Fin 256 → EReal)
    (p : Fin 50000) (q : Fin 256) :
    norm (h p q) (meanK h q) (varK h q) eps (g q) (be q) = norm (h p q) (meanR h q) (varR h q) eps (g q) (be q) := by
  rw [meanK_eq, varK_eq h hh]

/-- The reference's normalised entry is real when the activations and the scale and shift are. -/
theorem normR_isReal (h : Fin 50000 → Fin 256 → EReal) (hh : ∀ p q, IsReal (h p q)) {eps : EReal} (he : IsReal eps)
    (he0 : 0 < eps) (g be : Fin 256 → EReal) (hg : ∀ q, IsReal (g q)) (hb : ∀ q, IsReal (be q)) (p : Fin 50000) (q : Fin 256) :
    IsReal (norm (h p q) (meanR h q) (varR h q) eps (g q) (be q)) :=
  norm_isReal (hh p q) (meanR_isReal h hh q) (varR_nonneg h hh q).1 (varR_nonneg h hh q).2 he he0 (hg q) (hb q)

/-- The linear part at row p and column q: the row of x plus its aggregated neighbours against column q of the weights,
    plus the bias. -/
def lin {K : ℕ} (x agg : Fin 50000 → Fin K → EReal) (W : Fin K → Fin 256 → EReal) (b : Fin 256 → EReal)
    (p : Fin 50000) (q : Fin 256) : EReal :=
  (∑ k : Fin K, (x p k + agg p k) * W k q) + b q

theorem lin_isReal {K : ℕ} (x agg : Fin 50000 → Fin K → EReal) (W : Fin K → Fin 256 → EReal) (b : Fin 256 → EReal)
    (hx : ∀ p k, IsReal (x p k)) (ha : ∀ p k, IsReal (agg p k)) (hW : ∀ k q, IsReal (W k q)) (hb : ∀ q, IsReal (b q))
    (p : Fin 50000) (q : Fin 256) : IsReal (lin x agg W b p q) :=
  IsReal.add (IsReal.sum_univ _ fun k => IsReal.mul (IsReal.add (hx p k) (ha p k)) (hW k q)) (hb q)

/-- The rectifier, or nothing. -/
def act (relu : Bool) (y : EReal) : EReal := if relu then max y 0 else y

theorem act_isReal (relu : Bool) {y : EReal} (hy : IsReal y) : IsReal (act relu y) := by
  unfold act; split
  · exact IsReal.max hy IsReal.zero
  · exact hy

/-- ONE LAYER. The kernel's arrays — activations, column moments from block sums, normalised output — against the
    reference's output, both over the same inputs: on real inputs the outputs agree entry by entry and are real. -/
theorem layer_agree {K : ℕ} (X AGG : Fin 50000 → Fin K → EReal) (Wc : Fin K → Fin 256 → EReal) (bc g be : Fin 256 → EReal)
    {eps : EReal} (he : IsReal eps) (he0 : 0 < eps) (relu : Bool)
    (Hk : Fin 50000 → Fin 256 → EReal) (Mk Vk : Fin 256 → EReal) (Yk Yr : Fin 50000 → Fin 256 → EReal)
    (k1 : ∀ p q, Hk p q = lin X AGG Wc bc p q)
    (k2 : ∀ q, Mk q = meanK Hk q) (k3 : ∀ q, Vk q = varK Hk q)
    (k4 : ∀ p q, Yk p q = act relu (norm (Hk p q) (Mk q) (Vk q) eps (g q) (be q)))
    (r4 : ∀ p q, Yr p q = act relu (norm (lin X AGG Wc bc p q) (meanR (lin X AGG Wc bc) q) (varR (lin X AGG Wc bc) q) eps (g q) (be q)))
    (hX : ∀ p k, IsReal (X p k)) (hA : ∀ p k, IsReal (AGG p k)) (hW : ∀ k q, IsReal (Wc k q)) (hb : ∀ q, IsReal (bc q))
    (hg : ∀ q, IsReal (g q)) (hbe : ∀ q, IsReal (be q)) (p : Fin 50000) (q : Fin 256) :
    Yk p q = Yr p q ∧ IsReal (Yr p q) := by
  have hH : Hk = lin X AGG Wc bc := funext fun p => funext fun q => k1 p q
  subst hH
  have hh : ∀ p q, IsReal (lin X AGG Wc bc p q) := lin_isReal X AGG Wc bc hX hA hW hb
  refine ⟨?_, ?_⟩
  · rw [k4, r4, k2, k3, norm_agree _ hh]
  · rw [r4]; exact act_isReal relu (normR_isReal _ hh he he0 g be hg hbe p q)

end Cert.Gin

end
-- ==== Proof.RefRead.lean ====
import proofs.«144698_j9466107920964_1_alg».proof.Proof.RefRun
import proofs.«144698_j9466107920964_1_alg».proof.Proof.LibGinLayer
import proofs.«144698_j9466107920964_1_alg».proof.Proof.LibGinConsts
import Idealize.ShloMosaic.Lib.ValueIdx
import Idealize.ShloMosaic.Lib.ValueLayout
import Idealize.ShloMosaic.Lib.Pipeline.Value
import Idealize.ShloMosaic.PureOps.Ideal.Laws

/-!
# The reference's stages read at an index

At the extended reals each stage of the reference's result is read entry by entry: the linear map as a sum over
the input features, the column moments as sums over the nodes, the normalisation and the head as scalar formulas.
-/

noncomputable section

namespace Cert.ReferenceIdeal.RefRun

open Cert.ReferenceIdeal Cert.ReferenceIdeal.Gen Idealize.ShloMosaic Idealize.ShloMosaic.ValueIdx

/-! ## Broadcasts -/

/-- A feature vector repeated on every node, read at node `p` and feature `q`. -/
theorem rows256_apply (v : Ten Ideal S256 .f32) (p : Fin 50000) (q : Fin 256) : rows256 v (ix2 p q) = v (ix1 q) :=
  congrArg v (funext fun a => Fin.ext (by match a with | ⟨0, _⟩ => rfl))

/-! ## The rectifier and the normalisation -/

/-- (R4) The rectifier at an entry. -/
theorem relu256_apply (h : Ten Ideal S50000x256 .f32) (p : Fin 50000) (q : Fin 256) :
    relu256 h (ix2 p q) = max (h (ix2 p q)) 0 := by
  show max (h (ix2 p q)) (Ideal.ofBits .f32 0x00000000#32) = _
  rw [Ideal.ofBits_zero_f32]

/-- The normalisation at an entry, over the reference's own column moments. -/
theorem bnorm_apply_moments (h : Ten Ideal S50000x256 .f32) (g be : Ten Ideal S256 .f32) (p : Fin 50000) (q : Fin 256) :
    bnorm h g be (ix2 p q)
      = Cert.Gin.norm (h (ix2 p q)) (colMean h (ix1 q)) (colVar h (ix1 q)) (Ideal.ofBits .f32 0x3727C5AC#32)
          (g (ix1 q)) (be (ix1 q)) := by
  show (rows256 g (ix2 p q) * (h (ix2 p q) - rows256 (colMean h) (ix2 p q)))
        * rows256 (Host.rsqrt (addf (colVar h) (broadcastInDim S256 ![] bcast_S_S256 (constant S_ .f32 0x3727C5AC#32))))
            (ix2 p q)
      + rows256 be (ix2 p q) = _
  rw [rows256_apply, rows256_apply, rows256_apply, rows256_apply]
  rfl

/-! ## The column moments -/

/-- A scalar broadcast to the 256 features, read at a feature. -/
theorem bcast256_apply {α : Type} (c : S_.Idx → α) (q : Fin 256) :
    broadcastInDim S256 ![] bcast_S_S256 c (ix1 q) = c ix0 :=
  congrArg c (funext fun a => a.elim0)

/-- The sum of a feature over the nodes: the zero initial value drops out. -/
theorem colSum_apply (h : Ten Ideal S50000x256 .f32) (q : Fin 256) :
    colSum h (ix1 q) = ∑ k : Fin 50000, h (ix2 k q) := by
  unfold colSum
  simp only [Host.reduceAdd, Ideal.hostReduceAdd_def]
  rw [Ideal.hostReduceAdd_single reducesTo_S50000x256_S256_d0 (by decide)]
  rw [show constant (F := Ideal) S_ .f32 0x00000000#32 (Shape.Idx.first h_S_) = 0 from Ideal.ofBits_zero_f32, zero_add]
  refine Finset.sum_congr rfl fun k _ => ?_
  exact congrArg h (funext fun a => Fin.ext (by match a with | ⟨0, _⟩ => rfl | ⟨1, _⟩ => rfl))

/-- A sum over the 50000 nodes as a sum over 25 blocks of 2000. -/
theorem sum_rows (f : Fin 50000 → EReal) :
    ∑ k : Fin 50000, f k = ∑ n : Fin (25 * 2000), f (Fin.cast (by norm_num) n) :=
  (Fintype.sum_equiv (finCongr (by norm_num : 25 * 2000 = 50000)) _ _ fun _ => rfl).symm

/-- (R2, mean) The reference's column mean is the mean over all rows. -/
theorem colMean_apply (h : Ten Ideal S50000x256 .f32) (q : Fin 256) :
    colMean h (ix1 q) = Cert.Gin.meanR (fun p q => h (ix2 p q)) q := by
  show Ideal.div (colSum h (ix1 q)) (Ideal.ofBits .f32 0x47435000#32) = _
  rw [colSum_apply, Cert.Gin.ofBits_rows, sum_rows]
  rfl

/-- The variance's divisor is the row count. -/
theorem varDiv_apply : varDiv (F := Ideal) ix0 = ((50000 : ℝ) : EReal) := by
  show Ideal.ofBits .f32 0x47435000#32 - (((0#32 : BitVec 32).toInt : ℝ) : EReal) = _
  rw [Cert.Gin.ofBits_rows]
  simp

/-- Each entry less its column's mean, as the variance forms it (the mean through the 1 × 256 shape). -/
theorem centred_apply (h : Ten Ideal S50000x256 .f32) (p : Fin 50000) (q : Fin 256) :
    centred h (ix2 p q) = h (ix2 p q) - colMean h (ix1 q) := by
  have e : ∀ j j' : S256.Idx, j = j' →
      h (ix2 p q) - Ideal.div (colSum h j) (Ideal.ofBits .f32 0x47435000#32)
        = h (ix2 p q) - Ideal.div (colSum h j') (Ideal.ofBits .f32 0x47435000#32) := fun _ _ e => e ▸ rfl
  exact e _ _ (funext fun a => Fin.ext (by match a with | ⟨0, _⟩ => rfl))

/-- (R2, variance) The reference's column variance is the mean squared deviation over all rows: the divisor is
    positive, so the select takes the quotient. -/
theorem colVar_apply (h : Ten Ideal S50000x256 .f32) (q : Fin 256) :
    colVar h (ix1 q) = Cert.Gin.varR (fun p q => h (ix2 p q)) q := by
  have hpos : (0 : EReal) < ((50000 : ℝ) : EReal) := by exact_mod_cast (by norm_num : (0 : ℝ) < 50000)
  have hsel : cmpf (F := Ideal) .ogt (varDiv (F := Ideal)) (constant S_ .f32 0x00000000#32) ix0 = 1#1 := by
    show Ideal.cmp .ogt (varDiv (F := Ideal) ix0) (Ideal.ofBits .f32 0x00000000#32) = 1#1
    rw [varDiv_apply, Ideal.ofBits_zero_f32]
    simp [Ideal.cmp, hpos]
  unfold colVar
  rw [select_apply, bcast256_apply, hsel, select_one]
  show Ideal.div (colSum (mulf (centred h) (centred h)) (ix1 q))
      (broadcastInDim S256 ![] bcast_S_S256 (varDiv (F := Ideal)) (ix1 q)) = _
  rw [bcast256_apply, varDiv_apply, colSum_apply, sum_rows]
  unfold Cert.Gin.varR Cert.Gnn.varAll
  refine congrArg (fun s => Ideal.div s ((50000 : ℝ) : EReal)) (Finset.sum_congr rfl fun n _ => ?_)
  show centred h (ix2 _ q) * centred h (ix2 _ q) = _
  rw [centred_apply, colMean_apply]
  rfl

/-- (R3) The normalisation at an entry, over the column's mean and variance over all rows. -/
theorem bnorm_apply (h : Ten Ideal S50000x256 .f32) (g be : Ten Ideal S256 .f32) (p : Fin 50000) (q : Fin 256) :
    bnorm h g be (ix2 p q)
      = Cert.Gin.norm (h (ix2 p q)) (Cert.Gin.meanR (fun p q => h (ix2 p q)) q)
          (Cert.Gin.varR (fun p q => h (ix2 p q)) q) (Ideal.ofBits .f32 0x3727C5AC#32) (g (ix1 q)) (be (ix1 q)) := by
  rw [bnorm_apply_moments, colMean_apply, colVar_apply]

/-! ## The linear maps -/

/-- The left operand's row coordinate under the product's index map. -/
theorem lhs_64_0 (i : S50000x256.Idx) (q : dot_S50000x64_S64x256_S50000x256_1_0_0_1_n_n.contr.Idx) : (dot_S50000x64_S64x256_S50000x256_1_0_0_1_n_n.lhsIdx i q 0).val = (i 0).val := by
  unfold DotDims.lhsIdx
  rw [dif_neg (show ¬(0 : Fin S50000x64.rank) ∈ dot_S50000x64_S64x256_S50000x256_1_0_0_1_n_n.lhsBatch by decide),
    dif_pos (show (0 : Fin S50000x64.rank) ∈ dot_S50000x64_S64x256_S50000x256_1_0_0_1_n_n.lhsNonContracting by decide)]
  rfl
theorem lhs_64_1 (i : S50000x256.Idx) (q : dot_S50000x64_S64x256_S50000x256_1_0_0_1_n_n.contr.Idx) : (dot_S50000x64_S64x256_S50000x256_1_0_0_1_n_n.lhsIdx i q 1).val = (q ⟨0, by decide⟩).val :=
  dot_S50000x64_S64x256_S50000x256_1_0_0_1_n_n.lhsIdx_val_of_single rfl i q
theorem rhs_64_0 (i : S50000x256.Idx) (q : dot_S50000x64_S64x256_S50000x256_1_0_0_1_n_n.contr.Idx) : (dot_S50000x64_S64x256_S50000x256_1_0_0_1_n_n.rhsIdx i q 0).val = (q ⟨0, by decide⟩).val :=
  dot_S50000x64_S64x256_S50000x256_1_0_0_1_n_n.rhsIdx_val_of_single rfl i q
theorem rhs_64_1 (i : S50000x256.Idx) (q : dot_S50000x64_S64x256_S50000x256_1_0_0_1_n_n.contr.Idx) : (dot_S50000x64_S64x256_S50000x256_1_0_0_1_n_n.rhsIdx i q 1).val = (i 1).val := by
  unfold DotDims.rhsIdx
  rw [dif_neg (show ¬(1 : Fin S64x256.rank) ∈ dot_S50000x64_S64x256_S50000x256_1_0_0_1_n_n.rhsBatch by decide),
    dif_pos (show (1 : Fin S64x256.rank) ∈ dot_S50000x64_S64x256_S50000x256_1_0_0_1_n_n.rhsNonContracting by decide)]
  rfl

/-- The product of a 50000 × 64 by a 64 × 256 array at an entry: the sum over the 64 inner coordinates. -/
theorem dot_64_apply (l : FVec Ideal S50000x64 .f32) (r : FVec Ideal S64x256 .f32) (p : Fin 50000) (q : Fin 256) :
    Host.dotGeneral (F := Ideal) dot_S50000x64_S64x256_S50000x256_1_0_0_1_n_n none l r (ix2 p q) = ∑ k : Fin 64, l (ix2 p k) * r (ix2 k q) := by
  simp only [Host.dotGeneral]
  rw [Ideal.dotGeneral_apply, ← Equiv.sum_comp (contrEquiv1 dot_S50000x64_S64x256_S50000x256_1_0_0_1_n_n 64 rfl rfl).symm]
  refine Finset.sum_congr rfl fun k _ => ?_
  have hk := contrEquiv1_symm_val dot_S50000x64_S64x256_S50000x256_1_0_0_1_n_n 64 rfl rfl k
  have el : dot_S50000x64_S64x256_S50000x256_1_0_0_1_n_n.lhsIdx (ix2 p q) ((contrEquiv1 dot_S50000x64_S64x256_S50000x256_1_0_0_1_n_n 64 rfl rfl).symm k) = ix2 p k := funext fun a => Fin.ext (by
    match a with
    | ⟨0, _⟩ => exact lhs_64_0 _ _
    | ⟨1, _⟩ => exact (lhs_64_1 _ _).trans hk)
  have er : dot_S50000x64_S64x256_S50000x256_1_0_0_1_n_n.rhsIdx (ix2 p q) ((contrEquiv1 dot_S50000x64_S64x256_S50000x256_1_0_0_1_n_n 64 rfl rfl).symm k) = ix2 k q := funext fun a => Fin.ext (by
    match a with
    | ⟨0, _⟩ => exact (rhs_64_0 _ _).trans hk
    | ⟨1, _⟩ => exact rhs_64_1 _ _)
  rw [el, er]

/-- The left operand's row coordinate under the product's index map. -/
theorem lhs_256_0 (i : S50000x256.Idx) (q : dot_S50000x256_S256x256_S50000x256_1_0_0_1_n_n.contr.Idx) : (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide),
    dif_pos (show (0 : Fin S50000x256.rank) ∈ dot_S50000x256_S256x256_S50000x256_1_0_0_1_n_n.lhsNonContracting by decide)]
  rfl
theorem lhs_256_1 (i : S50000x256.Idx) (q : dot_S50000x256_S256x256_S50000x256_1_0_0_1_n_n.contr.Idx) : (dot_S50000x256_S256x256_S50000x256_1_0_0_1_n_n.lhsIdx i q 1).val = (q ⟨0, by decide⟩).val :=
  dot_S50000x256_S256x256_S50000x256_1_0_0_1_n_n.lhsIdx_val_of_single rfl i q
theorem rhs_256_0 (i : S50000x256.Idx) (q : dot_S50000x256_S256x256_S50000x256_1_0_0_1_n_n.contr.Idx) : (dot_S50000x256_S256x256_S50000x256_1_0_0_1_n_n.rhsIdx i q 0).val = (q ⟨0, by decide⟩).val :=
  dot_S50000x256_S256x256_S50000x256_1_0_0_1_n_n.rhsIdx_val_of_single rfl i q
theorem rhs_256_1 (i : S50000x256.Idx) (q : dot_S50000x256_S256x256_S50000x256_1_0_0_1_n_n.contr.Idx) : (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide),
    dif_pos (show (1 : Fin S256x256.rank) ∈ dot_S50000x256_S256x256_S50000x256_1_0_0_1_n_n.rhsNonContracting by decide)]
  rfl

/-- The product of a 50000 × 256 by a 256 × 256 array at an entry: the sum over the 256 inner coordinates. -/
theorem dot_256_apply (l : FVec Ideal S50000x256 .f32) (r : FVec Ideal S256x256 .f32) (p : Fin 50000) (q : Fin 256) :
    Host.dotGeneral (F := Ideal) dot_S50000x256_S256x256_S50000x256_1_0_0_1_n_n none l r (ix2 p q) = ∑ k : Fin 256, l (ix2 p k) * r (ix2 k q) := by
  simp only [Host.dotGeneral]
  rw [Ideal.dotGeneral_apply, ← Equiv.sum_comp (contrEquiv1 dot_S50000x256_S256x256_S50000x256_1_0_0_1_n_n 256 rfl rfl).symm]
  refine Finset.sum_congr rfl fun k _ => ?_
  have hk := contrEquiv1_symm_val dot_S50000x256_S256x256_S50000x256_1_0_0_1_n_n 256 rfl rfl k
  have el : dot_S50000x256_S256x256_S50000x256_1_0_0_1_n_n.lhsIdx (ix2 p q) ((contrEquiv1 dot_S50000x256_S256x256_S50000x256_1_0_0_1_n_n 256 rfl rfl).symm k) = ix2 p k := funext fun a => Fin.ext (by
    match a with
    | ⟨0, _⟩ => exact lhs_256_0 _ _
    | ⟨1, _⟩ => exact (lhs_256_1 _ _).trans hk)
  have er : dot_S50000x256_S256x256_S50000x256_1_0_0_1_n_n.rhsIdx (ix2 p q) ((contrEquiv1 dot_S50000x256_S256x256_S50000x256_1_0_0_1_n_n 256 rfl rfl).symm k) = ix2 k q := funext fun a => Fin.ext (by
    match a with
    | ⟨0, _⟩ => exact (rhs_256_0 _ _).trans hk
    | ⟨1, _⟩ => exact rhs_256_1 _ _)
  rw [el, er]

/-- The first layer's neighbour sum: each node's incoming sources' rows added up. -/
def agg64 {F : FTy → Type} [FloatOps F] (x : Ten F S50000x64 .f32) (src dst : Ten F S800000 .i32) : Ten F S50000x64 .f32 :=
  Host.scatterAdd scatter_S50000x64_S800000x1_S800000x64_1_0_0_1
    (broadcastInDim S50000x64 ![] bcast_S_S50000x64 (constant S_ .f32 0x00000000#32)) (idxCol dst)
    (Host.gather gather_S50000x64_S800000x1_S800000x64_1_0_n_n_0_1_164 x (wrapIdx src))

/-- A later layer's neighbour sum. -/
def agg256 {F : FTy → Type} [FloatOps F] (x : Ten F S50000x256 .f32) (src dst : Ten F S800000 .i32) : Ten F S50000x256 .f32 :=
  Host.scatterAdd scatter_S50000x256_S800000x1_S800000x256_1_0_0_1
    (broadcastInDim S50000x256 ![] bcast_S_S50000x256 (constant S_ .f32 0x00000000#32)) (idxCol dst)
    (Host.gather gather_S50000x256_S800000x1_S800000x256_1_0_n_n_0_1_1256 x (wrapIdx src))

theorem lin64_eq {F : FTy → Type} [FloatOps F] (x : Ten F S50000x64 .f32) (src dst : Ten F S800000 .i32)
    (W : Ten F S64x256 .f32) (b : Ten F S256 .f32) :
    lin64 x src dst W b
      = addf (Host.dotGeneral dot_S50000x64_S64x256_S50000x256_1_0_0_1_n_n none (addf x (agg64 x src dst)) W) (rows256 b) := rfl

theorem lin256_eq {F : FTy → Type} [FloatOps F] (x : Ten F S50000x256 .f32) (src dst : Ten F S800000 .i32)
    (W : Ten F S256x256 .f32) (b : Ten F S256 .f32) :
    lin256 x src dst W b
      = addf (Host.dotGeneral dot_S50000x256_S256x256_S50000x256_1_0_0_1_n_n none (addf x (agg256 x src dst)) W) (rows256 b) := rfl

/-- (R1) The first layer's linear map at an entry. -/
theorem lin64_apply (x : Ten Ideal S50000x64 .f32) (src dst : Ten Ideal S800000 .i32) (W : Ten Ideal S64x256 .f32)
    (b : Ten Ideal S256 .f32) (p : Fin 50000) (q : Fin 256) :
    lin64 x src dst W b (ix2 p q)
      = Cert.Gin.lin (fun p k => x (ix2 p k)) (fun p k => agg64 x src dst (ix2 p k)) (fun k q => W (ix2 k q))
          (fun q => b (ix1 q)) p q := by
  rw [lin64_eq]
  show Host.dotGeneral dot_S50000x64_S64x256_S50000x256_1_0_0_1_n_n none (addf x (agg64 x src dst)) W (ix2 p q)
      + rows256 b (ix2 p q) = _
  rw [rows256_apply, dot_64_apply]
  rfl

/-- (R1) A later layer's linear map at an entry. -/
theorem lin256_apply (x : Ten Ideal S50000x256 .f32) (src dst : Ten Ideal S800000 .i32) (W : Ten Ideal S256x256 .f32)
    (b : Ten Ideal S256 .f32) (p : Fin 50000) (q : Fin 256) :
    lin256 x src dst W b (ix2 p q)
      = Cert.Gin.lin (fun p k => x (ix2 p k)) (fun p k => agg256 x src dst (ix2 p k)) (fun k q => W (ix2 k q))
          (fun q => b (ix1 q)) p q := by
  rw [lin256_eq]
  show Host.dotGeneral dot_S50000x256_S256x256_S50000x256_1_0_0_1_n_n none (addf x (agg256 x src dst)) W (ix2 p q)
      + rows256 b (ix2 p q) = _
  rw [rows256_apply, dot_256_apply]
  rfl

end Cert.ReferenceIdeal.RefRun

end
-- ==== Proof.RefLayers.lean ====
import proofs.«144698_j9466107920964_1_alg».proof.Proof.RefRead
import proofs.«144698_j9466107920964_1_alg».proof.Proof.KVal

/-!
# The reference's layers at an entry, and the shared neighbour sum

Each graph layer of the reference read at one entry of its output — the linear map's entry, normalised over the
moments of its column, rectified in the first two layers —, and the neighbour sum as the one the kernel's program
forms on the host: the same gather and scatter over the same index vectors.
-/

noncomputable section

namespace Cert.ReferenceIdeal.RefRun

open Cert.ReferenceIdeal Cert.ReferenceIdeal.Gen Idealize.ShloMosaic Idealize.ShloMosaic.ValueIdx

/-! ## The layers -/

/-- Layer 1 at an entry: the linear map's entry normalised over its column's moments, rectified. -/
theorem layer1_apply (x : Ten Ideal S50000x64 .f32) (src dst : Ten Ideal S800000 .i32) (W : Ten Ideal S64x256 .f32)
    (b g be : Ten Ideal S256 .f32) (p : Fin 50000) (q : Fin 256) :
    layer1 x src dst W b g be (ix2 p q)
      = Cert.Gin.act true
          (Cert.Gin.norm
            ((Cert.Gin.lin (fun p k => x (ix2 p k)) (fun p k => agg64 x src dst (ix2 p k)) (fun k q => W (ix2 k q)) (fun q => b (ix1 q))) p q)
            (Cert.Gin.meanR (Cert.Gin.lin (fun p k => x (ix2 p k)) (fun p k => agg64 x src dst (ix2 p k)) (fun k q => W (ix2 k q)) (fun q => b (ix1 q))) q)
            (Cert.Gin.varR (Cert.Gin.lin (fun p k => x (ix2 p k)) (fun p k => agg64 x src dst (ix2 p k)) (fun k q => W (ix2 k q)) (fun q => b (ix1 q))) q)
            (Ideal.ofBits .f32 0x3727C5AC#32) (g (ix1 q)) (be (ix1 q))) := by
  have hH : (fun p q => lin64 x src dst W b (ix2 p q)) = (Cert.Gin.lin (fun p k => x (ix2 p k)) (fun p k => agg64 x src dst (ix2 p k)) (fun k q => W (ix2 k q)) (fun q => b (ix1 q))) :=
    funext fun p => funext fun q => lin64_apply x src dst W b p q
  show relu256 (bnorm (lin64 x src dst W b) g be) (ix2 p q) = _
  rw [relu256_apply, bnorm_apply, hH, lin64_apply]
  rfl

/-- Layer 2 at an entry: the linear map's entry normalised over its column's moments, rectified. -/
theorem layer2_apply (x : Ten Ideal S50000x256 .f32) (src dst : Ten Ideal S800000 .i32) (W : Ten Ideal S256x256 .f32)
    (b g be : Ten Ideal S256 .f32) (p : Fin 50000) (q : Fin 256) :
    layer2 x src dst W b g be (ix2 p q)
      = Cert.Gin.act true
          (Cert.Gin.norm
            ((Cert.Gin.lin (fun p k => x (ix2 p k)) (fun p k => agg256 x src dst (ix2 p k)) (fun k q => W (ix2 k q)) (fun q => b (ix1 q))) p q)
            (Cert.Gin.meanR (Cert.Gin.lin (fun p k => x (ix2 p k)) (fun p k => agg256 x src dst (ix2 p k)) (fun k q => W (ix2 k q)) (fun q => b (ix1 q))) q)
            (Cert.Gin.varR (Cert.Gin.lin (fun p k => x (ix2 p k)) (fun p k => agg256 x src dst (ix2 p k)) (fun k q => W (ix2 k q)) (fun q => b (ix1 q))) q)
            (Ideal.ofBits .f32 0x3727C5AC#32) (g (ix1 q)) (be (ix1 q))) := by
  have hH : (fun p q => lin256 x src dst W b (ix2 p q)) = (Cert.Gin.lin (fun p k => x (ix2 p k)) (fun p k => agg256 x src dst (ix2 p k)) (fun k q => W (ix2 k q)) (fun q => b (ix1 q))) :=
    funext fun p => funext fun q => lin256_apply x src dst W b p q
  show relu256 (bnorm (lin256 x src dst W b) g be) (ix2 p q) = _
  rw [relu256_apply, bnorm_apply, hH, lin256_apply]
  rfl

/-- Layer 3 at an entry: the linear map's entry normalised over its column's moments, not rectified. -/
theorem layer3_apply (x : Ten Ideal S50000x256 .f32) (src dst : Ten Ideal S800000 .i32) (W : Ten Ideal S256x256 .f32)
    (b g be : Ten Ideal S256 .f32) (p : Fin 50000) (q : Fin 256) :
    layer3 x src dst W b g be (ix2 p q)
      = Cert.Gin.act false
          (Cert.Gin.norm
            ((Cert.Gin.lin (fun p k => x (ix2 p k)) (fun p k => agg256 x src dst (ix2 p k)) (fun k q => W (ix2 k q)) (fun q => b (ix1 q))) p q)
            (Cert.Gin.meanR (Cert.Gin.lin (fun p k => x (ix2 p k)) (fun p k => agg256 x src dst (ix2 p k)) (fun k q => W (ix2 k q)) (fun q => b (ix1 q))) q)
            (Cert.Gin.varR (Cert.Gin.lin (fun p k => x (ix2 p k)) (fun p k => agg256 x src dst (ix2 p k)) (fun k q => W (ix2 k q)) (fun q => b (ix1 q))) q)
            (Ideal.ofBits .f32 0x3727C5AC#32) (g (ix1 q)) (be (ix1 q))) := by
  have hH : (fun p q => lin256 x src dst W b (ix2 p q)) = (Cert.Gin.lin (fun p k => x (ix2 p k)) (fun p k => agg256 x src dst (ix2 p k)) (fun k q => W (ix2 k q)) (fun q => b (ix1 q))) :=
    funext fun p => funext fun q => lin256_apply x src dst W b p q
  show bnorm (lin256 x src dst W b) g be (ix2 p q) = _
  rw [bnorm_apply, hH, lin256_apply]
  rfl

/-! ## The neighbour sum is the kernel program's -/

theorem kSrc_eq (e : IVec Cert.KernelIdeal.S2x800000 32) : Cert.KernelIdeal.Hand.kSrc e = edgeSrc (F := Ideal) e := rfl
theorem kDst_eq (e : IVec Cert.KernelIdeal.S2x800000 32) : Cert.KernelIdeal.Hand.kDst e = edgeDst (F := Ideal) e := rfl
theorem kWrap_eq (v : IVec Cert.KernelIdeal.S800000 32) : Cert.KernelIdeal.Hand.kWrap v = wrapIdx (F := Ideal) v := rfl
theorem kCol_eq (v : IVec Cert.KernelIdeal.S800000 32) : Cert.KernelIdeal.Hand.kCol v = idxCol (F := Ideal) v := rfl

/-- The kernel program's neighbour sum over 64 features is the reference's. -/
theorem agg64_eq (x : FVec Ideal Cert.KernelIdeal.S50000x64 .f32) (e : IVec Cert.KernelIdeal.S2x800000 32) :
    Cert.KernelIdeal.Hand.kAgg64 x (Cert.KernelIdeal.Hand.kSrc e) (Cert.KernelIdeal.Hand.kDst e)
      = agg64 (F := Ideal) x (edgeSrc e) (edgeDst e) := rfl

/-- The kernel program's neighbour sum over 256 features is the reference's. -/
theorem agg256_eq (x : FVec Ideal Cert.KernelIdeal.S50000x256 .f32) (e : IVec Cert.KernelIdeal.S2x800000 32) :
    Cert.KernelIdeal.Hand.kAgg256 x (Cert.KernelIdeal.Hand.kSrc e) (Cert.KernelIdeal.Hand.kDst e)
      = agg256 (F := Ideal) x (edgeSrc e) (edgeDst e) := rfl

end Cert.ReferenceIdeal.RefRun

end
-- ==== Proof.AggReal.lean ====
/-
  The neighbour sums of a real array are real.

  A node's neighbour sum is zero plus the sum, over the edges that arrive at the node, of the source nodes' rows. Each
  of those rows is a row of the given array (a gather reads entries, it computes nothing), zero is a real, and a finite
  sum of reals is a real. So when every entry of the array is a real, every entry of the neighbour sums is, whatever
  the two index arrays are.
-/
import proofs.«144698_j9466107920964_1_alg».proof.Proof.KVal
import proofs.«144698_j9466107920964_1_alg».proof.Proof.LibRealVec

noncomputable section

namespace Cert.KernelIdeal.Hand

open Cert.KernelIdeal Cert.KernelIdeal.Gen Cert.RealVec
open Idealize.ShloMosaic

/-- The one-entry array holding the zero word is real. -/
theorem isRealV_zeroWord : IsRealV (constant (F := Ideal) S_ .f32 0x00000000#32) := fun _ => isReal_ofBits_zero

/-- The neighbour sums over 64 features of a real array are real. -/
theorem kAgg64_real (x : FVec Ideal S50000x64 .f32) (src dst : IVec S800000 32) (hx : IsRealV x) :
    IsRealV (kAgg64 x src dst) :=
  IsRealV.scatterAdd _ (isRealV_zeroWord.broadcastInDim _ _) _ (hx.gather _ _)

/-- The neighbour sums over 256 features of a real array are real. -/
theorem kAgg256_real (x : FVec Ideal S50000x256 .f32) (src dst : IVec S800000 32) (hx : IsRealV x) :
    IsRealV (kAgg256 x src dst) :=
  IsRealV.scatterAdd _ (isRealV_zeroWord.broadcastInDim _ _) _ (hx.gather _ _)

end Cert.KernelIdeal.Hand

end
-- ==== Proof.LibGinArrays.lean ====
import proofs.«144698_j9466107920964_1_alg».proof.Proof.LibGinLayer
import proofs.«144698_j9466107920964_1_alg».proof.Proof.LibRealVec
import Idealize.ShloMosaic.Lib.ValueIdx

/-! One layer at the level of arrays. The kernel leaves four arrays — the activations, the row of column means, the row
    of column variances, the normalised output — each known entry by entry from the arrays the layer is entered with;
    the reference leaves one. When the inputs are real the two outputs are the same array, and it is real. -/

noncomputable section

namespace Cert.Gin

open Idealize.ShloMosaic Idealize.ShloMosaic.ValueIdx Cert.Alg Cert.Gnn Cert.RealVec

/-- Arrays of two axes and of one, on the extended reals. -/
abbrev M2 (a b : ℕ) : Type := (⟨2, ![a, b]⟩ : Shape).Idx → EReal
abbrev M1 (a : ℕ) : Type := (⟨1, ![a]⟩ : Shape).Idx → EReal

theorem act_true (y : EReal) : act true y = max y 0 := rfl
theorem act_false (y : EReal) : act false y = y := rfl

theorem layer_arrays {K : ℕ} (x agg : M2 50000 K) (W : M2 K 256) (bv gv bev : M1 256) (brow grow berow : M2 1 256)
    (hbrow : ∀ q : Fin 256, brow (ix2 0 q) = bv (ix1 q)) (hgrow : ∀ q : Fin 256, grow (ix2 0 q) = gv (ix1 q))
    (hberow : ∀ q : Fin 256, berow (ix2 0 q) = bev (ix1 q))
    {eps : EReal} (he : IsReal eps) (he0 : 0 < eps) (relu : Bool)
    (Hk : M2 50000 256) (Mk Vk : M2 1 256) (Yk Yr : M2 50000 256)
    (f_h : ∀ (p : Fin 50000) (q : Fin 256), Hk (ix2 p q) = (∑ k : Fin K, (x (ix2 p k) + agg (ix2 p k)) * W (ix2 k q)) + brow (ix2 0 q))
    (f_m : ∀ q : Fin 256, Mk (ix2 0 q) = blockSum (fun n => Hk (ix2 (Fin.cast (by norm_num) n) q)) * ((1 / 50000 : ℝ) : EReal))
    (f_v : ∀ q : Fin 256, Vk (ix2 0 q) = blockSumSq (fun n => Hk (ix2 (Fin.cast (by norm_num) n) q)) * ((1 / 50000 : ℝ) : EReal)
        - Mk (ix2 0 q) * Mk (ix2 0 q))
    (f_y : ∀ (p : Fin 50000) (q : Fin 256), Yk (ix2 p q)
        = act relu (norm (Hk (ix2 p q)) (Mk (ix2 0 q)) (Vk (ix2 0 q)) eps (grow (ix2 0 q)) (berow (ix2 0 q))))
    (f_r : ∀ (p : Fin 50000) (q : Fin 256), Yr (ix2 p q)
        = act relu (norm (lin (fun p k => x (ix2 p k)) (fun p k => agg (ix2 p k)) (fun k q => W (ix2 k q)) (fun q => bv (ix1 q)) p q)
            (meanR (lin (fun p k => x (ix2 p k)) (fun p k => agg (ix2 p k)) (fun k q => W (ix2 k q)) (fun q => bv (ix1 q))) q)
            (varR (lin (fun p k => x (ix2 p k)) (fun p k => agg (ix2 p k)) (fun k q => W (ix2 k q)) (fun q => bv (ix1 q))) q)
            eps (gv (ix1 q)) (bev (ix1 q))))
    (hx : IsRealV x) (ha : IsRealV agg) (hW : IsRealV W) (hb : IsRealV bv) (hg : IsRealV gv) (hbe : IsRealV bev) :
    Yk = Yr ∧ IsRealV Yr := by
  have key : ∀ (p : Fin 50000) (q : Fin 256), Yk (ix2 p q) = Yr (ix2 p q) ∧ IsReal (Yr (ix2 p q)) := fun p q =>
    layer_agree (fun p k => x (ix2 p k)) (fun p k => agg (ix2 p k)) (fun k q => W (ix2 k q)) (fun q => bv (ix1 q))
      (fun q => gv (ix1 q)) (fun q => bev (ix1 q)) he he0 relu
      (fun p q => Hk (ix2 p q)) (fun q => Mk (ix2 0 q)) (fun q => Vk (ix2 0 q)) (fun p q => Yk (ix2 p q)) (fun p q => Yr (ix2 p q))
      (fun p q => by rw [f_h, hbrow]; rfl)
      (fun q => (f_m q).trans rfl)
      (fun q => by rw [f_v, f_m]; rfl)
      (fun p q => by rw [f_y, hgrow, hberow])
      f_r
      (fun p k => hx _) (fun p k => ha _) (fun k q => hW _) (fun q => hb _) (fun q => hg _) (fun q => hbe _) p q
  refine ⟨funext fun i => ?_, fun i => ?_⟩
  · obtain ⟨p, q, rfl⟩ : ∃ (p : Fin 50000) (q : Fin 256), i = ix2 p q := ⟨i 0, i 1, eq_ix2 i⟩
    exact (key p q).1
  · obtain ⟨p, q, rfl⟩ : ∃ (p : Fin 50000) (q : Fin 256), i = ix2 p q := ⟨i 0, i 1, eq_ix2 i⟩
    exact (key p q).2

end Cert.Gin

end
-- ==== Proof.Bridge.lean ====
import proofs.«144698_j9466107920964_1_alg».proof.Proof.KVal
import proofs.«144698_j9466107920964_1_alg».proof.Proof.Val0
import proofs.«144698_j9466107920964_1_alg».proof.Proof.Val1
import proofs.«144698_j9466107920964_1_alg».proof.Proof.Val2
import proofs.«144698_j9466107920964_1_alg».proof.Proof.Val3
import proofs.«144698_j9466107920964_1_alg».proof.Proof.Val4
import proofs.«144698_j9466107920964_1_alg».proof.Proof.Val5
import proofs.«144698_j9466107920964_1_alg».proof.Proof.Val6
import proofs.«144698_j9466107920964_1_alg».proof.Proof.HeadBridge
import proofs.«144698_j9466107920964_1_alg».proof.Proof.PoolBridge
import proofs.«144698_j9466107920964_1_alg».proof.Proof.RefLayers
import proofs.«144698_j9466107920964_1_alg».proof.Proof.AggReal
import proofs.«144698_j9466107920964_1_alg».proof.Proof.RowCast
import proofs.«144698_j9466107920964_1_alg».proof.Proof.LibGinArrays
import proofs.«144698_j9466107920964_1_alg».proof.Proof.LibGinConsts

/-! The idealized kernel's result is the reference's. Layer by layer: the kernel's region pair leaves the linear part,
    the column moments taken from 25 block sums, and the normalised array; on real inputs that array is the reference's
    layer output, which is real again, so the next layer starts from the same real array on both sides. The head and the
    pooling by graph are then the same functions of the third layer's output. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Cert.Gin Cert.Alg Cert.RealVec Cert.ReferenceIdeal.RefRun

variable (m : (ℓ : Loc nD τ sig) → Buf (Elt Ideal) ℓ) (c : Dev nD)

/-- The reference's three layer outputs, as functions of the launch arrays. -/
def L1r : FVec Ideal S50000x256 .f32 := (layer1 (F := Ideal) (m ((c : Thread nD τ).loc main_arg0)) (edgeSrc (m ((c : Thread nD τ).loc main_arg1))) (edgeDst (m ((c : Thread nD τ).loc main_arg1))) (m ((c : Thread nD τ).loc main_arg3)) (m ((c : Thread nD τ).loc main_arg4)) (m ((c : Thread nD τ).loc main_arg5)) (m ((c : Thread nD τ).loc main_arg6)))
def L2r : FVec Ideal S50000x256 .f32 := (layer2 (F := Ideal) (L1r m c) (edgeSrc (m ((c : Thread nD τ).loc main_arg1))) (edgeDst (m ((c : Thread nD τ).loc main_arg1))) (m ((c : Thread nD τ).loc main_arg7)) (m ((c : Thread nD τ).loc main_arg8)) (m ((c : Thread nD τ).loc main_arg9)) (m ((c : Thread nD τ).loc main_arg10)))
def L3r : FVec Ideal S50000x256 .f32 := (layer3 (F := Ideal) (L2r m c) (edgeSrc (m ((c : Thread nD τ).loc main_arg1))) (edgeDst (m ((c : Thread nD τ).loc main_arg1))) (m ((c : Thread nD τ).loc main_arg11)) (m ((c : Thread nD τ).loc main_arg12)) (m ((c : Thread nD τ).loc main_arg13)) (m ((c : Thread nD τ).loc main_arg14)))

/-- What the kernel's normalising regions leave. -/
def Y1k : FVec Ideal S50000x256 .f32 := (dat1 (F := Ideal) (atTc (Wk3 m)) c).arrAt 5 cfg1.N
def Y2k : FVec Ideal S50000x256 .f32 := (dat3 (F := Ideal) (atTc (Wk7 m)) c).arrAt 5 cfg3.N
def Y3k : FVec Ideal S50000x256 .f32 := (dat5 (F := Ideal) (atTc (Wk11 m)) c).arrAt 5 cfg5.N

theorem Wk4_v18 : (Wk4 m c (Proc.devRef .tc main_v18) : FVec Ideal S50000x256 .f32) = Y1k m c := exit1_arr (Wk3 m) c 5
theorem Wk8_v33 : (Wk8 m c (Proc.devRef .tc main_v33) : FVec Ideal S50000x256 .f32) = Y2k m c := exit3_arr (Wk7 m) c 5
theorem Wk12_v48 : (Wk12 m c (Proc.devRef .tc main_v48) : FVec Ideal S50000x256 .f32) = Y3k m c := exit5_arr (Wk11 m) c 5

/-! ## The first layer -/

set_option maxHeartbeats 2000000 in
theorem layer1_bridge (h0 : IsRealV (m ((c : Thread nD τ).loc main_arg0))) (h3 : IsRealV (m ((c : Thread nD τ).loc main_arg3))) (h4 : IsRealV (m ((c : Thread nD τ).loc main_arg4))) (h5 : IsRealV (m ((c : Thread nD τ).loc main_arg5))) (h6 : IsRealV (m ((c : Thread nD τ).loc main_arg6))) :
    Y1k m c = L1r m c ∧ IsRealV (L1r m c) := by
  have ex : atTc (Wk1 m) c main_arg0 = (m ((c : Thread nD τ).loc main_arg0)) := Wk1_arg0 m c
  have ea : atTc (Wk1 m) c main_v13 = kAgg64 (m ((c : Thread nD τ).loc main_arg0)) (kSrc (m ((c : Thread nD τ).loc main_arg1))) (kDst (m ((c : Thread nD τ).loc main_arg1))) := Wk1_v13 m c
  have eW : atTc (Wk1 m) c main_arg3 = (m ((c : Thread nD τ).loc main_arg3)) := Wk1_arg3 m c
  have eb : atTc (Wk1 m) c main_v14 = (shapeCast S1x256 (m ((c : Thread nD τ).loc main_arg4)) shapeCasts_S256_S1x256) := Wk1_v14 m c
  have eh : atTc (Wk3 m) c main_v15_0 = (dat0 (F := Ideal) (atTc (Wk1 m)) c).arrAt 4 cfg0.N := (Wk3_v15_0 m c).trans (exit0_arr (Wk1 m) c 4)
  have em : atTc (Wk3 m) c main_v15_1 = (dat0 (F := Ideal) (atTc (Wk1 m)) c).arrAt 5 cfg0.N := (Wk3_v15_1 m c).trans (exit0_arr (Wk1 m) c 5)
  have ev : atTc (Wk3 m) c main_v15_2 = (dat0 (F := Ideal) (atTc (Wk1 m)) c).arrAt 6 cfg0.N := (Wk3_v15_2 m c).trans (exit0_arr (Wk1 m) c 6)
  have eg : atTc (Wk3 m) c main_v16 = (shapeCast S1x256 (m ((c : Thread nD τ).loc main_arg5)) shapeCasts_S256_S1x256) := Wk3_v16 m c
  have ebe : atTc (Wk3 m) c main_v17 = (shapeCast S1x256 (m ((c : Thread nD τ).loc main_arg6)) shapeCasts_S256_S1x256) := Wk3_v17 m c
  refine layer_arrays (K := 64) (m ((c : Thread nD τ).loc main_arg0)) (kAgg64 (m ((c : Thread nD τ).loc main_arg0)) (kSrc (m ((c : Thread nD τ).loc main_arg1))) (kDst (m ((c : Thread nD τ).loc main_arg1)))) (m ((c : Thread nD τ).loc main_arg3)) (m ((c : Thread nD τ).loc main_arg4)) (m ((c : Thread nD τ).loc main_arg5)) (m ((c : Thread nD τ).loc main_arg6))
    (shapeCast S1x256 (m ((c : Thread nD τ).loc main_arg4)) shapeCasts_S256_S1x256) (shapeCast S1x256 (m ((c : Thread nD τ).loc main_arg5)) shapeCasts_S256_S1x256) (shapeCast S1x256 (m ((c : Thread nD τ).loc main_arg6)) shapeCasts_S256_S1x256)
    (fun q => rowCast256 _ _ 0 q) (fun q => rowCast256 _ _ 0 q) (fun q => rowCast256 _ _ 0 q)
    eps_isReal eps_pos true
    ((dat0 (F := Ideal) (atTc (Wk1 m)) c).arrAt 4 cfg0.N) ((dat0 (F := Ideal) (atTc (Wk1 m)) c).arrAt 5 cfg0.N)
    ((dat0 (F := Ideal) (atTc (Wk1 m)) c).arrAt 6 cfg0.N) (Y1k m c) (L1r m c)
    (fun p q => by rw [final0_h (atTc (Wk1 m)) c p q, ex, ea, eW, eb]; rfl)
    (fun q => (final0_mean (atTc (Wk1 m)) c q).trans rfl)
    (fun q => by rw [final0_var (atTc (Wk1 m)) c q, final0_mean (atTc (Wk1 m)) c q]; rfl)
    (fun p q => by
      show (dat1 (F := Ideal) (atTc (Wk3 m)) c).arrAt 5 cfg1.N (ix2 p q) = _
      rw [final1 (atTc (Wk3 m)) c p q, eh, em, ev, eg, ebe, bnOut1_apply, act_true]; unfold Cert.Gin.norm; rfl)
    (fun p q => by
      unfold L1r
      rw [layer1_apply, ← agg64_eq])
    h0 (kAgg64_real _ _ _ h0) h3 h4 h5 h6

/-! ## Layer 2 -/

set_option maxHeartbeats 2000000 in
theorem layer2_bridge (hprev : Y1k m c = L1r m c) (hx : IsRealV (L1r m c))
    (hW : IsRealV (m ((c : Thread nD τ).loc main_arg7))) (hb : IsRealV (m ((c : Thread nD τ).loc main_arg8))) (hg : IsRealV (m ((c : Thread nD τ).loc main_arg9))) (hbe : IsRealV (m ((c : Thread nD τ).loc main_arg10))) :
    Y2k m c = L2r m c ∧ IsRealV (L2r m c) := by
  have ex : atTc (Wk5 m) c main_v18 = L1r m c := (Wk5_v18 m c).trans ((Wk4_v18 m c).trans hprev)
  have ea : atTc (Wk5 m) c main_v28 = kAgg256 (L1r m c) (kSrc (m ((c : Thread nD τ).loc main_arg1))) (kDst (m ((c : Thread nD τ).loc main_arg1))) := by
    have e := Wk5_v28 m c
    rw [Wk4_v18 m c, hprev] at e
    exact e
  have eW : atTc (Wk5 m) c main_arg7 = (m ((c : Thread nD τ).loc main_arg7)) := Wk5_arg7 m c
  have eb : atTc (Wk5 m) c main_v29 = (shapeCast S1x256 (m ((c : Thread nD τ).loc main_arg8)) shapeCasts_S256_S1x256) := Wk5_v29 m c
  have eh : atTc (Wk7 m) c main_v30_0 = (dat2 (F := Ideal) (atTc (Wk5 m)) c).arrAt 4 cfg2.N := (Wk7_v30_0 m c).trans (exit2_arr (Wk5 m) c 4)
  have em : atTc (Wk7 m) c main_v30_1 = (dat2 (F := Ideal) (atTc (Wk5 m)) c).arrAt 5 cfg2.N := (Wk7_v30_1 m c).trans (exit2_arr (Wk5 m) c 5)
  have ev : atTc (Wk7 m) c main_v30_2 = (dat2 (F := Ideal) (atTc (Wk5 m)) c).arrAt 6 cfg2.N := (Wk7_v30_2 m c).trans (exit2_arr (Wk5 m) c 6)
  have eg : atTc (Wk7 m) c main_v31 = (shapeCast S1x256 (m ((c : Thread nD τ).loc main_arg9)) shapeCasts_S256_S1x256) := Wk7_v31 m c
  have ebe : atTc (Wk7 m) c main_v32 = (shapeCast S1x256 (m ((c : Thread nD τ).loc main_arg10)) shapeCasts_S256_S1x256) := Wk7_v32 m c
  refine layer_arrays (K := 256) (L1r m c) (kAgg256 (L1r m c) (kSrc (m ((c : Thread nD τ).loc main_arg1))) (kDst (m ((c : Thread nD τ).loc main_arg1)))) (m ((c : Thread nD τ).loc main_arg7)) (m ((c : Thread nD τ).loc main_arg8)) (m ((c : Thread nD τ).loc main_arg9)) (m ((c : Thread nD τ).loc main_arg10))
    (shapeCast S1x256 (m ((c : Thread nD τ).loc main_arg8)) shapeCasts_S256_S1x256) (shapeCast S1x256 (m ((c : Thread nD τ).loc main_arg9)) shapeCasts_S256_S1x256) (shapeCast S1x256 (m ((c : Thread nD τ).loc main_arg10)) shapeCasts_S256_S1x256)
    (fun q => rowCast256 _ _ 0 q) (fun q => rowCast256 _ _ 0 q) (fun q => rowCast256 _ _ 0 q)
    eps_isReal eps_pos true
    ((dat2 (F := Ideal) (atTc (Wk5 m)) c).arrAt 4 cfg2.N) ((dat2 (F := Ideal) (atTc (Wk5 m)) c).arrAt 5 cfg2.N)
    ((dat2 (F := Ideal) (atTc (Wk5 m)) c).arrAt 6 cfg2.N) (Y2k m c) (L2r m c)
    (fun p q => by rw [final2_h (atTc (Wk5 m)) c p q, ex, ea, eW, eb]; rfl)
    (fun q => (final2_mean (atTc (Wk5 m)) c q).trans rfl)
    (fun q => by rw [final2_var (atTc (Wk5 m)) c q, final2_mean (atTc (Wk5 m)) c q]; rfl)
    (fun p q => by
      show (dat3 (F := Ideal) (atTc (Wk7 m)) c).arrAt 5 cfg3.N (ix2 p q) = _
      rw [final3 (atTc (Wk7 m)) c p q, eh, em, ev, eg, ebe, bnOut3_apply, act_true]; unfold Cert.Gin.norm; rfl)
    (fun p q => by
      unfold L2r
      rw [layer2_apply, ← agg256_eq])
    hx (kAgg256_real _ _ _ hx) hW hb hg hbe

/-! ## Layer 3 -/

set_option maxHeartbeats 2000000 in
theorem layer3_bridge (hprev : Y2k m c = L2r m c) (hx : IsRealV (L2r m c))
    (hW : IsRealV (m ((c : Thread nD τ).loc main_arg11))) (hb : IsRealV (m ((c : Thread nD τ).loc main_arg12))) (hg : IsRealV (m ((c : Thread nD τ).loc main_arg13))) (hbe : IsRealV (m ((c : Thread nD τ).loc main_arg14))) :
    Y3k m c = L3r m c ∧ IsRealV (L3r m c) := by
  have ex : atTc (Wk9 m) c main_v33 = L2r m c := (Wk9_v33 m c).trans ((Wk8_v33 m c).trans hprev)
  have ea : atTc (Wk9 m) c main_v43 = kAgg256 (L2r m c) (kSrc (m ((c : Thread nD τ).loc main_arg1))) (kDst (m ((c : Thread nD τ).loc main_arg1))) := by
    have e := Wk9_v43 m c
    rw [Wk8_v33 m c, hprev] at e
    exact e
  have eW : atTc (Wk9 m) c main_arg11 = (m ((c : Thread nD τ).loc main_arg11)) := Wk9_arg11 m c
  have eb : atTc (Wk9 m) c main_v44 = (shapeCast S1x256 (m ((c : Thread nD τ).loc main_arg12)) shapeCasts_S256_S1x256) := Wk9_v44 m c
  have eh : atTc (Wk11 m) c main_v45_0 = (dat4 (F := Ideal) (atTc (Wk9 m)) c).arrAt 4 cfg4.N := (Wk11_v45_0 m c).trans (exit4_arr (Wk9 m) c 4)
  have em : atTc (Wk11 m) c main_v45_1 = (dat4 (F := Ideal) (atTc (Wk9 m)) c).arrAt 5 cfg4.N := (Wk11_v45_1 m c).trans (exit4_arr (Wk9 m) c 5)
  have ev : atTc (Wk11 m) c main_v45_2 = (dat4 (F := Ideal) (atTc (Wk9 m)) c).arrAt 6 cfg4.N := (Wk11_v45_2 m c).trans (exit4_arr (Wk9 m) c 6)
  have eg : atTc (Wk11 m) c main_v46 = (shapeCast S1x256 (m ((c : Thread nD τ).loc main_arg13)) shapeCasts_S256_S1x256) := Wk11_v46 m c
  have ebe : atTc (Wk11 m) c main_v47 = (shapeCast S1x256 (m ((c : Thread nD τ).loc main_arg14)) shapeCasts_S256_S1x256) := Wk11_v47 m c
  refine layer_arrays (K := 256) (L2r m c) (kAgg256 (L2r m c) (kSrc (m ((c : Thread nD τ).loc main_arg1))) (kDst (m ((c : Thread nD τ).loc main_arg1)))) (m ((c : Thread nD τ).loc main_arg11)) (m ((c : Thread nD τ).loc main_arg12)) (m ((c : Thread nD τ).loc main_arg13)) (m ((c : Thread nD τ).loc main_arg14))
    (shapeCast S1x256 (m ((c : Thread nD τ).loc main_arg12)) shapeCasts_S256_S1x256) (shapeCast S1x256 (m ((c : Thread nD τ).loc main_arg13)) shapeCasts_S256_S1x256) (shapeCast S1x256 (m ((c : Thread nD τ).loc main_arg14)) shapeCasts_S256_S1x256)
    (fun q => rowCast256 _ _ 0 q) (fun q => rowCast256 _ _ 0 q) (fun q => rowCast256 _ _ 0 q)
    eps_isReal eps_pos false
    ((dat4 (F := Ideal) (atTc (Wk9 m)) c).arrAt 4 cfg4.N) ((dat4 (F := Ideal) (atTc (Wk9 m)) c).arrAt 5 cfg4.N)
    ((dat4 (F := Ideal) (atTc (Wk9 m)) c).arrAt 6 cfg4.N) (Y3k m c) (L3r m c)
    (fun p q => by rw [final4_h (atTc (Wk9 m)) c p q, ex, ea, eW, eb]; rfl)
    (fun q => (final4_mean (atTc (Wk9 m)) c q).trans rfl)
    (fun q => by rw [final4_var (atTc (Wk9 m)) c q, final4_mean (atTc (Wk9 m)) c q]; rfl)
    (fun p q => by
      show (dat5 (F := Ideal) (atTc (Wk11 m)) c).arrAt 5 cfg5.N (ix2 p q) = _
      rw [final5 (atTc (Wk11 m)) c p q, eh, em, ev, eg, ebe, bnOut5_apply, act_false]; unfold Cert.Gin.norm; rfl)
    (fun p q => by
      unfold L3r
      rw [layer3_apply, ← agg256_eq])
    hx (kAgg256_real _ _ _ hx) hW hb hg hbe

/-! ## The head and the pooling -/

/-- The node scores the head region leaves are the reference's, given the third layer's outputs agree. -/
theorem scores_bridge (hprev : Y3k m c = L3r m c) :
    ((dat6 (F := Ideal) (atTc (Wk13 m)) c).arrAt 5 cfg6.N : FVec Ideal S50000x1 .f32)
      = headScore (F := Ideal) (L3r m c) (m ((c : Thread nD τ).loc main_arg15)) (m ((c : Thread nD τ).loc main_arg16)) (m ((c : Thread nD τ).loc main_arg17)) (m ((c : Thread nD τ).loc main_arg18)) := by
  have ex : atTc (Wk13 m) c main_v48 = L3r m c := (Wk13_v48 m c).trans ((Wk12_v48 m c).trans hprev)
  have e1 : atTc (Wk13 m) c main_arg15 = (m ((c : Thread nD τ).loc main_arg15)) := Wk13_arg15 m c
  have e2 : atTc (Wk13 m) c main_v49 = shapeCast S1x128 (m ((c : Thread nD τ).loc main_arg16)) shapeCasts_S128_S1x128 := Wk13_v49 m c
  have e3 : atTc (Wk13 m) c main_arg17 = (m ((c : Thread nD τ).loc main_arg17)) := Wk13_arg17 m c
  have e4 : atTc (Wk13 m) c main_v50 = shapeCast S1x1 (m ((c : Thread nD τ).loc main_arg18)) shapeCasts_S1_S1x1 := Wk13_v50 m c
  rw [final6_fun (atTc (Wk13 m)) c]
  unfold G6
  rw [ex, e1, e2, e3, e4]
  exact head_agree_fun _ _ _ _ _

/-- THE RESULT: on real arguments the idealized kernel's result array is the reference's function of the arguments. -/
theorem value_eq
    (h0 : IsRealV (m ((c : Thread nD τ).loc main_arg0))) (h3 : IsRealV (m ((c : Thread nD τ).loc main_arg3))) (h4 : IsRealV (m ((c : Thread nD τ).loc main_arg4))) (h5 : IsRealV (m ((c : Thread nD τ).loc main_arg5))) (h6 : IsRealV (m ((c : Thread nD τ).loc main_arg6)))
    (h7 : IsRealV (m ((c : Thread nD τ).loc main_arg7))) (h8 : IsRealV (m ((c : Thread nD τ).loc main_arg8))) (h9 : IsRealV (m ((c : Thread nD τ).loc main_arg9))) (h10 : IsRealV (m ((c : Thread nD τ).loc main_arg10)))
    (h11 : IsRealV (m ((c : Thread nD τ).loc main_arg11))) (h12 : IsRealV (m ((c : Thread nD τ).loc main_arg12))) (h13 : IsRealV (m ((c : Thread nD τ).loc main_arg13))) (h14 : IsRealV (m ((c : Thread nD τ).loc main_arg14))) :
    (Wk15 m c (Proc.devRef .tc main_v61) : FVec Ideal S64x1 .f32)
      = refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  obtain ⟨e1, r1⟩ := layer1_bridge m c h0 h3 h4 h5 h6
  obtain ⟨e2, r2⟩ := layer2_bridge m c e1 r1 h7 h8 h9 h10
  obtain ⟨e3, -⟩ := layer3_bridge m c e2 r2 h11 h12 h13 h14
  have es : (Wk14 m c (Proc.devRef .tc main_v51) : FVec Ideal S50000x1 .f32)
      = headScore (F := Ideal) (L3r m c) (m ((c : Thread nD τ).loc main_arg15)) (m ((c : Thread nD τ).loc main_arg16)) (m ((c : Thread nD τ).loc main_arg17)) (m ((c : Thread nD τ).loc main_arg18)) :=
    (exit6_arr (Wk13 m) c 5).trans (scores_bridge m c e3)
  rw [Wk15_v61, es, pool_eq]
  rfl

end Cert.KernelIdeal.Hand

end
-- ==== Proof.lean ====
/- The claim's five conjuncts. The two kernel programs' frames come from their runs as fifteen segments (eight stretches of
   host operations, seven kernel regions), each region's record resting on its body's run at every grid point — the three
   linear regions carry the running column sum and sum of squares in two scratch rows through three cases of the grid
   coordinate. The six rewrites of the idealization each name the reciprocal of the row count, 1/50000, the rational the
   source spells. The reference's frame is its run with the result dropped. For the value claim the kernel's result is
   read back through the fifteen segments and shown, layer by layer, to be the reference's function of the arguments:
   the only law that is not regrouping is that the mean of squares less the squared mean is the mean squared deviation,
   which holds on real data — and the precondition makes every float argument real, sums of reals are real, and each
   normalised layer is real again because its variance is not negative and the added constant is positive. -/
import proofs.«144698_j9466107920964_1_alg».proof.Defs
import proofs.«144698_j9466107920964_1_alg».proof.Proof.Gen.Kernel
import proofs.«144698_j9466107920964_1_alg».proof.Proof.Gen.KernelIdeal
import proofs.«144698_j9466107920964_1_alg».proof.Proof.Gen.ReferenceIdeal
import proofs.«144698_j9466107920964_1_alg».proof.Proof.Gen.Pre_finite_inputs
import proofs.«144698_j9466107920964_1_alg».proof.Proof.Frames
import proofs.«144698_j9466107920964_1_alg».proof.Proof.KFrames
import proofs.«144698_j9466107920964_1_alg».proof.Proof.RefFrame
import proofs.«144698_j9466107920964_1_alg».proof.Proof.PreReal
import proofs.«144698_j9466107920964_1_alg».proof.Proof.Bridge
import Idealize.ShloMosaic.Adequacy
import Idealize.ShloMosaic.Init

noncomputable section

namespace Cert.Proof

open Idealize.ShloMosaic Idealize.ShloMosaic.TcCoe Idealize.SL.Sem
open Cert.KernelIdeal.Hand

theorem frame_k : Cert.frame_Kernel (hKernel := Cert.Kernel.Gen.facts) (hPre_finite_inputs := Cert.Pre_finite_inputs.Gen.facts) :=
  fun m ρ _ => Cert.Kernel.Hand.frame_run (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame_run (F := Ideal) m ρ

/-- Each of the six named constants is the reciprocal of the row count, by the certificate's table. -/
theorem preserves : Cert.preserves_Kernel_KernelIdeal :=
  ⟨IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl⟩

/-- Under the precondition the kernel's result array is the reference's function of the argument arrays. -/
theorem value_of_pre (m : (ℓ : Loc Cert.KernelIdeal.nD Cert.KernelIdeal.τ Cert.KernelIdeal.sig) → Buf (Elt Ideal) ℓ)
    (c : Dev Cert.KernelIdeal.nD)
    (hpre : Cert.Pre_KernelIdeal (hPre_finite_inputs := Cert.Pre_finite_inputs.Gen.facts) m) :
    (Wk15 m c (Proc.devRef .tc Cert.KernelIdeal.main_v61) : FVec Ideal Cert.KernelIdeal.S64x1 .f32)
      = Cert.ReferenceIdeal.RefRun.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) := by
  obtain ⟨h0, h3, h4, h5, h6, h7, h8, h9, h10, h11, h12, h13, h14, -⟩ :=
    Cert.Gin.pre_real _ _ _ _ _ _ _ _ _ _ _ _ _ _ _ _ _ _ _ (hpre c)
  exact Cert.KernelIdeal.Hand.value_eq m c h0 h3 h4 h5 h6 h7 h8 h9 h10 h11 h12 h13 h14

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Wk15 m c (Proc.devRef .tc Cert.KernelIdeal.main_v61), ?_, ?_⟩
  · exact (θ_run Cert.KernelIdeal.defs _ _).mono (fun r h c => ⟨h c _ (mem_uc Cert.KernelIdeal.main_v61 (by decide)),
      (h c _ (mem_uc Cert.KernelIdeal.main_arg0 (by decide))).trans (Wk15_main_arg0 m c),
      (h c _ (mem_uc Cert.KernelIdeal.main_arg1 (by decide))).trans (Wk15_main_arg1 m c),
      (h c _ (mem_uc Cert.KernelIdeal.main_arg2 (by decide))).trans (Wk15_main_arg2 m c),
      (h c _ (mem_uc Cert.KernelIdeal.main_arg3 (by decide))).trans (Wk15_main_arg3 m c),
      (h c _ (mem_uc Cert.KernelIdeal.main_arg4 (by decide))).trans (Wk15_main_arg4 m c),
      (h c _ (mem_uc Cert.KernelIdeal.main_arg5 (by decide))).trans (Wk15_main_arg5 m c),
      (h c _ (mem_uc Cert.KernelIdeal.main_arg6 (by decide))).trans (Wk15_main_arg6 m c),
      (h c _ (mem_uc Cert.KernelIdeal.main_arg7 (by decide))).trans (Wk15_main_arg7 m c),
      (h c _ (mem_uc Cert.KernelIdeal.main_arg8 (by decide))).trans (Wk15_main_arg8 m c),
      (h c _ (mem_uc Cert.KernelIdeal.main_arg9 (by decide))).trans (Wk15_main_arg9 m c),
      (h c _ (mem_uc Cert.KernelIdeal.main_arg10 (by decide))).trans (Wk15_main_arg10 m c),
      (h c _ (mem_uc Cert.KernelIdeal.main_arg11 (by decide))).trans (Wk15_main_arg11 m c),
      (h c _ (mem_uc Cert.KernelIdeal.main_arg12 (by decide))).trans (Wk15_main_arg12 m c),
      (h c _ (mem_uc Cert.KernelIdeal.main_arg13 (by decide))).trans (Wk15_main_arg13 m c),
      (h c _ (mem_uc Cert.KernelIdeal.main_arg14 (by decide))).trans (Wk15_main_arg14 m c),
      (h c _ (mem_uc Cert.KernelIdeal.main_arg15 (by decide))).trans (Wk15_main_arg15 m c),
      (h c _ (mem_uc Cert.KernelIdeal.main_arg16 (by decide))).trans (Wk15_main_arg16 m c),
      (h c _ (mem_uc Cert.KernelIdeal.main_arg17 (by decide))).trans (Wk15_main_arg17 m c),
      (h c _ (mem_uc Cert.KernelIdeal.main_arg18 (by decide))).trans (Wk15_main_arg18 m c)⟩)
      (run_main (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]
    exact (value_of_pre m c hpre).symm

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame_ri, preserves, algebraic⟩

end Cert.Proof

end
